-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  IdealRules.named_const.Statement Cert.KernelIdeal.κ "inv_3" .f32 0x3EAAAAAB#32 ((1 / 3 : ℝ) : EReal)
  ∧ IdealRules.named_const.Statement Cert.KernelIdeal.κ "inv_3" .f32 0x3EAAAAAB#32 ((1 / 3 : ℝ) : EReal)
  ∧ IdealRules.named_const.Statement Cert.KernelIdeal.κ "inv_3" .f32 0x3EAAAAAB#32 ((1 / 3 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v200)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v200) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v450) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S3x2x500000 : Shape := ⟨3, ![3, 2, 500000]⟩
abbrev S3x128x128 : Shape := ⟨3, ![3, 128, 128]⟩
abbrev S3x128 : Shape := ⟨2, ![3, 128]⟩
abbrev S2x3x128x128 : Shape := ⟨4, ![2, 3, 128, 128]⟩
abbrev S2x3x128 : Shape := ⟨3, ![2, 3, 128]⟩
abbrev S2x128 : Shape := ⟨2, ![2, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S2x3x128x128 : S_.BroadcastsInDim S2x3x128x128 (![] : Fin 0 → Fin S2x3x128x128.rank)
  reducesTo_S2x3x128x128_S_d0_1_2_3 : S2x3x128x128.ReducesTo [0, 1, 2, 3] S_
  bcast_S_S2x3x128 : S_.BroadcastsInDim S2x3x128 (![] : Fin 0 → Fin S2x3x128.rank)
  reducesTo_S2x3x128_S_d0_1_2 : S2x3x128.ReducesTo [0, 1, 2] S_
  bcast_S_S2x128 : S_.BroadcastsInDim S2x128 (![] : Fin 0 → Fin S2x128.rank)
  reducesTo_S2x128_S_d0_1 : S2x128.ReducesTo [0, 1] S_

variable [Facts]

def fn_part3 {F : FTy → Type} [FloatOps F] (main_v48 : IVec S_ 1) (main_v49 : FVec F S2x128 .f32) (main_v50 : FVec F S2x128 .f32) : IVec S_ 1 :=
  let main_v51 : IVec S2x128 1 := cmpf .olt main_v49 main_v50
  let main_c_19 : IVec S_ 1 := constantI S_ 1 1#1
  let main_v52 : IVec S_ 1 := (fun x v => Host.reduce IntOp.andi x v reducesTo_S2x128_S_d0_1 h_S_) main_v51 main_c_19
  let main_v53 : IVec S_ 1 := andi main_v48 main_v52
  main_v53

def fn_part2 {F : FTy → Type} [FloatOps F] (main_arg8 : FVec F S2x3x128 .f32) (main_arg9 : FVec F S2x3x128x128 .f32) (main_arg10 : FVec F S2x128 .f32) (main_arg11 : FVec F S2x128 .f32) (main_v33 : IVec S_ 1) : IVec S_ 1 :=
  let main_v34 : FVec F S2x3x128 .f32 := Host.absf main_arg8
  let main_cst_12 : FVec F S_ .f32 := constant S_ .f32 0x7F800000#32
  let main_v35 : FVec F S2x3x128 .f32 := broadcastInDim S2x3x128 ![] bcast_S_S2x3x128 main_cst_12
  let main_v36 : IVec S2x3x128 1 := cmpf .olt main_v34 main_v35
  let main_c_13 : IVec S_ 1 := constantI S_ 1 1#1
  let main_v37 : IVec S_ 1 := (fun x v => Host.reduce IntOp.andi x v reducesTo_S2x3x128_S_d0_1_2 h_S_) main_v36 main_c_13
  let main_v38 : IVec S_ 1 := andi main_v33 main_v37
  let main_v39 : FVec F S2x3x128x128 .f32 := Host.absf main_arg9
  let main_cst_14 : FVec F S_ .f32 := constant S_ .f32 0x7F800000#32
  let main_v40 : FVec F S2x3x128x128 .f32 := broadcastInDim S2x3x128x128 ![] bcast_S_S2x3x128x128 main_cst_14
  let main_v41 : IVec S2x3x128x128 1 := cmpf .olt main_v39 main_v40
  let main_c_15 : IVec S_ 1 := constantI S_ 1 1#1
  let main_v42 : IVec S_ 1 := (fun x v => Host.reduce IntOp.andi x v reducesTo_S2x3x128x128_S_d0_1_2_3 h_S_) main_v41 main_c_15
  let main_v43 : IVec S_ 1 := andi main_v38 main_v42
  let main_v44 : FVec F S2x128 .f32 := Host.absf main_arg10
  let main_cst_16 : FVec F S_ .f32 := constant S_ .f32 0x7F800000#32
  let main_v45 : FVec F S2x128 .f32 := broadcastInDim S2x128 ![] bcast_S_S2x128 main_cst_16
  let main_v46 : IVec S2x128 1 := cmpf .olt main_v44 main_v45
  let main_c_17 : IVec S_ 1 := constantI S_ 1 1#1
  let main_v47 : IVec S_ 1 := (fun x v => Host.reduce IntOp.andi x v reducesTo_S2x128_S_d0_1 h_S_) main_v46 main_c_17
  let main_v48 : IVec S_ 1 := andi main_v43 main_v47
  let main_v49 : FVec F S2x128 .f32 := Host.absf main_arg11
  let main_cst_18 : FVec F S_ .f32 := constant S_ .f32 0x7F800000#32
  let main_v50 : FVec F S2x128 .f32 := broadcastInDim S2x128 ![] bcast_S_S2x128 main_cst_18
  fn_part3 (F := F) main_v48 main_v49 main_v50

def fn_part1 {F : FTy → Type} [FloatOps F] (main_arg5 : FVec F S3x128 .f32) (main_arg6 : FVec F S3x128x128 .f32) (main_arg7 : FVec F S2x3x128x128 .f32) (main_arg8 : FVec F S2x3x128 .f32) (main_arg9 : FVec F S2x3x128x128 .f32) (main_arg10 : FVec F S2x128 .f32) (main_arg11 : FVec F S2x128 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128 .f32 := Host.absf main_arg5
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S3x128x128 .f32 := Host.absf main_arg6
  let main_cst_8 : FVec F S_ .f32 := constant S_ .f32 0x7F800000#32
  let main_v25 : FVec F S3x128x128 .f32 := broadcastInDim S3x128x128 ![] bcast_S_S3x128x128 main_cst_8
  let main_v26 : IVec S3x128x128 1 := cmpf .olt main_v24 main_v25
  let main_c_9 : IVec S_ 1 := constantI S_ 1 1#1
  let main_v27 : IVec S_ 1 := (fun x v => Host.reduce IntOp.andi x v reducesTo_S3x128x128_S_d0_1_2 h_S_) main_v26 main_c_9
  let main_v28 : IVec S_ 1 := andi main_v23 main_v27
  let main_v29 : FVec F S2x3x128x128 .f32 := Host.absf main_arg7
  let main_cst_10 : FVec F S_ .f32 := constant S_ .f32 0x7F800000#32
  let main_v30 : FVec F S2x3x128x128 .f32 := broadcastInDim S2x3x128x128 ![] bcast_S_S2x3x128x128 main_cst_10
  let main_v31 : IVec S2x3x128x128 1 := cmpf .olt main_v29 main_v30
  let main_c_11 : IVec S_ 1 := constantI S_ 1 1#1
  let main_v32 : IVec S_ 1 := (fun x v => Host.reduce IntOp.andi x v reducesTo_S2x3x128x128_S_d0_1_2_3 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x128 .f32) (main_arg1 : IVec S3x2x500000 32) (main_arg2 : FVec F S3x128x128 .f32) (main_arg3 : FVec F S3x128 .f32) (main_arg4 : FVec F S3x128x128 .f32) (main_arg5 : FVec F S3x128 .f32) (main_arg6 : FVec F S3x128x128 .f32) (main_arg7 : FVec F S2x3x128x128 .f32) (main_arg8 : FVec F S2x3x128 .f32) (main_arg9 : FVec F S2x3x128x128 .f32) (main_arg10 : FVec F S2x128 .f32) (main_arg11 : FVec F S2x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3x128x128 .f32 := Host.absf main_arg2
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg3
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128x128 .f32 := Host.absf main_arg4
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg5 main_arg6 main_arg7 main_arg8 main_arg9 main_arg10 main_arg11 main_v13 main_v16
-- ==== Kernel.lean ====
abbrev S100000x128 : Shape := ⟨2, ![100000, 128]⟩
abbrev S3x2x500000 : Shape := ⟨3, ![3, 2, 500000]⟩
abbrev S3x128x128 : Shape := ⟨3, ![3, 128, 128]⟩
abbrev S3x128 : Shape := ⟨2, ![3, 128]⟩
abbrev S2x3x128x128 : Shape := ⟨4, ![2, 3, 128, 128]⟩
abbrev S2x3x128 : Shape := ⟨3, ![2, 3, 128]⟩
abbrev S2x128 : Shape := ⟨2, ![2, 128]⟩
abbrev S_ : Shape := ⟨0, ![]⟩
abbrev S500000 : Shape := ⟨1, ![500000]⟩
abbrev S1x1x500000 : Shape := ⟨3, ![1, 1, 500000]⟩
abbrev S100000 : Shape := ⟨1, ![100000]⟩
abbrev S500000x1 : Shape := ⟨2, ![500000, 1]⟩
abbrev S100000x1 : Shape := ⟨2, ![100000, 1]⟩
abbrev S100000x3 : Shape := ⟨2, ![100000, 3]⟩
abbrev S3x100000x128 : Shape := ⟨3, ![3, 100000, 128]⟩
abbrev S4000x128 : Shape := ⟨2, ![4000, 128]⟩
abbrev S3x4000x128 : Shape := ⟨3, ![3, 4000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S1x4000x128 : Shape := ⟨3, ![1, 4000, 128]⟩
abbrev S1x100000x128 : Shape := ⟨3, ![1, 100000, 128]⟩
abbrev S500000x128 : Shape := ⟨2, ![500000, 128]⟩
abbrev S4000x3 : Shape := ⟨2, ![4000, 3]⟩
abbrev S4000x1 : Shape := ⟨2, ![4000, 1]⟩
abbrev S4000 : Shape := ⟨1, ![4000]⟩
abbrev S1x3x128x128 : Shape := ⟨4, ![1, 3, 128, 128]⟩
abbrev S1x3x128 : Shape := ⟨3, ![1, 3, 128]⟩

abbrev nBuf : Space → Nat
  | .hbm => 252
  | .vmem => 57
  | .smem => 0
  | _ => 0

abbrev hbmTy0_0 (i : Nat) : BufTy := match i % 128 with
  | 0 => ⟨S100000x128, .f32⟩
  | 1 => ⟨S3x2x500000, .i32⟩
  | 2 => ⟨S3x128x128, .f32⟩
  | 3 => ⟨S3x128, .f32⟩
  | 4 => ⟨S3x128x128, .f32⟩
  | 5 => ⟨S3x128, .f32⟩
  | 6 => ⟨S3x128x128, .f32⟩
  | 7 => ⟨S2x3x128x128, .f32⟩
  | 8 => ⟨S2x3x128, .f32⟩
  | 9 => ⟨S2x3x128x128, .f32⟩
  | 10 => ⟨S2x128, .f32⟩
  | 11 => ⟨S2x128, .f32⟩
  | 12 => ⟨S_, .f32⟩
  | 13 => ⟨S500000, .f32⟩
  | 14 => ⟨S1x1x500000, .i32⟩
  | 15 => ⟨S500000, .i32⟩
  | 16 => ⟨S_, .f32⟩
  | 17 => ⟨S100000, .f32⟩
  | 18 => ⟨S500000x1, .i32⟩
  | 19 => ⟨S100000, .f32⟩
  | 20 => ⟨S_, .f32⟩
  | 21 => ⟨S100000, .f32⟩
  | 22 => ⟨S100000, .f32⟩
  | 23 => ⟨S_, .f32⟩
  | 24 => ⟨S100000, .f32⟩
  | 25 => ⟨S100000, .f32⟩
  | 26 => ⟨S1x1x500000, .i32⟩
  | 27 => ⟨S500000, .i32⟩
  | 28 => ⟨S_, .f32⟩
  | 29 => ⟨S100000, .f32⟩
  | 30 => ⟨S500000x1, .i32⟩
  | 31 => ⟨S100000, .f32⟩
  | 32 => ⟨S_, .f32⟩
  | 33 => ⟨S100000, .f32⟩
  | 34 => ⟨S100000, .f32⟩
  | 35 => ⟨S_, .f32⟩
  | 36 => ⟨S100000, .f32⟩
  | 37 => ⟨S100000, .f32⟩
  | 38 => ⟨S1x1x500000, .i32⟩
  | 39 => ⟨S500000, .i32⟩
  | 40 => ⟨S_, .f32⟩
  | 41 => ⟨S100000, .f32⟩
  | 42 => ⟨S500000x1, .i32⟩
  | 43 => ⟨S100000, .f32⟩
  | 44 => ⟨S_, .f32⟩
  | 45 => ⟨S100000, .f32⟩
  | 46 => ⟨S100000, .f32⟩
  | 47 => ⟨S_, .f32⟩
  | 48 => ⟨S100000, .f32⟩
  | 49 => ⟨S100000, .f32⟩
  | 50 => ⟨S100000x1, .f32⟩
  | 51 => ⟨S100000x1, .f32⟩
  | 52 => ⟨S100000x1, .f32⟩
  | 53 => ⟨S100000x3, .f32⟩
  | 54 => ⟨S3x100000x128, .bf16⟩
  | 55 => ⟨S1x1x500000, .i32⟩
  | 56 => ⟨S500000, .i32⟩
  | 57 => ⟨S1x1x500000, .i32⟩
  | 58 => ⟨S500000, .i32⟩
  | 59 => ⟨S1x100000x128, .bf16⟩
  | 60 => ⟨S100000x128, .bf16⟩
  | 61 => ⟨S_, .i32⟩
  | 62 => ⟨S500000, .i32⟩
  | 63 => ⟨S500000, .i1⟩
  | 64 => ⟨S_, .i32⟩
  | 65 => ⟨S500000, .i32⟩
  | 66 => ⟨S500000, .i32⟩
  | 67 => ⟨S500000, .i32⟩
  | 68 => ⟨S500000x1, .i32⟩
  | 69 => ⟨S500000x128, .bf16⟩
  | 70 => ⟨S500000x128, .f32⟩
  | 71 => ⟨S_, .f32⟩
  | 72 => ⟨S100000x128, .f32⟩
  | 73 => ⟨S500000x1, .i32⟩
  | 74 => ⟨S100000x128, .f32⟩
  | 75 => ⟨S1x1x500000, .i32⟩
  | 76 => ⟨S500000, .i32⟩
  | 77 => ⟨S1x1x500000, .i32⟩
  | 78 => ⟨S500000, .i32⟩
  | 79 => ⟨S1x100000x128, .bf16⟩
  | 80 => ⟨S100000x128, .bf16⟩
  | 81 => ⟨S_, .i32⟩
  | 82 => ⟨S500000, .i32⟩
  | 83 => ⟨S500000, .i1⟩
  | 84 => ⟨S_, .i32⟩
  | 85 => ⟨S500000, .i32⟩
  | 86 => ⟨S500000, .i32⟩
  | 87 => ⟨S500000, .i32⟩
  | 88 => ⟨S500000x1, .i32⟩
  | 89 => ⟨S500000x128, .bf16⟩
  | 90 => ⟨S500000x128, .f32⟩
  | 91 => ⟨S_, .f32⟩
  | 92 => ⟨S100000x128, .f32⟩
  | 93 => ⟨S500000x1, .i32⟩
  | 94 => ⟨S100000x128, .f32⟩
  | 95 => ⟨S1x1x500000, .i32⟩
  | 96 => ⟨S500000, .i32⟩
  | 97 => ⟨S1x1x500000, .i32⟩
  | 98 => ⟨S500000, .i32⟩
  | 99 => ⟨S1x100000x128, .bf16⟩
  | 100 => ⟨S100000x128, .bf16⟩
  | 101 => ⟨S_, .i32⟩
  | 102 => ⟨S500000, .i32⟩
  | 103 => ⟨S500000, .i1⟩
  | 104 => ⟨S_, .i32⟩
  | 105 => ⟨S500000, .i32⟩
  | 106 => ⟨S500000, .i32⟩
  | 107 => ⟨S500000, .i32⟩
  | 108 => ⟨S500000x1, .i32⟩
  | 109 => ⟨S500000x128, .bf16⟩
  | 110 => ⟨S500000x128, .f32⟩
  | 111 => ⟨S_, .f32⟩
  | 112 => ⟨S100000x128, .f32⟩
  | 113 => ⟨S500000x1, .i32⟩
  | 114 => ⟨S100000x128, .f32⟩
  | 115 => ⟨S1x128, .f32⟩
  | 116 => ⟨S128, .f32⟩
  | 117 => ⟨S1x128, .f32⟩
  | 118 => ⟨S128, .f32⟩
  | 119 => ⟨S100000x128, .f32⟩
  | 120 => ⟨S_, .f32⟩
  | 121 => ⟨S128, .f32⟩
  | 122 => ⟨S_, .f32⟩
  | 123 => ⟨S128, .f32⟩
  | 124 => ⟨S100000x128, .bf16⟩
  | 125 => ⟨S1x1x500000, .i32⟩
  | 126 => ⟨S500000, .i32⟩
  | 127 => ⟨S1x1x500000, .i32⟩
  | _ => ⟨S100000x128, .f32⟩

abbrev hbmTy0_1 (i : Nat) : BufTy := match i % 128 with
  | 0 => ⟨S500000, .i32⟩
  | 1 => ⟨S_, .i32⟩
  | 2 => ⟨S500000, .i32⟩
  | 3 => ⟨S500000, .i1⟩
  | 4 => ⟨S_, .i32⟩
  | 5 => ⟨S500000, .i32⟩
  | 6 => ⟨S500000, .i32⟩
  | 7 => ⟨S500000, .i32⟩
  | 8 => ⟨S500000x1, .i32⟩
  | 9 => ⟨S500000x128, .bf16⟩
  | 10 => ⟨S500000x128, .f32⟩
  | 11 => ⟨S_, .f32⟩
  | 12 => ⟨S100000x128, .f32⟩
  | 13 => ⟨S500000x1, .i32⟩
  | 14 => ⟨S100000x128, .f32⟩
  | 15 => ⟨S1x1x500000, .i32⟩
  | 16 => ⟨S500000, .i32⟩
  | 17 => ⟨S1x1x500000, .i32⟩
  | 18 => ⟨S500000, .i32⟩
  | 19 => ⟨S_, .i32⟩
  | 20 => ⟨S500000, .i32⟩
  | 21 => ⟨S500000, .i1⟩
  | 22 => ⟨S_, .i32⟩
  | 23 => ⟨S500000, .i32⟩
  | 24 => ⟨S500000, .i32⟩
  | 25 => ⟨S500000, .i32⟩
  | 26 => ⟨S500000x1, .i32⟩
  | 27 => ⟨S500000x128, .bf16⟩
  | 28 => ⟨S500000x128, .f32⟩
  | 29 => ⟨S_, .f32⟩
  | 30 => ⟨S100000x128, .f32⟩
  | 31 => ⟨S500000x1, .i32⟩
  | 32 => ⟨S100000x128, .f32⟩
  | 33 => ⟨S1x1x500000, .i32⟩
  | 34 => ⟨S500000, .i32⟩
  | 35 => ⟨S1x1x500000, .i32⟩
  | 36 => ⟨S500000, .i32⟩
  | 37 => ⟨S_, .i32⟩
  | 38 => ⟨S500000, .i32⟩
  | 39 => ⟨S500000, .i1⟩
  | 40 => ⟨S_, .i32⟩
  | 41 => ⟨S500000, .i32⟩
  | 42 => ⟨S500000, .i32⟩
  | 43 => ⟨S500000, .i32⟩
  | 44 => ⟨S500000x1, .i32⟩
  | 45 => ⟨S500000x128, .bf16⟩
  | 46 => ⟨S500000x128, .f32⟩
  | 47 => ⟨S_, .f32⟩
  | 48 => ⟨S100000x128, .f32⟩
  | 49 => ⟨S500000x1, .i32⟩
  | 50 => ⟨S100000x128, .f32⟩
  | 51 => ⟨S1x128, .f32⟩
  | 52 => ⟨S128, .f32⟩
  | 53 => ⟨S1x128, .f32⟩
  | 54 => ⟨S128, .f32⟩
  | 55 => ⟨S1x3x128x128, .f32⟩
  | 56 => ⟨S3x128x128, .f32⟩
  | 57 => ⟨S1x3x128, .f32⟩
  | 58 => ⟨S3x128, .f32⟩
  | 59 => ⟨S1x3x128x128, .f32⟩
  | 60 => ⟨S3x128x128, .f32⟩
  | 61 => ⟨S100000x128, .f32⟩
  | 62 => ⟨S100000x128, .bf16⟩
  | 63 => ⟨S1x1x500000, .i32⟩
  | 64 => ⟨S500000, .i32⟩
  | 65 => ⟨S1x1x500000, .i32⟩
  | 66 => ⟨S500000, .i32⟩
  | 67 => ⟨S_, .i32⟩
  | 68 => ⟨S500000, .i32⟩
  | 69 => ⟨S500000, .i1⟩
  | 70 => ⟨S_, .i32⟩
  | 71 => ⟨S500000, .i32⟩
  | 72 => ⟨S500000, .i32⟩
  | 73 => ⟨S500000, .i32⟩
  | 74 => ⟨S500000x1, .i32⟩
  | 75 => ⟨S500000x128, .bf16⟩
  | 76 => ⟨S500000x128, .f32⟩
  | 77 => ⟨S_, .f32⟩
  | 78 => ⟨S100000x128, .f32⟩
  | 79 => ⟨S500000x1, .i32⟩
  | 80 => ⟨S100000x128, .f32⟩
  | 81 => ⟨S1x1x500000, .i32⟩
  | 82 => ⟨S500000, .i32⟩
  | 83 => ⟨S1x1x500000, .i32⟩
  | 84 => ⟨S500000, .i32⟩
  | 85 => ⟨S_, .i32⟩
  | 86 => ⟨S500000, .i32⟩
  | 87 => ⟨S500000, .i1⟩
  | 88 => ⟨S_, .i32⟩
  | 89 => ⟨S500000, .i32⟩
  | 90 => ⟨S500000, .i32⟩
  | 91 => ⟨S500000, .i32⟩
  | 92 => ⟨S500000x1, .i32⟩
  | 93 => ⟨S500000x128, .bf16⟩
  | 94 => ⟨S500000x128, .f32⟩
  | 95 => ⟨S_, .f32⟩
  | 96 => ⟨S100000x128, .f32⟩
  | 97 => ⟨S500000x1, .i32⟩
  | 98 => ⟨S100000x128, .f32⟩
  | 99 => ⟨S1x1x500000, .i32⟩
  | 100 => ⟨S500000, .i32⟩
  | 101 => ⟨S1x1x500000, .i32⟩
  | 102 => ⟨S500000, .i32⟩
  | 103 => ⟨S_, .i32⟩
  | 104 => ⟨S500000, .i32⟩
  | 105 => ⟨S500000, .i1⟩
  | 106 => ⟨S_, .i32⟩
  | 107 => ⟨S500000, .i32⟩
  | 108 => ⟨S500000, .i32⟩
  | 109 => ⟨S500000, .i32⟩
  | 110 => ⟨S500000x1, .i32⟩
  | 111 => ⟨S500000x128, .bf16⟩
  | 112 => ⟨S500000x128, .f32⟩
  | 113 => ⟨S_, .f32⟩
  | 114 => ⟨S100000x128, .f32⟩
  | 115 => ⟨S500000x1, .i32⟩
  | 116 => ⟨S100000x128, .f32⟩
  | 117 => ⟨S1x3x128x128, .f32⟩
  | 118 => ⟨S3x128x128, .f32⟩
  | 119 => ⟨S1x3x128, .f32⟩
  | 120 => ⟨S3x128, .f32⟩
  | 121 => ⟨S1x3x128x128, .f32⟩
  | 122 => ⟨S3x128x128, .f32⟩
  | 123 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S4000x128, .f32⟩
  | .local _ .vmem, ⟨1, _⟩ => ⟨S4000x128, .f32⟩
  | .local _ .vmem, ⟨2, _⟩ => ⟨S3x128x128, .f32⟩
  | .local _ .vmem, ⟨3, _⟩ => ⟨S3x128, .f32⟩
  | .local _ .vmem, ⟨4, _⟩ => ⟨S3x4000x128, .bf16⟩
  | .local _ .vmem, ⟨5, _⟩ => ⟨S3x4000x128, .bf16⟩
  | .local _ .vmem, ⟨6, _⟩ => ⟨S4000x128, .f32⟩
  | .local _ .vmem, ⟨7, _⟩ => ⟨S4000x128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S4000x128, .f32⟩
  | .local _ .vmem, ⟨14, _⟩ => ⟨S4000x3, .f32⟩
  | .local _ .vmem, ⟨15, _⟩ => ⟨S4000x3, .f32⟩
  | .local _ .vmem, ⟨16, _⟩ => ⟨S3x128x128, .f32⟩
  | .local _ .vmem, ⟨17, _⟩ => ⟨S3x128x128, .f32⟩
  | .local _ .vmem, ⟨18, _⟩ => ⟨S3x128, .f32⟩
  | .local _ .vmem, ⟨19, _⟩ => ⟨S128, .f32⟩
  | .local _ .vmem, ⟨20, _⟩ => ⟨S128, .f32⟩
  | .local _ .vmem, ⟨21, _⟩ => ⟨S4000x128, .f32⟩
  | .local _ .vmem, ⟨22, _⟩ => ⟨S4000x128, .f32⟩
  | .local _ .vmem, ⟨23, _⟩ => ⟨S4000x128, .f32⟩
  | .local _ .vmem, ⟨24, _⟩ => ⟨S4000x128, .f32⟩
  | .local _ .vmem, ⟨25, _⟩ => ⟨S4000x128, .f32⟩
  | .local _ .vmem, ⟨26, _⟩ => ⟨S4000x128, .f32⟩
  | .local _ .vmem, ⟨27, _⟩ => ⟨S4000x128, .f32⟩
  | .local _ .vmem, ⟨28, _⟩ => ⟨S4000x128, .f32⟩
  | .local _ .vmem, ⟨29, _⟩ => ⟨S4000x128, .f32⟩
  | .local _ .vmem, ⟨30, _⟩ => ⟨S4000x128, .f32⟩
  | .local _ .vmem, ⟨31, _⟩ => ⟨S4000x3, .f32⟩
  | .local _ .vmem, ⟨32, _⟩ => ⟨S4000x3, .f32⟩
  | .local _ .vmem, ⟨33, _⟩ => ⟨S3x128x128, .f32⟩
  | .local _ .vmem, ⟨34, _⟩ => ⟨S3x128x128, .f32⟩
  | .local _ .vmem, ⟨35, _⟩ => ⟨S3x128, .f32⟩
  | .local _ .vmem, ⟨36, _⟩ => ⟨S128, .f32⟩
  | .local _ .vmem, ⟨37, _⟩ => ⟨S128, .f32⟩
  | .local _ .vmem, ⟨38, _⟩ => ⟨S4000x128, .f32⟩
  | .local _ .vmem, ⟨39, _⟩ => ⟨S4000x128, .f32⟩
  | .local _ .vmem, ⟨40, _⟩ => ⟨S4000x128, .f32⟩
  | .local _ .vmem, ⟨41, _⟩ => ⟨S4000x128, .f32⟩
  | .local _ .vmem, ⟨42, _⟩ => ⟨S4000x128, .f32⟩
  | .local _ .vmem, ⟨43, _⟩ => ⟨S4000x128, .f32⟩
  | .local _ .vmem, ⟨44, _⟩ => ⟨S4000x128, .f32⟩
  | .local _ .vmem, ⟨45, _⟩ => ⟨S4000x128, .f32⟩
  | .local _ .vmem, ⟨46, _⟩ => ⟨S4000x128, .f32⟩
  | .local _ .vmem, ⟨47, _⟩ => ⟨S4000x128, .f32⟩
  | .local _ .vmem, ⟨48, _⟩ => ⟨S4000x3, .f32⟩
  | .local _ .vmem, ⟨49, _⟩ => ⟨S4000x3, .f32⟩
  | .local _ .vmem, ⟨50, _⟩ => ⟨S3x128x128, .f32⟩
  | .local _ .vmem, ⟨51, _⟩ => ⟨S3x128x128, .f32⟩
  | .local _ .vmem, ⟨52, _⟩ => ⟨S3x128, .f32⟩
  | .local _ .vmem, ⟨53, _⟩ => ⟨S128, .f32⟩
  | .local _ .vmem, ⟨54, _⟩ => ⟨S128, .f32⟩
  | .local _ .vmem, ⟨55, _⟩ => ⟨S4000x128, .f32⟩
  | .local _ .vmem, ⟨56, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | _, _ => false

abbrev semScoped : Fin 0 → Bool
  | ⟨_, h⟩ => absurd h (Nat.not_lt_zero _)

abbrev dmaSemScoped : Fin 57 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | _ => false

abbrev sig : RefSig :=
  ofTc nBuf bufTy 0 57 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst_1 : Ref sig .tc := ⟨.hbm, 20, rfl⟩
abbrev main_v6 : Ref sig .tc := ⟨.hbm, 21, rfl⟩
abbrev main_v7 : Ref sig .tc := ⟨.hbm, 22, rfl⟩
abbrev main_cst_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_3 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_4 : Ref sig .tc := ⟨.hbm, 32, rfl⟩
abbrev main_v15 : Ref sig .tc := ⟨.hbm, 33, rfl⟩
abbrev main_v16 : Ref sig .tc := ⟨.hbm, 34, rfl⟩
abbrev main_cst_5 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_6 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_7 : Ref sig .tc := ⟨.hbm, 44, rfl⟩
abbrev main_v24 : Ref sig .tc := ⟨.hbm, 45, rfl⟩
abbrev main_v25 : Ref sig .tc := ⟨.hbm, 46, rfl⟩
abbrev main_cst_8 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_c : Ref sig .tc := ⟨.hbm, 61, rfl⟩
abbrev main_v39 : Ref sig .tc := ⟨.hbm, 62, rfl⟩
abbrev main_v40 : Ref sig .tc := ⟨.hbm, 63, rfl⟩
abbrev main_c_9 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_10 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_c_11 : Ref sig .tc := ⟨.hbm, 81, rfl⟩
abbrev main_v56 : Ref sig .tc := ⟨.hbm, 82, rfl⟩
abbrev main_v57 : Ref sig .tc := ⟨.hbm, 83, rfl⟩
abbrev main_c_12 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_13 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_c_14 : Ref sig .tc := ⟨.hbm, 101, rfl⟩
abbrev main_v73 : Ref sig .tc := ⟨.hbm, 102, rfl⟩
abbrev main_v74 : Ref sig .tc := ⟨.hbm, 103, rfl⟩
abbrev main_c_15 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_cst_16 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_cst_17 : Ref sig .tc := ⟨.hbm, 120, rfl⟩
abbrev main_v89 : Ref sig .tc := ⟨.hbm, 121, rfl⟩
abbrev main_cst_18 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_c_19 : Ref sig .tc := ⟨.hbm, 129, rfl⟩
abbrev main_v96 : Ref sig .tc := ⟨.hbm, 130, rfl⟩
abbrev main_v97 : Ref sig .tc := ⟨.hbm, 131, rfl⟩
abbrev main_c_20 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_cst_21 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_c_22 : Ref sig .tc := ⟨.hbm, 147, rfl⟩
abbrev main_v111 : Ref sig .tc := ⟨.hbm, 148, rfl⟩
abbrev main_v112 : Ref sig .tc := ⟨.hbm, 149, rfl⟩
abbrev main_c_23 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_cst_24 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_c_25 : Ref sig .tc := ⟨.hbm, 165, rfl⟩
abbrev main_v126 : Ref sig .tc := ⟨.hbm, 166, rfl⟩
abbrev main_v127 : Ref sig .tc := ⟨.hbm, 167, rfl⟩
abbrev main_c_26 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_cst_27 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_v152 : Ref sig .tc := ⟨.hbm, 194, rfl⟩
abbrev main_c_28 : Ref sig .tc := ⟨.hbm, 195, rfl⟩
abbrev main_v153 : Ref sig .tc := ⟨.hbm, 196, rfl⟩
abbrev main_v154 : Ref sig .tc := ⟨.hbm, 197, rfl⟩
abbrev main_c_29 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_v159 : Ref sig .tc := ⟨.hbm, 203, rfl⟩
abbrev main_v160 : Ref sig .tc := ⟨.hbm, 204, rfl⟩
abbrev main_cst_30 : Ref sig .tc := ⟨.hbm, 205, rfl⟩
abbrev main_v161 : Ref sig .tc := ⟨.hbm, 206, rfl⟩
abbrev main_v162 : Ref sig .tc := ⟨.hbm, 207, rfl⟩
abbrev main_v163 : Ref sig .tc := ⟨.hbm, 208, rfl⟩
abbrev main_v164 : Ref sig .tc := ⟨.hbm, 209, rfl⟩
abbrev main_v165 : Ref sig .tc := ⟨.hbm, 210, rfl⟩
abbrev main_v166 : Ref sig .tc := ⟨.hbm, 211, rfl⟩
abbrev main_v167 : Ref sig .tc := ⟨.hbm, 212, rfl⟩
abbrev main_c_31 : Ref sig .tc := ⟨.hbm, 213, rfl⟩
abbrev main_v168 : Ref sig .tc := ⟨.hbm, 214, rfl⟩
abbrev main_v169 : Ref sig .tc := ⟨.hbm, 215, rfl⟩
abbrev main_c_32 : Ref sig .tc := ⟨.hbm, 216, rfl⟩
abbrev main_v170 : Ref sig .tc := ⟨.hbm, 217, rfl⟩
abbrev main_v171 : Ref sig .tc := ⟨.hbm, 218, rfl⟩
abbrev main_v172 : Ref sig .tc := ⟨.hbm, 219, rfl⟩
abbrev main_v173 : Ref sig .tc := ⟨.hbm, 220, rfl⟩
abbrev main_v174 : Ref sig .tc := ⟨.hbm, 221, rfl⟩
abbrev main_v175 : Ref sig .tc := ⟨.hbm, 222, rfl⟩
abbrev main_cst_33 : Ref sig .tc := ⟨.hbm, 223, rfl⟩
abbrev main_v176 : Ref sig .tc := ⟨.hbm, 224, rfl⟩
abbrev main_v177 : Ref sig .tc := ⟨.hbm, 225, rfl⟩
abbrev main_v178 : Ref sig .tc := ⟨.hbm, 226, rfl⟩
abbrev main_v179 : Ref sig .tc := ⟨.hbm, 227, rfl⟩
abbrev main_v180 : Ref sig .tc := ⟨.hbm, 228, rfl⟩
abbrev main_v181 : Ref sig .tc := ⟨.hbm, 229, rfl⟩
abbrev main_v182 : Ref sig .tc := ⟨.hbm, 230, rfl⟩
abbrev main_c_34 : Ref sig .tc := ⟨.hbm, 231, rfl⟩
abbrev main_v183 : Ref sig .tc := ⟨.hbm, 232, rfl⟩
abbrev main_v184 : Ref sig .tc := ⟨.hbm, 233, rfl⟩
abbrev main_c_35 : Ref sig .tc := ⟨.hbm, 234, rfl⟩
abbrev main_v185 : Ref sig .tc := ⟨.hbm, 235, rfl⟩
abbrev main_v186 : Ref sig .tc := ⟨.hbm, 236, rfl⟩
abbrev main_v187 : Ref sig .tc := ⟨.hbm, 237, rfl⟩
abbrev main_v188 : Ref sig .tc := ⟨.hbm, 238, rfl⟩
abbrev main_v189 : Ref sig .tc := ⟨.hbm, 239, rfl⟩
abbrev main_v190 : Ref sig .tc := ⟨.hbm, 240, rfl⟩
abbrev main_cst_36 : Ref sig .tc := ⟨.hbm, 241, rfl⟩
abbrev main_v191 : Ref sig .tc := ⟨.hbm, 242, rfl⟩
abbrev main_v192 : Ref sig .tc := ⟨.hbm, 243, rfl⟩
abbrev main_v193 : Ref sig .tc := ⟨.hbm, 244, rfl⟩
abbrev main_v194 : Ref sig .tc := ⟨.hbm, 245, rfl⟩
abbrev main_v195 : Ref sig .tc := ⟨.hbm, 246, rfl⟩
abbrev main_v196 : Ref sig .tc := ⟨.hbm, 247, rfl⟩
abbrev main_v197 : Ref sig .tc := ⟨.hbm, 248, rfl⟩
abbrev main_v198 : Ref sig .tc := ⟨.hbm, 249, rfl⟩
abbrev main_v199 : Ref sig .tc := ⟨.hbm, 250, rfl⟩
abbrev main_v200 : Ref sig .tc := ⟨.hbm, 251, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg9_0 : Ref sig .tc := ⟨.vmem, 20, rfl⟩
abbrev cc1_stg10_0 : Ref sig .tc := ⟨.vmem, 21, rfl⟩
abbrev cc1_stg10_1 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg1_1 : Ref sig .tc := ⟨.vmem, 26, rfl⟩
abbrev cc2_stg2_0 : Ref sig .tc := ⟨.vmem, 27, rfl⟩
abbrev cc2_stg2_1 : Ref sig .tc := ⟨.vmem, 28, rfl⟩
abbrev cc2_stg3_0 : Ref sig .tc := ⟨.vmem, 29, rfl⟩
abbrev cc2_stg3_1 : Ref sig .tc := ⟨.vmem, 30, rfl⟩
abbrev cc2_stg4_0 : Ref sig .tc := ⟨.vmem, 31, rfl⟩
abbrev cc2_stg4_1 : Ref sig .tc := ⟨.vmem, 32, rfl⟩
abbrev cc2_stg5_0 : Ref sig .tc := ⟨.vmem, 33, rfl⟩
abbrev cc2_stg6_0 : Ref sig .tc := ⟨.vmem, 34, rfl⟩
abbrev cc2_stg7_0 : Ref sig .tc := ⟨.vmem, 35, rfl⟩
abbrev cc2_stg8_0 : Ref sig .tc := ⟨.vmem, 36, rfl⟩
abbrev cc2_stg9_0 : Ref sig .tc := ⟨.vmem, 37, rfl⟩
abbrev cc2_stg10_0 : Ref sig .tc := ⟨.vmem, 38, rfl⟩
abbrev cc2_stg10_1 : Ref sig .tc := ⟨.vmem, 39, rfl⟩
abbrev cc3_stg0_0 : Ref sig .tc := ⟨.vmem, 40, rfl⟩
abbrev cc3_stg0_1 : Ref sig .tc := ⟨.vmem, 41, rfl⟩
abbrev cc3_stg1_0 : Ref sig .tc := ⟨.vmem, 42, rfl⟩
abbrev cc3_stg1_1 : Ref sig .tc := ⟨.vmem, 43, rfl⟩
abbrev cc3_stg2_0 : Ref sig .tc := ⟨.vmem, 44, rfl⟩
abbrev cc3_stg2_1 : Ref sig .tc := ⟨.vmem, 45, rfl⟩
abbrev cc3_stg3_0 : Ref sig .tc := ⟨.vmem, 46, rfl⟩
abbrev cc3_stg3_1 : Ref sig .tc := ⟨.vmem, 47, rfl⟩
abbrev cc3_stg4_0 : Ref sig .tc := ⟨.vmem, 48, rfl⟩
abbrev cc3_stg4_1 : Ref sig .tc := ⟨.vmem, 49, rfl⟩
abbrev cc3_stg5_0 : Ref sig .tc := ⟨.vmem, 50, rfl⟩
abbrev cc3_stg6_0 : Ref sig .tc := ⟨.vmem, 51, rfl⟩
abbrev cc3_stg7_0 : Ref sig .tc := ⟨.vmem, 52, rfl⟩
abbrev cc3_stg8_0 : Ref sig .tc := ⟨.vmem, 53, rfl⟩
abbrev cc3_stg9_0 : Ref sig .tc := ⟨.vmem, 54, rfl⟩
abbrev cc3_stg10_0 : Ref sig .tc := ⟨.vmem, 55, rfl⟩
abbrev cc3_stg10_1 : Ref sig .tc := ⟨.vmem, 56, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem6_0 : DmaSem sig := 17
abbrev cc1_sem7_0 : DmaSem sig := 18
abbrev cc1_sem8_0 : DmaSem sig := 19
abbrev cc1_sem9_0 : DmaSem sig := 20
abbrev cc1_sem10_0 : DmaSem sig := 21
abbrev cc1_sem10_1 : DmaSem sig := 22
abbrev cc2_sem0_0 : DmaSem sig := 23
abbrev cc2_sem0_1 : DmaSem sig := 24
abbrev cc2_sem1_0 : DmaSem sig := 25
abbrev cc2_sem1_1 : DmaSem sig := 26
abbrev cc2_sem2_0 : DmaSem sig := 27
abbrev cc2_sem2_1 : DmaSem sig := 28
abbrev cc2_sem3_0 : DmaSem sig := 29
abbrev cc2_sem3_1 : DmaSem sig := 30
abbrev cc2_sem4_0 : DmaSem sig := 31
abbrev cc2_sem4_1 : DmaSem sig := 32
abbrev cc2_sem5_0 : DmaSem sig := 33
abbrev cc2_sem6_0 : DmaSem sig := 34
abbrev cc2_sem7_0 : DmaSem sig := 35
abbrev cc2_sem8_0 : DmaSem sig := 36
abbrev cc2_sem9_0 : DmaSem sig := 37
abbrev cc2_sem10_0 : DmaSem sig := 38
abbrev cc2_sem10_1 : DmaSem sig := 39
abbrev cc3_sem0_0 : DmaSem sig := 40
abbrev cc3_sem0_1 : DmaSem sig := 41
abbrev cc3_sem1_0 : DmaSem sig := 42
abbrev cc3_sem1_1 : DmaSem sig := 43
abbrev cc3_sem2_0 : DmaSem sig := 44
abbrev cc3_sem2_1 : DmaSem sig := 45
abbrev cc3_sem3_0 : DmaSem sig := 46
abbrev cc3_sem3_1 : DmaSem sig := 47
abbrev cc3_sem4_0 : DmaSem sig := 48
abbrev cc3_sem4_1 : DmaSem sig := 49
abbrev cc3_sem5_0 : DmaSem sig := 50
abbrev cc3_sem6_0 : DmaSem sig := 51
abbrev cc3_sem7_0 : DmaSem sig := 52
abbrev cc3_sem8_0 : DmaSem sig := 53
abbrev cc3_sem9_0 : DmaSem sig := 54
abbrev cc3_sem10_0 : DmaSem sig := 55
abbrev cc3_sem10_1 : DmaSem sig := 56

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S3x4000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S4000x3 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S3x128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S3x128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S3x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S4000x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_6 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_9 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S4000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S4000x3 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S3x128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S3x128x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S3x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 2 → Memref sig .tc .vmem S4000x128 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_6 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_9 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_10 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S4000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S4000x3 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 1 → Memref sig .tc .vmem S3x128x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S3x128x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S3x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S128 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 2 → Memref sig .tc .vmem S4000x128 .f32 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true]

class Facts₀ : Prop where
  bcast_S_S500000 : S_.BroadcastsInDim S500000 (![] : Fin 0 → Fin S500000.rank)
  slices_S3x2x500000_S1x1x500000_0_1_0 : S3x2x500000.Slices ![0, 1, 0] S1x1x500000
  shapeCasts_S1x1x500000_S500000 : S1x1x500000.ShapeCasts S500000
  bcast_S_S100000 : S_.BroadcastsInDim S100000 (![] : Fin 0 → Fin S100000.rank)
  bcast_S500000_S500000x1_0 : S500000.BroadcastsInDim S500000x1 (![0] : Fin 1 → Fin S500000x1.rank)
  slices_S3x2x500000_S1x1x500000_1_1_0 : S3x2x500000.Slices ![1, 1, 0] S1x1x500000
  slices_S3x2x500000_S1x1x500000_2_1_0 : S3x2x500000.Slices ![2, 1, 0] S1x1x500000
  bcast_S100000_S100000x1_0 : S100000.BroadcastsInDim S100000x1 (![0] : Fin 1 → Fin S100000x1.rank)
  concatenates_S100000x1_S100000x1_S100000x1_S100000x3_d1 : Shape.Concatenates [S100000x1, S100000x1, S100000x1] S100000x3 1
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S3x128x128_S1x128x128_0_0_0 : ∀ a, (![0, 0, 0] : Fin 3 → Nat) a + S1x128x128.size a ≤ S3x128x128.size a
  h_S1x128x128 : 0 < S1x128x128.numel
  shapeCasts_S1x128x128_S128x128 : S1x128x128.ShapeCasts S128x128
  inb_S3x128_S1x128_0_0 : ∀ a, (![0, 0] : Fin 2 → Nat) a + S1x128.size a ≤ S3x128.size a
  h_S1x128 : 0 < S1x128.numel
  shapeCasts_S1x128_S128 : S1x128.ShapeCasts S128
  shapeCasts_S128_S1x128 : S128.ShapeCasts S1x128
  broadcasts_S1x128_S4000x128 : S1x128.Broadcasts S4000x128
  inb_S3x4000x128_S1x4000x128_0_0_0 : ∀ a, (![0, 0, 0] : Fin 3 → Nat) a + S1x4000x128.size a ≤ S3x4000x128.size a
  h_S1x4000x128 : 0 < S1x4000x128.numel
  shapeCasts_S1x4000x128_S4000x128 : S1x4000x128.ShapeCasts S4000x128
  shapeCasts_S4000x128_S1x4000x128 : S4000x128.ShapeCasts S1x4000x128
  packedbf16_S3x4000x128_S1x4000x128_0_0_0 : (Rect.unit (s := S3x4000x128) ![0, 0, 0] S1x4000x128.size inb_S3x4000x128_S1x4000x128_0_0_0).PackedRows (EltTy.packing .bf16)
  inb_S3x128x128_S1x128x128_1_0_0 : ∀ a, (![1, 0, 0] : Fin 3 → Nat) a + S1x128x128.size a ≤ S3x128x128.size a
  inb_S3x128_S1x128_1_0 : ∀ a, (![1, 0] : Fin 2 → Nat) a + S1x128.size a ≤ S3x128.size a
  inb_S3x4000x128_S1x4000x128_1_0_0 : ∀ a, (![1, 0, 0] : Fin 3 → Nat) a + S1x4000x128.size a ≤ S3x4000x128.size a
  packedbf16_S3x4000x128_S1x4000x128_1_0_0 : (Rect.unit (s := S3x4000x128) ![1, 0, 0] S1x4000x128.size inb_S3x4000x128_S1x4000x128_1_0_0).PackedRows (EltTy.packing .bf16)
  inb_S3x128x128_S1x128x128_2_0_0 : ∀ a, (![2, 0, 0] : Fin 3 → Nat) a + S1x128x128.size a ≤ S3x128x128.size a
  inb_S3x128_S1x128_2_0 : ∀ a, (![2, 0] : Fin 2 → Nat) a + S1x128.size a ≤ S3x128.size a
  inb_S3x4000x128_S1x4000x128_2_0_0 : ∀ a, (![2, 0, 0] : Fin 3 → Nat) a + S1x4000x128.size a ≤ S3x4000x128.size a
  packedbf16_S3x4000x128_S1x4000x128_2_0_0 : (Rect.unit (s := S3x4000x128) ![2, 0, 0] S1x4000x128.size inb_S3x4000x128_S1x4000x128_2_0_0).PackedRows (EltTy.packing .bf16)
  slices_S3x2x500000_S1x1x500000_0_0_0 : S3x2x500000.Slices ![0, 0, 0] S1x1x500000
  slices_S3x100000x128_S1x100000x128_0_0_0 : S3x100000x128.Slices ![0, 0, 0] S1x100000x128
  shapeCasts_S1x100000x128_S100000x128 : S1x100000x128.ShapeCasts S100000x128
  bcast_S_S100000x128 : S_.BroadcastsInDim S100000x128 (![] : Fin 0 → Fin S100000x128.rank)
  slices_S3x2x500000_S1x1x500000_1_0_0 : S3x2x500000.Slices ![1, 0, 0] S1x1x500000
  slices_S3x100000x128_S1x100000x128_1_0_0 : S3x100000x128.Slices ![1, 0, 0] S1x100000x128
  slices_S3x2x500000_S1x1x500000_2_0_0 : S3x2x500000.Slices ![2, 0, 0] S1x1x500000
  slices_S3x100000x128_S1x100000x128_2_0_0 : S3x100000x128.Slices ![2, 0, 0] S1x100000x128
  slices_S2x128_S1x128_0_0 : S2x128.Slices ![0, 0] S1x128
  inb_S4000x3_S4000x3_0_0 : ∀ a, (![0, 0] : Fin 2 → Nat) a + S4000x3.size a ≤ S4000x3.size a
  h_S4000x3 : 0 < S4000x3.numel
  shapeCasts_S4000x3_S4000x3 : S4000x3.ShapeCasts S4000x3
  shapeCasts_S4000x128_S4000x128 : S4000x128.ShapeCasts S4000x128
  slices_S4000x3_o0_0_S4000x1 : S4000x3.Slices ![0, 0] S4000x1
  broadcasts_S4000x1_S4000x128 : S4000x1.Broadcasts S4000x128
  reduces_S4000x128_S4000 : S4000x128.Reduces [1] S4000
  shapeCasts_S4000_S4000x1 : S4000.ShapeCasts S4000x1
  slices_S4000x3_o0_1_S4000x1 : S4000x3.Slices ![0, 1] S4000x1
  slices_S4000x3_o0_2_S4000x1 : S4000x3.Slices ![0, 2] S4000x1
  inb_S128_S128_0 : ∀ a, (![0] : Fin 1 → Nat) a + S128.size a ≤ S128.size a
  h_S128 : 0 < S128.numel
  shapeCasts_S128_S128 : S128.ShapeCasts S128
  bcast_S_S128 : S_.BroadcastsInDim S128 (![] : Fin 0 → Fin S128.rank)
  slices_S2x128_S1x128_1_0 : S2x128.Slices ![1, 0] S1x128
  slices_S2x3x128x128_S1x3x128x128_0_0_0_0 : S2x3x128x128.Slices ![0, 0, 0, 0] S1x3x128x128
  shapeCasts_S1x3x128x128_S3x128x128 : S1x3x128x128.ShapeCasts S3x128x128
  slices_S2x3x128_S1x3x128_0_0_0 : S2x3x128.Slices ![0, 0, 0] S1x3x128
  shapeCasts_S1x3x128_S3x128 : S1x3x128.ShapeCasts S3x128
  slices_S2x3x128x128_S1x3x128x128_1_0_0_0 : S2x3x128x128.Slices ![1, 0, 0, 0] S1x3x128x128
  slices_S2x3x128_S1x3x128_1_0_0 : S2x3x128.Slices ![1, 0, 0] S1x3x128
  scatter_S100000_S500000x1_S500000_n_0_0_1_wf : ScatterDims.WF S100000 S500000x1 S500000 [] [0] [0] 1
  dot_S4000x128_S128x128_S4000x128_1_0_0_1_n_n_wf : DotDims.WF S4000x128 S128x128 S4000x128 [1] [0] [0] [1] [] []
  gather_S100000x128_S500000x1_S500000x128_1_0_n_n_0_1_1128_wf : GatherDims.WF S100000x128 S500000x1 S500000x128 [1] [0] [] [0] [] 1 ![1, 128]
  scatter_S100000x128_S500000x1_S500000x128_1_0_0_1_wf : ScatterDims.WF S100000x128 S500000x1 S500000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x128x128.size a ≤ S3x128x128.size a
  hwx0_1 : ∀ i : grid0.Coords, EltTy.bits .f32 = 32 ∨ (Rect.block (s := S3x128x128) S3x128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x128.size a ≤ S3x128.size a
  hwx0_2 : ∀ i : grid0.Coords, EltTy.bits .f32 = 32 ∨ (Rect.block (s := S3x128) S3x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S3x4000x128.size a ≤ S3x100000x128.size a
  hwx0_3 : ∀ i : grid0.Coords, EltTy.bits .bf16 = 32 ∨ (Rect.block (s := S3x100000x128) S3x4000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x128.size a ≤ S100000x128.size a
  hwx1_2 : ∀ i : grid1.Coords, EltTy.bits .f32 = 32 ∨ (Rect.block (s := S100000x128) S4000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x128.size a ≤ S100000x128.size a
  hwx1_3 : ∀ i : grid1.Coords, EltTy.bits .f32 = 32 ∨ (Rect.block (s := S100000x128) S4000x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x3.size a ≤ S100000x3.size a
  hwx1_4 : ∀ i : grid1.Coords, EltTy.bits .f32 = 32 ∨ (Rect.block (s := S100000x3) S4000x3.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S3x128x128.size a ≤ S3x128x128.size a
  hwx1_5 : ∀ i : grid1.Coords, EltTy.bits .f32 = 32 ∨ (Rect.block (s := S3x128x128) S3x128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S3x128x128.size a ≤ S3x128x128.size a
  hwx1_6 : ∀ i : grid1.Coords, EltTy.bits .f32 = 32 ∨ (Rect.block (s := S3x128x128) S3x128x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S3x128.size a ≤ S3x128.size a
  hwx1_7 : ∀ i : grid1.Coords, EltTy.bits .f32 = 32 ∨ (Rect.block (s := S3x128) S3x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128.size a ≤ S128.size a
  hwx1_8 : ∀ i : grid1.Coords, EltTy.bits .f32 = 32 ∨ (Rect.block (s := S128) S128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S128.size a ≤ S128.size a
  hwx1_9 : ∀ i : grid1.Coords, EltTy.bits .f32 = 32 ∨ (Rect.block (s := S128) S128.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S4000x128.size a ≤ S100000x128.size a
  hwx1_10 : ∀ i : grid1.Coords, EltTy.bits .f32 = 32 ∨ (Rect.block (s := S100000x128) S4000x128.size (cc1_transform_10 i) (hinb1_10 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S100000x128.size a
  hwx2_1 : ∀ i : grid2.Coords, EltTy.bits .f32 = 32 ∨ (Rect.block (s := S100000x128) S4000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x128.size a ≤ S100000x128.size a
  hwx2_2 : ∀ i : grid2.Coords, EltTy.bits .f32 = 32 ∨ (Rect.block (s := S100000x128) S4000x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x128.size a ≤ S100000x128.size a
  hwx2_3 : ∀ i : grid2.Coords, EltTy.bits .f32 = 32 ∨ (Rect.block (s := S100000x128) S4000x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S4000x3.size a ≤ S100000x3.size a
  hwx2_4 : ∀ i : grid2.Coords, EltTy.bits .f32 = 32 ∨ (Rect.block (s := S100000x3) S4000x3.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S3x128x128.size a ≤ S3x128x128.size a
  hwx2_5 : ∀ i : grid2.Coords, EltTy.bits .f32 = 32 ∨ (Rect.block (s := S3x128x128) S3x128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S3x128x128.size a ≤ S3x128x128.size a
  hwx2_6 : ∀ i : grid2.Coords, EltTy.bits .f32 = 32 ∨ (Rect.block (s := S3x128x128) S3x128x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S3x128.size a ≤ S3x128.size a
  hwx2_7 : ∀ i : grid2.Coords, EltTy.bits .f32 = 32 ∨ (Rect.block (s := S3x128) S3x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S128.size a ≤ S128.size a
  hwx2_8 : ∀ i : grid2.Coords, EltTy.bits .f32 = 32 ∨ (Rect.block (s := S128) S128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S128.size a ≤ S128.size a
  hwx2_9 : ∀ i : grid2.Coords, EltTy.bits .f32 = 32 ∨ (Rect.block (s := S128) S128.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S4000x128.size a ≤ S100000x128.size a
  hwx2_10 : ∀ i : grid2.Coords, EltTy.bits .f32 = 32 ∨ (Rect.block (s := S100000x128) S4000x128.size (cc2_transform_10 i) (hinb2_10 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S100000x128.size a
  hwx3_0 : ∀ i : grid3.Coords, EltTy.bits .f32 = 32 ∨ (Rect.block (s := S100000x128) S4000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x128.size a ≤ S100000x128.size a
  hwx3_1 : ∀ i : grid3.Coords, EltTy.bits .f32 = 32 ∨ (Rect.block (s := S100000x128) S4000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x128.size a ≤ S100000x128.size a
  hwx3_2 : ∀ i : grid3.Coords, EltTy.bits .f32 = 32 ∨ (Rect.block (s := S100000x128) S4000x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S4000x128.size a ≤ S100000x128.size a
  hwx3_3 : ∀ i : grid3.Coords, EltTy.bits .f32 = 32 ∨ (Rect.block (s := S100000x128) S4000x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S4000x3.size a ≤ S100000x3.size a
  hwx3_4 : ∀ i : grid3.Coords, EltTy.bits .f32 = 32 ∨ (Rect.block (s := S100000x3) S4000x3.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S3x128x128.size a ≤ S3x128x128.size a
  hwx3_5 : ∀ i : grid3.Coords, EltTy.bits .f32 = 32 ∨ (Rect.block (s := S3x128x128) S3x128x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S3x128x128.size a ≤ S3x128x128.size a
  hwx3_6 : ∀ i : grid3.Coords, EltTy.bits .f32 = 32 ∨ (Rect.block (s := S3x128x128) S3x128x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S3x128.size a ≤ S3x128.size a
  hwx3_7 : ∀ i : grid3.Coords, EltTy.bits .f32 = 32 ∨ (Rect.block (s := S3x128) S3x128.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S128.size a ≤ S128.size a
  hwx3_8 : ∀ i : grid3.Coords, EltTy.bits .f32 = 32 ∨ (Rect.block (s := S128) S128.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S128.size a ≤ S128.size a
  hwx3_9 : ∀ i : grid3.Coords, EltTy.bits .f32 = 32 ∨ (Rect.block (s := S128) S128.size (cc3_transform_9 i) (hinb3_9 i)).WholeWords (EltTy.packing .f32)
  hstage3_10 : ∀ j, (stage3_10 j).IsWhole
  nbuf3_10 : grid3.bufCount reads3_10 false = 2
  hreads3_10 : ∀ i i' : grid3.Coords, (∀ a, reads3_10 a = true → i a = i' a) → cc3_transform_10 i = cc3_transform_10 i'
  hinb3_10 : ∀ (i : grid3.Coords) a, (cc3_transform_10 i a + 1) * S4000x128.size a ≤ S100000x128.size a
  hwx3_10 : ∀ i : grid3.Coords, EltTy.bits .f32 = 32 ∨ (Rect.block (s := S100000x128) S4000x128.size (cc3_transform_10 i) (hinb3_10 i)).WholeWords (EltTy.packing .f32)

variable [Facts₀]

def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S3x128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S3x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v32) S3x4000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v49) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v66) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v83) S4000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg0) S4000x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v31) S4000x3.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_arg4) S3x128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg6) S3x128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg5) S3x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v85) S128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v87) S128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v88) S4000x128.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev win2_0 : Pipeline.Window sig grid2 :=
  Pipeline.Window.ofSpec (Memref.whole main_v106) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v121) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v136) S4000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v88) S4000x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v31) S4000x3.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v142) S3x128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v146) S3x128x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v144) S3x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v138) S128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v140) S128.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v147) S4000x128.size cc2_transform_10 reads2_10 true false 2 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

abbrev win3_0 : Pipeline.Window sig grid3 :=
  Pipeline.Window.ofSpec (Memref.whole main_v163) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v178) S4000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v193) S4000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v147) S4000x128.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v31) S4000x3.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v195) S3x128x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v199) S3x128x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v197) S3x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v89) S128.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v90) S128.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v200) S4000x128.size cc3_transform_10 reads3_10 true false 2 stage3_10 sem3_10
    hrank3 hreads3_10 hinb3_10 nbuf3_10 (Memref.isWhole_whole _) hwx3_10 hstage3_10

abbrev win3 : Fin 11 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | ⟨_ + 11, h⟩ => absurd h (Nat.not_lt.2 (Nat.le_add_left _ _))
abbrev spec3 : Fin 11 → Pipeline.WinSpec sig grid3.rank := fun w => (win3 w).toWinSpec

class Facts : Prop extends Facts₀ where

variable [Facts]
-- ==== ReferenceIdeal.lean ====
abbrev S100000x128 : Shape := ⟨2, ![100000, 128]⟩
abbrev S3x2x500000 : Shape := ⟨3, ![3, 2, 500000]⟩
abbrev S3x128x128 : Shape := ⟨3, ![3, 128, 128]⟩
abbrev S3x128 : Shape := ⟨2, ![3, 128]⟩
abbrev S2x3x128x128 : Shape := ⟨4, ![2, 3, 128, 128]⟩
abbrev S2x3x128 : Shape := ⟨3, ![2, 3, 128]⟩
abbrev S2x128 : Shape := ⟨2, ![2, 128]⟩
abbrev S1x2x500000 : Shape := ⟨3, ![1, 2, 500000]⟩
abbrev S2x500000 : Shape := ⟨2, ![2, 500000]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S500000x128 : Shape := ⟨2, ![500000, 128]⟩
abbrev S100000 : Shape := ⟨1, ![100000]⟩
abbrev S100000x1 : Shape := ⟨2, ![100000, 1]⟩
abbrev S1x1x128x128 : Shape := ⟨4, ![1, 1, 128, 128]⟩
abbrev S1x1x128 : Shape := ⟨3, ![1, 1, 128]⟩

abbrev nBuf : Space → Nat
  | .hbm => 558
  | .vmem => 0
  | .smem => 0
  | _ => 0

abbrev hbmTy0_0 (i : Nat) : BufTy := match i % 128 with
  | 0 => ⟨S100000x128, .f32⟩
  | 1 => ⟨S3x2x500000, .i32⟩
  | 2 => ⟨S3x128x128, .f32⟩
  | 3 => ⟨S3x128, .f32⟩
  | 4 => ⟨S3x128x128, .f32⟩
  | 5 => ⟨S3x128, .f32⟩
  | 6 => ⟨S3x128x128, .f32⟩
  | 7 => ⟨S2x3x128x128, .f32⟩
  | 8 => ⟨S2x3x128, .f32⟩
  | 9 => ⟨S2x3x128x128, .f32⟩
  | 10 => ⟨S2x128, .f32⟩
  | 11 => ⟨S2x128, .f32⟩
  | 12 => ⟨S1x2x500000, .i32⟩
  | 13 => ⟨S2x500000, .i32⟩
  | 14 => ⟨S1x128x128, .f32⟩
  | 15 => ⟨S128x128, .f32⟩
  | 16 => ⟨S1x128, .f32⟩
  | 17 => ⟨S128, .f32⟩
  | 18 => ⟨S1x128x128, .f32⟩
  | 19 => ⟨S128x128, .f32⟩
  | 20 => ⟨S1x128x128, .f32⟩
  | 21 => ⟨S128x128, .f32⟩
  | 22 => ⟨S1x128, .f32⟩
  | 23 => ⟨S128, .f32⟩
  | 24 => ⟨S1x500000, .i32⟩
  | 25 => ⟨S500000, .i32⟩
  | 26 => ⟨S1x500000, .i32⟩
  | 27 => ⟨S500000, .i32⟩
  | 28 => ⟨S100000x128, .f32⟩
  | 29 => ⟨S1x128, .f32⟩
  | 30 => ⟨S100000x128, .f32⟩
  | 31 => ⟨S100000x128, .f32⟩
  | 32 => ⟨S_, .f32⟩
  | 33 => ⟨S100000x128, .f32⟩
  | 34 => ⟨S100000x128, .f32⟩
  | 35 => ⟨S_, .i32⟩
  | 36 => ⟨S500000, .i32⟩
  | 37 => ⟨S500000, .i1⟩
  | 38 => ⟨S_, .i32⟩
  | 39 => ⟨S500000, .i32⟩
  | 40 => ⟨S500000, .i32⟩
  | 41 => ⟨S500000, .i32⟩
  | 42 => ⟨S500000x1, .i32⟩
  | 43 => ⟨S500000x128, .f32⟩
  | 44 => ⟨S_, .f32⟩
  | 45 => ⟨S100000x128, .f32⟩
  | 46 => ⟨S500000x1, .i32⟩
  | 47 => ⟨S100000x128, .f32⟩
  | 48 => ⟨S_, .f32⟩
  | 49 => ⟨S500000, .f32⟩
  | 50 => ⟨S_, .f32⟩
  | 51 => ⟨S100000, .f32⟩
  | 52 => ⟨S500000x1, .i32⟩
  | 53 => ⟨S100000, .f32⟩
  | 54 => ⟨S_, .f32⟩
  | 55 => ⟨S100000, .f32⟩
  | 56 => ⟨S100000, .f32⟩
  | 57 => ⟨S100000x1, .f32⟩
  | 58 => ⟨S100000x128, .f32⟩
  | 59 => ⟨S100000x128, .f32⟩
  | 60 => ⟨S100000x128, .f32⟩
  | 61 => ⟨S1x128, .f32⟩
  | 62 => ⟨S100000x128, .f32⟩
  | 63 => ⟨S100000x128, .f32⟩
  | 64 => ⟨S100000x128, .f32⟩
  | 65 => ⟨S100000x128, .f32⟩
  | 66 => ⟨S100000x128, .f32⟩
  | 67 => ⟨S_, .f32⟩
  | 68 => ⟨S100000, .f32⟩
  | 69 => ⟨S100000x1, .f32⟩
  | 70 => ⟨S100000x1, .f32⟩
  | 71 => ⟨S_, .f32⟩
  | 72 => ⟨S100000x1, .f32⟩
  | 73 => ⟨S100000x1, .f32⟩
  | 74 => ⟨S100000x128, .f32⟩
  | 75 => ⟨S100000x128, .f32⟩
  | 76 => ⟨S_, .f32⟩
  | 77 => ⟨S100000x128, .f32⟩
  | 78 => ⟨S100000x128, .f32⟩
  | 79 => ⟨S1x2x500000, .i32⟩
  | 80 => ⟨S2x500000, .i32⟩
  | 81 => ⟨S1x128x128, .f32⟩
  | 82 => ⟨S128x128, .f32⟩
  | 83 => ⟨S1x128, .f32⟩
  | 84 => ⟨S128, .f32⟩
  | 85 => ⟨S1x128x128, .f32⟩
  | 86 => ⟨S128x128, .f32⟩
  | 87 => ⟨S1x128x128, .f32⟩
  | 88 => ⟨S128x128, .f32⟩
  | 89 => ⟨S1x128, .f32⟩
  | 90 => ⟨S128, .f32⟩
  | 91 => ⟨S1x500000, .i32⟩
  | 92 => ⟨S500000, .i32⟩
  | 93 => ⟨S1x500000, .i32⟩
  | 94 => ⟨S500000, .i32⟩
  | 95 => ⟨S100000x128, .f32⟩
  | 96 => ⟨S1x128, .f32⟩
  | 97 => ⟨S100000x128, .f32⟩
  | 98 => ⟨S100000x128, .f32⟩
  | 99 => ⟨S_, .f32⟩
  | 100 => ⟨S100000x128, .f32⟩
  | 101 => ⟨S100000x128, .f32⟩
  | 102 => ⟨S_, .i32⟩
  | 103 => ⟨S500000, .i32⟩
  | 104 => ⟨S500000, .i1⟩
  | 105 => ⟨S_, .i32⟩
  | 106 => ⟨S500000, .i32⟩
  | 107 => ⟨S500000, .i32⟩
  | 108 => ⟨S500000, .i32⟩
  | 109 => ⟨S500000x1, .i32⟩
  | 110 => ⟨S500000x128, .f32⟩
  | 111 => ⟨S_, .f32⟩
  | 112 => ⟨S100000x128, .f32⟩
  | 113 => ⟨S500000x1, .i32⟩
  | 114 => ⟨S100000x128, .f32⟩
  | 115 => ⟨S_, .f32⟩
  | 116 => ⟨S500000, .f32⟩
  | 117 => ⟨S_, .f32⟩
  | 118 => ⟨S100000, .f32⟩
  | 119 => ⟨S500000x1, .i32⟩
  | 120 => ⟨S100000, .f32⟩
  | 121 => ⟨S_, .f32⟩
  | 122 => ⟨S100000, .f32⟩
  | 123 => ⟨S100000, .f32⟩
  | 124 => ⟨S100000x1, .f32⟩
  | 125 => ⟨S100000x128, .f32⟩
  | 126 => ⟨S100000x128, .f32⟩
  | 127 => ⟨S100000x128, .f32⟩
  | _ => ⟨S100000x128, .f32⟩

abbrev hbmTy0_1 (i : Nat) : BufTy := match i % 128 with
  | 0 => ⟨S1x128, .f32⟩
  | 1 => ⟨S100000x128, .f32⟩
  | 2 => ⟨S100000x128, .f32⟩
  | 3 => ⟨S100000x128, .f32⟩
  | 4 => ⟨S100000x128, .f32⟩
  | 5 => ⟨S100000x128, .f32⟩
  | 6 => ⟨S_, .f32⟩
  | 7 => ⟨S100000, .f32⟩
  | 8 => ⟨S100000x1, .f32⟩
  | 9 => ⟨S100000x1, .f32⟩
  | 10 => ⟨S_, .f32⟩
  | 11 => ⟨S100000x1, .f32⟩
  | 12 => ⟨S100000x1, .f32⟩
  | 13 => ⟨S100000x128, .f32⟩
  | 14 => ⟨S100000x128, .f32⟩
  | 15 => ⟨S100000x128, .f32⟩
  | 16 => ⟨S1x2x500000, .i32⟩
  | 17 => ⟨S2x500000, .i32⟩
  | 18 => ⟨S1x128x128, .f32⟩
  | 19 => ⟨S128x128, .f32⟩
  | 20 => ⟨S1x128, .f32⟩
  | 21 => ⟨S128, .f32⟩
  | 22 => ⟨S1x128x128, .f32⟩
  | 23 => ⟨S128x128, .f32⟩
  | 24 => ⟨S1x128x128, .f32⟩
  | 25 => ⟨S128x128, .f32⟩
  | 26 => ⟨S1x128, .f32⟩
  | 27 => ⟨S128, .f32⟩
  | 28 => ⟨S1x500000, .i32⟩
  | 29 => ⟨S500000, .i32⟩
  | 30 => ⟨S1x500000, .i32⟩
  | 31 => ⟨S500000, .i32⟩
  | 32 => ⟨S100000x128, .f32⟩
  | 33 => ⟨S1x128, .f32⟩
  | 34 => ⟨S100000x128, .f32⟩
  | 35 => ⟨S100000x128, .f32⟩
  | 36 => ⟨S_, .f32⟩
  | 37 => ⟨S100000x128, .f32⟩
  | 38 => ⟨S100000x128, .f32⟩
  | 39 => ⟨S_, .i32⟩
  | 40 => ⟨S500000, .i32⟩
  | 41 => ⟨S500000, .i1⟩
  | 42 => ⟨S_, .i32⟩
  | 43 => ⟨S500000, .i32⟩
  | 44 => ⟨S500000, .i32⟩
  | 45 => ⟨S500000, .i32⟩
  | 46 => ⟨S500000x1, .i32⟩
  | 47 => ⟨S500000x128, .f32⟩
  | 48 => ⟨S_, .f32⟩
  | 49 => ⟨S100000x128, .f32⟩
  | 50 => ⟨S500000x1, .i32⟩
  | 51 => ⟨S100000x128, .f32⟩
  | 52 => ⟨S_, .f32⟩
  | 53 => ⟨S500000, .f32⟩
  | 54 => ⟨S_, .f32⟩
  | 55 => ⟨S100000, .f32⟩
  | 56 => ⟨S500000x1, .i32⟩
  | 57 => ⟨S100000, .f32⟩
  | 58 => ⟨S_, .f32⟩
  | 59 => ⟨S100000, .f32⟩
  | 60 => ⟨S100000, .f32⟩
  | 61 => ⟨S100000x1, .f32⟩
  | 62 => ⟨S100000x128, .f32⟩
  | 63 => ⟨S100000x128, .f32⟩
  | 64 => ⟨S100000x128, .f32⟩
  | 65 => ⟨S1x128, .f32⟩
  | 66 => ⟨S100000x128, .f32⟩
  | 67 => ⟨S100000x128, .f32⟩
  | 68 => ⟨S100000x128, .f32⟩
  | 69 => ⟨S100000x128, .f32⟩
  | 70 => ⟨S100000x128, .f32⟩
  | 71 => ⟨S_, .f32⟩
  | 72 => ⟨S100000, .f32⟩
  | 73 => ⟨S100000x1, .f32⟩
  | 74 => ⟨S100000x1, .f32⟩
  | 75 => ⟨S_, .f32⟩
  | 76 => ⟨S100000x1, .f32⟩
  | 77 => ⟨S100000x1, .f32⟩
  | 78 => ⟨S100000x128, .f32⟩
  | 79 => ⟨S100000x128, .f32⟩
  | 80 => ⟨S100000x128, .f32⟩
  | 81 => ⟨S_, .f32⟩
  | 82 => ⟨S100000x128, .f32⟩
  | 83 => ⟨S100000x128, .f32⟩
  | 84 => ⟨S_, .f32⟩
  | 85 => ⟨S100000x128, .f32⟩
  | 86 => ⟨S100000x128, .f32⟩
  | 87 => ⟨S1x128, .f32⟩
  | 88 => ⟨S128, .f32⟩
  | 89 => ⟨S1x128, .f32⟩
  | 90 => ⟨S128, .f32⟩
  | 91 => ⟨S_, .f32⟩
  | 92 => ⟨S100000, .f32⟩
  | 93 => ⟨S100000x1, .f32⟩
  | 94 => ⟨S_, .f32⟩
  | 95 => ⟨S100000x1, .f32⟩
  | 96 => ⟨S100000x1, .f32⟩
  | 97 => ⟨S100000x128, .f32⟩
  | 98 => ⟨S100000x128, .f32⟩
  | 99 => ⟨S100000x128, .f32⟩
  | 100 => ⟨S_, .f32⟩
  | 101 => ⟨S100000, .f32⟩
  | 102 => ⟨S100000x1, .f32⟩
  | 103 => ⟨S_, .f32⟩
  | 104 => ⟨S100000x1, .f32⟩
  | 105 => ⟨S100000x1, .f32⟩
  | 106 => ⟨S100000x128, .f32⟩
  | 107 => ⟨S100000x128, .f32⟩
  | 108 => ⟨S_, .f32⟩
  | 109 => ⟨S100000x1, .f32⟩
  | 110 => ⟨S100000x1, .f32⟩
  | 111 => ⟨S100000x1, .f32⟩
  | 112 => ⟨S100000x128, .f32⟩
  | 113 => ⟨S100000x128, .f32⟩
  | 114 => ⟨S1x128, .f32⟩
  | 115 => ⟨S100000x128, .f32⟩
  | 116 => ⟨S100000x128, .f32⟩
  | 117 => ⟨S1x128, .f32⟩
  | 118 => ⟨S100000x128, .f32⟩
  | 119 => ⟨S100000x128, .f32⟩
  | 120 => ⟨S1x2x500000, .i32⟩
  | 121 => ⟨S2x500000, .i32⟩
  | 122 => ⟨S1x1x128x128, .f32⟩
  | 123 => ⟨S128x128, .f32⟩
  | 124 => ⟨S1x1x128, .f32⟩
  | 125 => ⟨S128, .f32⟩
  | 126 => ⟨S1x1x128x128, .f32⟩
  | 127 => ⟨S128x128, .f32⟩
  | _ => ⟨S100000x128, .f32⟩

abbrev hbmTy0_2 (i : Nat) : BufTy := match i % 128 with
  | 0 => ⟨S1x500000, .i32⟩
  | 1 => ⟨S500000, .i32⟩
  | 2 => ⟨S1x500000, .i32⟩
  | 3 => ⟨S500000, .i32⟩
  | 4 => ⟨S_, .i32⟩
  | 5 => ⟨S500000, .i32⟩
  | 6 => ⟨S500000, .i1⟩
  | 7 => ⟨S_, .i32⟩
  | 8 => ⟨S500000, .i32⟩
  | 9 => ⟨S500000, .i32⟩
  | 10 => ⟨S500000, .i32⟩
  | 11 => ⟨S500000x1, .i32⟩
  | 12 => ⟨S500000x128, .f32⟩
  | 13 => ⟨S_, .f32⟩
  | 14 => ⟨S100000x128, .f32⟩
  | 15 => ⟨S500000x1, .i32⟩
  | 16 => ⟨S100000x128, .f32⟩
  | 17 => ⟨S_, .f32⟩
  | 18 => ⟨S500000, .f32⟩
  | 19 => ⟨S_, .f32⟩
  | 20 => ⟨S100000, .f32⟩
  | 21 => ⟨S500000x1, .i32⟩
  | 22 => ⟨S100000, .f32⟩
  | 23 => ⟨S_, .f32⟩
  | 24 => ⟨S100000, .f32⟩
  | 25 => ⟨S100000, .f32⟩
  | 26 => ⟨S100000x1, .f32⟩
  | 27 => ⟨S100000x128, .f32⟩
  | 28 => ⟨S100000x128, .f32⟩
  | 29 => ⟨S100000x128, .f32⟩
  | 30 => ⟨S1x128, .f32⟩
  | 31 => ⟨S100000x128, .f32⟩
  | 32 => ⟨S100000x128, .f32⟩
  | 33 => ⟨S100000x128, .f32⟩
  | 34 => ⟨S100000x128, .f32⟩
  | 35 => ⟨S_, .f32⟩
  | 36 => ⟨S100000x128, .f32⟩
  | 37 => ⟨S100000x128, .f32⟩
  | 38 => ⟨S1x2x500000, .i32⟩
  | 39 => ⟨S2x500000, .i32⟩
  | 40 => ⟨S1x1x128x128, .f32⟩
  | 41 => ⟨S128x128, .f32⟩
  | 42 => ⟨S1x1x128, .f32⟩
  | 43 => ⟨S128, .f32⟩
  | 44 => ⟨S1x1x128x128, .f32⟩
  | 45 => ⟨S128x128, .f32⟩
  | 46 => ⟨S1x500000, .i32⟩
  | 47 => ⟨S500000, .i32⟩
  | 48 => ⟨S1x500000, .i32⟩
  | 49 => ⟨S500000, .i32⟩
  | 50 => ⟨S_, .i32⟩
  | 51 => ⟨S500000, .i32⟩
  | 52 => ⟨S500000, .i1⟩
  | 53 => ⟨S_, .i32⟩
  | 54 => ⟨S500000, .i32⟩
  | 55 => ⟨S500000, .i32⟩
  | 56 => ⟨S500000, .i32⟩
  | 57 => ⟨S500000x1, .i32⟩
  | 58 => ⟨S500000x128, .f32⟩
  | 59 => ⟨S_, .f32⟩
  | 60 => ⟨S100000x128, .f32⟩
  | 61 => ⟨S500000x1, .i32⟩
  | 62 => ⟨S100000x128, .f32⟩
  | 63 => ⟨S_, .f32⟩
  | 64 => ⟨S500000, .f32⟩
  | 65 => ⟨S_, .f32⟩
  | 66 => ⟨S100000, .f32⟩
  | 67 => ⟨S500000x1, .i32⟩
  | 68 => ⟨S100000, .f32⟩
  | 69 => ⟨S_, .f32⟩
  | 70 => ⟨S100000, .f32⟩
  | 71 => ⟨S100000, .f32⟩
  | 72 => ⟨S100000x1, .f32⟩
  | 73 => ⟨S100000x128, .f32⟩
  | 74 => ⟨S100000x128, .f32⟩
  | 75 => ⟨S100000x128, .f32⟩
  | 76 => ⟨S1x128, .f32⟩
  | 77 => ⟨S100000x128, .f32⟩
  | 78 => ⟨S100000x128, .f32⟩
  | 79 => ⟨S100000x128, .f32⟩
  | 80 => ⟨S100000x128, .f32⟩
  | 81 => ⟨S100000x128, .f32⟩
  | 82 => ⟨S1x2x500000, .i32⟩
  | 83 => ⟨S2x500000, .i32⟩
  | 84 => ⟨S1x1x128x128, .f32⟩
  | 85 => ⟨S128x128, .f32⟩
  | 86 => ⟨S1x1x128, .f32⟩
  | 87 => ⟨S128, .f32⟩
  | 88 => ⟨S1x1x128x128, .f32⟩
  | 89 => ⟨S128x128, .f32⟩
  | 90 => ⟨S1x500000, .i32⟩
  | 91 => ⟨S500000, .i32⟩
  | 92 => ⟨S1x500000, .i32⟩
  | 93 => ⟨S500000, .i32⟩
  | 94 => ⟨S_, .i32⟩
  | 95 => ⟨S500000, .i32⟩
  | 96 => ⟨S500000, .i1⟩
  | 97 => ⟨S_, .i32⟩
  | 98 => ⟨S500000, .i32⟩
  | 99 => ⟨S500000, .i32⟩
  | 100 => ⟨S500000, .i32⟩
  | 101 => ⟨S500000x1, .i32⟩
  | 102 => ⟨S500000x128, .f32⟩
  | 103 => ⟨S_, .f32⟩
  | 104 => ⟨S100000x128, .f32⟩
  | 105 => ⟨S500000x1, .i32⟩
  | 106 => ⟨S100000x128, .f32⟩
  | 107 => ⟨S_, .f32⟩
  | 108 => ⟨S500000, .f32⟩
  | 109 => ⟨S_, .f32⟩
  | 110 => ⟨S100000, .f32⟩
  | 111 => ⟨S500000x1, .i32⟩
  | 112 => ⟨S100000, .f32⟩
  | 113 => ⟨S_, .f32⟩
  | 114 => ⟨S100000, .f32⟩
  | 115 => ⟨S100000, .f32⟩
  | 116 => ⟨S100000x1, .f32⟩
  | 117 => ⟨S100000x128, .f32⟩
  | 118 => ⟨S100000x128, .f32⟩
  | 119 => ⟨S100000x128, .f32⟩
  | 120 => ⟨S1x128, .f32⟩
  | 121 => ⟨S100000x128, .f32⟩
  | 122 => ⟨S100000x128, .f32⟩
  | 123 => ⟨S100000x128, .f32⟩
  | 124 => ⟨S100000x128, .f32⟩
  | 125 => ⟨S100000x128, .f32⟩
  | 126 => ⟨S_, .f32⟩
  | 127 => ⟨S100000x128, .f32⟩
  | _ => ⟨S100000x128, .f32⟩

abbrev hbmTy0_3 (i : Nat) : BufTy := match i % 128 with
  | 0 => ⟨S100000x128, .f32⟩
  | 1 => ⟨S_, .f32⟩
  | 2 => ⟨S100000x128, .f32⟩
  | 3 => ⟨S100000x128, .f32⟩
  | 4 => ⟨S1x128, .f32⟩
  | 5 => ⟨S128, .f32⟩
  | 6 => ⟨S1x128, .f32⟩
  | 7 => ⟨S128, .f32⟩
  | 8 => ⟨S_, .f32⟩
  | 9 => ⟨S100000, .f32⟩
  | 10 => ⟨S100000x1, .f32⟩
  | 11 => ⟨S_, .f32⟩
  | 12 => ⟨S100000x1, .f32⟩
  | 13 => ⟨S100000x1, .f32⟩
  | 14 => ⟨S100000x128, .f32⟩
  | 15 => ⟨S100000x128, .f32⟩
  | 16 => ⟨S100000x128, .f32⟩
  | 17 => ⟨S_, .f32⟩
  | 18 => ⟨S100000, .f32⟩
  | 19 => ⟨S100000x1, .f32⟩
  | 20 => ⟨S_, .f32⟩
  | 21 => ⟨S100000x1, .f32⟩
  | 22 => ⟨S100000x1, .f32⟩
  | 23 => ⟨S100000x128, .f32⟩
  | 24 => ⟨S100000x128, .f32⟩
  | 25 => ⟨S_, .f32⟩
  | 26 => ⟨S100000x1, .f32⟩
  | 27 => ⟨S100000x1, .f32⟩
  | 28 => ⟨S100000x1, .f32⟩
  | 29 => ⟨S100000x128, .f32⟩
  | 30 => ⟨S100000x128, .f32⟩
  | 31 => ⟨S1x128, .f32⟩
  | 32 => ⟨S100000x128, .f32⟩
  | 33 => ⟨S100000x128, .f32⟩
  | 34 => ⟨S1x128, .f32⟩
  | 35 => ⟨S100000x128, .f32⟩
  | 36 => ⟨S100000x128, .f32⟩
  | 37 => ⟨S1x2x500000, .i32⟩
  | 38 => ⟨S2x500000, .i32⟩
  | 39 => ⟨S1x1x128x128, .f32⟩
  | 40 => ⟨S128x128, .f32⟩
  | 41 => ⟨S1x1x128, .f32⟩
  | 42 => ⟨S128, .f32⟩
  | 43 => ⟨S1x1x128x128, .f32⟩
  | 44 => ⟨S128x128, .f32⟩
  | 45 => ⟨S1x500000, .i32⟩
  | 46 => ⟨S500000, .i32⟩
  | 47 => ⟨S1x500000, .i32⟩
  | 48 => ⟨S500000, .i32⟩
  | 49 => ⟨S_, .i32⟩
  | 50 => ⟨S500000, .i32⟩
  | 51 => ⟨S500000, .i1⟩
  | 52 => ⟨S_, .i32⟩
  | 53 => ⟨S500000, .i32⟩
  | 54 => ⟨S500000, .i32⟩
  | 55 => ⟨S500000, .i32⟩
  | 56 => ⟨S500000x1, .i32⟩
  | 57 => ⟨S500000x128, .f32⟩
  | 58 => ⟨S_, .f32⟩
  | 59 => ⟨S100000x128, .f32⟩
  | 60 => ⟨S500000x1, .i32⟩
  | 61 => ⟨S100000x128, .f32⟩
  | 62 => ⟨S_, .f32⟩
  | 63 => ⟨S500000, .f32⟩
  | 64 => ⟨S_, .f32⟩
  | 65 => ⟨S100000, .f32⟩
  | 66 => ⟨S500000x1, .i32⟩
  | 67 => ⟨S100000, .f32⟩
  | 68 => ⟨S_, .f32⟩
  | 69 => ⟨S100000, .f32⟩
  | 70 => ⟨S100000, .f32⟩
  | 71 => ⟨S100000x1, .f32⟩
  | 72 => ⟨S100000x128, .f32⟩
  | 73 => ⟨S100000x128, .f32⟩
  | 74 => ⟨S100000x128, .f32⟩
  | 75 => ⟨S1x128, .f32⟩
  | 76 => ⟨S100000x128, .f32⟩
  | 77 => ⟨S100000x128, .f32⟩
  | 78 => ⟨S100000x128, .f32⟩
  | 79 => ⟨S100000x128, .f32⟩
  | 80 => ⟨S_, .f32⟩
  | 81 => ⟨S100000x128, .f32⟩
  | 82 => ⟨S100000x128, .f32⟩
  | 83 => ⟨S1x2x500000, .i32⟩
  | 84 => ⟨S2x500000, .i32⟩
  | 85 => ⟨S1x1x128x128, .f32⟩
  | 86 => ⟨S128x128, .f32⟩
  | 87 => ⟨S1x1x128, .f32⟩
  | 88 => ⟨S128, .f32⟩
  | 89 => ⟨S1x1x128x128, .f32⟩
  | 90 => ⟨S128x128, .f32⟩
  | 91 => ⟨S1x500000, .i32⟩
  | 92 => ⟨S500000, .i32⟩
  | 93 => ⟨S1x500000, .i32⟩
  | 94 => ⟨S500000, .i32⟩
  | 95 => ⟨S_, .i32⟩
  | 96 => ⟨S500000, .i32⟩
  | 97 => ⟨S500000, .i1⟩
  | 98 => ⟨S_, .i32⟩
  | 99 => ⟨S500000, .i32⟩
  | 100 => ⟨S500000, .i32⟩
  | 101 => ⟨S500000, .i32⟩
  | 102 => ⟨S500000x1, .i32⟩
  | 103 => ⟨S500000x128, .f32⟩
  | 104 => ⟨S_, .f32⟩
  | 105 => ⟨S100000x128, .f32⟩
  | 106 => ⟨S500000x1, .i32⟩
  | 107 => ⟨S100000x128, .f32⟩
  | 108 => ⟨S_, .f32⟩
  | 109 => ⟨S500000, .f32⟩
  | 110 => ⟨S_, .f32⟩
  | 111 => ⟨S100000, .f32⟩
  | 112 => ⟨S500000x1, .i32⟩
  | 113 => ⟨S100000, .f32⟩
  | 114 => ⟨S_, .f32⟩
  | 115 => ⟨S100000, .f32⟩
  | 116 => ⟨S100000, .f32⟩
  | 117 => ⟨S100000x1, .f32⟩
  | 118 => ⟨S100000x128, .f32⟩
  | 119 => ⟨S100000x128, .f32⟩
  | 120 => ⟨S100000x128, .f32⟩
  | 121 => ⟨S1x128, .f32⟩
  | 122 => ⟨S100000x128, .f32⟩
  | 123 => ⟨S100000x128, .f32⟩
  | 124 => ⟨S100000x128, .f32⟩
  | 125 => ⟨S100000x128, .f32⟩
  | 126 => ⟨S100000x128, .f32⟩
  | 127 => ⟨S1x2x500000, .i32⟩
  | _ => ⟨S100000x128, .f32⟩

abbrev hbmTy0_4 (i : Nat) : BufTy := match i % 128 with
  | 0 => ⟨S2x500000, .i32⟩
  | 1 => ⟨S1x1x128x128, .f32⟩
  | 2 => ⟨S128x128, .f32⟩
  | 3 => ⟨S1x1x128, .f32⟩
  | 4 => ⟨S128, .f32⟩
  | 5 => ⟨S1x1x128x128, .f32⟩
  | 6 => ⟨S128x128, .f32⟩
  | 7 => ⟨S1x500000, .i32⟩
  | 8 => ⟨S500000, .i32⟩
  | 9 => ⟨S1x500000, .i32⟩
  | 10 => ⟨S500000, .i32⟩
  | 11 => ⟨S_, .i32⟩
  | 12 => ⟨S500000, .i32⟩
  | 13 => ⟨S500000, .i1⟩
  | 14 => ⟨S_, .i32⟩
  | 15 => ⟨S500000, .i32⟩
  | 16 => ⟨S500000, .i32⟩
  | 17 => ⟨S500000, .i32⟩
  | 18 => ⟨S500000x1, .i32⟩
  | 19 => ⟨S500000x128, .f32⟩
  | 20 => ⟨S_, .f32⟩
  | 21 => ⟨S100000x128, .f32⟩
  | 22 => ⟨S500000x1, .i32⟩
  | 23 => ⟨S100000x128, .f32⟩
  | 24 => ⟨S_, .f32⟩
  | 25 => ⟨S500000, .f32⟩
  | 26 => ⟨S_, .f32⟩
  | 27 => ⟨S100000, .f32⟩
  | 28 => ⟨S500000x1, .i32⟩
  | 29 => ⟨S100000, .f32⟩
  | 30 => ⟨S_, .f32⟩
  | 31 => ⟨S100000, .f32⟩
  | 32 => ⟨S100000, .f32⟩
  | 33 => ⟨S100000x1, .f32⟩
  | 34 => ⟨S100000x128, .f32⟩
  | 35 => ⟨S100000x128, .f32⟩
  | 36 => ⟨S100000x128, .f32⟩
  | 37 => ⟨S1x128, .f32⟩
  | 38 => ⟨S100000x128, .f32⟩
  | 39 => ⟨S100000x128, .f32⟩
  | 40 => ⟨S100000x128, .f32⟩
  | 41 => ⟨S100000x128, .f32⟩
  | 42 => ⟨S100000x128, .f32⟩
  | 43 => ⟨S_, .f32⟩
  | 44 => ⟨S100000x128, .f32⟩
  | 45 => ⟨S100000x128, .f32⟩
  | _ => ⟨S100000x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_call0_cst : Ref sig .tc := ⟨.hbm, 32, rfl⟩
abbrev main_call0_v0 : Ref sig .tc := ⟨.hbm, 33, rfl⟩
abbrev main_v20 : Ref sig .tc := ⟨.hbm, 34, rfl⟩
abbrev main_c : Ref sig .tc := ⟨.hbm, 35, rfl⟩
abbrev main_v21 : Ref sig .tc := ⟨.hbm, 36, rfl⟩
abbrev main_v22 : Ref sig .tc := ⟨.hbm, 37, rfl⟩
abbrev main_c_0 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_1 : Ref sig .tc := ⟨.hbm, 48, rfl⟩
abbrev main_v31 : Ref sig .tc := ⟨.hbm, 49, rfl⟩
abbrev main_cst_2 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_3 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_call1_v0 : Ref sig .tc := ⟨.hbm, 66, rfl⟩
abbrev main_call1_cst : Ref sig .tc := ⟨.hbm, 67, rfl⟩
abbrev main_call1_v1 : Ref sig .tc := ⟨.hbm, 68, rfl⟩
abbrev main_call1_v2 : Ref sig .tc := ⟨.hbm, 69, rfl⟩
abbrev main_v46 : Ref sig .tc := ⟨.hbm, 70, rfl⟩
abbrev main_cst_4 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_5 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_call2_cst : Ref sig .tc := ⟨.hbm, 99, rfl⟩
abbrev main_call2_v0 : Ref sig .tc := ⟨.hbm, 100, rfl⟩
abbrev main_v73 : Ref sig .tc := ⟨.hbm, 101, rfl⟩
abbrev main_c_6 : Ref sig .tc := ⟨.hbm, 102, rfl⟩
abbrev main_v74 : Ref sig .tc := ⟨.hbm, 103, rfl⟩
abbrev main_v75 : Ref sig .tc := ⟨.hbm, 104, rfl⟩
abbrev main_c_7 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_cst_8 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_cst_9 : Ref sig .tc := ⟨.hbm, 115, rfl⟩
abbrev main_v84 : Ref sig .tc := ⟨.hbm, 116, rfl⟩
abbrev main_cst_10 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_cst_11 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_call3_v0 : Ref sig .tc := ⟨.hbm, 133, rfl⟩
abbrev main_call3_cst : Ref sig .tc := ⟨.hbm, 134, rfl⟩
abbrev main_call3_v1 : Ref sig .tc := ⟨.hbm, 135, rfl⟩
abbrev main_call3_v2 : Ref sig .tc := ⟨.hbm, 136, rfl⟩
abbrev main_v99 : Ref sig .tc := ⟨.hbm, 137, rfl⟩
abbrev main_cst_12 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_call4_cst : Ref sig .tc := ⟨.hbm, 164, rfl⟩
abbrev main_call4_v0 : Ref sig .tc := ⟨.hbm, 165, rfl⟩
abbrev main_v125 : Ref sig .tc := ⟨.hbm, 166, rfl⟩
abbrev main_c_13 : Ref sig .tc := ⟨.hbm, 167, rfl⟩
abbrev main_v126 : Ref sig .tc := ⟨.hbm, 168, rfl⟩
abbrev main_v127 : Ref sig .tc := ⟨.hbm, 169, rfl⟩
abbrev main_c_14 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_cst_15 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_cst_16 : Ref sig .tc := ⟨.hbm, 180, rfl⟩
abbrev main_v136 : Ref sig .tc := ⟨.hbm, 181, rfl⟩
abbrev main_cst_17 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_cst_18 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_call5_v0 : Ref sig .tc := ⟨.hbm, 198, rfl⟩
abbrev main_call5_cst : Ref sig .tc := ⟨.hbm, 199, rfl⟩
abbrev main_call5_v1 : Ref sig .tc := ⟨.hbm, 200, rfl⟩
abbrev main_call5_v2 : Ref sig .tc := ⟨.hbm, 201, rfl⟩
abbrev main_v151 : Ref sig .tc := ⟨.hbm, 202, rfl⟩
abbrev main_cst_19 : Ref sig .tc := ⟨.hbm, 203, rfl⟩
abbrev main_v152 : Ref sig .tc := ⟨.hbm, 204, rfl⟩
abbrev main_v153 : Ref sig .tc := ⟨.hbm, 205, rfl⟩
abbrev main_v154 : Ref sig .tc := ⟨.hbm, 206, rfl⟩
abbrev main_v155 : Ref sig .tc := ⟨.hbm, 207, rfl⟩
abbrev main_v156 : Ref sig .tc := ⟨.hbm, 208, rfl⟩
abbrev main_cst_20 : Ref sig .tc := ⟨.hbm, 209, rfl⟩
abbrev main_v157 : Ref sig .tc := ⟨.hbm, 210, rfl⟩
abbrev main_v158 : Ref sig .tc := ⟨.hbm, 211, rfl⟩
abbrev main_call6_cst : Ref sig .tc := ⟨.hbm, 212, rfl⟩
abbrev main_call6_v0 : Ref sig .tc := ⟨.hbm, 213, rfl⟩
abbrev main_v159 : Ref sig .tc := ⟨.hbm, 214, rfl⟩
abbrev main_v160 : Ref sig .tc := ⟨.hbm, 215, rfl⟩
abbrev main_v161 : Ref sig .tc := ⟨.hbm, 216, rfl⟩
abbrev main_v162 : Ref sig .tc := ⟨.hbm, 217, rfl⟩
abbrev main_v163 : Ref sig .tc := ⟨.hbm, 218, rfl⟩
abbrev main_cst_21 : Ref sig .tc := ⟨.hbm, 219, rfl⟩
abbrev main_v164 : Ref sig .tc := ⟨.hbm, 220, rfl⟩
abbrev main_v165 : Ref sig .tc := ⟨.hbm, 221, rfl⟩
abbrev main_cst_22 : Ref sig .tc := ⟨.hbm, 222, rfl⟩
abbrev main_v166 : Ref sig .tc := ⟨.hbm, 223, rfl⟩
abbrev main_v167 : Ref sig .tc := ⟨.hbm, 224, rfl⟩
abbrev main_v168 : Ref sig .tc := ⟨.hbm, 225, rfl⟩
abbrev main_v169 : Ref sig .tc := ⟨.hbm, 226, rfl⟩
abbrev main_v170 : Ref sig .tc := ⟨.hbm, 227, rfl⟩
abbrev main_cst_23 : Ref sig .tc := ⟨.hbm, 228, rfl⟩
abbrev main_v171 : Ref sig .tc := ⟨.hbm, 229, rfl⟩
abbrev main_v172 : Ref sig .tc := ⟨.hbm, 230, rfl⟩
abbrev main_cst_24 : Ref sig .tc := ⟨.hbm, 231, rfl⟩
abbrev main_v173 : Ref sig .tc := ⟨.hbm, 232, rfl⟩
abbrev main_v174 : Ref sig .tc := ⟨.hbm, 233, rfl⟩
abbrev main_v175 : Ref sig .tc := ⟨.hbm, 234, rfl⟩
abbrev main_v176 : Ref sig .tc := ⟨.hbm, 235, rfl⟩
abbrev main_cst_25 : Ref sig .tc := ⟨.hbm, 236, rfl⟩
abbrev main_v177 : Ref sig .tc := ⟨.hbm, 237, rfl⟩
abbrev main_v178 : Ref sig .tc := ⟨.hbm, 238, rfl⟩
abbrev main_v179 : Ref sig .tc := ⟨.hbm, 239, rfl⟩
abbrev main_v180 : Ref sig .tc := ⟨.hbm, 240, rfl⟩
abbrev main_v181 : Ref sig .tc := ⟨.hbm, 241, rfl⟩
abbrev main_v182 : Ref sig .tc := ⟨.hbm, 242, rfl⟩
abbrev main_v183 : Ref sig .tc := ⟨.hbm, 243, rfl⟩
abbrev main_v184 : Ref sig .tc := ⟨.hbm, 244, rfl⟩
abbrev main_v185 : Ref sig .tc := ⟨.hbm, 245, rfl⟩
abbrev main_v186 : Ref sig .tc := ⟨.hbm, 246, rfl⟩
abbrev main_v187 : Ref sig .tc := ⟨.hbm, 247, rfl⟩
abbrev main_v188 : Ref sig .tc := ⟨.hbm, 248, rfl⟩
abbrev main_v189 : Ref sig .tc := ⟨.hbm, 249, rfl⟩
abbrev main_v190 : Ref sig .tc := ⟨.hbm, 250, rfl⟩
abbrev main_v191 : Ref sig .tc := ⟨.hbm, 251, rfl⟩
abbrev main_v192 : Ref sig .tc := ⟨.hbm, 252, rfl⟩
abbrev main_v193 : Ref sig .tc := ⟨.hbm, 253, rfl⟩
abbrev main_v194 : Ref sig .tc := ⟨.hbm, 254, rfl⟩
abbrev main_v195 : Ref sig .tc := ⟨.hbm, 255, rfl⟩
abbrev main_v196 : Ref sig .tc := ⟨.hbm, 256, rfl⟩
abbrev main_v197 : Ref sig .tc := ⟨.hbm, 257, rfl⟩
abbrev main_v198 : Ref sig .tc := ⟨.hbm, 258, rfl⟩
abbrev main_v199 : Ref sig .tc := ⟨.hbm, 259, rfl⟩
abbrev main_c_26 : Ref sig .tc := ⟨.hbm, 260, rfl⟩
abbrev main_v200 : Ref sig .tc := ⟨.hbm, 261, rfl⟩
abbrev main_v201 : Ref sig .tc := ⟨.hbm, 262, rfl⟩
abbrev main_c_27 : Ref sig .tc := ⟨.hbm, 263, rfl⟩
abbrev main_v202 : Ref sig .tc := ⟨.hbm, 264, rfl⟩
abbrev main_v203 : Ref sig .tc := ⟨.hbm, 265, rfl⟩
abbrev main_v204 : Ref sig .tc := ⟨.hbm, 266, rfl⟩
abbrev main_v205 : Ref sig .tc := ⟨.hbm, 267, rfl⟩
abbrev main_v206 : Ref sig .tc := ⟨.hbm, 268, rfl⟩
abbrev main_cst_28 : Ref sig .tc := ⟨.hbm, 269, rfl⟩
abbrev main_v207 : Ref sig .tc := ⟨.hbm, 270, rfl⟩
abbrev main_v208 : Ref sig .tc := ⟨.hbm, 271, rfl⟩
abbrev main_v209 : Ref sig .tc := ⟨.hbm, 272, rfl⟩
abbrev main_cst_29 : Ref sig .tc := ⟨.hbm, 273, rfl⟩
abbrev main_v210 : Ref sig .tc := ⟨.hbm, 274, rfl⟩
abbrev main_cst_30 : Ref sig .tc := ⟨.hbm, 275, rfl⟩
abbrev main_v211 : Ref sig .tc := ⟨.hbm, 276, rfl⟩
abbrev main_v212 : Ref sig .tc := ⟨.hbm, 277, rfl⟩
abbrev main_v213 : Ref sig .tc := ⟨.hbm, 278, rfl⟩
abbrev main_cst_31 : Ref sig .tc := ⟨.hbm, 279, rfl⟩
abbrev main_v214 : Ref sig .tc := ⟨.hbm, 280, rfl⟩
abbrev main_v215 : Ref sig .tc := ⟨.hbm, 281, rfl⟩
abbrev main_v216 : Ref sig .tc := ⟨.hbm, 282, rfl⟩
abbrev main_v217 : Ref sig .tc := ⟨.hbm, 283, rfl⟩
abbrev main_v218 : Ref sig .tc := ⟨.hbm, 284, rfl⟩
abbrev main_v219 : Ref sig .tc := ⟨.hbm, 285, rfl⟩
abbrev main_v220 : Ref sig .tc := ⟨.hbm, 286, rfl⟩
abbrev main_v221 : Ref sig .tc := ⟨.hbm, 287, rfl⟩
abbrev main_v222 : Ref sig .tc := ⟨.hbm, 288, rfl⟩
abbrev main_v223 : Ref sig .tc := ⟨.hbm, 289, rfl⟩
abbrev main_v224 : Ref sig .tc := ⟨.hbm, 290, rfl⟩
abbrev main_cst_32 : Ref sig .tc := ⟨.hbm, 291, rfl⟩
abbrev main_v225 : Ref sig .tc := ⟨.hbm, 292, rfl⟩
abbrev main_v226 : Ref sig .tc := ⟨.hbm, 293, rfl⟩
abbrev main_v227 : Ref sig .tc := ⟨.hbm, 294, rfl⟩
abbrev main_v228 : Ref sig .tc := ⟨.hbm, 295, rfl⟩
abbrev main_v229 : Ref sig .tc := ⟨.hbm, 296, rfl⟩
abbrev main_v230 : Ref sig .tc := ⟨.hbm, 297, rfl⟩
abbrev main_v231 : Ref sig .tc := ⟨.hbm, 298, rfl⟩
abbrev main_v232 : Ref sig .tc := ⟨.hbm, 299, rfl⟩
abbrev main_v233 : Ref sig .tc := ⟨.hbm, 300, rfl⟩
abbrev main_v234 : Ref sig .tc := ⟨.hbm, 301, rfl⟩
abbrev main_v235 : Ref sig .tc := ⟨.hbm, 302, rfl⟩
abbrev main_v236 : Ref sig .tc := ⟨.hbm, 303, rfl⟩
abbrev main_v237 : Ref sig .tc := ⟨.hbm, 304, rfl⟩
abbrev main_v238 : Ref sig .tc := ⟨.hbm, 305, rfl⟩
abbrev main_c_33 : Ref sig .tc := ⟨.hbm, 306, rfl⟩
abbrev main_v239 : Ref sig .tc := ⟨.hbm, 307, rfl⟩
abbrev main_v240 : Ref sig .tc := ⟨.hbm, 308, rfl⟩
abbrev main_c_34 : Ref sig .tc := ⟨.hbm, 309, rfl⟩
abbrev main_v241 : Ref sig .tc := ⟨.hbm, 310, rfl⟩
abbrev main_v242 : Ref sig .tc := ⟨.hbm, 311, rfl⟩
abbrev main_v243 : Ref sig .tc := ⟨.hbm, 312, rfl⟩
abbrev main_v244 : Ref sig .tc := ⟨.hbm, 313, rfl⟩
abbrev main_v245 : Ref sig .tc := ⟨.hbm, 314, rfl⟩
abbrev main_cst_35 : Ref sig .tc := ⟨.hbm, 315, rfl⟩
abbrev main_v246 : Ref sig .tc := ⟨.hbm, 316, rfl⟩
abbrev main_v247 : Ref sig .tc := ⟨.hbm, 317, rfl⟩
abbrev main_v248 : Ref sig .tc := ⟨.hbm, 318, rfl⟩
abbrev main_cst_36 : Ref sig .tc := ⟨.hbm, 319, rfl⟩
abbrev main_v249 : Ref sig .tc := ⟨.hbm, 320, rfl⟩
abbrev main_cst_37 : Ref sig .tc := ⟨.hbm, 321, rfl⟩
abbrev main_v250 : Ref sig .tc := ⟨.hbm, 322, rfl⟩
abbrev main_v251 : Ref sig .tc := ⟨.hbm, 323, rfl⟩
abbrev main_v252 : Ref sig .tc := ⟨.hbm, 324, rfl⟩
abbrev main_cst_38 : Ref sig .tc := ⟨.hbm, 325, rfl⟩
abbrev main_v253 : Ref sig .tc := ⟨.hbm, 326, rfl⟩
abbrev main_v254 : Ref sig .tc := ⟨.hbm, 327, rfl⟩
abbrev main_v255 : Ref sig .tc := ⟨.hbm, 328, rfl⟩
abbrev main_v256 : Ref sig .tc := ⟨.hbm, 329, rfl⟩
abbrev main_v257 : Ref sig .tc := ⟨.hbm, 330, rfl⟩
abbrev main_v258 : Ref sig .tc := ⟨.hbm, 331, rfl⟩
abbrev main_v259 : Ref sig .tc := ⟨.hbm, 332, rfl⟩
abbrev main_v260 : Ref sig .tc := ⟨.hbm, 333, rfl⟩
abbrev main_v261 : Ref sig .tc := ⟨.hbm, 334, rfl⟩
abbrev main_v262 : Ref sig .tc := ⟨.hbm, 335, rfl⟩
abbrev main_v263 : Ref sig .tc := ⟨.hbm, 336, rfl⟩
abbrev main_v264 : Ref sig .tc := ⟨.hbm, 337, rfl⟩
abbrev main_v265 : Ref sig .tc := ⟨.hbm, 338, rfl⟩
abbrev main_v266 : Ref sig .tc := ⟨.hbm, 339, rfl⟩
abbrev main_v267 : Ref sig .tc := ⟨.hbm, 340, rfl⟩
abbrev main_v268 : Ref sig .tc := ⟨.hbm, 341, rfl⟩
abbrev main_v269 : Ref sig .tc := ⟨.hbm, 342, rfl⟩
abbrev main_v270 : Ref sig .tc := ⟨.hbm, 343, rfl⟩
abbrev main_v271 : Ref sig .tc := ⟨.hbm, 344, rfl⟩
abbrev main_v272 : Ref sig .tc := ⟨.hbm, 345, rfl⟩
abbrev main_v273 : Ref sig .tc := ⟨.hbm, 346, rfl⟩
abbrev main_v274 : Ref sig .tc := ⟨.hbm, 347, rfl⟩
abbrev main_v275 : Ref sig .tc := ⟨.hbm, 348, rfl⟩
abbrev main_v276 : Ref sig .tc := ⟨.hbm, 349, rfl⟩
abbrev main_c_39 : Ref sig .tc := ⟨.hbm, 350, rfl⟩
abbrev main_v277 : Ref sig .tc := ⟨.hbm, 351, rfl⟩
abbrev main_v278 : Ref sig .tc := ⟨.hbm, 352, rfl⟩
abbrev main_c_40 : Ref sig .tc := ⟨.hbm, 353, rfl⟩
abbrev main_v279 : Ref sig .tc := ⟨.hbm, 354, rfl⟩
abbrev main_v280 : Ref sig .tc := ⟨.hbm, 355, rfl⟩
abbrev main_v281 : Ref sig .tc := ⟨.hbm, 356, rfl⟩
abbrev main_v282 : Ref sig .tc := ⟨.hbm, 357, rfl⟩
abbrev main_v283 : Ref sig .tc := ⟨.hbm, 358, rfl⟩
abbrev main_cst_41 : Ref sig .tc := ⟨.hbm, 359, rfl⟩
abbrev main_v284 : Ref sig .tc := ⟨.hbm, 360, rfl⟩
abbrev main_v285 : Ref sig .tc := ⟨.hbm, 361, rfl⟩
abbrev main_v286 : Ref sig .tc := ⟨.hbm, 362, rfl⟩
abbrev main_cst_42 : Ref sig .tc := ⟨.hbm, 363, rfl⟩
abbrev main_v287 : Ref sig .tc := ⟨.hbm, 364, rfl⟩
abbrev main_cst_43 : Ref sig .tc := ⟨.hbm, 365, rfl⟩
abbrev main_v288 : Ref sig .tc := ⟨.hbm, 366, rfl⟩
abbrev main_v289 : Ref sig .tc := ⟨.hbm, 367, rfl⟩
abbrev main_v290 : Ref sig .tc := ⟨.hbm, 368, rfl⟩
abbrev main_cst_44 : Ref sig .tc := ⟨.hbm, 369, rfl⟩
abbrev main_v291 : Ref sig .tc := ⟨.hbm, 370, rfl⟩
abbrev main_v292 : Ref sig .tc := ⟨.hbm, 371, rfl⟩
abbrev main_v293 : Ref sig .tc := ⟨.hbm, 372, rfl⟩
abbrev main_v294 : Ref sig .tc := ⟨.hbm, 373, rfl⟩
abbrev main_v295 : Ref sig .tc := ⟨.hbm, 374, rfl⟩
abbrev main_v296 : Ref sig .tc := ⟨.hbm, 375, rfl⟩
abbrev main_v297 : Ref sig .tc := ⟨.hbm, 376, rfl⟩
abbrev main_v298 : Ref sig .tc := ⟨.hbm, 377, rfl⟩
abbrev main_v299 : Ref sig .tc := ⟨.hbm, 378, rfl⟩
abbrev main_v300 : Ref sig .tc := ⟨.hbm, 379, rfl⟩
abbrev main_v301 : Ref sig .tc := ⟨.hbm, 380, rfl⟩
abbrev main_v302 : Ref sig .tc := ⟨.hbm, 381, rfl⟩
abbrev main_cst_45 : Ref sig .tc := ⟨.hbm, 382, rfl⟩
abbrev main_v303 : Ref sig .tc := ⟨.hbm, 383, rfl⟩
abbrev main_v304 : Ref sig .tc := ⟨.hbm, 384, rfl⟩
abbrev main_call7_cst : Ref sig .tc := ⟨.hbm, 385, rfl⟩
abbrev main_call7_v0 : Ref sig .tc := ⟨.hbm, 386, rfl⟩
abbrev main_v305 : Ref sig .tc := ⟨.hbm, 387, rfl⟩
abbrev main_v306 : Ref sig .tc := ⟨.hbm, 388, rfl⟩
abbrev main_v307 : Ref sig .tc := ⟨.hbm, 389, rfl⟩
abbrev main_v308 : Ref sig .tc := ⟨.hbm, 390, rfl⟩
abbrev main_v309 : Ref sig .tc := ⟨.hbm, 391, rfl⟩
abbrev main_cst_46 : Ref sig .tc := ⟨.hbm, 392, rfl⟩
abbrev main_v310 : Ref sig .tc := ⟨.hbm, 393, rfl⟩
abbrev main_v311 : Ref sig .tc := ⟨.hbm, 394, rfl⟩
abbrev main_cst_47 : Ref sig .tc := ⟨.hbm, 395, rfl⟩
abbrev main_v312 : Ref sig .tc := ⟨.hbm, 396, rfl⟩
abbrev main_v313 : Ref sig .tc := ⟨.hbm, 397, rfl⟩
abbrev main_v314 : Ref sig .tc := ⟨.hbm, 398, rfl⟩
abbrev main_v315 : Ref sig .tc := ⟨.hbm, 399, rfl⟩
abbrev main_v316 : Ref sig .tc := ⟨.hbm, 400, rfl⟩
abbrev main_cst_48 : Ref sig .tc := ⟨.hbm, 401, rfl⟩
abbrev main_v317 : Ref sig .tc := ⟨.hbm, 402, rfl⟩
abbrev main_v318 : Ref sig .tc := ⟨.hbm, 403, rfl⟩
abbrev main_cst_49 : Ref sig .tc := ⟨.hbm, 404, rfl⟩
abbrev main_v319 : Ref sig .tc := ⟨.hbm, 405, rfl⟩
abbrev main_v320 : Ref sig .tc := ⟨.hbm, 406, rfl⟩
abbrev main_v321 : Ref sig .tc := ⟨.hbm, 407, rfl⟩
abbrev main_v322 : Ref sig .tc := ⟨.hbm, 408, rfl⟩
abbrev main_cst_50 : Ref sig .tc := ⟨.hbm, 409, rfl⟩
abbrev main_v323 : Ref sig .tc := ⟨.hbm, 410, rfl⟩
abbrev main_v324 : Ref sig .tc := ⟨.hbm, 411, rfl⟩
abbrev main_v325 : Ref sig .tc := ⟨.hbm, 412, rfl⟩
abbrev main_v326 : Ref sig .tc := ⟨.hbm, 413, rfl⟩
abbrev main_v327 : Ref sig .tc := ⟨.hbm, 414, rfl⟩
abbrev main_v328 : Ref sig .tc := ⟨.hbm, 415, rfl⟩
abbrev main_v329 : Ref sig .tc := ⟨.hbm, 416, rfl⟩
abbrev main_v330 : Ref sig .tc := ⟨.hbm, 417, rfl⟩
abbrev main_v331 : Ref sig .tc := ⟨.hbm, 418, rfl⟩
abbrev main_v332 : Ref sig .tc := ⟨.hbm, 419, rfl⟩
abbrev main_v333 : Ref sig .tc := ⟨.hbm, 420, rfl⟩
abbrev main_v334 : Ref sig .tc := ⟨.hbm, 421, rfl⟩
abbrev main_v335 : Ref sig .tc := ⟨.hbm, 422, rfl⟩
abbrev main_v336 : Ref sig .tc := ⟨.hbm, 423, rfl⟩
abbrev main_v337 : Ref sig .tc := ⟨.hbm, 424, rfl⟩
abbrev main_v338 : Ref sig .tc := ⟨.hbm, 425, rfl⟩
abbrev main_v339 : Ref sig .tc := ⟨.hbm, 426, rfl⟩
abbrev main_v340 : Ref sig .tc := ⟨.hbm, 427, rfl⟩
abbrev main_v341 : Ref sig .tc := ⟨.hbm, 428, rfl⟩
abbrev main_v342 : Ref sig .tc := ⟨.hbm, 429, rfl⟩
abbrev main_v343 : Ref sig .tc := ⟨.hbm, 430, rfl⟩
abbrev main_v344 : Ref sig .tc := ⟨.hbm, 431, rfl⟩
abbrev main_v345 : Ref sig .tc := ⟨.hbm, 432, rfl⟩
abbrev main_c_51 : Ref sig .tc := ⟨.hbm, 433, rfl⟩
abbrev main_v346 : Ref sig .tc := ⟨.hbm, 434, rfl⟩
abbrev main_v347 : Ref sig .tc := ⟨.hbm, 435, rfl⟩
abbrev main_c_52 : Ref sig .tc := ⟨.hbm, 436, rfl⟩
abbrev main_v348 : Ref sig .tc := ⟨.hbm, 437, rfl⟩
abbrev main_v349 : Ref sig .tc := ⟨.hbm, 438, rfl⟩
abbrev main_v350 : Ref sig .tc := ⟨.hbm, 439, rfl⟩
abbrev main_v351 : Ref sig .tc := ⟨.hbm, 440, rfl⟩
abbrev main_v352 : Ref sig .tc := ⟨.hbm, 441, rfl⟩
abbrev main_cst_53 : Ref sig .tc := ⟨.hbm, 442, rfl⟩
abbrev main_v353 : Ref sig .tc := ⟨.hbm, 443, rfl⟩
abbrev main_v354 : Ref sig .tc := ⟨.hbm, 444, rfl⟩
abbrev main_v355 : Ref sig .tc := ⟨.hbm, 445, rfl⟩
abbrev main_cst_54 : Ref sig .tc := ⟨.hbm, 446, rfl⟩
abbrev main_v356 : Ref sig .tc := ⟨.hbm, 447, rfl⟩
abbrev main_cst_55 : Ref sig .tc := ⟨.hbm, 448, rfl⟩
abbrev main_v357 : Ref sig .tc := ⟨.hbm, 449, rfl⟩
abbrev main_v358 : Ref sig .tc := ⟨.hbm, 450, rfl⟩
abbrev main_v359 : Ref sig .tc := ⟨.hbm, 451, rfl⟩
abbrev main_cst_56 : Ref sig .tc := ⟨.hbm, 452, rfl⟩
abbrev main_v360 : Ref sig .tc := ⟨.hbm, 453, rfl⟩
abbrev main_v361 : Ref sig .tc := ⟨.hbm, 454, rfl⟩
abbrev main_v362 : Ref sig .tc := ⟨.hbm, 455, rfl⟩
abbrev main_v363 : Ref sig .tc := ⟨.hbm, 456, rfl⟩
abbrev main_v364 : Ref sig .tc := ⟨.hbm, 457, rfl⟩
abbrev main_v365 : Ref sig .tc := ⟨.hbm, 458, rfl⟩
abbrev main_v366 : Ref sig .tc := ⟨.hbm, 459, rfl⟩
abbrev main_v367 : Ref sig .tc := ⟨.hbm, 460, rfl⟩
abbrev main_v368 : Ref sig .tc := ⟨.hbm, 461, rfl⟩
abbrev main_v369 : Ref sig .tc := ⟨.hbm, 462, rfl⟩
abbrev main_v370 : Ref sig .tc := ⟨.hbm, 463, rfl⟩
abbrev main_cst_57 : Ref sig .tc := ⟨.hbm, 464, rfl⟩
abbrev main_v371 : Ref sig .tc := ⟨.hbm, 465, rfl⟩
abbrev main_v372 : Ref sig .tc := ⟨.hbm, 466, rfl⟩
abbrev main_v373 : Ref sig .tc := ⟨.hbm, 467, rfl⟩
abbrev main_v374 : Ref sig .tc := ⟨.hbm, 468, rfl⟩
abbrev main_v375 : Ref sig .tc := ⟨.hbm, 469, rfl⟩
abbrev main_v376 : Ref sig .tc := ⟨.hbm, 470, rfl⟩
abbrev main_v377 : Ref sig .tc := ⟨.hbm, 471, rfl⟩
abbrev main_v378 : Ref sig .tc := ⟨.hbm, 472, rfl⟩
abbrev main_v379 : Ref sig .tc := ⟨.hbm, 473, rfl⟩
abbrev main_v380 : Ref sig .tc := ⟨.hbm, 474, rfl⟩
abbrev main_v381 : Ref sig .tc := ⟨.hbm, 475, rfl⟩
abbrev main_v382 : Ref sig .tc := ⟨.hbm, 476, rfl⟩
abbrev main_v383 : Ref sig .tc := ⟨.hbm, 477, rfl⟩
abbrev main_v384 : Ref sig .tc := ⟨.hbm, 478, rfl⟩
abbrev main_c_58 : Ref sig .tc := ⟨.hbm, 479, rfl⟩
abbrev main_v385 : Ref sig .tc := ⟨.hbm, 480, rfl⟩
abbrev main_v386 : Ref sig .tc := ⟨.hbm, 481, rfl⟩
abbrev main_c_59 : Ref sig .tc := ⟨.hbm, 482, rfl⟩
abbrev main_v387 : Ref sig .tc := ⟨.hbm, 483, rfl⟩
abbrev main_v388 : Ref sig .tc := ⟨.hbm, 484, rfl⟩
abbrev main_v389 : Ref sig .tc := ⟨.hbm, 485, rfl⟩
abbrev main_v390 : Ref sig .tc := ⟨.hbm, 486, rfl⟩
abbrev main_v391 : Ref sig .tc := ⟨.hbm, 487, rfl⟩
abbrev main_cst_60 : Ref sig .tc := ⟨.hbm, 488, rfl⟩
abbrev main_v392 : Ref sig .tc := ⟨.hbm, 489, rfl⟩
abbrev main_v393 : Ref sig .tc := ⟨.hbm, 490, rfl⟩
abbrev main_v394 : Ref sig .tc := ⟨.hbm, 491, rfl⟩
abbrev main_cst_61 : Ref sig .tc := ⟨.hbm, 492, rfl⟩
abbrev main_v395 : Ref sig .tc := ⟨.hbm, 493, rfl⟩
abbrev main_cst_62 : Ref sig .tc := ⟨.hbm, 494, rfl⟩
abbrev main_v396 : Ref sig .tc := ⟨.hbm, 495, rfl⟩
abbrev main_v397 : Ref sig .tc := ⟨.hbm, 496, rfl⟩
abbrev main_v398 : Ref sig .tc := ⟨.hbm, 497, rfl⟩
abbrev main_cst_63 : Ref sig .tc := ⟨.hbm, 498, rfl⟩
abbrev main_v399 : Ref sig .tc := ⟨.hbm, 499, rfl⟩
abbrev main_v400 : Ref sig .tc := ⟨.hbm, 500, rfl⟩
abbrev main_v401 : Ref sig .tc := ⟨.hbm, 501, rfl⟩
abbrev main_v402 : Ref sig .tc := ⟨.hbm, 502, rfl⟩
abbrev main_v403 : Ref sig .tc := ⟨.hbm, 503, rfl⟩
abbrev main_v404 : Ref sig .tc := ⟨.hbm, 504, rfl⟩
abbrev main_v405 : Ref sig .tc := ⟨.hbm, 505, rfl⟩
abbrev main_v406 : Ref sig .tc := ⟨.hbm, 506, rfl⟩
abbrev main_v407 : Ref sig .tc := ⟨.hbm, 507, rfl⟩
abbrev main_v408 : Ref sig .tc := ⟨.hbm, 508, rfl⟩
abbrev main_v409 : Ref sig .tc := ⟨.hbm, 509, rfl⟩
abbrev main_v410 : Ref sig .tc := ⟨.hbm, 510, rfl⟩
abbrev main_v411 : Ref sig .tc := ⟨.hbm, 511, rfl⟩
abbrev main_v412 : Ref sig .tc := ⟨.hbm, 512, rfl⟩
abbrev main_v413 : Ref sig .tc := ⟨.hbm, 513, rfl⟩
abbrev main_v414 : Ref sig .tc := ⟨.hbm, 514, rfl⟩
abbrev main_v415 : Ref sig .tc := ⟨.hbm, 515, rfl⟩
abbrev main_v416 : Ref sig .tc := ⟨.hbm, 516, rfl⟩
abbrev main_v417 : Ref sig .tc := ⟨.hbm, 517, rfl⟩
abbrev main_v418 : Ref sig .tc := ⟨.hbm, 518, rfl⟩
abbrev main_v419 : Ref sig .tc := ⟨.hbm, 519, rfl⟩
abbrev main_v420 : Ref sig .tc := ⟨.hbm, 520, rfl⟩
abbrev main_v421 : Ref sig .tc := ⟨.hbm, 521, rfl⟩
abbrev main_v422 : Ref sig .tc := ⟨.hbm, 522, rfl⟩
abbrev main_c_64 : Ref sig .tc := ⟨.hbm, 523, rfl⟩
abbrev main_v423 : Ref sig .tc := ⟨.hbm, 524, rfl⟩
abbrev main_v424 : Ref sig .tc := ⟨.hbm, 525, rfl⟩
abbrev main_c_65 : Ref sig .tc := ⟨.hbm, 526, rfl⟩
abbrev main_v425 : Ref sig .tc := ⟨.hbm, 527, rfl⟩
abbrev main_v426 : Ref sig .tc := ⟨.hbm, 528, rfl⟩
abbrev main_v427 : Ref sig .tc := ⟨.hbm, 529, rfl⟩
abbrev main_v428 : Ref sig .tc := ⟨.hbm, 530, rfl⟩
abbrev main_v429 : Ref sig .tc := ⟨.hbm, 531, rfl⟩
abbrev main_cst_66 : Ref sig .tc := ⟨.hbm, 532, rfl⟩
abbrev main_v430 : Ref sig .tc := ⟨.hbm, 533, rfl⟩
abbrev main_v431 : Ref sig .tc := ⟨.hbm, 534, rfl⟩
abbrev main_v432 : Ref sig .tc := ⟨.hbm, 535, rfl⟩
abbrev main_cst_67 : Ref sig .tc := ⟨.hbm, 536, rfl⟩
abbrev main_v433 : Ref sig .tc := ⟨.hbm, 537, rfl⟩
abbrev main_cst_68 : Ref sig .tc := ⟨.hbm, 538, rfl⟩
abbrev main_v434 : Ref sig .tc := ⟨.hbm, 539, rfl⟩
abbrev main_v435 : Ref sig .tc := ⟨.hbm, 540, rfl⟩
abbrev main_v436 : Ref sig .tc := ⟨.hbm, 541, rfl⟩
abbrev main_cst_69 : Ref sig .tc := ⟨.hbm, 542, rfl⟩
abbrev main_v437 : Ref sig .tc := ⟨.hbm, 543, rfl⟩
abbrev main_v438 : Ref sig .tc := ⟨.hbm, 544, rfl⟩
abbrev main_v439 : Ref sig .tc := ⟨.hbm, 545, rfl⟩
abbrev main_v440 : Ref sig .tc := ⟨.hbm, 546, rfl⟩
abbrev main_v441 : Ref sig .tc := ⟨.hbm, 547, rfl⟩
abbrev main_v442 : Ref sig .tc := ⟨.hbm, 548, rfl⟩
abbrev main_v443 : Ref sig .tc := ⟨.hbm, 549, rfl⟩
abbrev main_v444 : Ref sig .tc := ⟨.hbm, 550, rfl⟩
abbrev main_v445 : Ref sig .tc := ⟨.hbm, 551, rfl⟩
abbrev main_v446 : Ref sig .tc := ⟨.hbm, 552, rfl⟩
abbrev main_v447 : Ref sig .tc := ⟨.hbm, 553, rfl⟩
abbrev main_v448 : Ref sig .tc := ⟨.hbm, 554, rfl⟩
abbrev main_cst_70 : Ref sig .tc := ⟨.hbm, 555, rfl⟩
abbrev main_v449 : Ref sig .tc := ⟨.hbm, 556, rfl⟩
abbrev main_v450 : Ref sig .tc := ⟨.hbm, 557, rfl⟩

abbrev nD : Nat := 1
abbrev τ : Topo := Topo.v7x

variable {F : FTy → Type} [FloatOps F]

class Facts₀ : Prop where
  slices_S3x2x500000_S1x2x500000_0_0_0 : S3x2x500000.Slices ![0, 0, 0] S1x2x500000
  shapeCasts_S1x2x500000_S2x500000 : S1x2x500000.ShapeCasts S2x500000
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S_S500000 : S_.BroadcastsInDim S500000 (![] : Fin 0 → Fin S500000.rank)
  bcast_S500000_S500000x1_0 : S500000.BroadcastsInDim S500000x1 (![0] : Fin 1 → Fin S500000x1.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  reducesTo_S100000x128_S100000_d1 : S100000x128.ReducesTo [1] S100000
  h_S_ : 0 < S_.numel
  bcast_S_S100000x1 : S_.BroadcastsInDim S100000x1 (![] : Fin 0 → Fin S100000x1.rank)
  slices_S3x2x500000_S1x2x500000_1_0_0 : S3x2x500000.Slices ![1, 0, 0] S1x2x500000
  slices_S3x128x128_S1x128x128_1_0_0 : S3x128x128.Slices ![1, 0, 0] S1x128x128
  slices_S3x128_S1x128_1_0 : S3x128.Slices ![1, 0] S1x128
  slices_S3x2x500000_S1x2x500000_2_0_0 : S3x2x500000.Slices ![2, 0, 0] S1x2x500000
  slices_S3x128x128_S1x128x128_2_0_0 : S3x128x128.Slices ![2, 0, 0] S1x128x128
  slices_S3x128_S1x128_2_0 : S3x128.Slices ![2, 0] S1x128
  slices_S2x128_S1x128_0_0 : S2x128.Slices ![0, 0] S1x128
  slices_S2x3x128x128_S1x1x128x128_0_0_0_0 : S2x3x128x128.Slices ![0, 0, 0, 0] S1x1x128x128
  shapeCasts_S1x1x128x128_S128x128 : S1x1x128x128.ShapeCasts S128x128
  slices_S2x3x128_S1x1x128_0_0_0 : S2x3x128.Slices ![0, 0, 0] S1x1x128
  shapeCasts_S1x1x128_S128 : S1x1x128.ShapeCasts S128
  slices_S2x3x128x128_S1x1x128x128_0_1_0_0 : S2x3x128x128.Slices ![0, 1, 0, 0] S1x1x128x128
  slices_S2x3x128_S1x1x128_0_1_0 : S2x3x128.Slices ![0, 1, 0] S1x1x128
  slices_S2x3x128x128_S1x1x128x128_0_2_0_0 : S2x3x128x128.Slices ![0, 2, 0, 0] S1x1x128x128
  slices_S2x3x128_S1x1x128_0_2_0 : S2x3x128.Slices ![0, 2, 0] S1x1x128
  slices_S2x128_S1x128_1_0 : S2x128.Slices ![1, 0] S1x128
  slices_S2x3x128x128_S1x1x128x128_1_0_0_0 : S2x3x128x128.Slices ![1, 0, 0, 0] S1x1x128x128
  slices_S2x3x128_S1x1x128_1_0_0 : S2x3x128.Slices ![1, 0, 0] S1x1x128
  slices_S2x3x128x128_S1x1x128x128_1_1_0_0 : S2x3x128x128.Slices ![1, 1, 0, 0] S1x1x128x128
  slices_S2x3x128_S1x1x128_1_1_0 : S2x3x128.Slices ![1, 1, 0] S1x1x128
  slices_S2x3x128x128_S1x1x128x128_1_2_0_0 : S2x3x128x128.Slices ![1, 2, 0, 0] S1x1x128x128
  slices_S2x3x128_S1x1x128_1_2_0 : S2x3x128.Slices ![1, 2, 0] S1x1x128
  dot_S100000x128_S128x128_S100000x128_1_0_0_1_n_n_wf : DotDims.WF S100000x128 S128x128 S100000x128 [1] [0] [0] [1] [] []
  gather_S100000x128_S500000x1_S500000x128_1_0_n_n_0_1_1128_wf : GatherDims.WF S100000x128 S500000x1 S500000x128 [1] [0] [] [0] [] 1 ![1, 128]
  scatter_S100000x128_S500000x1_S500000x128_1_0_0_1_wf : ScatterDims.WF S100000x128 S500000x1 S500000x128 [1] [0] [0] 1
  scatter_S100000_S500000x1_S500000_n_0_0_1_wf : ScatterDims.WF S100000 S500000x1 S500000 [] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf

class Facts : Prop extends Facts₀ where

variable [Facts]
-- ==== Proof.KRegion0.lean ====
import proofs.«151081_j64338610094389_2_alg».proof.Proof.Gen.Kernel.Launch
import proofs.«151081_j64338610094389_2_alg».proof.Proof.Gen.Kernel.Skeleton
import proofs.«151081_j64338610094389_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding membership in a rectangle of these extents recurses once per coordinate of the long axis
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (Pipeline.UD sig nD τ) ℕ

-- what the TensorCore's buffers hold when the region is entered: everything below is stated at this parameter
variable (V : (c : Dev nD) → (b : Ref sig .tc) → Buf (Elt F) ((c : Thread nD τ).loc b))

/-! # Region 0: the projection kernel

Four windows: the node-feature block (4000×128), the three projection matrices (3×128×128) and their
biases (3×128) come in; the projected features, one 4000×128 slab per edge type, go out as a single
3×4000×128 block. -/

/-! ## The blocks the windows show -/

/-- The block window `w` shows at grid point `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature window's staging buffer holds its block at every point. The window is an input, never idle
    and uncut; the body leaves the buffer as it found it, so a point that does not refetch (the block index
    did not move) still finds the same block. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the matrices' window: its block index is constant, so it is fetched once and found in place
    at every later point. -/
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- And for the biases' window, likewise constant. -/
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes through -/

/-- The whole feature block. -/
abbrev rX0 : Rect S4000x128 := Rect.unit (s := S4000x128) ![0, 0] S4000x128.size inb_S4000x128_S4000x128_0_0
/-- Edge type `k`'s projection matrix: slab `k` of the matrices' block. -/
abbrev rW0_0 : Rect S3x128x128 := Rect.unit (s := S3x128x128) ![0, 0, 0] S1x128x128.size inb_S3x128x128_S1x128x128_0_0_0
abbrev rW0_1 : Rect S3x128x128 := Rect.unit (s := S3x128x128) ![1, 0, 0] S1x128x128.size inb_S3x128x128_S1x128x128_1_0_0
abbrev rW0_2 : Rect S3x128x128 := Rect.unit (s := S3x128x128) ![2, 0, 0] S1x128x128.size inb_S3x128x128_S1x128x128_2_0_0
/-- Edge type `k`'s bias: row `k` of the biases' block. -/
abbrev rB0_0 : Rect S3x128 := Rect.unit (s := S3x128) ![0, 0] S1x128.size inb_S3x128_S1x128_0_0
abbrev rB0_1 : Rect S3x128 := Rect.unit (s := S3x128) ![1, 0] S1x128.size inb_S3x128_S1x128_1_0
abbrev rB0_2 : Rect S3x128 := Rect.unit (s := S3x128) ![2, 0] S1x128.size inb_S3x128_S1x128_2_0
/-- Edge type `k`'s slab of the output block. -/
abbrev rO0_0 : Rect S3x4000x128 := Rect.unit (s := S3x4000x128) ![0, 0, 0] S1x4000x128.size inb_S3x4000x128_S1x4000x128_0_0_0
abbrev rO0_1 : Rect S3x4000x128 := Rect.unit (s := S3x4000x128) ![1, 0, 0] S1x4000x128.size inb_S3x4000x128_S1x4000x128_1_0_0
abbrev rO0_2 : Rect S3x4000x128 := Rect.unit (s := S3x4000x128) ![2, 0, 0] S1x4000x128.size inb_S3x4000x128_S1x4000x128_2_0_0

/-! ## What the body leaves in the output window's buffer -/

/-- The output buffer after the body, from the three input blocks (features, matrices, biases): the three
    slabs the body stores, the last store first. Slab `k` is the features, rounded to half width, times
    matrix `k`, plus bias `k`, clamped below at zero and rounded to half width again. -/
def out0_3 (x0 : Vec F S4000x128 .f32) (x1 : Vec F S3x128x128 .f32) (x2 : Vec F S3x128 .f32) : Vec F S3x4000x128 .bf16 :=
  View.canon [⟨rO0_2, k0_pay1 (k0_pay2 (View.ld x0 rX0)) (View.ld x1 rW0_2) (View.ld x2 rB0_2)⟩,
              ⟨rO0_1, k0_pay4 (View.ld x0 rX0) (View.ld x1 rW0_1) (View.ld x2 rB0_1)⟩,
              ⟨rO0_0, k0_pay3 (View.ld x0 rX0) (View.ld x1 rW0_0) (View.ld x2 rB0_0)⟩]

/-- The three slabs tile the block, so every index of it lies in one of them. -/
theorem cover0_3 (p2 p1 p0 : Vec F S1x4000x128 .bf16) (y : S3x4000x128.Idx) :
    ∃ pc ∈ ([⟨rO0_2, p2⟩, ⟨rO0_1, p1⟩, ⟨rO0_0, p0⟩] : List (View.Piece (Elt F) S3x4000x128 .bf16)), y ∈ pc.1.set :=
  View.cover_of_tiled [⟨rO0_2, p2⟩, ⟨rO0_1, p1⟩, ⟨rO0_0, p0⟩] S1x4000x128.size (by rfl) y

/-! ## The body's triple -/

set_option maxHeartbeats 4000000 in
/-- The kernel body on whole staging buffers — the three inputs' holding `x0`, `x1`, `x2`, the output's
    holding anything — runs to its end without fault, leaves the inputs as they were and the output at
    `out0_3` of them. The body reads each input through the rectangles above, and overwrites each output
    slab after a load of it whose value it never uses; the three stores cover the block, so nothing of
    what the buffer held before survives. -/
theorem sound_kernel0 (c : Dev nD) (E : Set ℕ) (i : grid0.Coords)
    (arg1 : Memref sig .tc .vmem S4000x128 .f32) (harg1 : arg1.IsWhole)
    (arg2 : Memref sig .tc .vmem S3x128x128 .f32) (harg2 : arg2.IsWhole)
    (arg3 : Memref sig .tc .vmem S3x128 .f32) (harg3 : arg3.IsWhole)
    (arg4 : Memref sig .tc .vmem S3x4000x128 .bf16) (harg4 : arg4.IsWhole)
    (x0 : Vec F S4000x128 .f32) (x1 : Vec F S3x128x128 .f32) (x2 : Vec F S3x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0_kernel i arg1 harg1 arg2 harg2 arg3 harg3 arg4 harg4) K := by
  simp only [cc0_kernel_eq_skeleton]; unfold cc0_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _ _ _)

/-! ## The proof data of the pipeline -/

/-- Pipeline 0's proof data on core `c`. The arrays are as the region finds them. After the body at point
    `t` each input's buffer still holds its block, and the output's holds `out0_3` of the three input
    blocks. The invariant is the one of kernels that touch nothing but their windows: the scoped rest
    and the generator register, handed in and given back untouched. Nothing is owed; every share is full. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- What the body finds in each input's buffer: its block, at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation at a generic point -/

/-- What the body is called with at point `t`: the invariant, the core's debts, and each window's current
    staging buffer at what the pipeline left in it. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- What it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the kernel's triple applies; the
    invariant and the debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KRegion1.lean ====
import proofs.«151081_j64338610094389_2_alg».proof.Proof.Gen.Kernel.Launch
import proofs.«151081_j64338610094389_2_alg».proof.Proof.Gen.Kernel.Skeleton
import proofs.«151081_j64338610094389_2_alg».proof.Proof.Gen.Kernel.Points
import proofs.«151081_j64338610094389_2_alg».proof.Proof.KRegion0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding membership in a rectangle of these extents recurses once per coordinate of the long axis
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (Pipeline.UD sig nD τ) ℕ

-- what the TensorCore's buffers hold when the region is entered: everything below is stated at this parameter
variable (V : (c : Dev nD) → (b : Ref sig .tc) → Buf (Elt F) ((c : Thread nD τ).loc b))

/-! # Region 1: the first layer's combine kernel

Eleven windows. Ten come in: three 4000×128 blocks of aggregated messages (one per edge type), the
nodes' own 4000×128 feature block, a 4000×3 block of per-type scale columns, the message matrices and the
self matrices (3×128×128 each), the biases (3×128), and the normalisation's gain and shift (128 each). One
goes out: the layer's 4000×128 block, stored whole by a single store. -/

/-! ## The blocks the windows show -/

/-- The block window `w` shows at grid point `t`, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's staging buffer holds its block at every point: the window is an input, never idle and
uncut, and the body leaves the buffer as it found it, so a point that does not refetch — the block index did not
move; for the weights it never moves — still finds the same block. One statement per window. -/

theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (Pipeline.UD sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (Pipeline.UD sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_6_of {c : Dev nD} (dat : Dat τ (Elt F) Unit ℕ (Pipeline.UD sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

theorem before1_7_of {c : Dev nD} (dat : Dat τ (Elt F) Unit ℕ (Pipeline.UD sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

theorem before1_8_of {c : Dev nD} (dat : Dat τ (Elt F) Unit ℕ (Pipeline.UD sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

theorem before1_9_of {c : Dev nD} (dat : Dat τ (Elt F) Unit ℕ (Pipeline.UD sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the combine kernels read and write through

All three combine kernels use the same ones. -/

/-- A whole 4000×128 block. -/
abbrev rX1 : Rect S4000x128 := Rect.unit (s := S4000x128) ![0, 0] S4000x128.size inb_S4000x128_S4000x128_0_0
/-- The whole block of scale columns. -/
abbrev rE1 : Rect S4000x3 := Rect.unit (s := S4000x3) ![0, 0] S4000x3.size inb_S4000x3_S4000x3_0_0
/-- Edge type `k`'s matrix: slab `k` of a 3×128×128 block. -/
abbrev rW1_0 : Rect S3x128x128 := Rect.unit (s := S3x128x128) ![0, 0, 0] S1x128x128.size inb_S3x128x128_S1x128x128_0_0_0
abbrev rW1_1 : Rect S3x128x128 := Rect.unit (s := S3x128x128) ![1, 0, 0] S1x128x128.size inb_S3x128x128_S1x128x128_1_0_0
abbrev rW1_2 : Rect S3x128x128 := Rect.unit (s := S3x128x128) ![2, 0, 0] S1x128x128.size inb_S3x128x128_S1x128x128_2_0_0
/-- Edge type `k`'s bias: row `k` of the 3×128 block. -/
abbrev rB1_0 : Rect S3x128 := Rect.unit (s := S3x128) ![0, 0] S1x128.size inb_S3x128_S1x128_0_0
abbrev rB1_1 : Rect S3x128 := Rect.unit (s := S3x128) ![1, 0] S1x128.size inb_S3x128_S1x128_1_0
abbrev rB1_2 : Rect S3x128 := Rect.unit (s := S3x128) ![2, 0] S1x128.size inb_S3x128_S1x128_2_0
/-- A whole 128-vector. -/
abbrev rV1 : Rect S128 := Rect.unit (s := S128) ![0] S128.size inb_S128_S128_0

/-! ## What the body leaves in the output window's buffer -/

/-- The output buffer after the body, from the ten input blocks in window order: the one whole store's
    payload. The names are the body's own values in the order it computes them; each `View.ld` is a load
    of an input block through one of the rectangles above. Part one reads the five activation blocks and the first edge type's weights, part two the other two types' weights, part three the normalisation vectors; the stored value is the sum of the two terms part three returns. -/
def out1_10 (x0 x1 x2 x3 : Vec F S4000x128 .f32) (x4 : Vec F S4000x3 .f32) (x5 x6 : Vec F S3x128x128 .f32) (x7 : Vec F S3x128 .f32) (x8 x9 : Vec F S128 .f32) : Vec F S4000x128 .f32 :=
  -- the first part's loads, and what it hands on
  let v0 := View.ld x3 rX1
  let v2 := View.ld x4 rE1
  let v4 := View.ld x0 rX1
  let v6 := View.ld x1 rX1
  let v8 := View.ld x2 rX1
  let v15 := View.ld x5 rW1_0
  let v18 := View.ld x6 rW1_0
  let v21 := View.ld x7 rB1_0
  let v1 := k1_pay2 v0
  let v3 := k1_pay3 v2
  let v7 := k1_pay4 v6
  let v9 := k1_pay5 v8
  let v10 : FVec F S4000x128 .f32 := k1_pay6
  let v28 := k1_pay7 v0 v2 v4 v15 v18 v21
  let v35 := k1_pay8 v0 v2 v4 v15 v18 v21
  -- the second part's
  let v42 := View.ld x5 rW1_1
  let v45 := View.ld x6 rW1_1
  let v48 := View.ld x7 rB1_1
  let v69 := View.ld x5 rW1_2
  let v72 := View.ld x6 rW1_2
  let v75 := View.ld x7 rB1_2
  let v64 := k1_pay9 v1 v3 v7 v10 v28 v35 v42 v45 v48
  let v68 := k1_pay10 v3 v9
  let v71 := k1_pay11 v69
  let v74 := k1_pay12 v72
  -- the third part's
  let v114 := View.ld x8 rV1
  let v119 := View.ld x9 rV1
  let v118 := k1_pay13 v1 v64 v68 v71 v74 v75 v114
  let v122 := k1_pay14 v119
  View.canon [⟨rX1, k1_pay1 v118 v122⟩]

/-- The one store is of the whole block, so it covers it. -/
theorem cover1_10 (p0 : Vec F S4000x128 .f32) (y : S4000x128.Idx) :
    ∃ pc ∈ ([⟨rX1, p0⟩] : List (View.Piece (Elt F) S4000x128 .f32)), y ∈ pc.1.set :=
  View.cover_of_tiled [⟨rX1, p0⟩] S4000x128.size (by rfl) y

/-! ## The body's triple -/

set_option maxHeartbeats 4000000 in
/-- The kernel body on whole staging buffers — the ten inputs' holding `x0` … `x9`, the output's holding
    anything — runs to its end without fault, leaves the inputs as they were and the output at `out1_10`
    of them. The body only loads from the inputs; it loads the output once, never using the value, and then
    overwrites it whole, so nothing of what the buffer held before survives. -/
theorem sound_kernel1 (c : Dev nD) (E : Set ℕ) (i : grid1.Coords)
    (arg1 : Memref sig .tc .vmem S4000x128 .f32) (harg1 : arg1.IsWhole)
    (arg2 : Memref sig .tc .vmem S4000x128 .f32) (harg2 : arg2.IsWhole)
    (arg3 : Memref sig .tc .vmem S4000x128 .f32) (harg3 : arg3.IsWhole)
    (arg4 : Memref sig .tc .vmem S4000x128 .f32) (harg4 : arg4.IsWhole)
    (arg5 : Memref sig .tc .vmem S4000x3 .f32) (harg5 : arg5.IsWhole)
    (arg6 : Memref sig .tc .vmem S3x128x128 .f32) (harg6 : arg6.IsWhole)
    (arg7 : Memref sig .tc .vmem S3x128x128 .f32) (harg7 : arg7.IsWhole)
    (arg8 : Memref sig .tc .vmem S3x128 .f32) (harg8 : arg8.IsWhole)
    (arg9 : Memref sig .tc .vmem S128 .f32) (harg9 : arg9.IsWhole)
    (arg10 : Memref sig .tc .vmem S128 .f32) (harg10 : arg10.IsWhole)
    (arg11 : Memref sig .tc .vmem S4000x128 .f32) (harg11 : arg11.IsWhole)
    (x0 x1 x2 x3 : Vec F S4000x128 .f32) (x4 : Vec F S4000x3 .f32) (x5 x6 : Vec F S3x128x128 .f32) (x7 : Vec F S3x128 .f32) (x8 x9 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
        ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
            ∗ owns (c : Thread nD τ) arg11 fullShare (out1_10 x0 x1 x2 x3 x4 x5 x6 x7 x8 x9)) -∗ K ⟨⟩))
      ⊢ wp frame (wpE (defs₀ (F := F)) Variants.none c none) E (cc1_kernel i arg1 harg1 arg2 harg2 arg3 harg3 arg4 harg4 arg5 harg5 arg6 harg6 arg7 harg7 arg8 harg8 arg9 harg9 arg10 harg10 arg11 harg11) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0; subst hf1; subst hf2; subst hf3; subst hf4; subst hf5; subst hf6; subst hf7; subst hf8; subst hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (cover1_10 _)

/-! ## The proof data of the pipeline -/

/-- Pipeline 1's proof data on core `c`. The arrays are as the region finds them. After the body at point
    `t` each input's buffer still holds its block, and the output's holds `out1_10` of the ten input
    blocks. The invariant is the one of kernels that touch nothing but their windows: the scoped rest and
    the generator register, handed in and given back untouched. Nothing is owed; every share is full. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => out1_10 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) :
    (dat1 V c).after 10 t = out1_10 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) := by dsimp only [dat1]

/-- What the body finds in each input's buffer: its block, at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d

/-! ## The body obligation at a generic point -/

/-- What the body is called with at point `t`: the invariant, the core's debts, and each window's current
    staging buffer at what the pipeline left in it. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d)))

/-- What it hands back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t))

/-- The body at any point: the inputs' buffers hold their blocks, so the kernel's triple applies; the
    invariant and the debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel1 c Set.univ (grid1.coords t) _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The pipeline library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KRegion2.lean ====
import proofs.«151081_j64338610094389_2_alg».proof.Proof.Gen.Kernel.Launch
import proofs.«151081_j64338610094389_2_alg».proof.Proof.Gen.Kernel.Skeleton
import proofs.«151081_j64338610094389_2_alg».proof.Proof.Gen.Kernel.Points
import proofs.«151081_j64338610094389_2_alg».proof.Proof.KRegion1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding membership in a rectangle of these extents recurses once per coordinate of the long axis
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (Pipeline.UD sig nD τ) ℕ

-- what the TensorCore's buffers hold when the region is entered: everything below is stated at this parameter
variable (V : (c : Dev nD) → (b : Ref sig .tc) → Buf (Elt F) ((c : Thread nD τ).loc b))

/-! # Region 2: the second layer's combine kernel

Eleven windows. Ten come in: three 4000×128 blocks of aggregated messages (one per edge type), the
nodes' own 4000×128 feature block, a 4000×3 block of per-type scale columns, the message matrices and the
self matrices (3×128×128 each), the biases (3×128), and the normalisation's gain and shift (128 each). One
goes out: the layer's 4000×128 block, stored whole by a single store. -/

/-! ## The blocks the windows show -/

/-- The block window `w` shows at grid point `t`, read off the window's array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! Each input window's staging buffer holds its block at every point: the window is an input, never idle and
uncut, and the body leaves the buffer as it found it, so a point that does not refetch — the block index did not
move; for the weights it never moves — still finds the same block. One statement per window. -/

theorem before2_0_of {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (Pipeline.UD sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (Pipeline.UD sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (Pipeline.UD sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (Pipeline.UD sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

theorem before2_5_of {c : Dev nD} (dat : Dat τ (Elt F) Unit ℕ (Pipeline.UD sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

theorem before2_6_of {c : Dev nD} (dat : Dat τ (Elt F) Unit ℕ (Pipeline.UD sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

theorem before2_7_of {c : Dev nD} (dat : Dat τ (Elt F) Unit ℕ (Pipeline.UD sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

theorem before2_8_of {c : Dev nD} (dat : Dat τ (Elt F) Unit ℕ (Pipeline.UD sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

theorem before2_9_of {c : Dev nD} (dat : Dat τ (Elt F) Unit ℕ (Pipeline.UD sig nD τ) ℕ cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)

/-! ## What the body leaves in the output window's buffer -/

/-- The output buffer after the body, from the ten input blocks in window order: the one whole store's
    payload. The names are the body's own values in the order it computes them; each `View.ld` is a load
    of an input block through one of the rectangles above. Part one reads the five activation blocks and the first edge type's weights, part two the other two types' weights; the normalisation vectors are read last, and the stored value is the normalised combination. -/
def out2_10 (x0 x1 x2 x3 : Vec F S4000x128 .f32) (x4 : Vec F S4000x3 .f32) (x5 x6 : Vec F S3x128x128 .f32) (x7 : Vec F S3x128 .f32) (x8 x9 : Vec F S128 .f32) : Vec F S4000x128 .f32 :=
  -- the first part's loads, and what it hands on
  let v0 := View.ld x3 rX1
  let v3 := View.ld x4 rE1
  let v5 := View.ld x0 rX1
  let v7 := View.ld x1 rX1
  let v9 := View.ld x2 rX1
  let v16 := View.ld x5 rW1_0
  let v19 := View.ld x6 rW1_0
  let v22 := View.ld x7 rB1_0
  let v2 := k2_pay2 v0
  let v4 := k2_pay3 v3
  let v10 := k2_pay4 v9
  let v30 := k2_pay5 v0 v3 v5 v16 v19 v22
  let v34 := k2_pay6 v3 v7
  -- the other two edge types' weights
  let v35 := View.ld x5 rW1_1
  let v38 := View.ld x6 rW1_1
  let v41 := View.ld x7 rB1_1
  let v54 := View.ld x5 rW1_2
  let v57 := View.ld x6 rW1_2
  let v60 := View.ld x7 rB1_2
  let v72 := k2_pay7 v2 v4 v10 v30 v34 v35 v38 v41 v54 v57 v60
  let v74 := k2_pay8 v2 v4 v10 v30 v34 v35 v38 v41 v54 v57 v60
  -- the normalisation vectors
  let v91 := View.ld x8 rV1
  let v96 := View.ld x9 rV1
  View.canon [⟨rX1, k2_pay1 v72 v74 v91 v96⟩]

/-- The one store is of the whole block, so it covers it. -/
theorem cover2_10 (p0 : Vec F S4000x128 .f32) (y : S4000x128.Idx) :
    ∃ pc ∈ ([⟨rX1, p0⟩] : List (View.Piece (Elt F) S4000x128 .f32)), y ∈ pc.1.set :=
  View.cover_of_tiled [⟨rX1, p0⟩] S4000x128.size (by rfl) y

/-! ## The body's triple -/

set_option maxHeartbeats 4000000 in
/-- The kernel body on whole staging buffers — the ten inputs' holding `x0` … `x9`, the output's holding
    anything — runs to its end without fault, leaves the inputs as they were and the output at `out2_10`
    of them. The body only loads from the inputs; it loads the output once, never using the value, and then
    overwrites it whole, so nothing of what the buffer held before survives. -/
theorem sound_kernel2 (c : Dev nD) (E : Set ℕ) (i : grid2.Coords)
    (arg1 : Memref sig .tc .vmem S4000x128 .f32) (harg1 : arg1.IsWhole)
    (arg2 : Memref sig .tc .vmem S4000x128 .f32) (harg2 : arg2.IsWhole)
    (arg3 : Memref sig .tc .vmem S4000x128 .f32) (harg3 : arg3.IsWhole)
    (arg4 : Memref sig .tc .vmem S4000x128 .f32) (harg4 : arg4.IsWhole)
    (arg5 : Memref sig .tc .vmem S4000x3 .f32) (harg5 : arg5.IsWhole)
    (arg6 : Memref sig .tc .vmem S3x128x128 .f32) (harg6 : arg6.IsWhole)
    (arg7 : Memref sig .tc .vmem S3x128x128 .f32) (harg7 : arg7.IsWhole)
    (arg8 : Memref sig .tc .vmem S3x128 .f32) (harg8 : arg8.IsWhole)
    (arg9 : Memref sig .tc .vmem S128 .f32) (harg9 : arg9.IsWhole)
    (arg10 : Memref sig .tc .vmem S128 .f32) (harg10 : arg10.IsWhole)
    (arg11 : Memref sig .tc .vmem S4000x128 .f32) (harg11 : arg11.IsWhole)
    (x0 x1 x2 x3 : Vec F S4000x128 .f32) (x4 : Vec F S4000x3 .f32) (x5 x6 : Vec F S3x128x128 .f32) (x7 : Vec F S3x128 .f32) (x8 x9 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
        ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
            ∗ owns (c : Thread nD τ) arg11 fullShare (out2_10 x0 x1 x2 x3 x4 x5 x6 x7 x8 x9)) -∗ K ⟨⟩))
      ⊢ wp frame (wpE (defs₀ (F := F)) Variants.none c none) E (cc2_kernel i arg1 harg1 arg2 harg2 arg3 harg3 arg4 harg4 arg5 harg5 arg6 harg6 arg7 harg7 arg8 harg8 arg9 harg9 arg10 harg10 arg11 harg11) K := by
  simp only [cc2_kernel_eq_skeleton]; unfold cc2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0; subst hf1; subst hf2; subst hf3; subst hf4; subst hf5; subst hf6; subst hf7; subst hf8; subst hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (cover2_10 _)

/-! ## The proof data of the pipeline -/

/-- Pipeline 2's proof data on core `c`. The arrays are as the region finds them. After the body at point
    `t` each input's buffer still holds its block, and the output's holds `out2_10` of the ten input
    blocks. The invariant is the one of kernels that touch nothing but their windows: the scoped rest and
    the generator register, handed in and given back untouched. Nothing is owed; every share is full. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => out2_10 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = iblk2 V c 9 t := by dsimp only [dat2]
theorem after2_10 (c : Dev nD) (t : Fin cfg2.N) :
    (dat2 V c).after 10 t = out2_10 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) := by dsimp only [dat2]

/-- What the body finds in each input's buffer: its block, at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d
theorem before2_9 (c : Dev nD) (t : Fin cfg2.N) (d) : (dat2 V c).before 9 t d = iblk2 V c 9 t :=
  before2_9_of V (dat2 V c) (A_eq2 V c 9) (after2_9 V c) t d

/-! ## The body obligation at a generic point -/

/-- What the body is called with at point `t`: the invariant, the core's debts, and each window's current
    staging buffer at what the pipeline left in it. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d))
    ∗ (∃ d, owns (c : Thread nD τ) (st2_10 t) fullShare ((dat2 V c).before 10 t d)))

/-- What it hands back. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t)
    ∗ owns (c : Thread nD τ) (st2_10 t) fullShare ((dat2 V c).after 10 t))

/-- The body at any point: the inputs' buffers hold their blocks, so the kernel's triple applies; the
    invariant and the debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9, after2_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel2 c Set.univ (grid2.coords t) _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The pipeline library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KRegion3.lean ====
import proofs.«151081_j64338610094389_2_alg».proof.Proof.Gen.Kernel.Launch
import proofs.«151081_j64338610094389_2_alg».proof.Proof.Gen.Kernel.Skeleton
import proofs.«151081_j64338610094389_2_alg».proof.Proof.Gen.Kernel.Points
import proofs.«151081_j64338610094389_2_alg».proof.Proof.KRegion2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding membership in a rectangle of these extents recurses once per coordinate of the long axis
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (Pipeline.UD sig nD τ) ℕ

-- what the TensorCore's buffers hold when the region is entered: everything below is stated at this parameter
variable (V : (c : Dev nD) → (b : Ref sig .tc) → Buf (Elt F) ((c : Thread nD τ).loc b))

/-! # Region 3: the last layer's combine kernel

Eleven windows. Ten come in: three 4000×128 blocks of aggregated messages (one per edge type), the
nodes' own 4000×128 feature block, a 4000×3 block of per-type scale columns, the message matrices and the
self matrices (3×128×128 each), the biases (3×128), and the normalisation's gain and shift (128 each). One
goes out: the layer's 4000×128 block, stored whole by a single store. -/

/-! ## The blocks the windows show -/

/-- The block window `w` shows at grid point `t`, read off the window's array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! Each input window's staging buffer holds its block at every point: the window is an input, never idle and
uncut, and the body leaves the buffer as it found it, so a point that does not refetch — the block index did not
move; for the weights it never moves — still finds the same block. One statement per window. -/

theorem before3_0_of {c : Dev nD} (dat : Dat τ (Elt F) Unit ℕ (Pipeline.UD sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (Pipeline.UD sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (Pipeline.UD sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem before3_3_of {c : Dev nD} (dat : Dat τ (Elt F) Unit ℕ (Pipeline.UD sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

theorem before3_4_of {c : Dev nD} (dat : Dat τ (Elt F) Unit ℕ (Pipeline.UD sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

theorem before3_5_of {c : Dev nD} (dat : Dat τ (Elt F) Unit ℕ (Pipeline.UD sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

theorem before3_6_of {c : Dev nD} (dat : Dat τ (Elt F) Unit ℕ (Pipeline.UD sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

theorem before3_7_of {c : Dev nD} (dat : Dat τ (Elt F) Unit ℕ (Pipeline.UD sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)

theorem before3_8_of {c : Dev nD} (dat : Dat τ (Elt F) Unit ℕ (Pipeline.UD sig nD τ) ℕ cfg3 c) (hA : dat.A 8 = V c (Pipeline.arrRef spec3 8))
    (hafter : ∀ t, dat.after 8 t = iblk3 V c 8 t) (t : Fin cfg3.N) (d) : dat.before 8 t d = iblk3 V c 8 t :=
  (dat.before_in_eq_fetched 8 rfl (fun _ => rfl) (fun _ _ _ => rfl) (fun t => by rw [hafter]; unfold Dat.blockOf iblk3; rw [hA]; try rfl) t d).trans
    (by unfold Dat.fetched Dat.blockOf iblk3; rw [hA]; try rfl)

theorem before3_9_of {c : Dev nD} (dat : Dat τ (Elt F) Unit ℕ (Pipeline.UD sig nD τ) ℕ cfg3 c) (hA : dat.A 9 = V c (Pipeline.arrRef spec3 9))
    (hafter : ∀ t, dat.after 9 t = iblk3 V c 9 t) (t : Fin cfg3.N) (d) : dat.before 9 t d = iblk3 V c 9 t :=
  (dat.before_in_eq_fetched 9 rfl (fun _ => rfl) (fun _ _ _ => rfl) (fun t => by rw [hafter]; unfold Dat.blockOf iblk3; rw [hA]; try rfl) t d).trans
    (by unfold Dat.fetched Dat.blockOf iblk3; rw [hA]; try rfl)

/-! ## What the body leaves in the output window's buffer -/

/-- The output buffer after the body, from the ten input blocks in window order: the one whole store's
    payload. The names are the body's own values in the order it computes them; each `View.ld` is a load
    of an input block through one of the rectangles above. Part one reads the five activation blocks and the first edge type's weights; the other two types' weights are read after it. This layer has no normalisation: the blocks \`x8\` and \`x9\` are staged but never read. -/
def out3_10 (x0 x1 x2 x3 : Vec F S4000x128 .f32) (x4 : Vec F S4000x3 .f32) (x5 x6 : Vec F S3x128x128 .f32) (x7 : Vec F S3x128 .f32) (x8 x9 : Vec F S128 .f32) : Vec F S4000x128 .f32 :=
  -- the first part's loads, and what it hands on
  let v0 := View.ld x3 rX1
  let v3 := View.ld x4 rE1
  let v5 := View.ld x0 rX1
  let v7 := View.ld x1 rX1
  let v9 := View.ld x2 rX1
  let v16 := View.ld x5 rW1_0
  let v19 := View.ld x6 rW1_0
  let v22 := View.ld x7 rB1_0
  let v2 := k3_pay2 v0
  let v4 := k3_pay3 v3
  let v10 := k3_pay4 v9
  let v30 := k3_pay5 v0 v3 v5 v16 v19 v22
  let v34 := k3_pay6 v3 v7
  -- the other two edge types' weights
  let v35 := View.ld x5 rW1_1
  let v38 := View.ld x6 rW1_1
  let v41 := View.ld x7 rB1_1
  let v54 := View.ld x5 rW1_2
  let v57 := View.ld x6 rW1_2
  let v60 := View.ld x7 rB1_2
  View.canon [⟨rX1, k3_pay1 v2 v4 v10 v30 v34 v35 v38 v41 v54 v57 v60⟩]

/-- The one store is of the whole block, so it covers it. -/
theorem cover3_10 (p0 : Vec F S4000x128 .f32) (y : S4000x128.Idx) :
    ∃ pc ∈ ([⟨rX1, p0⟩] : List (View.Piece (Elt F) S4000x128 .f32)), y ∈ pc.1.set :=
  View.cover_of_tiled [⟨rX1, p0⟩] S4000x128.size (by rfl) y

/-! ## The body's triple -/

set_option maxHeartbeats 4000000 in
/-- The kernel body on whole staging buffers — the ten inputs' holding `x0` … `x9`, the output's holding
    anything — runs to its end without fault, leaves the inputs as they were and the output at `out3_10`
    of them. The body only loads from the inputs; it loads the output once, never using the value, and then
    overwrites it whole, so nothing of what the buffer held before survives. -/
theorem sound_kernel3 (c : Dev nD) (E : Set ℕ) (i : grid3.Coords)
    (arg1 : Memref sig .tc .vmem S4000x128 .f32) (harg1 : arg1.IsWhole)
    (arg2 : Memref sig .tc .vmem S4000x128 .f32) (harg2 : arg2.IsWhole)
    (arg3 : Memref sig .tc .vmem S4000x128 .f32) (harg3 : arg3.IsWhole)
    (arg4 : Memref sig .tc .vmem S4000x128 .f32) (harg4 : arg4.IsWhole)
    (arg5 : Memref sig .tc .vmem S4000x3 .f32) (harg5 : arg5.IsWhole)
    (arg6 : Memref sig .tc .vmem S3x128x128 .f32) (harg6 : arg6.IsWhole)
    (arg7 : Memref sig .tc .vmem S3x128x128 .f32) (harg7 : arg7.IsWhole)
    (arg8 : Memref sig .tc .vmem S3x128 .f32) (harg8 : arg8.IsWhole)
    (arg9 : Memref sig .tc .vmem S128 .f32) (harg9 : arg9.IsWhole)
    (arg10 : Memref sig .tc .vmem S128 .f32) (harg10 : arg10.IsWhole)
    (arg11 : Memref sig .tc .vmem S4000x128 .f32) (harg11 : arg11.IsWhole)
    (x0 x1 x2 x3 : Vec F S4000x128 .f32) (x4 : Vec F S4000x3 .f32) (x5 x6 : Vec F S3x128x128 .f32) (x7 : Vec F S3x128 .f32) (x8 x9 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
        ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
            ∗ owns (c : Thread nD τ) arg11 fullShare (out3_10 x0 x1 x2 x3 x4 x5 x6 x7 x8 x9)) -∗ K ⟨⟩))
      ⊢ wp frame (wpE (defs₀ (F := F)) Variants.none c none) E (cc3_kernel i arg1 harg1 arg2 harg2 arg3 harg3 arg4 harg4 arg5 harg5 arg6 harg6 arg7 harg7 arg8 harg8 arg9 harg9 arg10 harg10 arg11 harg11) K := by
  simp only [cc3_kernel_eq_skeleton]; unfold cc3_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0; subst hf1; subst hf2; subst hf3; subst hf4; subst hf5; subst hf6; subst hf7; subst hf8; subst hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (cover3_10 _)

/-! ## The proof data of the pipeline -/

/-- Pipeline 3's proof data on core `c`. The arrays are as the region finds them. After the body at point
    `t` each input's buffer still holds its block, and the output's holds `out3_10` of the ten input
    blocks. The invariant is the one of kernels that touch nothing but their windows: the scoped rest and
    the generator register, handed in and given back untouched. Nothing is owed; every share is full. -/
def dat3 (c : Dev nD) : Dat τ (Elt F) Unit ℕ (Pipeline.UD sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => iblk3 V c 9 t
    | ⟨10, _⟩ => out3_10 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) : (dat3 V c).after 9 t = iblk3 V c 9 t := by dsimp only [dat3]
theorem after3_10 (c : Dev nD) (t : Fin cfg3.N) :
    (dat3 V c).after 10 t = out3_10 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) := by dsimp only [dat3]

/-- What the body finds in each input's buffer: its block, at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d
theorem before3_8 (c : Dev nD) (t : Fin cfg3.N) (d) : (dat3 V c).before 8 t d = iblk3 V c 8 t :=
  before3_8_of V (dat3 V c) (A_eq3 V c 8) (after3_8 V c) t d
theorem before3_9 (c : Dev nD) (t : Fin cfg3.N) (d) : (dat3 V c).before 9 t d = iblk3 V c 9 t :=
  before3_9_of V (dat3 V c) (A_eq3 V c 9) (after3_9 V c) t d

/-! ## The body obligation at a generic point -/

/-- What the body is called with at point `t`: the invariant, the core's debts, and each window's current
    staging buffer at what the pipeline left in it. -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d))
    ∗ (∃ d, owns (c : Thread nD τ) (st3_10 t) fullShare ((dat3 V c).before 10 t d)))

/-- What it hands back. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t)
    ∗ owns (c : Thread nD τ) (st3_10 t) fullShare ((dat3 V c).after 10 t))

/-- The body at any point: the inputs' buffers hold their blocks, so the kernel's triple applies; the
    invariant and the debts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8, before3_9]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9, after3_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel3 c Set.univ (grid3.coords t) _ _ _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The pipeline library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.KRun.lean ====
import proofs.«151081_j64338610094389_2_alg».proof.Proof.Gen.Kernel.Launch
import proofs.«151081_j64338610094389_2_alg».proof.Proof.Gen.Kernel.Skeleton
import proofs.«151081_j64338610094389_2_alg».proof.Proof.Gen.Kernel.Points
import proofs.«151081_j64338610094389_2_alg».proof.Proof.KRegion3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding membership in a rectangle of these extents recurses once per coordinate of the long axis
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! # The run of @main: four stretches of host operations, each followed by a kernel region

## The host stretches -/

/-! No host operation allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor

/-! The buffers each stretch writes, in order: one result per operation. No argument array is among them. -/
abbrev hostOps0_W : List (Ref sig .tc) := [main_cst, main_v0, main_v1, main_v2, main_cst_0, main_v3, main_v4, main_v5, main_cst_1, main_v6, main_v7, main_cst_2, main_v8, main_v9, main_v10, main_v11, main_cst_3, main_v12, main_v13, main_v14, main_cst_4, main_v15, main_v16, main_cst_5, main_v17, main_v18, main_v19, main_v20, main_cst_6, main_v21, main_v22, main_v23, main_cst_7, main_v24, main_v25, main_cst_8, main_v26, main_v27, main_v28, main_v29, main_v30, main_v31]
abbrev hostOps1_W : List (Ref sig .tc) := [main_v33, main_v34, main_v35, main_v36, main_v37, main_v38, main_c, main_v39, main_v40, main_c_9, main_v41, main_v42, main_v43, main_v44, main_v45, main_v46, main_cst_10, main_v47, main_v48, main_v49, main_v50, main_v51, main_v52, main_v53, main_v54, main_v55, main_c_11, main_v56, main_v57, main_c_12, main_v58, main_v59, main_v60, main_v61, main_v62, main_v63, main_cst_13, main_v64, main_v65, main_v66, main_v67, main_v68, main_v69, main_v70, main_v71, main_v72, main_c_14, main_v73, main_v74, main_c_15, main_v75, main_v76, main_v77, main_v78, main_v79, main_v80, main_cst_16, main_v81, main_v82, main_v83, main_v84, main_v85, main_v86, main_v87]
abbrev hostOps2_W : List (Ref sig .tc) := [main_cst_17, main_v89, main_cst_18, main_v90, main_v91, main_v92, main_v93, main_v94, main_v95, main_c_19, main_v96, main_v97, main_c_20, main_v98, main_v99, main_v100, main_v101, main_v102, main_v103, main_cst_21, main_v104, main_v105, main_v106, main_v107, main_v108, main_v109, main_v110, main_c_22, main_v111, main_v112, main_c_23, main_v113, main_v114, main_v115, main_v116, main_v117, main_v118, main_cst_24, main_v119, main_v120, main_v121, main_v122, main_v123, main_v124, main_v125, main_c_25, main_v126, main_v127, main_c_26, main_v128, main_v129, main_v130, main_v131, main_v132, main_v133, main_cst_27, main_v134, main_v135, main_v136, main_v137, main_v138, main_v139, main_v140, main_v141, main_v142, main_v143, main_v144, main_v145, main_v146]
abbrev hostOps3_W : List (Ref sig .tc) := [main_v148, main_v149, main_v150, main_v151, main_v152, main_c_28, main_v153, main_v154, main_c_29, main_v155, main_v156, main_v157, main_v158, main_v159, main_v160, main_cst_30, main_v161, main_v162, main_v163, main_v164, main_v165, main_v166, main_v167, main_c_31, main_v168, main_v169, main_c_32, main_v170, main_v171, main_v172, main_v173, main_v174, main_v175, main_cst_33, main_v176, main_v177, main_v178, main_v179, main_v180, main_v181, main_v182, main_c_34, main_v183, main_v184, main_c_35, main_v185, main_v186, main_v187, main_v188, main_v189, main_v190, main_cst_36, main_v191, main_v192, main_v193, main_v194, main_v195, main_v196, main_v197, main_v198, main_v199]

set_option maxRecDepth 8192 in
set_option maxHeartbeats 4000000 in
theorem hostOps0_writes : (hostOps0 : List (HloOp τ sig (Elt F))).Forall fun op => op.writes ⊆ (hostOps0_W.map (Proc.devRef (τ := τ) .tc)).toFinset := by
  simp only [List.Forall]
  repeat' apply And.intro
  all_goals first
    | (simp only [StableHlo.nullary_writes, StableHlo.unary_writes, StableHlo.binary_writes, StableHlo.ternary_writes, StableHlo.reshape_writes, StableHlo.nary_writes, Finset.singleton_subset_iff, List.mem_toFinset]; exact List.mem_map_of_mem (by decide))
    | trivial
set_option maxRecDepth 8192 in
set_option maxHeartbeats 4000000 in
theorem hostOps1_writes : (hostOps1 : List (HloOp τ sig (Elt F))).Forall fun op => op.writes ⊆ (hostOps1_W.map (Proc.devRef (τ := τ) .tc)).toFinset := by
  simp only [List.Forall]
  repeat' apply And.intro
  all_goals first
    | (simp only [StableHlo.nullary_writes, StableHlo.unary_writes, StableHlo.binary_writes, StableHlo.ternary_writes, StableHlo.reshape_writes, StableHlo.nary_writes, Finset.singleton_subset_iff, List.mem_toFinset]; exact List.mem_map_of_mem (by decide))
    | trivial
set_option maxRecDepth 8192 in
set_option maxHeartbeats 4000000 in
theorem hostOps2_writes : (hostOps2 : List (HloOp τ sig (Elt F))).Forall fun op => op.writes ⊆ (hostOps2_W.map (Proc.devRef (τ := τ) .tc)).toFinset := by
  simp only [List.Forall]
  repeat' apply And.intro
  all_goals first
    | (simp only [StableHlo.nullary_writes, StableHlo.unary_writes, StableHlo.binary_writes, StableHlo.ternary_writes, StableHlo.reshape_writes, StableHlo.nary_writes, Finset.singleton_subset_iff, List.mem_toFinset]; exact List.mem_map_of_mem (by decide))
    | trivial
set_option maxRecDepth 8192 in
set_option maxHeartbeats 4000000 in
theorem hostOps3_writes : (hostOps3 : List (HloOp τ sig (Elt F))).Forall fun op => op.writes ⊆ (hostOps3_W.map (Proc.devRef (τ := τ) .tc)).toFinset := by
  simp only [List.Forall]
  repeat' apply And.intro
  all_goals first
    | (simp only [StableHlo.nullary_writes, StableHlo.unary_writes, StableHlo.binary_writes, StableHlo.ternary_writes, StableHlo.reshape_writes, StableHlo.nary_writes, Finset.singleton_subset_iff, List.mem_toFinset]; exact List.mem_map_of_mem (by decide))
    | trivial

/-! ## The buffers' contents at each boundary: a fold from the launch memory

A host stretch leaves what its operations compute from what it found. A region leaves its windows' arrays at
what the pipeline's write-backs make of them — an input array as it was, the output array with every point's
block written — and every other buffer untouched. -/

/-- Core `c`'s buffers at launch. -/
abbrev W0 : Dev nD → Valuation τ sig (Elt F) := fun c b => (s₀ m ρ).mem ((c : Dev nD), b)
/-- The same read at the TensorCore's references. -/
abbrev V0 : (c : Dev nD) → (b : Ref sig .tc) → Buf (Elt F) ((c : Thread nD τ).loc b) := fun c b => W0 m ρ c b

/-- After host stretch 0: where region 0 is entered. -/
def W1 (c : Dev nD) : Valuation τ sig (Elt F) := StableHlo.after hostOps0 (W0 m ρ c)
abbrev V1 : (c : Dev nD) → (b : Ref sig .tc) → Buf (Elt F) ((c : Thread nD τ).loc b) := fun c b => W1 m ρ c b
/-- A buffer the stretch does not write is as before it. -/
theorem W1_keep (c : Dev nD) (r : Ref sig .tc) (h : r ∉ hostOps0_W) :
    W1 m ρ c (Proc.devRef .tc r) = W0 m ρ c (Proc.devRef .tc r) :=
  StableHlo.after_of_writes_sub hostOps0 _ hostOps0_writes h

/-- After region 0: its arrays at what the pipeline leaves, every other buffer as the region found it. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
/-- At region 0's exit each of its arrays holds what the pipeline leaves, and every other buffer what it held
    at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- An input array of region 0 is as the region found it: the pipeline only reads it. -/
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hw _).trans (A_eq0 (V1 m ρ) c w))

/-- After host stretch 1: where region 1 is entered. -/
def W3 (c : Dev nD) : Valuation τ sig (Elt F) := StableHlo.after hostOps1 (W2 m ρ c)
abbrev V3 : (c : Dev nD) → (b : Ref sig .tc) → Buf (Elt F) ((c : Thread nD τ).loc b) := fun c b => W3 m ρ c b
/-- A buffer the stretch does not write is as before it. -/
theorem W3_keep (c : Dev nD) (r : Ref sig .tc) (h : r ∉ hostOps1_W) :
    W3 m ρ c (Proc.devRef .tc r) = W2 m ρ c (Proc.devRef .tc r) :=
  StableHlo.after_of_writes_sub hostOps1 _ hostOps1_writes h

/-- After region 1: its arrays at what the pipeline leaves, every other buffer as the region found it. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
/-- At region 1's exit each of its arrays holds what the pipeline leaves, and every other buffer what it held
    at entry. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- An input array of region 1 is as the region found it: the pipeline only reads it. -/
theorem W4_in (c : Dev nD) (w : Fin cfg1.W) (hw : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hw _).trans (A_eq1 (V3 m ρ) c w))

/-- After host stretch 2: where region 2 is entered. -/
def W5 (c : Dev nD) : Valuation τ sig (Elt F) := StableHlo.after hostOps2 (W4 m ρ c)
abbrev V5 : (c : Dev nD) → (b : Ref sig .tc) → Buf (Elt F) ((c : Thread nD τ).loc b) := fun c b => W5 m ρ c b
/-- A buffer the stretch does not write is as before it. -/
theorem W5_keep (c : Dev nD) (r : Ref sig .tc) (h : r ∉ hostOps2_W) :
    W5 m ρ c (Proc.devRef .tc r) = W4 m ρ c (Proc.devRef .tc r) :=
  StableHlo.after_of_writes_sub hostOps2 _ hostOps2_writes h

/-- After region 2: its arrays at what the pipeline leaves, every other buffer as the region found it. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
/-- At region 2's exit each of its arrays holds what the pipeline leaves, and every other buffer what it held
    at entry. -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- An input array of region 2 is as the region found it: the pipeline only reads it. -/
theorem W6_in (c : Dev nD) (w : Fin cfg2.W) (hw : (cfg2.win w).isOut = false) :
    W6 m ρ c (Proc.devRef .tc (Pipeline.arrRef spec2 w)) = W5 m ρ c (Proc.devRef .tc (Pipeline.arrRef spec2 w)) :=
  (W6_arr m ρ c w).trans (((dat2 (V5 m ρ) c).arrAt_in w hw _).trans (A_eq2 (V5 m ρ) c w))

/-- After host stretch 3: where region 3 is entered. -/
def W7 (c : Dev nD) : Valuation τ sig (Elt F) := StableHlo.after hostOps3 (W6 m ρ c)
abbrev V7 : (c : Dev nD) → (b : Ref sig .tc) → Buf (Elt F) ((c : Thread nD τ).loc b) := fun c b => W7 m ρ c b
/-- A buffer the stretch does not write is as before it. -/
theorem W7_keep (c : Dev nD) (r : Ref sig .tc) (h : r ∉ hostOps3_W) :
    W7 m ρ c (Proc.devRef .tc r) = W6 m ρ c (Proc.devRef .tc r) :=
  StableHlo.after_of_writes_sub hostOps3 _ hostOps3_writes h

/-- After region 3: its arrays at what the pipeline leaves, every other buffer as the region found it. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
/-- At region 3's exit each of its arrays holds what the pipeline leaves, and every other buffer what it held
    at entry. -/
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)
/-- An input array of region 3 is as the region found it: the pipeline only reads it. -/
theorem W8_in (c : Dev nD) (w : Fin cfg3.W) (hw : (cfg3.win w).isOut = false) :
    W8 m ρ c (Proc.devRef .tc (Pipeline.arrRef spec3 w)) = W7 m ρ c (Proc.devRef .tc (Pipeline.arrRef spec3 w)) :=
  (W8_arr m ρ c w).trans (((dat3 (V7 m ρ) c).arrAt_in w hw _).trans (A_eq3 (V7 m ρ) c w))

/-! ### The arguments end as launched

No host operation writes an argument array, and a region either does not touch it or reads it through an
input window; so the fold at an argument's buffer walks back to the launch memory. -/
theorem W8_main_arg0 (c : Dev nD) : W8 m ρ c (Proc.devRef .tc main_arg0) = m ((c : Thread nD τ).loc main_arg0) :=
  calc W8 m ρ c (Proc.devRef .tc main_arg0)
    _ = W7 m ρ c (Proc.devRef .tc main_arg0) := W8_of_ne m ρ c main_arg0 (by decide)
    _ = W6 m ρ c (Proc.devRef .tc main_arg0) := W7_keep m ρ c main_arg0 (by decide)
    _ = W5 m ρ c (Proc.devRef .tc main_arg0) := W6_of_ne m ρ c main_arg0 (by decide)
    _ = W4 m ρ c (Proc.devRef .tc main_arg0) := W5_keep m ρ c main_arg0 (by decide)
    _ = W3 m ρ c (Proc.devRef .tc main_arg0) := W4_in m ρ c 3 rfl
    _ = W2 m ρ c (Proc.devRef .tc main_arg0) := W3_keep m ρ c main_arg0 (by decide)
    _ = W1 m ρ c (Proc.devRef .tc main_arg0) := W2_in m ρ c 0 rfl
    _ = W0 m ρ c (Proc.devRef .tc main_arg0) := W1_keep m ρ c main_arg0 (by decide)
    _ = m ((c : Thread nD τ).loc main_arg0) := rfl
theorem W8_main_arg1 (c : Dev nD) : W8 m ρ c (Proc.devRef .tc main_arg1) = m ((c : Thread nD τ).loc main_arg1) :=
  calc W8 m ρ c (Proc.devRef .tc main_arg1)
    _ = W7 m ρ c (Proc.devRef .tc main_arg1) := W8_of_ne m ρ c main_arg1 (by decide)
    _ = W6 m ρ c (Proc.devRef .tc main_arg1) := W7_keep m ρ c main_arg1 (by decide)
    _ = W5 m ρ c (Proc.devRef .tc main_arg1) := W6_of_ne m ρ c main_arg1 (by decide)
    _ = W4 m ρ c (Proc.devRef .tc main_arg1) := W5_keep m ρ c main_arg1 (by decide)
    _ = W3 m ρ c (Proc.devRef .tc main_arg1) := W4_of_ne m ρ c main_arg1 (by decide)
    _ = W2 m ρ c (Proc.devRef .tc main_arg1) := W3_keep m ρ c main_arg1 (by decide)
    _ = W1 m ρ c (Proc.devRef .tc main_arg1) := W2_of_ne m ρ c main_arg1 (by decide)
    _ = W0 m ρ c (Proc.devRef .tc main_arg1) := W1_keep m ρ c main_arg1 (by decide)
    _ = m ((c : Thread nD τ).loc main_arg1) := rfl
theorem W8_main_arg2 (c : Dev nD) : W8 m ρ c (Proc.devRef .tc main_arg2) = m ((c : Thread nD τ).loc main_arg2) :=
  calc W8 m ρ c (Proc.devRef .tc main_arg2)
    _ = W7 m ρ c (Proc.devRef .tc main_arg2) := W8_of_ne m ρ c main_arg2 (by decide)
    _ = W6 m ρ c (Proc.devRef .tc main_arg2) := W7_keep m ρ c main_arg2 (by decide)
    _ = W5 m ρ c (Proc.devRef .tc main_arg2) := W6_of_ne m ρ c main_arg2 (by decide)
    _ = W4 m ρ c (Proc.devRef .tc main_arg2) := W5_keep m ρ c main_arg2 (by decide)
    _ = W3 m ρ c (Proc.devRef .tc main_arg2) := W4_of_ne m ρ c main_arg2 (by decide)
    _ = W2 m ρ c (Proc.devRef .tc main_arg2) := W3_keep m ρ c main_arg2 (by decide)
    _ = W1 m ρ c (Proc.devRef .tc main_arg2) := W2_in m ρ c 1 rfl
    _ = W0 m ρ c (Proc.devRef .tc main_arg2) := W1_keep m ρ c main_arg2 (by decide)
    _ = m ((c : Thread nD τ).loc main_arg2) := rfl
theorem W8_main_arg3 (c : Dev nD) : W8 m ρ c (Proc.devRef .tc main_arg3) = m ((c : Thread nD τ).loc main_arg3) :=
  calc W8 m ρ c (Proc.devRef .tc main_arg3)
    _ = W7 m ρ c (Proc.devRef .tc main_arg3) := W8_of_ne m ρ c main_arg3 (by decide)
    _ = W6 m ρ c (Proc.devRef .tc main_arg3) := W7_keep m ρ c main_arg3 (by decide)
    _ = W5 m ρ c (Proc.devRef .tc main_arg3) := W6_of_ne m ρ c main_arg3 (by decide)
    _ = W4 m ρ c (Proc.devRef .tc main_arg3) := W5_keep m ρ c main_arg3 (by decide)
    _ = W3 m ρ c (Proc.devRef .tc main_arg3) := W4_of_ne m ρ c main_arg3 (by decide)
    _ = W2 m ρ c (Proc.devRef .tc main_arg3) := W3_keep m ρ c main_arg3 (by decide)
    _ = W1 m ρ c (Proc.devRef .tc main_arg3) := W2_in m ρ c 2 rfl
    _ = W0 m ρ c (Proc.devRef .tc main_arg3) := W1_keep m ρ c main_arg3 (by decide)
    _ = m ((c : Thread nD τ).loc main_arg3) := rfl
theorem W8_main_arg4 (c : Dev nD) : W8 m ρ c (Proc.devRef .tc main_arg4) = m ((c : Thread nD τ).loc main_arg4) :=
  calc W8 m ρ c (Proc.devRef .tc main_arg4)
    _ = W7 m ρ c (Proc.devRef .tc main_arg4) := W8_of_ne m ρ c main_arg4 (by decide)
    _ = W6 m ρ c (Proc.devRef .tc main_arg4) := W7_keep m ρ c main_arg4 (by decide)
    _ = W5 m ρ c (Proc.devRef .tc main_arg4) := W6_of_ne m ρ c main_arg4 (by decide)
    _ = W4 m ρ c (Proc.devRef .tc main_arg4) := W5_keep m ρ c main_arg4 (by decide)
    _ = W3 m ρ c (Proc.devRef .tc main_arg4) := W4_in m ρ c 5 rfl
    _ = W2 m ρ c (Proc.devRef .tc main_arg4) := W3_keep m ρ c main_arg4 (by decide)
    _ = W1 m ρ c (Proc.devRef .tc main_arg4) := W2_of_ne m ρ c main_arg4 (by decide)
    _ = W0 m ρ c (Proc.devRef .tc main_arg4) := W1_keep m ρ c main_arg4 (by decide)
    _ = m ((c : Thread nD τ).loc main_arg4) := rfl
theorem W8_main_arg5 (c : Dev nD) : W8 m ρ c (Proc.devRef .tc main_arg5) = m ((c : Thread nD τ).loc main_arg5) :=
  calc W8 m ρ c (Proc.devRef .tc main_arg5)
    _ = W7 m ρ c (Proc.devRef .tc main_arg5) := W8_of_ne m ρ c main_arg5 (by decide)
    _ = W6 m ρ c (Proc.devRef .tc main_arg5) := W7_keep m ρ c main_arg5 (by decide)
    _ = W5 m ρ c (Proc.devRef .tc main_arg5) := W6_of_ne m ρ c main_arg5 (by decide)
    _ = W4 m ρ c (Proc.devRef .tc main_arg5) := W5_keep m ρ c main_arg5 (by decide)
    _ = W3 m ρ c (Proc.devRef .tc main_arg5) := W4_in m ρ c 7 rfl
    _ = W2 m ρ c (Proc.devRef .tc main_arg5) := W3_keep m ρ c main_arg5 (by decide)
    _ = W1 m ρ c (Proc.devRef .tc main_arg5) := W2_of_ne m ρ c main_arg5 (by decide)
    _ = W0 m ρ c (Proc.devRef .tc main_arg5) := W1_keep m ρ c main_arg5 (by decide)
    _ = m ((c : Thread nD τ).loc main_arg5) := rfl
theorem W8_main_arg6 (c : Dev nD) : W8 m ρ c (Proc.devRef .tc main_arg6) = m ((c : Thread nD τ).loc main_arg6) :=
  calc W8 m ρ c (Proc.devRef .tc main_arg6)
    _ = W7 m ρ c (Proc.devRef .tc main_arg6) := W8_of_ne m ρ c main_arg6 (by decide)
    _ = W6 m ρ c (Proc.devRef .tc main_arg6) := W7_keep m ρ c main_arg6 (by decide)
    _ = W5 m ρ c (Proc.devRef .tc main_arg6) := W6_of_ne m ρ c main_arg6 (by decide)
    _ = W4 m ρ c (Proc.devRef .tc main_arg6) := W5_keep m ρ c main_arg6 (by decide)
    _ = W3 m ρ c (Proc.devRef .tc main_arg6) := W4_in m ρ c 6 rfl
    _ = W2 m ρ c (Proc.devRef .tc main_arg6) := W3_keep m ρ c main_arg6 (by decide)
    _ = W1 m ρ c (Proc.devRef .tc main_arg6) := W2_of_ne m ρ c main_arg6 (by decide)
    _ = W0 m ρ c (Proc.devRef .tc main_arg6) := W1_keep m ρ c main_arg6 (by decide)
    _ = m ((c : Thread nD τ).loc main_arg6) := rfl
theorem W8_main_arg7 (c : Dev nD) : W8 m ρ c (Proc.devRef .tc main_arg7) = m ((c : Thread nD τ).loc main_arg7) :=
  calc W8 m ρ c (Proc.devRef .tc main_arg7)
    _ = W7 m ρ c (Proc.devRef .tc main_arg7) := W8_of_ne m ρ c main_arg7 (by decide)
    _ = W6 m ρ c (Proc.devRef .tc main_arg7) := W7_keep m ρ c main_arg7 (by decide)
    _ = W5 m ρ c (Proc.devRef .tc main_arg7) := W6_of_ne m ρ c main_arg7 (by decide)
    _ = W4 m ρ c (Proc.devRef .tc main_arg7) := W5_keep m ρ c main_arg7 (by decide)
    _ = W3 m ρ c (Proc.devRef .tc main_arg7) := W4_of_ne m ρ c main_arg7 (by decide)
    _ = W2 m ρ c (Proc.devRef .tc main_arg7) := W3_keep m ρ c main_arg7 (by decide)
    _ = W1 m ρ c (Proc.devRef .tc main_arg7) := W2_of_ne m ρ c main_arg7 (by decide)
    _ = W0 m ρ c (Proc.devRef .tc main_arg7) := W1_keep m ρ c main_arg7 (by decide)
    _ = m ((c : Thread nD τ).loc main_arg7) := rfl
theorem W8_main_arg8 (c : Dev nD) : W8 m ρ c (Proc.devRef .tc main_arg8) = m ((c : Thread nD τ).loc main_arg8) :=
  calc W8 m ρ c (Proc.devRef .tc main_arg8)
    _ = W7 m ρ c (Proc.devRef .tc main_arg8) := W8_of_ne m ρ c main_arg8 (by decide)
    _ = W6 m ρ c (Proc.devRef .tc main_arg8) := W7_keep m ρ c main_arg8 (by decide)
    _ = W5 m ρ c (Proc.devRef .tc main_arg8) := W6_of_ne m ρ c main_arg8 (by decide)
    _ = W4 m ρ c (Proc.devRef .tc main_arg8) := W5_keep m ρ c main_arg8 (by decide)
    _ = W3 m ρ c (Proc.devRef .tc main_arg8) := W4_of_ne m ρ c main_arg8 (by decide)
    _ = W2 m ρ c (Proc.devRef .tc main_arg8) := W3_keep m ρ c main_arg8 (by decide)
    _ = W1 m ρ c (Proc.devRef .tc main_arg8) := W2_of_ne m ρ c main_arg8 (by decide)
    _ = W0 m ρ c (Proc.devRef .tc main_arg8) := W1_keep m ρ c main_arg8 (by decide)
    _ = m ((c : Thread nD τ).loc main_arg8) := rfl
theorem W8_main_arg9 (c : Dev nD) : W8 m ρ c (Proc.devRef .tc main_arg9) = m ((c : Thread nD τ).loc main_arg9) :=
  calc W8 m ρ c (Proc.devRef .tc main_arg9)
    _ = W7 m ρ c (Proc.devRef .tc main_arg9) := W8_of_ne m ρ c main_arg9 (by decide)
    _ = W6 m ρ c (Proc.devRef .tc main_arg9) := W7_keep m ρ c main_arg9 (by decide)
    _ = W5 m ρ c (Proc.devRef .tc main_arg9) := W6_of_ne m ρ c main_arg9 (by decide)
    _ = W4 m ρ c (Proc.devRef .tc main_arg9) := W5_keep m ρ c main_arg9 (by decide)
    _ = W3 m ρ c (Proc.devRef .tc main_arg9) := W4_of_ne m ρ c main_arg9 (by decide)
    _ = W2 m ρ c (Proc.devRef .tc main_arg9) := W3_keep m ρ c main_arg9 (by decide)
    _ = W1 m ρ c (Proc.devRef .tc main_arg9) := W2_of_ne m ρ c main_arg9 (by decide)
    _ = W0 m ρ c (Proc.devRef .tc main_arg9) := W1_keep m ρ c main_arg9 (by decide)
    _ = m ((c : Thread nD τ).loc main_arg9) := rfl
theorem W8_main_arg10 (c : Dev nD) : W8 m ρ c (Proc.devRef .tc main_arg10) = m ((c : Thread nD τ).loc main_arg10) :=
  calc W8 m ρ c (Proc.devRef .tc main_arg10)
    _ = W7 m ρ c (Proc.devRef .tc main_arg10) := W8_of_ne m ρ c main_arg10 (by decide)
    _ = W6 m ρ c (Proc.devRef .tc main_arg10) := W7_keep m ρ c main_arg10 (by decide)
    _ = W5 m ρ c (Proc.devRef .tc main_arg10) := W6_of_ne m ρ c main_arg10 (by decide)
    _ = W4 m ρ c (Proc.devRef .tc main_arg10) := W5_keep m ρ c main_arg10 (by decide)
    _ = W3 m ρ c (Proc.devRef .tc main_arg10) := W4_of_ne m ρ c main_arg10 (by decide)
    _ = W2 m ρ c (Proc.devRef .tc main_arg10) := W3_keep m ρ c main_arg10 (by decide)
    _ = W1 m ρ c (Proc.devRef .tc main_arg10) := W2_of_ne m ρ c main_arg10 (by decide)
    _ = W0 m ρ c (Proc.devRef .tc main_arg10) := W1_keep m ρ c main_arg10 (by decide)
    _ = m ((c : Thread nD τ).loc main_arg10) := rfl
theorem W8_main_arg11 (c : Dev nD) : W8 m ρ c (Proc.devRef .tc main_arg11) = m ((c : Thread nD τ).loc main_arg11) :=
  calc W8 m ρ c (Proc.devRef .tc main_arg11)
    _ = W7 m ρ c (Proc.devRef .tc main_arg11) := W8_of_ne m ρ c main_arg11 (by decide)
    _ = W6 m ρ c (Proc.devRef .tc main_arg11) := W7_keep m ρ c main_arg11 (by decide)
    _ = W5 m ρ c (Proc.devRef .tc main_arg11) := W6_of_ne m ρ c main_arg11 (by decide)
    _ = W4 m ρ c (Proc.devRef .tc main_arg11) := W5_keep m ρ c main_arg11 (by decide)
    _ = W3 m ρ c (Proc.devRef .tc main_arg11) := W4_of_ne m ρ c main_arg11 (by decide)
    _ = W2 m ρ c (Proc.devRef .tc main_arg11) := W3_keep m ρ c main_arg11 (by decide)
    _ = W1 m ρ c (Proc.devRef .tc main_arg11) := W2_of_ne m ρ c main_arg11 (by decide)
    _ = W0 m ρ c (Proc.devRef .tc main_arg11) := W1_keep m ρ c main_arg11 (by decide)
    _ = m ((c : Thread nD τ).loc main_arg11) := rfl

/-! ## The proof data family and the thread state -/

/-- No pipeline has a prefetched table. -/
abbrev adm : (p : Fin 4) → (pcfgs (F := F) p).Adm := fun p => (cfgs p).toPCfg_adm
/-- Every pipeline's proof data, each at the contents its region is entered from. -/
def pdats : (p : Fin 4) → (c : Dev nD) → Dat τ (Elt F) Unit ℕ (Pipeline.UD sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state, and its
    debts, which are none. -/
abbrev R (c : Dev nD) : sProp 𝕄 := iprop((∃ r, prngReg c r) ∗ ∃ W, owes (c : Thread nD τ) (0 : CellTallies nD τ sig Unit) W)
/-- A host stretch as a segment: from every unscoped buffer at the contents `W` to the same buffers at what the
    operations make of them, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, without the debts: every unscoped buffer at the last boundary's contents, the generator
    register at some state. -/
abbrev Tₙ (c : Dev nD) : sProp 𝕄 := iprop(StableHlo.held (c : Thread nD τ) (Pipeline.ucRefs τ sig) (W8 m ρ c) ∗ ∃ r, prngReg c r)

/-! ## The regions as segments

Each region is entered from every unscoped buffer at the contents before it and left at the contents after it.
At entry its arrays are split out of the unscoped buffers, at exit they are put back at what the pipeline left;
the generator register goes into the kernel's invariant and comes back; nothing is owed, and the kernel has no
semaphore of its own. -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := Pipeline.UD sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := Pipeline.UD sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := Pipeline.UD sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := Pipeline.UD sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := Pipeline.UD sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's eight segments in order: a host stretch from its boundary's contents, then the region it feeds. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ) ]

set_option maxHeartbeats 4000000 in
/-- @main is the run of the segments: it is the chain of its eight items, and the segments' run is the chain of
    their fragments, which are those items. -/
theorem main_run (c : Dev nD) : main (F := F) c = Pipeline.Seg.run (segs m ρ) := (main_chain c).trans (by chain_rfl)

set_option backward.isDefEq.respectTransparency.types false in
/-- The run: from any memory with zero counters, every weakly fair execution of @main on the TensorCores
    terminates without fault, and in every final state each unscoped buffer of each core holds what the fold
    says — the last boundary's contents `W8`. -/
theorem run_main : θ_run defs (onTc (τ := τ) (main (F := F))) ⟨m, fun _ => 0, ρ⟩
    (fun r => ∀ c : Dev nD, ∀ b ∈ Pipeline.ucRefs τ sig, r.2.mem (((c : Thread nD τ)).1, b) = W8 m ρ c b) :=
  Pipeline.θ_run_regions_kit (pcfgs (F := F)) adm (pdats m ρ) () cellOf_inj embL defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun _ h => h)

/-- The frame: under no assumption on the launch memory, @main runs to its end without fault and every argument
    array ends as launched — the run above, each argument read back through the fold. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c =>
    ⟨(h c _ (mem_uc main_arg0 (by decide))).trans (W8_main_arg0 m ρ c),
     (h c _ (mem_uc main_arg1 (by decide))).trans (W8_main_arg1 m ρ c),
     (h c _ (mem_uc main_arg2 (by decide))).trans (W8_main_arg2 m ρ c),
     (h c _ (mem_uc main_arg3 (by decide))).trans (W8_main_arg3 m ρ c),
     (h c _ (mem_uc main_arg4 (by decide))).trans (W8_main_arg4 m ρ c),
     (h c _ (mem_uc main_arg5 (by decide))).trans (W8_main_arg5 m ρ c),
     (h c _ (mem_uc main_arg6 (by decide))).trans (W8_main_arg6 m ρ c),
     (h c _ (mem_uc main_arg7 (by decide))).trans (W8_main_arg7 m ρ c),
     (h c _ (mem_uc main_arg8 (by decide))).trans (W8_main_arg8 m ρ c),
     (h c _ (mem_uc main_arg9 (by decide))).trans (W8_main_arg9 m ρ c),
     (h c _ (mem_uc main_arg10 (by decide))).trans (W8_main_arg10 m ρ c),
     (h c _ (mem_uc main_arg11 (by decide))).trans (W8_main_arg11 m ρ c)⟩)
    (run_main m ρ)

/-- info: 'Cert.Kernel.Hand.run_main' depends on axioms: [propext, Classical.choice, Quot.sound] -/
#guard_msgs in #print axioms run_main
/-- info: 'Cert.Kernel.Hand.frame' depends on axioms: [propext, Classical.choice, Quot.sound] -/
#guard_msgs in #print axioms frame

end Cert.Kernel.Hand

end
-- ==== Proof.RefGraph.lean ====
/-
  The reference program's own spelling of the network, as functions of whole arrays.

  Every definition here is a sub-term of the reference's composed result, written with the reference's shape records:
  the source and destination index vectors cut out of the edge array (the sources wrapped: a negative index has the
  node count added), the aggregation of a feature array over one edge type (gather the rows at the sources, add them
  into zeros at the destinations), the degree vector (add ones into zeros at the destinations, clamp below at one),
  and then the dense algebra of a layer as the reference writes it: a product with a weight matrix, a bias vector
  broadcast down the rows, the quotient by the degree broadcast along the columns, the scaling of every row to unit
  length, the three edge types added onto zeros and divided by a broadcast 3, the clamp below at zero, and the row
  standardisation with a gain and an offset. Three layer functions compose them; the network's result is the third
  applied to the second applied to the first. All of it is generic in the float interpretation.
-/
import proofs.«151081_j64338610094389_2_alg».proof.Proof.Gen.ReferenceIdeal
import Idealize.ShloMosaic.Lib.StableHlo

noncomputable section

namespace Cert.RefSide

open Cert.ReferenceIdeal Cert.ReferenceIdeal.Gen Idealize.ShloMosaic Idealize.ShloMosaic.TcCoe Idealize.SL.Sem

variable {F : FTy → Type} [FloatOps F]

/-! ## The graph -/

/-- The 2×E block of edge type `o` (row 0 the sources, row 1 the destinations). -/
def edgesOf (e : IVec S3x2x500000 32) (o : ℕ) (h : S3x2x500000.Slices ![o, 0, 0] S1x2x500000) : IVec S2x500000 32 :=
  shapeCast S2x500000 (extractStridedSlice (s := S3x2x500000) S1x2x500000 ![o, 0, 0] e h) shapeCasts_S1x2x500000_S2x500000

/-- The source indices of an edge block. -/
def edgeSrc (ei : IVec S2x500000 32) : IVec S500000 32 :=
  shapeCast S500000 (extractStridedSlice (s := S2x500000) S1x500000 ![0, 0] ei slices_S2x500000_S1x500000_0_0) shapeCasts_S1x500000_S500000

/-- The destination indices of an edge block. -/
def edgeDst (ei : IVec S2x500000 32) : IVec S500000 32 :=
  shapeCast S500000 (extractStridedSlice (s := S2x500000) S1x500000 ![1, 0] ei slices_S2x500000_S1x500000_1_0) shapeCasts_S1x500000_S500000

/-- An index vector with the node count added to its negative entries. -/
def wrapIdx (s : IVec S500000 32) : IVec S500000 32 :=
  select (cmpi .slt s (broadcastInDim S500000 ![] bcast_S_S500000 (constantI S_ 32 0#32)))
    (addi s (broadcastInDim S500000 ![] bcast_S_S500000 (constantI S_ 32 100000#32))) s

/-- The n×k array of zeros. -/
def zeros2 : FVec F S100000x128 .f32 := broadcastInDim S100000x128 ![] bcast_S_S100000x128 (constant S_ .f32 0x00000000#32)

/-- The aggregation over an edge block: the rows of `feat` at the (wrapped) sources, added into zeros at the destinations. -/
def aggOf (ei : IVec S2x500000 32) (feat : FVec F S100000x128 .f32) : FVec F S100000x128 .f32 :=
  Host.scatterAdd scatter_S100000x128_S500000x1_S500000x128_1_0_0_1 zeros2
    (broadcastInDim S500000x1 ![0] bcast_S500000_S500000x1_0 (edgeDst ei))
    (Host.gather gather_S100000x128_S500000x1_S500000x128_1_0_n_n_0_1_1128 feat
      (broadcastInDim S500000x1 ![0] bcast_S500000_S500000x1_0 (wrapIdx (edgeSrc ei))))

/-- The divisor of an edge block: ones added into zeros at the destinations, clamped below at one. -/
def degOf (ei : IVec S2x500000 32) : FVec F S100000 .f32 :=
  maximumf
    (Host.scatterAdd scatter_S100000_S500000x1_S500000_n_0_0_1
      (broadcastInDim S100000 ![] bcast_S_S100000 (constant S_ .f32 0x00000000#32))
      (broadcastInDim S500000x1 ![0] bcast_S500000_S500000x1_0 (edgeDst ei))
      (broadcastInDim S500000 ![] bcast_S_S500000 (constant S_ .f32 0x3F800000#32)))
    (broadcastInDim S100000 ![] bcast_S_S100000 (constant S_ .f32 0x3F800000#32))

/-- The edge block of type t. -/
def edgesAt (e : IVec S3x2x500000 32) : Fin 3 → IVec S2x500000 32
  | 0 => edgesOf e 0 slices_S3x2x500000_S1x2x500000_0_0_0
  | 1 => edgesOf e 1 slices_S3x2x500000_S1x2x500000_1_0_0
  | 2 => edgesOf e 2 slices_S3x2x500000_S1x2x500000_2_0_0

/-! ## Slices of the stacked weights -/

/-- Matrix `o` of a stack of three. -/
def slab3R (W : FVec F S3x128x128 .f32) (o : ℕ) (h : S3x128x128.Slices ![o, 0, 0] S1x128x128) : FVec F S128x128 .f32 :=
  shapeCast S128x128 (extractStridedSlice (s := S3x128x128) S1x128x128 ![o, 0, 0] W h) shapeCasts_S1x128x128_S128x128

/-- Row `o` of a T×128 matrix. -/
def rowR {T : ℕ} (B : FVec F ⟨2, ![T, 128]⟩ .f32) (o : ℕ) (h : (⟨2, ![T, 128]⟩ : Shape).Slices ![o, 0] S1x128) : FVec F S128 .f32 :=
  shapeCast S128 (extractStridedSlice (s := ⟨2, ![T, 128]⟩) S1x128 ![o, 0] B h) shapeCasts_S1x128_S128

/-- Matrix (l, o) of a doubly stacked family. -/
def slab4R (W : FVec F S2x3x128x128 .f32) (l o : ℕ) (h : S2x3x128x128.Slices ![l, o, 0, 0] S1x1x128x128) : FVec F S128x128 .f32 :=
  shapeCast S128x128 (extractStridedSlice (s := S2x3x128x128) S1x1x128x128 ![l, o, 0, 0] W h) shapeCasts_S1x1x128x128_S128x128

/-- Row (l, o) of a stack of matrices. -/
def row3R (B : FVec F S2x3x128 .f32) (l o : ℕ) (h : S2x3x128.Slices ![l, o, 0] S1x1x128) : FVec F S128 .f32 :=
  shapeCast S128 (extractStridedSlice (s := S2x3x128) S1x1x128 ![l, o, 0] B h) shapeCasts_S1x1x128_S128

/-! ## The dense algebra of a layer -/

/-- The product with a weight matrix. -/
def dotR (A : FVec F S100000x128 .f32) (W : FVec F S128x128 .f32) : FVec F S100000x128 .f32 :=
  Host.dotGeneral dot_S100000x128_S128x128_S100000x128_1_0_0_1_n_n none A W

/-- A vector of 128 entries repeated down the rows. -/
def biasR (v : FVec F S128 .f32) : FVec F S100000x128 .f32 :=
  broadcastInDim S100000x128 ![0, 1] bcast_S1x128_S100000x128_0_1 (broadcastInDim S1x128 ![1] bcast_S128_S1x128_1 v)

/-- A vector of one entry per row repeated along the columns. -/
def colsR (d : FVec F S100000x1 .f32) : FVec F S100000x128 .f32 :=
  broadcastInDim S100000x128 ![0, 1] bcast_S100000x1_S100000x128_0_1 d

/-- A vector of n entries as an n×1 column. -/
def colR (d : FVec F S100000 .f32) : FVec F S100000x1 .f32 :=
  broadcastInDim S100000x1 ![0] bcast_S100000_S100000x1_0 d

/-- A scalar word as an n×1 column. -/
def wordCol (w : BitVec 32) : FVec F S100000x1 .f32 :=
  broadcastInDim S100000x1 ![] bcast_S_S100000x1 (constant S_ .f32 w)

/-- The sum along every row, from a zero. -/
def rowSumR (X : FVec F S100000x128 .f32) : FVec F S100000 .f32 :=
  Host.reduceAdd X (constant S_ .f32 0x00000000#32) reducesTo_S100000x128_S100000_d1 h_S_

/-- Every row divided by its divisor. -/
def divRowsR (A : FVec F S100000x128 .f32) (d : FVec F S100000 .f32) : FVec F S100000x128 .f32 :=
  Host.divf A (colsR (colR d))

/-- The clamp below at zero. -/
def reluR (X : FVec F S100000x128 .f32) : FVec F S100000x128 .f32 := maximumf X zeros2

/-- A dense layer with the clamp. -/
def denseR (x : FVec F S100000x128 .f32) (Wp : FVec F S128x128 .f32) (bp : FVec F S128 .f32) : FVec F S100000x128 .f32 :=
  reluR (addf (dotR x Wp) (biasR bp))

/-- The convolution proper. -/
def convR (A H : FVec F S100000x128 .f32) (Wl : FVec F S128x128 .f32) (bl : FVec F S128 .f32) (Wr : FVec F S128x128 .f32) :
    FVec F S100000x128 .f32 :=
  addf (addf (dotR A Wl) (biasR bl)) (dotR H Wr)

/-- Every row scaled to unit length, the length clamped below at a small word. -/
def unitR (O : FVec F S100000x128 .f32) : FVec F S100000x128 .f32 :=
  Host.divf O (colsR (maximumf (Host.sqrt (colR (rowSumR (mulf O O)))) (wordCol 0x2B8CBCCC#32)))

/-- Three arrays added onto zeros and divided by a broadcast 3. -/
def thirdR (X₀ X₁ X₂ : FVec F S100000x128 .f32) : FVec F S100000x128 .f32 :=
  Host.divf (addf (addf (addf zeros2 X₀) X₁) X₂)
    (broadcastInDim S100000x128 ![] bcast_S_S100000x128 (constant S_ .f32 0x40400000#32))

/-- The row means, as a column. -/
def meanR (X : FVec F S100000x128 .f32) : FVec F S100000x1 .f32 :=
  Host.divf (colR (rowSumR X)) (wordCol 0x43000000#32)

/-- The rows centred at their means. -/
def centredR (X : FVec F S100000x128 .f32) : FVec F S100000x128 .f32 := subf X (colsR (meanR X))

/-- The row variances, as a column. -/
def varR (X : FVec F S100000x128 .f32) : FVec F S100000x1 .f32 :=
  Host.divf (colR (rowSumR (mulf (centredR X) (centredR X)))) (wordCol 0x43000000#32)

/-- The row standardisation with a gain and an offset. -/
def lnR (X : FVec F S100000x128 .f32) (g b : FVec F S128 .f32) : FVec F S100000x128 .f32 :=
  addf (mulf (Host.divf (centredR X) (colsR (Host.sqrt (addf (varR X) (wordCol 0x3727C5AC#32))))) (biasR g)) (biasR b)

/-! ## The layers -/

/-- One edge type's share of layer 0. -/
def firstR (ei : IVec S2x500000 32) (x : FVec F S100000x128 .f32) (Wp : FVec F S128x128 .f32) (bp : FVec F S128 .f32)
    (Wl : FVec F S128x128 .f32) (bl : FVec F S128 .f32) (Wr : FVec F S128x128 .f32) : FVec F S100000x128 .f32 :=
  unitR (convR (divRowsR (aggOf ei (denseR x Wp bp)) (degOf ei)) x Wl bl Wr)

/-- One edge type's share of a later layer. -/
def laterR (ei : IVec S2x500000 32) (h : FVec F S100000x128 .f32)
    (Wl : FVec F S128x128 .f32) (bl : FVec F S128 .f32) (Wr : FVec F S128x128 .f32) : FVec F S100000x128 .f32 :=
  convR (divRowsR (aggOf ei h) (degOf ei)) h Wl bl Wr

/-- The features after layer 0. -/
def refL0 (x : FVec F S100000x128 .f32) (e : IVec S3x2x500000 32) (Wp : FVec F S3x128x128 .f32) (bp : FVec F S3x128 .f32)
    (Wl0 : FVec F S3x128x128 .f32) (bl0 : FVec F S3x128 .f32) (Wr0 : FVec F S3x128x128 .f32)
    (g b : FVec F S2x128 .f32) : FVec F S100000x128 .f32 :=
  lnR (reluR (thirdR
      (firstR (edgesAt e 0) x (slab3R Wp 0 slices_S3x128x128_S1x128x128_0_0_0) (rowR bp 0 slices_S3x128_S1x128_0_0)
        (slab3R Wl0 0 slices_S3x128x128_S1x128x128_0_0_0) (rowR bl0 0 slices_S3x128_S1x128_0_0)
        (slab3R Wr0 0 slices_S3x128x128_S1x128x128_0_0_0))
      (firstR (edgesAt e 1) x (slab3R Wp 1 slices_S3x128x128_S1x128x128_1_0_0) (rowR bp 1 slices_S3x128_S1x128_1_0)
        (slab3R Wl0 1 slices_S3x128x128_S1x128x128_1_0_0) (rowR bl0 1 slices_S3x128_S1x128_1_0)
        (slab3R Wr0 1 slices_S3x128x128_S1x128x128_1_0_0))
      (firstR (edgesAt e 2) x (slab3R Wp 2 slices_S3x128x128_S1x128x128_2_0_0) (rowR bp 2 slices_S3x128_S1x128_2_0)
        (slab3R Wl0 2 slices_S3x128x128_S1x128x128_2_0_0) (rowR bl0 2 slices_S3x128_S1x128_2_0)
        (slab3R Wr0 2 slices_S3x128x128_S1x128x128_2_0_0))))
    (rowR g 0 slices_S2x128_S1x128_0_0) (rowR b 0 slices_S2x128_S1x128_0_0)

/-- Layer 1 before its clamp and standardisation. -/
def refMix1 (h : FVec F S100000x128 .f32) (e : IVec S3x2x500000 32) (Wl : FVec F S2x3x128x128 .f32) (bl : FVec F S2x3x128 .f32)
    (Wr : FVec F S2x3x128x128 .f32) : FVec F S100000x128 .f32 :=
  thirdR
    (laterR (edgesAt e 0) h (slab4R Wl 0 0 slices_S2x3x128x128_S1x1x128x128_0_0_0_0) (row3R bl 0 0 slices_S2x3x128_S1x1x128_0_0_0)
      (slab4R Wr 0 0 slices_S2x3x128x128_S1x1x128x128_0_0_0_0))
    (laterR (edgesAt e 1) h (slab4R Wl 0 1 slices_S2x3x128x128_S1x1x128x128_0_1_0_0) (row3R bl 0 1 slices_S2x3x128_S1x1x128_0_1_0)
      (slab4R Wr 0 1 slices_S2x3x128x128_S1x1x128x128_0_1_0_0))
    (laterR (edgesAt e 2) h (slab4R Wl 0 2 slices_S2x3x128x128_S1x1x128x128_0_2_0_0) (row3R bl 0 2 slices_S2x3x128_S1x1x128_0_2_0)
      (slab4R Wr 0 2 slices_S2x3x128x128_S1x1x128x128_0_2_0_0))

/-- The features after layer 1. -/
def refL1 (h : FVec F S100000x128 .f32) (e : IVec S3x2x500000 32) (Wl : FVec F S2x3x128x128 .f32) (bl : FVec F S2x3x128 .f32)
    (Wr : FVec F S2x3x128x128 .f32) (g b : FVec F S2x128 .f32) : FVec F S100000x128 .f32 :=
  lnR (reluR (refMix1 h e Wl bl Wr)) (rowR g 1 slices_S2x128_S1x128_1_0) (rowR b 1 slices_S2x128_S1x128_1_0)

/-- Layer 2: the network's result from the features after layer 1. -/
def refL2 (h : FVec F S100000x128 .f32) (e : IVec S3x2x500000 32) (Wl : FVec F S2x3x128x128 .f32) (bl : FVec F S2x3x128 .f32)
    (Wr : FVec F S2x3x128x128 .f32) : FVec F S100000x128 .f32 :=
  thirdR
    (laterR (edgesAt e 0) h (slab4R Wl 1 0 slices_S2x3x128x128_S1x1x128x128_1_0_0_0) (row3R bl 1 0 slices_S2x3x128_S1x1x128_1_0_0)
      (slab4R Wr 1 0 slices_S2x3x128x128_S1x1x128x128_1_0_0_0))
    (laterR (edgesAt e 1) h (slab4R Wl 1 1 slices_S2x3x128x128_S1x1x128x128_1_1_0_0) (row3R bl 1 1 slices_S2x3x128_S1x1x128_1_1_0)
      (slab4R Wr 1 1 slices_S2x3x128x128_S1x1x128x128_1_1_0_0))
    (laterR (edgesAt e 2) h (slab4R Wl 1 2 slices_S2x3x128x128_S1x1x128x128_1_2_0_0) (row3R bl 1 2 slices_S2x3x128_S1x1x128_1_2_0)
      (slab4R Wr 1 2 slices_S2x3x128x128_S1x1x128x128_1_2_0_0))

/-! ## The result, over a memory -/

/-- The reference's features after layer 0, of the arguments in memory `m` on device `c`. -/
def refH1 (m : (ℓ : Loc nD τ sig) → Buf (Elt F) ℓ) (c : Dev nD) : FVec F S100000x128 .f32 :=
  refL0 (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))
    (m ((c.tc : Thread nD τ).loc main_arg6)) (m ((c.tc : Thread nD τ).loc main_arg10))
    (m ((c.tc : Thread nD τ).loc main_arg11))

/-- The reference's features after layer 1. -/
def refH2 (m : (ℓ : Loc nD τ sig) → Buf (Elt F) ℓ) (c : Dev nD) : FVec F S100000x128 .f32 :=
  refL1 (refH1 m c) (m ((c.tc : Thread nD τ).loc main_arg1))
    (m ((c.tc : Thread nD τ).loc main_arg7)) (m ((c.tc : Thread nD τ).loc main_arg8))
    (m ((c.tc : Thread nD τ).loc main_arg9)) (m ((c.tc : Thread nD τ).loc main_arg10))
    (m ((c.tc : Thread nD τ).loc main_arg11))

/-- The reference's result. -/
def refOut (m : (ℓ : Loc nD τ sig) → Buf (Elt F) ℓ) (c : Dev nD) : Buf (Elt F) ((c.tc : Thread nD τ).loc main_v450) :=
  refL2 (refH2 m c) (m ((c.tc : Thread nD τ).loc main_arg1))
    (m ((c.tc : Thread nD τ).loc main_arg7)) (m ((c.tc : Thread nD τ).loc main_arg8))
    (m ((c.tc : Thread nD τ).loc main_arg9))

/-- The aggregation map of edge type t, of the edge array in memory. -/
def aggR (m : (ℓ : Loc nD τ sig) → Buf (Elt F) ℓ) (c : Dev nD) (t : Fin 3) :
    FVec F S100000x128 .f32 → FVec F S100000x128 .f32 :=
  fun feat => aggOf (edgesAt (m ((c.tc : Thread nD τ).loc main_arg1)) t) feat

/-- The divisor vector of edge type t, of the edge array in memory. -/
def degR (m : (ℓ : Loc nD τ sig) → Buf (Elt F) ℓ) (c : Dev nD) (t : Fin 3) : FVec F S100000 .f32 :=
  degOf (edgesAt (m ((c.tc : Thread nD τ).loc main_arg1)) t)

end Cert.RefSide

end
-- ==== Proof.RefRun0.lean ====
/-
  The reference program's host operations of layer 0 (the projection, the three edge types' convolutions scaled to unit rows, their mean, the clamp and the standardisation), as a list, and what they leave in the buffers:
  from any contents W of the device's buffers, the layer's result buffer ends at the layer function of the contents of
  the buffers the layer reads, and every argument buffer ends as it was.
-/
import proofs.«151081_j64338610094389_2_alg».proof.Proof.RefGraph
import Idealize.ShloMosaic.Lib.StableHlo.Run

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- The operations of this layer, in the program's order. -/
abbrev ops0 : List (HloOp τ sig (Elt F)) :=
  [ unary main_arg1 main_v0 ((extractStridedSlice S1x2x500000 ![0, 0, 0] · slices_S3x2x500000_S1x2x500000_0_0_0) : (⟨S3x2x500000, .i32⟩ : BufTy).Contents (Elt F) → (⟨S1x2x500000, .i32⟩ : BufTy).Contents (Elt F)),
    reshape main_v0 main_v1 rfl shapeCasts_S1x2x500000_S2x500000,
    unary main_arg4 main_v2 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v2 main_v3 rfl shapeCasts_S1x128x128_S128x128,
    unary main_arg5 main_v4 ((extractStridedSlice S1x128 ![0, 0] · slices_S3x128_S1x128_0_0) : (⟨S3x128, .f32⟩ : BufTy).Contents (Elt F) → (⟨S1x128, .f32⟩ : BufTy).Contents (Elt F)),
    reshape main_v4 main_v5 rfl shapeCasts_S1x128_S128,
    unary main_arg6 main_v6 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v6 main_v7 rfl shapeCasts_S1x128x128_S128x128,
    unary main_arg2 main_v8 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v8 main_v9 rfl shapeCasts_S1x128x128_S128x128,
    unary main_arg3 main_v10 ((extractStridedSlice S1x128 ![0, 0] · slices_S3x128_S1x128_0_0) : (⟨S3x128, .f32⟩ : BufTy).Contents (Elt F) → (⟨S1x128, .f32⟩ : BufTy).Contents (Elt F)),
    reshape main_v10 main_v11 rfl shapeCasts_S1x128_S128,
    unary main_v1 main_v12 ((extractStridedSlice S1x500000 ![0, 0] · slices_S2x500000_S1x500000_0_0) : (⟨S2x500000, .i32⟩ : BufTy).Contents (Elt F) → (⟨S1x500000, .i32⟩ : BufTy).Contents (Elt F)),
    reshape main_v12 main_v13 rfl shapeCasts_S1x500000_S500000,
    unary main_v1 main_v14 ((extractStridedSlice S1x500000 ![1, 0] · slices_S2x500000_S1x500000_1_0) : (⟨S2x500000, .i32⟩ : BufTy).Contents (Elt F) → (⟨S1x500000, .i32⟩ : BufTy).Contents (Elt F)),
    reshape main_v14 main_v15 rfl shapeCasts_S1x500000_S500000,
    binary main_arg0 main_v9 main_v16 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v11 main_v17 (broadcastInDim S1x128 ![1] bcast_S128_S1x128_1 : (⟨S128, .f32⟩ : BufTy).Contents (Elt F) → (⟨S1x128, .f32⟩ : BufTy).Contents (Elt F)),
    unary main_v17 main_v18 (broadcastInDim S100000x128 ![0, 1] bcast_S1x128_S100000x128_0_1 : (⟨S1x128, .f32⟩ : BufTy).Contents (Elt F) → (⟨S100000x128, .f32⟩ : BufTy).Contents (Elt F)),
    binary main_v16 main_v18 main_v19 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x128, .f32⟩) main_call0_v0) (broadcastInDim S100000x128 ![] bcast_S_S100000x128),
    TRef.binary (TRef.of (T := ⟨S100000x128, .f32⟩) main_v19) (TRef.of (T := ⟨S100000x128, .f32⟩) main_call0_v0) (TRef.of (T := ⟨S100000x128, .f32⟩) main_v20) maximumf,
    nullary main_c (constantI S_ 32 0#32),
    unary main_c main_v21 (broadcastInDim S500000 ![] bcast_S_S500000 : (⟨S_, .i32⟩ : BufTy).Contents (Elt F) → (⟨S500000, .i32⟩ : BufTy).Contents (Elt F)),
    binary main_v13 main_v21 main_v22 (cmpi .slt : (⟨S500000, .i32⟩ : BufTy).Contents (Elt F) → (⟨S500000, .i32⟩ : BufTy).Contents (Elt F) → (⟨S500000, .i1⟩ : BufTy).Contents (Elt F)),
    nullary main_c_0 (constantI S_ 32 100000#32),
    unary main_c_0 main_v23 (broadcastInDim S500000 ![] bcast_S_S500000 : (⟨S_, .i32⟩ : BufTy).Contents (Elt F) → (⟨S500000, .i32⟩ : BufTy).Contents (Elt F)),
    binary main_v13 main_v23 main_v24 (addi : (⟨S500000, .i32⟩ : BufTy).Contents (Elt F) → (⟨S500000, .i32⟩ : BufTy).Contents (Elt F) → (⟨S500000, .i32⟩ : BufTy).Contents (Elt F)),
    ternary main_v22 main_v24 main_v13 main_v25 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v25 main_v26 (broadcastInDim S500000x1 ![0] bcast_S500000_S500000x1_0 : (⟨S500000, .i32⟩ : BufTy).Contents (Elt F) → (⟨S500000x1, .i32⟩ : BufTy).Contents (Elt F)),
    binary main_v20 main_v26 main_v27 ((fun x i => Host.gather gather_S100000x128_S500000x1_S500000x128_1_0_n_n_0_1_1128 x i) : (⟨S100000x128, .f32⟩ : BufTy).Contents (Elt F) → (⟨S500000x1, .i32⟩ : BufTy).Contents (Elt F) → (⟨S500000x128, .f32⟩ : BufTy).Contents (Elt F)),
    nullary main_cst (constant S_ .f32 0x00000000#32),
    unary main_cst main_v28 (broadcastInDim S100000x128 ![] bcast_S_S100000x128 : (⟨S_, .f32⟩ : BufTy).Contents (Elt F) → (⟨S100000x128, .f32⟩ : BufTy).Contents (Elt F)),
    unary main_v15 main_v29 (broadcastInDim S500000x1 ![0] bcast_S500000_S500000x1_0 : (⟨S500000, .i32⟩ : BufTy).Contents (Elt F) → (⟨S500000x1, .i32⟩ : BufTy).Contents (Elt F)),
    ternary main_v28 main_v29 main_v27 main_v30 ((fun x i u => Host.scatterAdd scatter_S100000x128_S500000x1_S500000x128_1_0_0_1 x i u) : (⟨S100000x128, .f32⟩ : BufTy).Contents (Elt F) → (⟨S500000x1, .i32⟩ : BufTy).Contents (Elt F) → (⟨S500000x128, .f32⟩ : BufTy).Contents (Elt F) → (⟨S100000x128, .f32⟩ : BufTy).Contents (Elt F)),
    nullary main_cst_1 (constant S_ .f32 0x3F800000#32),
    unary main_cst_1 main_v31 (broadcastInDim S500000 ![] bcast_S_S500000 : (⟨S_, .f32⟩ : BufTy).Contents (Elt F) → (⟨S500000, .f32⟩ : BufTy).Contents (Elt F)),
    nullary main_cst_2 (constant S_ .f32 0x00000000#32),
    unary main_cst_2 main_v32 (broadcastInDim S100000 ![] bcast_S_S100000 : (⟨S_, .f32⟩ : BufTy).Contents (Elt F) → (⟨S100000, .f32⟩ : BufTy).Contents (Elt F)),
    unary main_v15 main_v33 (broadcastInDim S500000x1 ![0] bcast_S500000_S500000x1_0 : (⟨S500000, .i32⟩ : BufTy).Contents (Elt F) → (⟨S500000x1, .i32⟩ : BufTy).Contents (Elt F)),
    ternary main_v32 main_v33 main_v31 main_v34 ((fun x i u => Host.scatterAdd scatter_S100000_S500000x1_S500000_n_0_0_1 x i u) : (⟨S100000, .f32⟩ : BufTy).Contents (Elt F) → (⟨S500000x1, .i32⟩ : BufTy).Contents (Elt F) → (⟨S500000, .f32⟩ : BufTy).Contents (Elt F) → (⟨S100000, .f32⟩ : BufTy).Contents (Elt F)),
    nullary main_cst_3 (constant S_ .f32 0x3F800000#32),
    unary main_cst_3 main_v35 (broadcastInDim S100000 ![] bcast_S_S100000 : (⟨S_, .f32⟩ : BufTy).Contents (Elt F) → (⟨S100000, .f32⟩ : BufTy).Contents (Elt F)),
    binary main_v34 main_v35 main_v36 (maximumf : (⟨S100000, .f32⟩ : BufTy).Contents (Elt F) → (⟨S100000, .f32⟩ : BufTy).Contents (Elt F) → (⟨S100000, .f32⟩ : BufTy).Contents (Elt F)),
    unary main_v36 main_v37 (broadcastInDim S100000x1 ![0] bcast_S100000_S100000x1_0 : (⟨S100000, .f32⟩ : BufTy).Contents (Elt F) → (⟨S100000x1, .f32⟩ : BufTy).Contents (Elt F)),
    unary main_v37 main_v38 (broadcastInDim S100000x128 ![0, 1] bcast_S100000x1_S100000x128_0_1 : (⟨S100000x1, .f32⟩ : BufTy).Contents (Elt F) → (⟨S100000x128, .f32⟩ : BufTy).Contents (Elt F)),
    binary main_v30 main_v38 main_v39 (Host.divf : (⟨S100000x128, .f32⟩ : BufTy).Contents (Elt F) → (⟨S100000x128, .f32⟩ : BufTy).Contents (Elt F) → (⟨S100000x128, .f32⟩ : BufTy).Contents (Elt F)),
    binary main_v39 main_v3 main_v40 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v5 main_v41 (broadcastInDim S1x128 ![1] bcast_S128_S1x128_1 : (⟨S128, .f32⟩ : BufTy).Contents (Elt F) → (⟨S1x128, .f32⟩ : BufTy).Contents (Elt F)),
    unary main_v41 main_v42 (broadcastInDim S100000x128 ![0, 1] bcast_S1x128_S100000x128_0_1 : (⟨S1x128, .f32⟩ : BufTy).Contents (Elt F) → (⟨S100000x128, .f32⟩ : BufTy).Contents (Elt F)),
    binary main_v40 main_v42 main_v43 (addf : (⟨S100000x128, .f32⟩ : BufTy).Contents (Elt F) → (⟨S100000x128, .f32⟩ : BufTy).Contents (Elt F) → (⟨S100000x128, .f32⟩ : BufTy).Contents (Elt F)),
    binary main_arg0 main_v7 main_v44 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v43 main_v44 main_v45 (addf : (⟨S100000x128, .f32⟩ : BufTy).Contents (Elt F) → (⟨S100000x128, .f32⟩ : BufTy).Contents (Elt F) → (⟨S100000x128, .f32⟩ : BufTy).Contents (Elt F)),
    TRef.binary (TRef.of (T := ⟨S100000x128, .f32⟩) main_v45) (TRef.of (T := ⟨S100000x128, .f32⟩) main_v45) (TRef.of (T := ⟨S100000x128, .f32⟩) main_call1_v0) mulf,
    TRef.nullary (TRef.of (T := ⟨S_, .f32⟩) main_call1_cst) (constant S_ .f32 0x00000000#32),
    TRef.binary (TRef.of (T := ⟨S100000x128, .f32⟩) main_call1_v0) (TRef.of (T := ⟨S_, .f32⟩) main_call1_cst) (TRef.of (T := ⟨S100000, .f32⟩) main_call1_v1) (fun x v => Host.reduceAdd x v reducesTo_S100000x128_S100000_d1 h_S_),
    TRef.unary (TRef.of (T := ⟨S100000, .f32⟩) main_call1_v1) (TRef.of (T := ⟨S100000x1, .f32⟩) main_call1_v2) (broadcastInDim S100000x1 ![0] bcast_S100000_S100000x1_0),
    TRef.unary (TRef.of (T := ⟨S100000x1, .f32⟩) main_call1_v2) (TRef.of (T := ⟨S100000x1, .f32⟩) main_v46) Host.sqrt,
    nullary main_cst_4 (constant S_ .f32 0x2B8CBCCC#32),
    unary main_cst_4 main_v47 (broadcastInDim S100000x1 ![] bcast_S_S100000x1 : (⟨S_, .f32⟩ : BufTy).Contents (Elt F) → (⟨S100000x1, .f32⟩ : BufTy).Contents (Elt F)),
    binary main_v46 main_v47 main_v48 (maximumf : (⟨S100000x1, .f32⟩ : BufTy).Contents (Elt F) → (⟨S100000x1, .f32⟩ : BufTy).Contents (Elt F) → (⟨S100000x1, .f32⟩ : BufTy).Contents (Elt F)),
    unary main_v48 main_v49 (broadcastInDim S100000x128 ![0, 1] bcast_S100000x1_S100000x128_0_1 : (⟨S100000x1, .f32⟩ : BufTy).Contents (Elt F) → (⟨S100000x128, .f32⟩ : BufTy).Contents (Elt F)),
    binary main_v45 main_v49 main_v50 (Host.divf : (⟨S100000x128, .f32⟩ : BufTy).Contents (Elt F) → (⟨S100000x128, .f32⟩ : BufTy).Contents (Elt F) → (⟨S100000x128, .f32⟩ : BufTy).Contents (Elt F)),
    nullary main_cst_5 (constant S_ .f32 0x00000000#32),
    unary main_cst_5 main_v51 (broadcastInDim S100000x128 ![] bcast_S_S100000x128 : (⟨S_, .f32⟩ : BufTy).Contents (Elt F) → (⟨S100000x128, .f32⟩ : BufTy).Contents (Elt F)),
    binary main_v51 main_v50 main_v52 (addf : (⟨S100000x128, .f32⟩ : BufTy).Contents (Elt F) → (⟨S100000x128, .f32⟩ : BufTy).Contents (Elt F) → (⟨S100000x128, .f32⟩ : BufTy).Contents (Elt F)),
    unary main_arg1 main_v53 ((extractStridedSlice S1x2x500000 ![1, 0, 0] · slices_S3x2x500000_S1x2x500000_1_0_0) : (⟨S3x2x500000, .i32⟩ : BufTy).Contents (Elt F) → (⟨S1x2x500000, .i32⟩ : BufTy).Contents (Elt F)),
    reshape main_v53 main_v54 rfl shapeCasts_S1x2x500000_S2x500000,
    unary main_arg4 main_v55 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v55 main_v56 rfl shapeCasts_S1x128x128_S128x128,
    unary main_arg5 main_v57 ((extractStridedSlice S1x128 ![1, 0] · slices_S3x128_S1x128_1_0) : (⟨S3x128, .f32⟩ : BufTy).Contents (Elt F) → (⟨S1x128, .f32⟩ : BufTy).Contents (Elt F)),
    reshape main_v57 main_v58 rfl shapeCasts_S1x128_S128,
    unary main_arg6 main_v59 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v59 main_v60 rfl shapeCasts_S1x128x128_S128x128,
    unary main_arg2 main_v61 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v61 main_v62 rfl shapeCasts_S1x128x128_S128x128,
    unary main_arg3 main_v63 ((extractStridedSlice S1x128 ![1, 0] · slices_S3x128_S1x128_1_0) : (⟨S3x128, .f32⟩ : BufTy).Contents (Elt F) → (⟨S1x128, .f32⟩ : BufTy).Contents (Elt F)),
    reshape main_v63 main_v64 rfl shapeCasts_S1x128_S128,
    unary main_v54 main_v65 ((extractStridedSlice S1x500000 ![0, 0] · slices_S2x500000_S1x500000_0_0) : (⟨S2x500000, .i32⟩ : BufTy).Contents (Elt F) → (⟨S1x500000, .i32⟩ : BufTy).Contents (Elt F)),
    reshape main_v65 main_v66 rfl shapeCasts_S1x500000_S500000,
    unary main_v54 main_v67 ((extractStridedSlice S1x500000 ![1, 0] · slices_S2x500000_S1x500000_1_0) : (⟨S2x500000, .i32⟩ : BufTy).Contents (Elt F) → (⟨S1x500000, .i32⟩ : BufTy).Contents (Elt F)),
    reshape main_v67 main_v68 rfl shapeCasts_S1x500000_S500000,
    binary main_arg0 main_v62 main_v69 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v64 main_v70 (broadcastInDim S1x128 ![1] bcast_S128_S1x128_1 : (⟨S128, .f32⟩ : BufTy).Contents (Elt F) → (⟨S1x128, .f32⟩ : BufTy).Contents (Elt F)),
    unary main_v70 main_v71 (broadcastInDim S100000x128 ![0, 1] bcast_S1x128_S100000x128_0_1 : (⟨S1x128, .f32⟩ : BufTy).Contents (Elt F) → (⟨S100000x128, .f32⟩ : BufTy).Contents (Elt F)),
    binary main_v69 main_v71 main_v72 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x128, .f32⟩) main_call2_v0) (broadcastInDim S100000x128 ![] bcast_S_S100000x128),
    TRef.binary (TRef.of (T := ⟨S100000x128, .f32⟩) main_v72) (TRef.of (T := ⟨S100000x128, .f32⟩) main_call2_v0) (TRef.of (T := ⟨S100000x128, .f32⟩) main_v73) maximumf,
    nullary main_c_6 (constantI S_ 32 0#32),
    unary main_c_6 main_v74 (broadcastInDim S500000 ![] bcast_S_S500000 : (⟨S_, .i32⟩ : BufTy).Contents (Elt F) → (⟨S500000, .i32⟩ : BufTy).Contents (Elt F)),
    binary main_v66 main_v74 main_v75 (cmpi .slt : (⟨S500000, .i32⟩ : BufTy).Contents (Elt F) → (⟨S500000, .i32⟩ : BufTy).Contents (Elt F) → (⟨S500000, .i1⟩ : BufTy).Contents (Elt F)),
    nullary main_c_7 (constantI S_ 32 100000#32),
    unary main_c_7 main_v76 (broadcastInDim S500000 ![] bcast_S_S500000 : (⟨S_, .i32⟩ : BufTy).Contents (Elt F) → (⟨S500000, .i32⟩ : BufTy).Contents (Elt F)),
    binary main_v66 main_v76 main_v77 (addi : (⟨S500000, .i32⟩ : BufTy).Contents (Elt F) → (⟨S500000, .i32⟩ : BufTy).Contents (Elt F) → (⟨S500000, .i32⟩ : BufTy).Contents (Elt F)),
    ternary main_v75 main_v77 main_v66 main_v78 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v78 main_v79 (broadcastInDim S500000x1 ![0] bcast_S500000_S500000x1_0 : (⟨S500000, .i32⟩ : BufTy).Contents (Elt F) → (⟨S500000x1, .i32⟩ : BufTy).Contents (Elt F)),
    binary main_v73 main_v79 main_v80 ((fun x i => Host.gather gather_S100000x128_S500000x1_S500000x128_1_0_n_n_0_1_1128 x i) : (⟨S100000x128, .f32⟩ : BufTy).Contents (Elt F) → (⟨S500000x1, .i32⟩ : BufTy).Contents (Elt F) → (⟨S500000x128, .f32⟩ : BufTy).Contents (Elt F)),
    nullary main_cst_8 (constant S_ .f32 0x00000000#32),
    unary main_cst_8 main_v81 (broadcastInDim S100000x128 ![] bcast_S_S100000x128 : (⟨S_, .f32⟩ : BufTy).Contents (Elt F) → (⟨S100000x128, .f32⟩ : BufTy).Contents (Elt F)),
    unary main_v68 main_v82 (broadcastInDim S500000x1 ![0] bcast_S500000_S500000x1_0 : (⟨S500000, .i32⟩ : BufTy).Contents (Elt F) → (⟨S500000x1, .i32⟩ : BufTy).Contents (Elt F)),
    ternary main_v81 main_v82 main_v80 main_v83 ((fun x i u => Host.scatterAdd scatter_S100000x128_S500000x1_S500000x128_1_0_0_1 x i u) : (⟨S100000x128, .f32⟩ : BufTy).Contents (Elt F) → (⟨S500000x1, .i32⟩ : BufTy).Contents (Elt F) → (⟨S500000x128, .f32⟩ : BufTy).Contents (Elt F) → (⟨S100000x128, .f32⟩ : BufTy).Contents (Elt F)),
    nullary main_cst_9 (constant S_ .f32 0x3F800000#32),
    unary main_cst_9 main_v84 (broadcastInDim S500000 ![] bcast_S_S500000 : (⟨S_, .f32⟩ : BufTy).Contents (Elt F) → (⟨S500000, .f32⟩ : BufTy).Contents (Elt F)),
    nullary main_cst_10 (constant S_ .f32 0x00000000#32),
    unary main_cst_10 main_v85 (broadcastInDim S100000 ![] bcast_S_S100000 : (⟨S_, .f32⟩ : BufTy).Contents (Elt F) → (⟨S100000, .f32⟩ : BufTy).Contents (Elt F)),
    unary main_v68 main_v86 (broadcastInDim S500000x1 ![0] bcast_S500000_S500000x1_0 : (⟨S500000, .i32⟩ : BufTy).Contents (Elt F) → (⟨S500000x1, .i32⟩ : BufTy).Contents (Elt F)),
    ternary main_v85 main_v86 main_v84 main_v87 ((fun x i u => Host.scatterAdd scatter_S100000_S500000x1_S500000_n_0_0_1 x i u) : (⟨S100000, .f32⟩ : BufTy).Contents (Elt F) → (⟨S500000x1, .i32⟩ : BufTy).Contents (Elt F) → (⟨S500000, .f32⟩ : BufTy).Contents (Elt F) → (⟨S100000, .f32⟩ : BufTy).Contents (Elt F)),
    nullary main_cst_11 (constant S_ .f32 0x3F800000#32),
    unary main_cst_11 main_v88 (broadcastInDim S100000 ![] bcast_S_S100000 : (⟨S_, .f32⟩ : BufTy).Contents (Elt F) → (⟨S100000, .f32⟩ : BufTy).Contents (Elt F)),
    binary main_v87 main_v88 main_v89 (maximumf : (⟨S100000, .f32⟩ : BufTy).Contents (Elt F) → (⟨S100000, .f32⟩ : BufTy).Contents (Elt F) → (⟨S100000, .f32⟩ : BufTy).Contents (Elt F)),
    unary main_v89 main_v90 (broadcastInDim S100000x1 ![0] bcast_S100000_S100000x1_0 : (⟨S100000, .f32⟩ : BufTy).Contents (Elt F) → (⟨S100000x1, .f32⟩ : BufTy).Contents (Elt F)),
    unary main_v90 main_v91 (broadcastInDim S100000x128 ![0, 1] bcast_S100000x1_S100000x128_0_1 : (⟨S100000x1, .f32⟩ : BufTy).Contents (Elt F) → (⟨S100000x128, .f32⟩ : BufTy).Contents (Elt F)),
    binary main_v83 main_v91 main_v92 (Host.divf : (⟨S100000x128, .f32⟩ : BufTy).Contents (Elt F) → (⟨S100000x128, .f32⟩ : BufTy).Contents (Elt F) → (⟨S100000x128, .f32⟩ : BufTy).Contents (Elt F)),
    binary main_v92 main_v56 main_v93 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v58 main_v94 (broadcastInDim S1x128 ![1] bcast_S128_S1x128_1 : (⟨S128, .f32⟩ : BufTy).Contents (Elt F) → (⟨S1x128, .f32⟩ : BufTy).Contents (Elt F)),
    unary main_v94 main_v95 (broadcastInDim S100000x128 ![0, 1] bcast_S1x128_S100000x128_0_1 : (⟨S1x128, .f32⟩ : BufTy).Contents (Elt F) → (⟨S100000x128, .f32⟩ : BufTy).Contents (Elt F)),
    binary main_v93 main_v95 main_v96 (addf : (⟨S100000x128, .f32⟩ : BufTy).Contents (Elt F) → (⟨S100000x128, .f32⟩ : BufTy).Contents (Elt F) → (⟨S100000x128, .f32⟩ : BufTy).Contents (Elt F)),
    binary main_arg0 main_v60 main_v97 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v96 main_v97 main_v98 (addf : (⟨S100000x128, .f32⟩ : BufTy).Contents (Elt F) → (⟨S100000x128, .f32⟩ : BufTy).Contents (Elt F) → (⟨S100000x128, .f32⟩ : BufTy).Contents (Elt F)),
    TRef.binary (TRef.of (T := ⟨S100000x128, .f32⟩) main_v98) (TRef.of (T := ⟨S100000x128, .f32⟩) main_v98) (TRef.of (T := ⟨S100000x128, .f32⟩) main_call3_v0) mulf,
    TRef.nullary (TRef.of (T := ⟨S_, .f32⟩) main_call3_cst) (constant S_ .f32 0x00000000#32),
    TRef.binary (TRef.of (T := ⟨S100000x128, .f32⟩) main_call3_v0) (TRef.of (T := ⟨S_, .f32⟩) main_call3_cst) (TRef.of (T := ⟨S100000, .f32⟩) main_call3_v1) (fun x v => Host.reduceAdd x v reducesTo_S100000x128_S100000_d1 h_S_),
    TRef.unary (TRef.of (T := ⟨S100000, .f32⟩) main_call3_v1) (TRef.of (T := ⟨S100000x1, .f32⟩) main_call3_v2) (broadcastInDim S100000x1 ![0] bcast_S100000_S100000x1_0),
    TRef.unary (TRef.of (T := ⟨S100000x1, .f32⟩) main_call3_v2) (TRef.of (T := ⟨S100000x1, .f32⟩) main_v99) Host.sqrt,
    nullary main_cst_12 (constant S_ .f32 0x2B8CBCCC#32),
    unary main_cst_12 main_v100 (broadcastInDim S100000x1 ![] bcast_S_S100000x1 : (⟨S_, .f32⟩ : BufTy).Contents (Elt F) → (⟨S100000x1, .f32⟩ : BufTy).Contents (Elt F)),
    binary main_v99 main_v100 main_v101 (maximumf : (⟨S100000x1, .f32⟩ : BufTy).Contents (Elt F) → (⟨S100000x1, .f32⟩ : BufTy).Contents (Elt F) → (⟨S100000x1, .f32⟩ : BufTy).Contents (Elt F)),
    unary main_v101 main_v102 (broadcastInDim S100000x128 ![0, 1] bcast_S100000x1_S100000x128_0_1 : (⟨S100000x1, .f32⟩ : BufTy).Contents (Elt F) → (⟨S100000x128, .f32⟩ : BufTy).Contents (Elt F)),
    binary main_v98 main_v102 main_v103 (Host.divf : (⟨S100000x128, .f32⟩ : BufTy).Contents (Elt F) → (⟨S100000x128, .f32⟩ : BufTy).Contents (Elt F) → (⟨S100000x128, .f32⟩ : BufTy).Contents (Elt F)),
    binary main_v52 main_v103 main_v104 (addf : (⟨S100000x128, .f32⟩ : BufTy).Contents (Elt F) → (⟨S100000x128, .f32⟩ : BufTy).Contents (Elt F) → (⟨S100000x128, .f32⟩ : BufTy).Contents (Elt F)),
    unary main_arg1 main_v105 ((extractStridedSlice S1x2x500000 ![2, 0, 0] · slices_S3x2x500000_S1x2x500000_2_0_0) : (⟨S3x2x500000, .i32⟩ : BufTy).Contents (Elt F) → (⟨S1x2x500000, .i32⟩ : BufTy).Contents (Elt F)),
    reshape main_v105 main_v106 rfl shapeCasts_S1x2x500000_S2x500000,
    unary main_arg4 main_v107 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v107 main_v108 rfl shapeCasts_S1x128x128_S128x128,
    unary main_arg5 main_v109 ((extractStridedSlice S1x128 ![2, 0] · slices_S3x128_S1x128_2_0) : (⟨S3x128, .f32⟩ : BufTy).Contents (Elt F) → (⟨S1x128, .f32⟩ : BufTy).Contents (Elt F)),
    reshape main_v109 main_v110 rfl shapeCasts_S1x128_S128,
    unary main_arg6 main_v111 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v111 main_v112 rfl shapeCasts_S1x128x128_S128x128,
    unary main_arg2 main_v113 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v113 main_v114 rfl shapeCasts_S1x128x128_S128x128,
    unary main_arg3 main_v115 ((extractStridedSlice S1x128 ![2, 0] · slices_S3x128_S1x128_2_0) : (⟨S3x128, .f32⟩ : BufTy).Contents (Elt F) → (⟨S1x128, .f32⟩ : BufTy).Contents (Elt F)),
    reshape main_v115 main_v116 rfl shapeCasts_S1x128_S128,
    unary main_v106 main_v117 ((extractStridedSlice S1x500000 ![0, 0] · slices_S2x500000_S1x500000_0_0) : (⟨S2x500000, .i32⟩ : BufTy).Contents (Elt F) → (⟨S1x500000, .i32⟩ : BufTy).Contents (Elt F)),
    reshape main_v117 main_v118 rfl shapeCasts_S1x500000_S500000,
    unary main_v106 main_v119 ((extractStridedSlice S1x500000 ![1, 0] · slices_S2x500000_S1x500000_1_0) : (⟨S2x500000, .i32⟩ : BufTy).Contents (Elt F) → (⟨S1x500000, .i32⟩ : BufTy).Contents (Elt F)),
    reshape main_v119 main_v120 rfl shapeCasts_S1x500000_S500000,
    binary main_arg0 main_v114 main_v121 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v116 main_v122 (broadcastInDim S1x128 ![1] bcast_S128_S1x128_1 : (⟨S128, .f32⟩ : BufTy).Contents (Elt F) → (⟨S1x128, .f32⟩ : BufTy).Contents (Elt F)),
    unary main_v122 main_v123 (broadcastInDim S100000x128 ![0, 1] bcast_S1x128_S100000x128_0_1 : (⟨S1x128, .f32⟩ : BufTy).Contents (Elt F) → (⟨S100000x128, .f32⟩ : BufTy).Contents (Elt F)),
    binary main_v121 main_v123 main_v124 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S100000x128, .f32⟩) main_call4_v0) (broadcastInDim S100000x128 ![] bcast_S_S100000x128),
    TRef.binary (TRef.of (T := ⟨S100000x128, .f32⟩) main_v124) (TRef.of (T := ⟨S100000x128, .f32⟩) main_call4_v0) (TRef.of (T := ⟨S100000x128, .f32⟩) main_v125) maximumf,
    nullary main_c_13 (constantI S_ 32 0#32),
    unary main_c_13 main_v126 (broadcastInDim S500000 ![] bcast_S_S500000 : (⟨S_, .i32⟩ : BufTy).Contents (Elt F) → (⟨S500000, .i32⟩ : BufTy).Contents (Elt F)),
    binary main_v118 main_v126 main_v127 (cmpi .slt : (⟨S500000, .i32⟩ : BufTy).Contents (Elt F) → (⟨S500000, .i32⟩ : BufTy).Contents (Elt F) → (⟨S500000, .i1⟩ : BufTy).Contents (Elt F)),
    nullary main_c_14 (constantI S_ 32 100000#32),
    unary main_c_14 main_v128 (broadcastInDim S500000 ![] bcast_S_S500000 : (⟨S_, .i32⟩ : BufTy).Contents (Elt F) → (⟨S500000, .i32⟩ : BufTy).Contents (Elt F)),
    binary main_v118 main_v128 main_v129 (addi : (⟨S500000, .i32⟩ : BufTy).Contents (Elt F) → (⟨S500000, .i32⟩ : BufTy).Contents (Elt F) → (⟨S500000, .i32⟩ : BufTy).Contents (Elt F)),
    ternary main_v127 main_v129 main_v118 main_v130 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v130 main_v131 (broadcastInDim S500000x1 ![0] bcast_S500000_S500000x1_0 : (⟨S500000, .i32⟩ : BufTy).Contents (Elt F) → (⟨S500000x1, .i32⟩ : BufTy).Contents (Elt F)),
    binary main_v125 main_v131 main_v132 ((fun x i => Host.gather gather_S100000x128_S500000x1_S500000x128_1_0_n_n_0_1_1128 x i) : (⟨S100000x128, .f32⟩ : BufTy).Contents (Elt F) → (⟨S500000x1, .i32⟩ : BufTy).Contents (Elt F) → (⟨S500000x128, .f32⟩ : BufTy).Contents (Elt F)),
    nullary main_cst_15 (constant S_ .f32 0x00000000#32),
    unary main_cst_15 main_v133 (broadcastInDim S100000x128 ![] bcast_S_S100000x128 : (⟨S_, .f32⟩ : BufTy).Contents (Elt F) → (⟨S100000x128, .f32⟩ : BufTy).Contents (Elt F)),
    unary main_v120 main_v134 (broadcastInDim S500000x1 ![0] bcast_S500000_S500000x1_0 : (⟨S500000, .i32⟩ : BufTy).Contents (Elt F) → (⟨S500000x1, .i32⟩ : BufTy).Contents (Elt F)),
    ternary main_v133 main_v134 main_v132 main_v135 ((fun x i u => Host.scatterAdd scatter_S100000x128_S500000x1_S500000x128_1_0_0_1 x i u) : (⟨S100000x128, .f32⟩ : BufTy).Contents (Elt F) → (⟨S500000x1, .i32⟩ : BufTy).Contents (Elt F) → (⟨S500000x128, .f32⟩ : BufTy).Contents (Elt F) → (⟨S100000x128, .f32⟩ : BufTy).Contents (Elt F)),
    nullary main_cst_16 (constant S_ .f32 0x3F800000#32),
    unary main_cst_16 main_v136 (broadcastInDim S500000 ![] bcast_S_S500000 : (⟨S_, .f32⟩ : BufTy).Contents (Elt F) → (⟨S500000, .f32⟩ : BufTy).Contents (Elt F)),
    nullary main_cst_17 (constant S_ .f32 0x00000000#32),
    unary main_cst_17 main_v137 (broadcastInDim S100000 ![] bcast_S_S100000 : (⟨S_, .f32⟩ : BufTy).Contents (Elt F) → (⟨S100000, .f32⟩ : BufTy).Contents (Elt F)),
    unary main_v120 main_v138 (broadcastInDim S500000x1 ![0] bcast_S500000_S500000x1_0 : (⟨S500000, .i32⟩ : BufTy).Contents (Elt F) → (⟨S500000x1, .i32⟩ : BufTy).Contents (Elt F)),
    ternary main_v137 main_v138 main_v136 main_v139 ((fun x i u => Host.scatterAdd scatter_S100000_S500000x1_S500000_n_0_0_1 x i u) : (⟨S100000, .f32⟩ : BufTy).Contents (Elt F) → (⟨S500000x1, .i32⟩ : BufTy).Contents (Elt F) → (⟨S500000, .f32⟩ : BufTy).Contents (Elt F) → (⟨S100000, .f32⟩ : BufTy).Contents (Elt F)),
    nullary main_cst_18 (constant S_ .f32 0x3F800000#32),
    unary main_cst_18 main_v140 (broadcastInDim S100000 ![] bcast_S_S100000 : (⟨S_, .f32⟩ : BufTy).Contents (Elt F) → (⟨S100000, .f32⟩ : BufTy).Contents (Elt F)),
    binary main_v139 main_v140 main_v141 (maximumf : (⟨S100000, .f32⟩ : BufTy).Contents (Elt F) → (⟨S100000, .f32⟩ : BufTy).Contents (Elt F) → (⟨S100000, .f32⟩ : BufTy).Contents (Elt F)),
    unary main_v141 main_v142 (broadcastInDim S100000x1 ![0] bcast_S100000_S100000x1_0 : (⟨S100000, .f32⟩ : BufTy).Contents (Elt F) → (⟨S100000x1, .f32⟩ : BufTy).Contents (Elt F)),
    unary main_v142 main_v143 (broadcastInDim S100000x128 ![0, 1] bcast_S100000x1_S100000x128_0_1 : (⟨S100000x1, .f32⟩ : BufTy).Contents (Elt F) → (⟨S100000x128, .f32⟩ : BufTy).Contents (Elt F)),
    binary main_v135 main_v143 main_v144 (Host.divf : (⟨S100000x128, .f32⟩ : BufTy).Contents (Elt F) → (⟨S100000x128, .f32⟩ : BufTy).Contents (Elt F) → (⟨S100000x128, .f32⟩ : BufTy).Contents (Elt F)),
    binary main_v144 main_v108 main_v145 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v110 main_v146 (broadcastInDim S1x128 ![1] bcast_S128_S1x128_1 : (⟨S128, .f32⟩ : BufTy).Contents (Elt F) → (⟨S1x128, .f32⟩ : BufTy).Contents (Elt F)),
    unary main_v146 main_v147 (broadcastInDim S100000x128 ![0, 1] bcast_S1x128_S100000x128_0_1 : (⟨S1x128, .f32⟩ : BufTy).Contents (Elt F) → (⟨S100000x128, .f32⟩ : BufTy).Contents (Elt F)),
    binary main_v145 main_v147 main_v148 (addf : (⟨S100000x128, .f32⟩ : BufTy).Contents (Elt F) → (⟨S100000x128, .f32⟩ : BufTy).Contents (Elt F) → (⟨S100000x128, .f32⟩ : BufTy).Contents (Elt F)),
    binary main_arg0 main_v112 main_v149 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v148 main_v149 main_v150 (addf : (⟨S100000x128, .f32⟩ : BufTy).Contents (Elt F) → (⟨S100000x128, .f32⟩ : BufTy).Contents (Elt F) → (⟨S100000x128, .f32⟩ : BufTy).Contents (Elt F)),
    TRef.binary (TRef.of (T := ⟨S100000x128, .f32⟩) main_v150) (TRef.of (T := ⟨S100000x128, .f32⟩) main_v150) (TRef.of (T := ⟨S100000x128, .f32⟩) main_call5_v0) mulf,
    TRef.nullary (TRef.of (T := ⟨S_, .f32⟩) main_call5_cst) (constant S_ .f32 0x00000000#32),
    TRef.binary (TRef.of (T := ⟨S100000x128, .f32⟩) main_call5_v0) (TRef.of (T := ⟨S_, .f32⟩) main_call5_cst) (TRef.of (T := ⟨S100000, .f32⟩) main_call5_v1) (fun x v => Host.reduceAdd x v reducesTo_S100000x128_S100000_d1 h_S_),
    TRef.unary (TRef.of (T := ⟨S100000, .f32⟩) main_call5_v1) (TRef.of (T := ⟨S100000x1, .f32⟩) main_call5_v2) (broadcastInDim S100000x1 ![0] bcast_S100000_S100000x1_0),
    TRef.unary (TRef.of (T := ⟨S100000x1, .f32⟩) main_call5_v2) (TRef.of (T := ⟨S100000x1, .f32⟩) main_v151) Host.sqrt,
    nullary main_cst_19 (constant S_ .f32 0x2B8CBCCC#32),
    unary main_cst_19 main_v152 (broadcastInDim S100000x1 ![] bcast_S_S100000x1 : (⟨S_, .f32⟩ : BufTy).Contents (Elt F) → (⟨S100000x1, .f32⟩ : BufTy).Contents (Elt F)),
    binary main_v151 main_v152 main_v153 (maximumf : (⟨S100000x1, .f32⟩ : BufTy).Contents (Elt F) → (⟨S100000x1, .f32⟩ : BufTy).Contents (Elt F) → (⟨S100000x1, .f32⟩ : BufTy).Contents (Elt F)),
    unary main_v153 main_v154 (broadcastInDim S100000x128 ![0, 1] bcast_S100000x1_S100000x128_0_1 : (⟨S100000x1, .f32⟩ : BufTy).Contents (Elt F) → (⟨S100000x128, .f32⟩ : BufTy).Contents (Elt F)),
    binary main_v150 main_v154 main_v155 (Host.divf : (⟨S100000x128, .f32⟩ : BufTy).Contents (Elt F) → (⟨S100000x128, .f32⟩ : BufTy).Contents (Elt F) → (⟨S100000x128, .f32⟩ : BufTy).Contents (Elt F)),
    binary main_v104 main_v155 main_v156 (addf : (⟨S100000x128, .f32⟩ : BufTy).Contents (Elt F) → (⟨S100000x128, .f32⟩ : BufTy).Contents (Elt F) → (⟨S100000x128, .f32⟩ : BufTy).Contents (Elt F)),
    nullary main_cst_20 (constant S_ .f32 0x40400000#32),
    unary main_cst_20 main_v157 (broadcastInDim S100000x128 ![] bcast_S_S100000x128 : (⟨S_, .f32⟩ : BufTy).Contents (Elt F) → (⟨S100000x128, .f32⟩ : BufTy).Contents (Elt F)),
    binary main_v156 main_v157 main_v158 (Host.divf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S100000x128, .f32⟩) main_call6_v0) (broadcastInDim S100000x128 ![] bcast_S_S100000x128),
    TRef.binary (TRef.of (T := ⟨S100000x128, .f32⟩) main_v158) (TRef.of (T := ⟨S100000x128, .f32⟩) main_call6_v0) (TRef.of (T := ⟨S100000x128, .f32⟩) main_v159) maximumf,
    unary main_arg10 main_v160 ((extractStridedSlice S1x128 ![0, 0] · slices_S2x128_S1x128_0_0) : (⟨S2x128, .f32⟩ : BufTy).Contents (Elt F) → (⟨S1x128, .f32⟩ : BufTy).Contents (Elt F)),
    reshape main_v160 main_v161 rfl shapeCasts_S1x128_S128,
    unary main_arg11 main_v162 ((extractStridedSlice S1x128 ![0, 0] · slices_S2x128_S1x128_0_0) : (⟨S2x128, .f32⟩ : BufTy).Contents (Elt F) → (⟨S1x128, .f32⟩ : BufTy).Contents (Elt F)),
    reshape main_v162 main_v163 rfl shapeCasts_S1x128_S128,
    nullary main_cst_21 (constant S_ .f32 0x00000000#32),
    binary main_v159 main_cst_21 main_v164 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v164 main_v165 (broadcastInDim S100000x1 ![0] bcast_S100000_S100000x1_0 : (⟨S100000, .f32⟩ : BufTy).Contents (Elt F) → (⟨S100000x1, .f32⟩ : BufTy).Contents (Elt F)),
    nullary main_cst_22 (constant S_ .f32 0x43000000#32),
    unary main_cst_22 main_v166 (broadcastInDim S100000x1 ![] bcast_S_S100000x1 : (⟨S_, .f32⟩ : BufTy).Contents (Elt F) → (⟨S100000x1, .f32⟩ : BufTy).Contents (Elt F)),
    binary main_v165 main_v166 main_v167 (Host.divf : (⟨S100000x1, .f32⟩ : BufTy).Contents (Elt F) → (⟨S100000x1, .f32⟩ : BufTy).Contents (Elt F) → (⟨S100000x1, .f32⟩ : BufTy).Contents (Elt F)),
    unary main_v167 main_v168 (broadcastInDim S100000x128 ![0, 1] bcast_S100000x1_S100000x128_0_1 : (⟨S100000x1, .f32⟩ : BufTy).Contents (Elt F) → (⟨S100000x128, .f32⟩ : BufTy).Contents (Elt F)),
    binary main_v159 main_v168 main_v169 (subf : (⟨S100000x128, .f32⟩ : BufTy).Contents (Elt F) → (⟨S100000x128, .f32⟩ : BufTy).Contents (Elt F) → (⟨S100000x128, .f32⟩ : BufTy).Contents (Elt F)),
    binary main_v169 main_v169 main_v170 (mulf : (⟨S100000x128, .f32⟩ : BufTy).Contents (Elt F) → (⟨S100000x128, .f32⟩ : BufTy).Contents (Elt F) → (⟨S100000x128, .f32⟩ : BufTy).Contents (Elt F)),
    nullary main_cst_23 (constant S_ .f32 0x00000000#32),
    binary main_v170 main_cst_23 main_v171 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v171 main_v172 (broadcastInDim S100000x1 ![0] bcast_S100000_S100000x1_0 : (⟨S100000, .f32⟩ : BufTy).Contents (Elt F) → (⟨S100000x1, .f32⟩ : BufTy).Contents (Elt F)),
    nullary main_cst_24 (constant S_ .f32 0x43000000#32),
    unary main_cst_24 main_v173 (broadcastInDim S100000x1 ![] bcast_S_S100000x1 : (⟨S_, .f32⟩ : BufTy).Contents (Elt F) → (⟨S100000x1, .f32⟩ : BufTy).Contents (Elt F)),
    binary main_v172 main_v173 main_v174 (Host.divf : (⟨S100000x1, .f32⟩ : BufTy).Contents (Elt F) → (⟨S100000x1, .f32⟩ : BufTy).Contents (Elt F) → (⟨S100000x1, .f32⟩ : BufTy).Contents (Elt F)),
    unary main_v167 main_v175 (broadcastInDim S100000x128 ![0, 1] bcast_S100000x1_S100000x128_0_1 : (⟨S100000x1, .f32⟩ : BufTy).Contents (Elt F) → (⟨S100000x128, .f32⟩ : BufTy).Contents (Elt F)),
    binary main_v159 main_v175 main_v176 (subf : (⟨S100000x128, .f32⟩ : BufTy).Contents (Elt F) → (⟨S100000x128, .f32⟩ : BufTy).Contents (Elt F) → (⟨S100000x128, .f32⟩ : BufTy).Contents (Elt F)),
    nullary main_cst_25 (constant S_ .f32 0x3727C5AC#32),
    unary main_cst_25 main_v177 (broadcastInDim S100000x1 ![] bcast_S_S100000x1 : (⟨S_, .f32⟩ : BufTy).Contents (Elt F) → (⟨S100000x1, .f32⟩ : BufTy).Contents (Elt F)),
    binary main_v174 main_v177 main_v178 (addf : (⟨S100000x1, .f32⟩ : BufTy).Contents (Elt F) → (⟨S100000x1, .f32⟩ : BufTy).Contents (Elt F) → (⟨S100000x1, .f32⟩ : BufTy).Contents (Elt F)),
    unary main_v178 main_v179 (Host.sqrt : (⟨S100000x1, .f32⟩ : BufTy).Contents (Elt F) → (⟨S100000x1, .f32⟩ : BufTy).Contents (Elt F)),
    unary main_v179 main_v180 (broadcastInDim S100000x128 ![0, 1] bcast_S100000x1_S100000x128_0_1 : (⟨S100000x1, .f32⟩ : BufTy).Contents (Elt F) → (⟨S100000x128, .f32⟩ : BufTy).Contents (Elt F)),
    binary main_v176 main_v180 main_v181 (Host.divf : (⟨S100000x128, .f32⟩ : BufTy).Contents (Elt F) → (⟨S100000x128, .f32⟩ : BufTy).Contents (Elt F) → (⟨S100000x128, .f32⟩ : BufTy).Contents (Elt F)),
    unary main_v161 main_v182 (broadcastInDim S1x128 ![1] bcast_S128_S1x128_1 : (⟨S128, .f32⟩ : BufTy).Contents (Elt F) → (⟨S1x128, .f32⟩ : BufTy).Contents (Elt F)),
    unary main_v182 main_v183 (broadcastInDim S100000x128 ![0, 1] bcast_S1x128_S100000x128_0_1 : (⟨S1x128, .f32⟩ : BufTy).Contents (Elt F) → (⟨S100000x128, .f32⟩ : BufTy).Contents (Elt F)),
    binary main_v181 main_v183 main_v184 (mulf : (⟨S100000x128, .f32⟩ : BufTy).Contents (Elt F) → (⟨S100000x128, .f32⟩ : BufTy).Contents (Elt F) → (⟨S100000x128, .f32⟩ : BufTy).Contents (Elt F)),
    unary main_v163 main_v185 (broadcastInDim S1x128 ![1] bcast_S128_S1x128_1 : (⟨S128, .f32⟩ : BufTy).Contents (Elt F) → (⟨S1x128, .f32⟩ : BufTy).Contents (Elt F)),
    unary main_v185 main_v186 (broadcastInDim S100000x128 ![0, 1] bcast_S1x128_S100000x128_0_1 : (⟨S1x128, .f32⟩ : BufTy).Contents (Elt F) → (⟨S100000x128, .f32⟩ : BufTy).Contents (Elt F)),
    binary main_v184 main_v186 main_v187 (addf : (⟨S100000x128, .f32⟩ : BufTy).Contents (Elt F) → (⟨S100000x128, .f32⟩ : BufTy).Contents (Elt F) → (⟨S100000x128, .f32⟩ : BufTy).Contents (Elt F)) ]

set_option maxRecDepth 8192 in
theorem ops0_sub : (ops0 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., binary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., nullary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., binary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., binary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., unary_bufs_sub .., binary_bufs_sub .., nullary_bufs_sub .., unary_bufs_sub .., binary_bufs_sub .., unary_bufs_sub .., reshape_bufs_sub .., unary_bufs_sub .., reshape_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

set_option maxRecDepth 8192 in
set_option maxHeartbeats 40000000 in
theorem ops0_fresh : ∀ op ∈ (ops0 : List (HloOp τ sig (Elt F))), op.fresh = ∅ := by
  intro _ h; (repeat (cases h with | head => rfl | tail _ h => ?_)); exact nomatch h

set_option maxRecDepth 8192 in
set_option maxHeartbeats 100000000 in
/-- The layer's result buffer after its operations. -/
theorem seg0_res (W : Valuation τ sig (Elt F)) :
    after ops0 W (Proc.devRef .tc main_v187) = refL0 (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg10)) (W (Proc.devRef .tc main_arg11)) := by
  after_results_simp <;> rfl

set_option maxRecDepth 8192 in
set_option maxHeartbeats 100000000 in
theorem seg0_arg0 (W : Valuation τ sig (Elt F)) : after ops0 W (Proc.devRef .tc main_arg0) = W (Proc.devRef .tc main_arg0) := by
  after_results_simp <;> rfl

set_option maxRecDepth 8192 in
set_option maxHeartbeats 100000000 in
theorem seg0_arg1 (W : Valuation τ sig (Elt F)) : after ops0 W (Proc.devRef .tc main_arg1) = W (Proc.devRef .tc main_arg1) := by
  after_results_simp <;> rfl

set_option maxRecDepth 8192 in
set_option maxHeartbeats 100000000 in
theorem seg0_arg2 (W : Valuation τ sig (Elt F)) : after ops0 W (Proc.devRef .tc main_arg2) = W (Proc.devRef .tc main_arg2) := by
  after_results_simp <;> rfl

set_option maxRecDepth 8192 in
set_option maxHeartbeats 100000000 in
theorem seg0_arg3 (W : Valuation τ sig (Elt F)) : after ops0 W (Proc.devRef .tc main_arg3) = W (Proc.devRef .tc main_arg3) := by
  after_results_simp <;> rfl

set_option maxRecDepth 8192 in
set_option maxHeartbeats 100000000 in
theorem seg0_arg4 (W : Valuation τ sig (Elt F)) : after ops0 W (Proc.devRef .tc main_arg4) = W (Proc.devRef .tc main_arg4) := by
  after_results_simp <;> rfl

set_option maxRecDepth 8192 in
set_option maxHeartbeats 100000000 in
theorem seg0_arg5 (W : Valuation τ sig (Elt F)) : after ops0 W (Proc.devRef .tc main_arg5) = W (Proc.devRef .tc main_arg5) := by
  after_results_simp <;> rfl

set_option maxRecDepth 8192 in
set_option maxHeartbeats 100000000 in
theorem seg0_arg6 (W : Valuation τ sig (Elt F)) : after ops0 W (Proc.devRef .tc main_arg6) = W (Proc.devRef .tc main_arg6) := by
  after_results_simp <;> rfl

set_option maxRecDepth 8192 in
set_option maxHeartbeats 100000000 in
theorem seg0_arg7 (W : Valuation τ sig (Elt F)) : after ops0 W (Proc.devRef .tc main_arg7) = W (Proc.devRef .tc main_arg7) := by
  after_results_simp <;> rfl

set_option maxRecDepth 8192 in
set_option maxHeartbeats 100000000 in
theorem seg0_arg8 (W : Valuation τ sig (Elt F)) : after ops0 W (Proc.devRef .tc main_arg8) = W (Proc.devRef .tc main_arg8) := by
  after_results_simp <;> rfl

set_option maxRecDepth 8192 in
set_option maxHeartbeats 100000000 in
theorem seg0_arg9 (W : Valuation τ sig (Elt F)) : after ops0 W (Proc.devRef .tc main_arg9) = W (Proc.devRef .tc main_arg9) := by
  after_results_simp <;> rfl

set_option maxRecDepth 8192 in
set_option maxHeartbeats 100000000 in
theorem seg0_arg10 (W : Valuation τ sig (Elt F)) : after ops0 W (Proc.devRef .tc main_arg10) = W (Proc.devRef .tc main_arg10) := by
  after_results_simp <;> rfl

set_option maxRecDepth 8192 in
set_option maxHeartbeats 100000000 in
theorem seg0_arg11 (W : Valuation τ sig (Elt F)) : after ops0 W (Proc.devRef .tc main_arg11) = W (Proc.devRef .tc main_arg11) := by
  after_results_simp <;> rfl

end Cert.RefSide

end
-- ==== Proof.RefRun1.lean ====
/-
  The reference program's host operations of layer 1 (the three edge types' convolutions of the features after layer 0, their mean, the clamp and the standardisation), as a list, and what they leave in the buffers:
  from any contents W of the device's buffers, the layer's result buffer ends at the layer function of the contents of
  the buffers the layer reads, and every argument buffer ends as it was.
-/
import proofs.«151081_j64338610094389_2_alg».proof.Proof.RefGraph
import Idealize.ShloMosaic.Lib.StableHlo.Run

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- The operations of this layer, in the program's order. -/
abbrev ops1 : List (HloOp τ sig (Elt F)) :=
  [ unary main_arg1 main_v188 ((extractStridedSlice S1x2x500000 ![0, 0, 0] · slices_S3x2x500000_S1x2x500000_0_0_0) : (⟨S3x2x500000, .i32⟩ : BufTy).Contents (Elt F) → (⟨S1x2x500000, .i32⟩ : BufTy).Contents (Elt F)),
    reshape main_v188 main_v189 rfl shapeCasts_S1x2x500000_S2x500000,
    unary main_arg7 main_v190 ((extractStridedSlice S1x1x128x128 ![0, 0, 0, 0] · slices_S2x3x128x128_S1x1x128x128_0_0_0_0) : (⟨S2x3x128x128, .f32⟩ : BufTy).Contents (Elt F) → (⟨S1x1x128x128, .f32⟩ : BufTy).Contents (Elt F)),
    reshape main_v190 main_v191 rfl shapeCasts_S1x1x128x128_S128x128,
    unary main_arg8 main_v192 ((extractStridedSlice S1x1x128 ![0, 0, 0] · slices_S2x3x128_S1x1x128_0_0_0) : (⟨S2x3x128, .f32⟩ : BufTy).Contents (Elt F) → (⟨S1x1x128, .f32⟩ : BufTy).Contents (Elt F)),
    reshape main_v192 main_v193 rfl shapeCasts_S1x1x128_S128,
    unary main_arg9 main_v194 ((extractStridedSlice S1x1x128x128 ![0, 0, 0, 0] · slices_S2x3x128x128_S1x1x128x128_0_0_0_0) : (⟨S2x3x128x128, .f32⟩ : BufTy).Contents (Elt F) → (⟨S1x1x128x128, .f32⟩ : BufTy).Contents (Elt F)),
    reshape main_v194 main_v195 rfl shapeCasts_S1x1x128x128_S128x128,
    unary main_v189 main_v196 ((extractStridedSlice S1x500000 ![0, 0] · slices_S2x500000_S1x500000_0_0) : (⟨S2x500000, .i32⟩ : BufTy).Contents (Elt F) → (⟨S1x500000, .i32⟩ : BufTy).Contents (Elt F)),
    reshape main_v196 main_v197 rfl shapeCasts_S1x500000_S500000,
    unary main_v189 main_v198 ((extractStridedSlice S1x500000 ![1, 0] · slices_S2x500000_S1x500000_1_0) : (⟨S2x500000, .i32⟩ : BufTy).Contents (Elt F) → (⟨S1x500000, .i32⟩ : BufTy).Contents (Elt F)),
    reshape main_v198 main_v199 rfl shapeCasts_S1x500000_S500000,
    nullary main_c_26 (constantI S_ 32 0#32),
    unary main_c_26 main_v200 (broadcastInDim S500000 ![] bcast_S_S500000 : (⟨S_, .i32⟩ : BufTy).Contents (Elt F) → (⟨S500000, .i32⟩ : BufTy).Contents (Elt F)),
    binary main_v197 main_v200 main_v201 (cmpi .slt : (⟨S500000, .i32⟩ : BufTy).Contents (Elt F) → (⟨S500000, .i32⟩ : BufTy).Contents (Elt F) → (⟨S500000, .i1⟩ : BufTy).Contents (Elt F)),
    nullary main_c_27 (constantI S_ 32 100000#32),
    unary main_c_27 main_v202 (broadcastInDim S500000 ![] bcast_S_S500000 : (⟨S_, .i32⟩ : BufTy).Contents (Elt F) → (⟨S500000, .i32⟩ : BufTy).Contents (Elt F)),
    binary main_v197 main_v202 main_v203 (addi : (⟨S500000, .i32⟩ : BufTy).Contents (Elt F) → (⟨S500000, .i32⟩ : BufTy).Contents (Elt F) → (⟨S500000, .i32⟩ : BufTy).Contents (Elt F)),
    ternary main_v201 main_v203 main_v197 main_v204 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v204 main_v205 (broadcastInDim S500000x1 ![0] bcast_S500000_S500000x1_0 : (⟨S500000, .i32⟩ : BufTy).Contents (Elt F) → (⟨S500000x1, .i32⟩ : BufTy).Contents (Elt F)),
    binary main_v187 main_v205 main_v206 ((fun x i => Host.gather gather_S100000x128_S500000x1_S500000x128_1_0_n_n_0_1_1128 x i) : (⟨S100000x128, .f32⟩ : BufTy).Contents (Elt F) → (⟨S500000x1, .i32⟩ : BufTy).Contents (Elt F) → (⟨S500000x128, .f32⟩ : BufTy).Contents (Elt F)),
    nullary main_cst_28 (constant S_ .f32 0x00000000#32),
    unary main_cst_28 main_v207 (broadcastInDim S100000x128 ![] bcast_S_S100000x128 : (⟨S_, .f32⟩ : BufTy).Contents (Elt F) → (⟨S100000x128, .f32⟩ : BufTy).Contents (Elt F)),
    unary main_v199 main_v208 (broadcastInDim S500000x1 ![0] bcast_S500000_S500000x1_0 : (⟨S500000, .i32⟩ : BufTy).Contents (Elt F) → (⟨S500000x1, .i32⟩ : BufTy).Contents (Elt F)),
    ternary main_v207 main_v208 main_v206 main_v209 ((fun x i u => Host.scatterAdd scatter_S100000x128_S500000x1_S500000x128_1_0_0_1 x i u) : (⟨S100000x128, .f32⟩ : BufTy).Contents (Elt F) → (⟨S500000x1, .i32⟩ : BufTy).Contents (Elt F) → (⟨S500000x128, .f32⟩ : BufTy).Contents (Elt F) → (⟨S100000x128, .f32⟩ : BufTy).Contents (Elt F)),
    nullary main_cst_29 (constant S_ .f32 0x3F800000#32),
    unary main_cst_29 main_v210 (broadcastInDim S500000 ![] bcast_S_S500000 : (⟨S_, .f32⟩ : BufTy).Contents (Elt F) → (⟨S500000, .f32⟩ : BufTy).Contents (Elt F)),
    nullary main_cst_30 (constant S_ .f32 0x00000000#32),
    unary main_cst_30 main_v211 (broadcastInDim S100000 ![] bcast_S_S100000 : (⟨S_, .f32⟩ : BufTy).Contents (Elt F) → (⟨S100000, .f32⟩ : BufTy).Contents (Elt F)),
    unary main_v199 main_v212 (broadcastInDim S500000x1 ![0] bcast_S500000_S500000x1_0 : (⟨S500000, .i32⟩ : BufTy).Contents (Elt F) → (⟨S500000x1, .i32⟩ : BufTy).Contents (Elt F)),
    ternary main_v211 main_v212 main_v210 main_v213 ((fun x i u => Host.scatterAdd scatter_S100000_S500000x1_S500000_n_0_0_1 x i u) : (⟨S100000, .f32⟩ : BufTy).Contents (Elt F) → (⟨S500000x1, .i32⟩ : BufTy).Contents (Elt F) → (⟨S500000, .f32⟩ : BufTy).Contents (Elt F) → (⟨S100000, .f32⟩ : BufTy).Contents (Elt F)),
    nullary main_cst_31 (constant S_ .f32 0x3F800000#32),
    unary main_cst_31 main_v214 (broadcastInDim S100000 ![] bcast_S_S100000 : (⟨S_, .f32⟩ : BufTy).Contents (Elt F) → (⟨S100000, .f32⟩ : BufTy).Contents (Elt F)),
    binary main_v213 main_v214 main_v215 (maximumf : (⟨S100000, .f32⟩ : BufTy).Contents (Elt F) → (⟨S100000, .f32⟩ : BufTy).Contents (Elt F) → (⟨S100000, .f32⟩ : BufTy).Contents (Elt F)),
    unary main_v215 main_v216 (broadcastInDim S100000x1 ![0] bcast_S100000_S100000x1_0 : (⟨S100000, .f32⟩ : BufTy).Contents (Elt F) → (⟨S100000x1, .f32⟩ : BufTy).Contents (Elt F)),
    unary main_v216 main_v217 (broadcastInDim S100000x128 ![0, 1] bcast_S100000x1_S100000x128_0_1 : (⟨S100000x1, .f32⟩ : BufTy).Contents (Elt F) → (⟨S100000x128, .f32⟩ : BufTy).Contents (Elt F)),
    binary main_v209 main_v217 main_v218 (Host.divf : (⟨S100000x128, .f32⟩ : BufTy).Contents (Elt F) → (⟨S100000x128, .f32⟩ : BufTy).Contents (Elt F) → (⟨S100000x128, .f32⟩ : BufTy).Contents (Elt F)),
    binary main_v218 main_v191 main_v219 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v193 main_v220 (broadcastInDim S1x128 ![1] bcast_S128_S1x128_1 : (⟨S128, .f32⟩ : BufTy).Contents (Elt F) → (⟨S1x128, .f32⟩ : BufTy).Contents (Elt F)),
    unary main_v220 main_v221 (broadcastInDim S100000x128 ![0, 1] bcast_S1x128_S100000x128_0_1 : (⟨S1x128, .f32⟩ : BufTy).Contents (Elt F) → (⟨S100000x128, .f32⟩ : BufTy).Contents (Elt F)),
    binary main_v219 main_v221 main_v222 (addf : (⟨S100000x128, .f32⟩ : BufTy).Contents (Elt F) → (⟨S100000x128, .f32⟩ : BufTy).Contents (Elt F) → (⟨S100000x128, .f32⟩ : BufTy).Contents (Elt F)),
    binary main_v187 main_v195 main_v223 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v222 main_v223 main_v224 (addf : (⟨S100000x128, .f32⟩ : BufTy).Contents (Elt F) → (⟨S100000x128, .f32⟩ : BufTy).Contents (Elt F) → (⟨S100000x128, .f32⟩ : BufTy).Contents (Elt F)),
    nullary main_cst_32 (constant S_ .f32 0x00000000#32),
    unary main_cst_32 main_v225 (broadcastInDim S100000x128 ![] bcast_S_S100000x128 : (⟨S_, .f32⟩ : BufTy).Contents (Elt F) → (⟨S100000x128, .f32⟩ : BufTy).Contents (Elt F)),
    binary main_v225 main_v224 main_v226 (addf : (⟨S100000x128, .f32⟩ : BufTy).Contents (Elt F) → (⟨S100000x128, .f32⟩ : BufTy).Contents (Elt F) → (⟨S100000x128, .f32⟩ : BufTy).Contents (Elt F)),
    unary main_arg1 main_v227 ((extractStridedSlice S1x2x500000 ![1, 0, 0] · slices_S3x2x500000_S1x2x500000_1_0_0) : (⟨S3x2x500000, .i32⟩ : BufTy).Contents (Elt F) → (⟨S1x2x500000, .i32⟩ : BufTy).Contents (Elt F)),
    reshape main_v227 main_v228 rfl shapeCasts_S1x2x500000_S2x500000,
    unary main_arg7 main_v229 ((extractStridedSlice S1x1x128x128 ![0, 1, 0, 0] · slices_S2x3x128x128_S1x1x128x128_0_1_0_0) : (⟨S2x3x128x128, .f32⟩ : BufTy).Contents (Elt F) → (⟨S1x1x128x128, .f32⟩ : BufTy).Contents (Elt F)),
    reshape main_v229 main_v230 rfl shapeCasts_S1x1x128x128_S128x128,
    unary main_arg8 main_v231 ((extractStridedSlice S1x1x128 ![0, 1, 0] · slices_S2x3x128_S1x1x128_0_1_0) : (⟨S2x3x128, .f32⟩ : BufTy).Contents (Elt F) → (⟨S1x1x128, .f32⟩ : BufTy).Contents (Elt F)),
    reshape main_v231 main_v232 rfl shapeCasts_S1x1x128_S128,
    unary main_arg9 main_v233 ((extractStridedSlice S1x1x128x128 ![0, 1, 0, 0] · slices_S2x3x128x128_S1x1x128x128_0_1_0_0) : (⟨S2x3x128x128, .f32⟩ : BufTy).Contents (Elt F) → (⟨S1x1x128x128, .f32⟩ : BufTy).Contents (Elt F)),
    reshape main_v233 main_v234 rfl shapeCasts_S1x1x128x128_S128x128,
    unary main_v228 main_v235 ((extractStridedSlice S1x500000 ![0, 0] · slices_S2x500000_S1x500000_0_0) : (⟨S2x500000, .i32⟩ : BufTy).Contents (Elt F) → (⟨S1x500000, .i32⟩ : BufTy).Contents (Elt F)),
    reshape main_v235 main_v236 rfl shapeCasts_S1x500000_S500000,
    unary main_v228 main_v237 ((extractStridedSlice S1x500000 ![1, 0] · slices_S2x500000_S1x500000_1_0) : (⟨S2x500000, .i32⟩ : BufTy).Contents (Elt F) → (⟨S1x500000, .i32⟩ : BufTy).Contents (Elt F)),
    reshape main_v237 main_v238 rfl shapeCasts_S1x500000_S500000,
    nullary main_c_33 (constantI S_ 32 0#32),
    unary main_c_33 main_v239 (broadcastInDim S500000 ![] bcast_S_S500000 : (⟨S_, .i32⟩ : BufTy).Contents (Elt F) → (⟨S500000, .i32⟩ : BufTy).Contents (Elt F)),
    binary main_v236 main_v239 main_v240 (cmpi .slt : (⟨S500000, .i32⟩ : BufTy).Contents (Elt F) → (⟨S500000, .i32⟩ : BufTy).Contents (Elt F) → (⟨S500000, .i1⟩ : BufTy).Contents (Elt F)),
    nullary main_c_34 (constantI S_ 32 100000#32),
    unary main_c_34 main_v241 (broadcastInDim S500000 ![] bcast_S_S500000 : (⟨S_, .i32⟩ : BufTy).Contents (Elt F) → (⟨S500000, .i32⟩ : BufTy).Contents (Elt F)),
    binary main_v236 main_v241 main_v242 (addi : (⟨S500000, .i32⟩ : BufTy).Contents (Elt F) → (⟨S500000, .i32⟩ : BufTy).Contents (Elt F) → (⟨S500000, .i32⟩ : BufTy).Contents (Elt F)),
    ternary main_v240 main_v242 main_v236 main_v243 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v243 main_v244 (broadcastInDim S500000x1 ![0] bcast_S500000_S500000x1_0 : (⟨S500000, .i32⟩ : BufTy).Contents (Elt F) → (⟨S500000x1, .i32⟩ : BufTy).Contents (Elt F)),
    binary main_v187 main_v244 main_v245 ((fun x i => Host.gather gather_S100000x128_S500000x1_S500000x128_1_0_n_n_0_1_1128 x i) : (⟨S100000x128, .f32⟩ : BufTy).Contents (Elt F) → (⟨S500000x1, .i32⟩ : BufTy).Contents (Elt F) → (⟨S500000x128, .f32⟩ : BufTy).Contents (Elt F)),
    nullary main_cst_35 (constant S_ .f32 0x00000000#32),
    unary main_cst_35 main_v246 (broadcastInDim S100000x128 ![] bcast_S_S100000x128 : (⟨S_, .f32⟩ : BufTy).Contents (Elt F) → (⟨S100000x128, .f32⟩ : BufTy).Contents (Elt F)),
    unary main_v238 main_v247 (broadcastInDim S500000x1 ![0] bcast_S500000_S500000x1_0 : (⟨S500000, .i32⟩ : BufTy).Contents (Elt F) → (⟨S500000x1, .i32⟩ : BufTy).Contents (Elt F)),
    ternary main_v246 main_v247 main_v245 main_v248 ((fun x i u => Host.scatterAdd scatter_S100000x128_S500000x1_S500000x128_1_0_0_1 x i u) : (⟨S100000x128, .f32⟩ : BufTy).Contents (Elt F) → (⟨S500000x1, .i32⟩ : BufTy).Contents (Elt F) → (⟨S500000x128, .f32⟩ : BufTy).Contents (Elt F) → (⟨S100000x128, .f32⟩ : BufTy).Contents (Elt F)),
    nullary main_cst_36 (constant S_ .f32 0x3F800000#32),
    unary main_cst_36 main_v249 (broadcastInDim S500000 ![] bcast_S_S500000 : (⟨S_, .f32⟩ : BufTy).Contents (Elt F) → (⟨S500000, .f32⟩ : BufTy).Contents (Elt F)),
    nullary main_cst_37 (constant S_ .f32 0x00000000#32),
    unary main_cst_37 main_v250 (broadcastInDim S100000 ![] bcast_S_S100000 : (⟨S_, .f32⟩ : BufTy).Contents (Elt F) → (⟨S100000, .f32⟩ : BufTy).Contents (Elt F)),
    unary main_v238 main_v251 (broadcastInDim S500000x1 ![0] bcast_S500000_S500000x1_0 : (⟨S500000, .i32⟩ : BufTy).Contents (Elt F) → (⟨S500000x1, .i32⟩ : BufTy).Contents (Elt F)),
    ternary main_v250 main_v251 main_v249 main_v252 ((fun x i u => Host.scatterAdd scatter_S100000_S500000x1_S500000_n_0_0_1 x i u) : (⟨S100000, .f32⟩ : BufTy).Contents (Elt F) → (⟨S500000x1, .i32⟩ : BufTy).Contents (Elt F) → (⟨S500000, .f32⟩ : BufTy).Contents (Elt F) → (⟨S100000, .f32⟩ : BufTy).Contents (Elt F)),
    nullary main_cst_38 (constant S_ .f32 0x3F800000#32),
    unary main_cst_38 main_v253 (broadcastInDim S100000 ![] bcast_S_S100000 : (⟨S_, .f32⟩ : BufTy).Contents (Elt F) → (⟨S100000, .f32⟩ : BufTy).Contents (Elt F)),
    binary main_v252 main_v253 main_v254 (maximumf : (⟨S100000, .f32⟩ : BufTy).Contents (Elt F) → (⟨S100000, .f32⟩ : BufTy).Contents (Elt F) → (⟨S100000, .f32⟩ : BufTy).Contents (Elt F)),
    unary main_v254 main_v255 (broadcastInDim S100000x1 ![0] bcast_S100000_S100000x1_0 : (⟨S100000, .f32⟩ : BufTy).Contents (Elt F) → (⟨S100000x1, .f32⟩ : BufTy).Contents (Elt F)),
    unary main_v255 main_v256 (broadcastInDim S100000x128 ![0, 1] bcast_S100000x1_S100000x128_0_1 : (⟨S100000x1, .f32⟩ : BufTy).Contents (Elt F) → (⟨S100000x128, .f32⟩ : BufTy).Contents (Elt F)),
    binary main_v248 main_v256 main_v257 (Host.divf : (⟨S100000x128, .f32⟩ : BufTy).Contents (Elt F) → (⟨S100000x128, .f32⟩ : BufTy).Contents (Elt F) → (⟨S100000x128, .f32⟩ : BufTy).Contents (Elt F)),
    binary main_v257 main_v230 main_v258 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v232 main_v259 (broadcastInDim S1x128 ![1] bcast_S128_S1x128_1 : (⟨S128, .f32⟩ : BufTy).Contents (Elt F) → (⟨S1x128, .f32⟩ : BufTy).Contents (Elt F)),
    unary main_v259 main_v260 (broadcastInDim S100000x128 ![0, 1] bcast_S1x128_S100000x128_0_1 : (⟨S1x128, .f32⟩ : BufTy).Contents (Elt F) → (⟨S100000x128, .f32⟩ : BufTy).Contents (Elt F)),
    binary main_v258 main_v260 main_v261 (addf : (⟨S100000x128, .f32⟩ : BufTy).Contents (Elt F) → (⟨S100000x128, .f32⟩ : BufTy).Contents (Elt F) → (⟨S100000x128, .f32⟩ : BufTy).Contents (Elt F)),
    binary main_v187 main_v234 main_v262 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v261 main_v262 main_v263 (addf : (⟨S100000x128, .f32⟩ : BufTy).Contents (Elt F) → (⟨S100000x128, .f32⟩ : BufTy).Contents (Elt F) → (⟨S100000x128, .f32⟩ : BufTy).Contents (Elt F)),
    binary main_v226 main_v263 main_v264 (addf : (⟨S100000x128, .f32⟩ : BufTy).Contents (Elt F) → (⟨S100000x128, .f32⟩ : BufTy).Contents (Elt F) → (⟨S100000x128, .f32⟩ : BufTy).Contents (Elt F)),
    unary main_arg1 main_v265 ((extractStridedSlice S1x2x500000 ![2, 0, 0] · slices_S3x2x500000_S1x2x500000_2_0_0) : (⟨S3x2x500000, .i32⟩ : BufTy).Contents (Elt F) → (⟨S1x2x500000, .i32⟩ : BufTy).Contents (Elt F)),
    reshape main_v265 main_v266 rfl shapeCasts_S1x2x500000_S2x500000,
    unary main_arg7 main_v267 ((extractStridedSlice S1x1x128x128 ![0, 2, 0, 0] · slices_S2x3x128x128_S1x1x128x128_0_2_0_0) : (⟨S2x3x128x128, .f32⟩ : BufTy).Contents (Elt F) → (⟨S1x1x128x128, .f32⟩ : BufTy).Contents (Elt F)),
    reshape main_v267 main_v268 rfl shapeCasts_S1x1x128x128_S128x128,
    unary main_arg8 main_v269 ((extractStridedSlice S1x1x128 ![0, 2, 0] · slices_S2x3x128_S1x1x128_0_2_0) : (⟨S2x3x128, .f32⟩ : BufTy).Contents (Elt F) → (⟨S1x1x128, .f32⟩ : BufTy).Contents (Elt F)),
    reshape main_v269 main_v270 rfl shapeCasts_S1x1x128_S128,
    unary main_arg9 main_v271 ((extractStridedSlice S1x1x128x128 ![0, 2, 0, 0] · slices_S2x3x128x128_S1x1x128x128_0_2_0_0) : (⟨S2x3x128x128, .f32⟩ : BufTy).Contents (Elt F) → (⟨S1x1x128x128, .f32⟩ : BufTy).Contents (Elt F)),
    reshape main_v271 main_v272 rfl shapeCasts_S1x1x128x128_S128x128,
    unary main_v266 main_v273 ((extractStridedSlice S1x500000 ![0, 0] · slices_S2x500000_S1x500000_0_0) : (⟨S2x500000, .i32⟩ : BufTy).Contents (Elt F) → (⟨S1x500000, .i32⟩ : BufTy).Contents (Elt F)),
    reshape main_v273 main_v274 rfl shapeCasts_S1x500000_S500000,
    unary main_v266 main_v275 ((extractStridedSlice S1x500000 ![1, 0] · slices_S2x500000_S1x500000_1_0) : (⟨S2x500000, .i32⟩ : BufTy).Contents (Elt F) → (⟨S1x500000, .i32⟩ : BufTy).Contents (Elt F)),
    reshape main_v275 main_v276 rfl shapeCasts_S1x500000_S500000,
    nullary main_c_39 (constantI S_ 32 0#32),
    unary main_c_39 main_v277 (broadcastInDim S500000 ![] bcast_S_S500000 : (⟨S_, .i32⟩ : BufTy).Contents (Elt F) → (⟨S500000, .i32⟩ : BufTy).Contents (Elt F)),
    binary main_v274 main_v277 main_v278 (cmpi .slt : (⟨S500000, .i32⟩ : BufTy).Contents (Elt F) → (⟨S500000, .i32⟩ : BufTy).Contents (Elt F) → (⟨S500000, .i1⟩ : BufTy).Contents (Elt F)),
    nullary main_c_40 (constantI S_ 32 100000#32),
    unary main_c_40 main_v279 (broadcastInDim S500000 ![] bcast_S_S500000 : (⟨S_, .i32⟩ : BufTy).Contents (Elt F) → (⟨S500000, .i32⟩ : BufTy).Contents (Elt F)),
    binary main_v274 main_v279 main_v280 (addi : (⟨S500000, .i32⟩ : BufTy).Contents (Elt F) → (⟨S500000, .i32⟩ : BufTy).Contents (Elt F) → (⟨S500000, .i32⟩ : BufTy).Contents (Elt F)),
    ternary main_v278 main_v280 main_v274 main_v281 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v281 main_v282 (broadcastInDim S500000x1 ![0] bcast_S500000_S500000x1_0 : (⟨S500000, .i32⟩ : BufTy).Contents (Elt F) → (⟨S500000x1, .i32⟩ : BufTy).Contents (Elt F)),
    binary main_v187 main_v282 main_v283 ((fun x i => Host.gather gather_S100000x128_S500000x1_S500000x128_1_0_n_n_0_1_1128 x i) : (⟨S100000x128, .f32⟩ : BufTy).Contents (Elt F) → (⟨S500000x1, .i32⟩ : BufTy).Contents (Elt F) → (⟨S500000x128, .f32⟩ : BufTy).Contents (Elt F)),
    nullary main_cst_41 (constant S_ .f32 0x00000000#32),
    unary main_cst_41 main_v284 (broadcastInDim S100000x128 ![] bcast_S_S100000x128 : (⟨S_, .f32⟩ : BufTy).Contents (Elt F) → (⟨S100000x128, .f32⟩ : BufTy).Contents (Elt F)),
    unary main_v276 main_v285 (broadcastInDim S500000x1 ![0] bcast_S500000_S500000x1_0 : (⟨S500000, .i32⟩ : BufTy).Contents (Elt F) → (⟨S500000x1, .i32⟩ : BufTy).Contents (Elt F)),
    ternary main_v284 main_v285 main_v283 main_v286 ((fun x i u => Host.scatterAdd scatter_S100000x128_S500000x1_S500000x128_1_0_0_1 x i u) : (⟨S100000x128, .f32⟩ : BufTy).Contents (Elt F) → (⟨S500000x1, .i32⟩ : BufTy).Contents (Elt F) → (⟨S500000x128, .f32⟩ : BufTy).Contents (Elt F) → (⟨S100000x128, .f32⟩ : BufTy).Contents (Elt F)),
    nullary main_cst_42 (constant S_ .f32 0x3F800000#32),
    unary main_cst_42 main_v287 (broadcastInDim S500000 ![] bcast_S_S500000 : (⟨S_, .f32⟩ : BufTy).Contents (Elt F) → (⟨S500000, .f32⟩ : BufTy).Contents (Elt F)),
    nullary main_cst_43 (constant S_ .f32 0x00000000#32),
    unary main_cst_43 main_v288 (broadcastInDim S100000 ![] bcast_S_S100000 : (⟨S_, .f32⟩ : BufTy).Contents (Elt F) → (⟨S100000, .f32⟩ : BufTy).Contents (Elt F)),
    unary main_v276 main_v289 (broadcastInDim S500000x1 ![0] bcast_S500000_S500000x1_0 : (⟨S500000, .i32⟩ : BufTy).Contents (Elt F) → (⟨S500000x1, .i32⟩ : BufTy).Contents (Elt F)),
    ternary main_v288 main_v289 main_v287 main_v290 ((fun x i u => Host.scatterAdd scatter_S100000_S500000x1_S500000_n_0_0_1 x i u) : (⟨S100000, .f32⟩ : BufTy).Contents (Elt F) → (⟨S500000x1, .i32⟩ : BufTy).Contents (Elt F) → (⟨S500000, .f32⟩ : BufTy).Contents (Elt F) → (⟨S100000, .f32⟩ : BufTy).Contents (Elt F)),
    nullary main_cst_44 (constant S_ .f32 0x3F800000#32),
    unary main_cst_44 main_v291 (broadcastInDim S100000 ![] bcast_S_S100000 : (⟨S_, .f32⟩ : BufTy).Contents (Elt F) → (⟨S100000, .f32⟩ : BufTy).Contents (Elt F)),
    binary main_v290 main_v291 main_v292 (maximumf : (⟨S100000, .f32⟩ : BufTy).Contents (Elt F) → (⟨S100000, .f32⟩ : BufTy).Contents (Elt F) → (⟨S100000, .f32⟩ : BufTy).Contents (Elt F)),
    unary main_v292 main_v293 (broadcastInDim S100000x1 ![0] bcast_S100000_S100000x1_0 : (⟨S100000, .f32⟩ : BufTy).Contents (Elt F) → (⟨S100000x1, .f32⟩ : BufTy).Contents (Elt F)),
    unary main_v293 main_v294 (broadcastInDim S100000x128 ![0, 1] bcast_S100000x1_S100000x128_0_1 : (⟨S100000x1, .f32⟩ : BufTy).Contents (Elt F) → (⟨S100000x128, .f32⟩ : BufTy).Contents (Elt F)),
    binary main_v286 main_v294 main_v295 (Host.divf : (⟨S100000x128, .f32⟩ : BufTy).Contents (Elt F) → (⟨S100000x128, .f32⟩ : BufTy).Contents (Elt F) → (⟨S100000x128, .f32⟩ : BufTy).Contents (Elt F)),
    binary main_v295 main_v268 main_v296 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v270 main_v297 (broadcastInDim S1x128 ![1] bcast_S128_S1x128_1 : (⟨S128, .f32⟩ : BufTy).Contents (Elt F) → (⟨S1x128, .f32⟩ : BufTy).Contents (Elt F)),
    unary main_v297 main_v298 (broadcastInDim S100000x128 ![0, 1] bcast_S1x128_S100000x128_0_1 : (⟨S1x128, .f32⟩ : BufTy).Contents (Elt F) → (⟨S100000x128, .f32⟩ : BufTy).Contents (Elt F)),
    binary main_v296 main_v298 main_v299 (addf : (⟨S100000x128, .f32⟩ : BufTy).Contents (Elt F) → (⟨S100000x128, .f32⟩ : BufTy).Contents (Elt F) → (⟨S100000x128, .f32⟩ : BufTy).Contents (Elt F)),
    binary main_v187 main_v272 main_v300 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v299 main_v300 main_v301 (addf : (⟨S100000x128, .f32⟩ : BufTy).Contents (Elt F) → (⟨S100000x128, .f32⟩ : BufTy).Contents (Elt F) → (⟨S100000x128, .f32⟩ : BufTy).Contents (Elt F)),
    binary main_v264 main_v301 main_v302 (addf : (⟨S100000x128, .f32⟩ : BufTy).Contents (Elt F) → (⟨S100000x128, .f32⟩ : BufTy).Contents (Elt F) → (⟨S100000x128, .f32⟩ : BufTy).Contents (Elt F)),
    nullary main_cst_45 (constant S_ .f32 0x40400000#32),
    unary main_cst_45 main_v303 (broadcastInDim S100000x128 ![] bcast_S_S100000x128 : (⟨S_, .f32⟩ : BufTy).Contents (Elt F) → (⟨S100000x128, .f32⟩ : BufTy).Contents (Elt F)),
    binary main_v302 main_v303 main_v304 (Host.divf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S100000x128, .f32⟩) main_call7_v0) (broadcastInDim S100000x128 ![] bcast_S_S100000x128),
    TRef.binary (TRef.of (T := ⟨S100000x128, .f32⟩) main_v304) (TRef.of (T := ⟨S100000x128, .f32⟩) main_call7_v0) (TRef.of (T := ⟨S100000x128, .f32⟩) main_v305) maximumf,
    unary main_arg10 main_v306 ((extractStridedSlice S1x128 ![1, 0] · slices_S2x128_S1x128_1_0) : (⟨S2x128, .f32⟩ : BufTy).Contents (Elt F) → (⟨S1x128, .f32⟩ : BufTy).Contents (Elt F)),
    reshape main_v306 main_v307 rfl shapeCasts_S1x128_S128,
    unary main_arg11 main_v308 ((extractStridedSlice S1x128 ![1, 0] · slices_S2x128_S1x128_1_0) : (⟨S2x128, .f32⟩ : BufTy).Contents (Elt F) → (⟨S1x128, .f32⟩ : BufTy).Contents (Elt F)),
    reshape main_v308 main_v309 rfl shapeCasts_S1x128_S128,
    nullary main_cst_46 (constant S_ .f32 0x00000000#32),
    binary main_v305 main_cst_46 main_v310 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v310 main_v311 (broadcastInDim S100000x1 ![0] bcast_S100000_S100000x1_0 : (⟨S100000, .f32⟩ : BufTy).Contents (Elt F) → (⟨S100000x1, .f32⟩ : BufTy).Contents (Elt F)),
    nullary main_cst_47 (constant S_ .f32 0x43000000#32),
    unary main_cst_47 main_v312 (broadcastInDim S100000x1 ![] bcast_S_S100000x1 : (⟨S_, .f32⟩ : BufTy).Contents (Elt F) → (⟨S100000x1, .f32⟩ : BufTy).Contents (Elt F)),
    binary main_v311 main_v312 main_v313 (Host.divf : (⟨S100000x1, .f32⟩ : BufTy).Contents (Elt F) → (⟨S100000x1, .f32⟩ : BufTy).Contents (Elt F) → (⟨S100000x1, .f32⟩ : BufTy).Contents (Elt F)),
    unary main_v313 main_v314 (broadcastInDim S100000x128 ![0, 1] bcast_S100000x1_S100000x128_0_1 : (⟨S100000x1, .f32⟩ : BufTy).Contents (Elt F) → (⟨S100000x128, .f32⟩ : BufTy).Contents (Elt F)),
    binary main_v305 main_v314 main_v315 (subf : (⟨S100000x128, .f32⟩ : BufTy).Contents (Elt F) → (⟨S100000x128, .f32⟩ : BufTy).Contents (Elt F) → (⟨S100000x128, .f32⟩ : BufTy).Contents (Elt F)),
    binary main_v315 main_v315 main_v316 (mulf : (⟨S100000x128, .f32⟩ : BufTy).Contents (Elt F) → (⟨S100000x128, .f32⟩ : BufTy).Contents (Elt F) → (⟨S100000x128, .f32⟩ : BufTy).Contents (Elt F)),
    nullary main_cst_48 (constant S_ .f32 0x00000000#32),
    binary main_v316 main_cst_48 main_v317 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v317 main_v318 (broadcastInDim S100000x1 ![0] bcast_S100000_S100000x1_0 : (⟨S100000, .f32⟩ : BufTy).Contents (Elt F) → (⟨S100000x1, .f32⟩ : BufTy).Contents (Elt F)),
    nullary main_cst_49 (constant S_ .f32 0x43000000#32),
    unary main_cst_49 main_v319 (broadcastInDim S100000x1 ![] bcast_S_S100000x1 : (⟨S_, .f32⟩ : BufTy).Contents (Elt F) → (⟨S100000x1, .f32⟩ : BufTy).Contents (Elt F)),
    binary main_v318 main_v319 main_v320 (Host.divf : (⟨S100000x1, .f32⟩ : BufTy).Contents (Elt F) → (⟨S100000x1, .f32⟩ : BufTy).Contents (Elt F) → (⟨S100000x1, .f32⟩ : BufTy).Contents (Elt F)),
    unary main_v313 main_v321 (broadcastInDim S100000x128 ![0, 1] bcast_S100000x1_S100000x128_0_1 : (⟨S100000x1, .f32⟩ : BufTy).Contents (Elt F) → (⟨S100000x128, .f32⟩ : BufTy).Contents (Elt F)),
    binary main_v305 main_v321 main_v322 (subf : (⟨S100000x128, .f32⟩ : BufTy).Contents (Elt F) → (⟨S100000x128, .f32⟩ : BufTy).Contents (Elt F) → (⟨S100000x128, .f32⟩ : BufTy).Contents (Elt F)),
    nullary main_cst_50 (constant S_ .f32 0x3727C5AC#32),
    unary main_cst_50 main_v323 (broadcastInDim S100000x1 ![] bcast_S_S100000x1 : (⟨S_, .f32⟩ : BufTy).Contents (Elt F) → (⟨S100000x1, .f32⟩ : BufTy).Contents (Elt F)),
    binary main_v320 main_v323 main_v324 (addf : (⟨S100000x1, .f32⟩ : BufTy).Contents (Elt F) → (⟨S100000x1, .f32⟩ : BufTy).Contents (Elt F) → (⟨S100000x1, .f32⟩ : BufTy).Contents (Elt F)),
    unary main_v324 main_v325 (Host.sqrt : (⟨S100000x1, .f32⟩ : BufTy).Contents (Elt F) → (⟨S100000x1, .f32⟩ : BufTy).Contents (Elt F)),
    unary main_v325 main_v326 (broadcastInDim S100000x128 ![0, 1] bcast_S100000x1_S100000x128_0_1 : (⟨S100000x1, .f32⟩ : BufTy).Contents (Elt F) → (⟨S100000x128, .f32⟩ : BufTy).Contents (Elt F)),
    binary main_v322 main_v326 main_v327 (Host.divf : (⟨S100000x128, .f32⟩ : BufTy).Contents (Elt F) → (⟨S100000x128, .f32⟩ : BufTy).Contents (Elt F) → (⟨S100000x128, .f32⟩ : BufTy).Contents (Elt F)),
    unary main_v307 main_v328 (broadcastInDim S1x128 ![1] bcast_S128_S1x128_1 : (⟨S128, .f32⟩ : BufTy).Contents (Elt F) → (⟨S1x128, .f32⟩ : BufTy).Contents (Elt F)),
    unary main_v328 main_v329 (broadcastInDim S100000x128 ![0, 1] bcast_S1x128_S100000x128_0_1 : (⟨S1x128, .f32⟩ : BufTy).Contents (Elt F) → (⟨S100000x128, .f32⟩ : BufTy).Contents (Elt F)),
    binary main_v327 main_v329 main_v330 (mulf : (⟨S100000x128, .f32⟩ : BufTy).Contents (Elt F) → (⟨S100000x128, .f32⟩ : BufTy).Contents (Elt F) → (⟨S100000x128, .f32⟩ : BufTy).Contents (Elt F)),
    unary main_v309 main_v331 (broadcastInDim S1x128 ![1] bcast_S128_S1x128_1 : (⟨S128, .f32⟩ : BufTy).Contents (Elt F) → (⟨S1x128, .f32⟩ : BufTy).Contents (Elt F)),
    unary main_v331 main_v332 (broadcastInDim S100000x128 ![0, 1] bcast_S1x128_S100000x128_0_1 : (⟨S1x128, .f32⟩ : BufTy).Contents (Elt F) → (⟨S100000x128, .f32⟩ : BufTy).Contents (Elt F)),
    binary main_v330 main_v332 main_v333 (addf : (⟨S100000x128, .f32⟩ : BufTy).Contents (Elt F) → (⟨S100000x128, .f32⟩ : BufTy).Contents (Elt F) → (⟨S100000x128, .f32⟩ : BufTy).Contents (Elt F)) ]

set_option maxRecDepth 8192 in
theorem ops1_sub : (ops1 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., binary_bufs_sub .., binary_bufs_sub .., nullary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., binary_bufs_sub .., binary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., unary_bufs_sub .., reshape_bufs_sub .., unary_bufs_sub .., reshape_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

set_option maxRecDepth 8192 in
set_option maxHeartbeats 40000000 in
theorem ops1_fresh : ∀ op ∈ (ops1 : List (HloOp τ sig (Elt F))), op.fresh = ∅ := by
  intro _ h; (repeat (cases h with | head => rfl | tail _ h => ?_)); exact nomatch h

set_option maxRecDepth 8192 in
set_option maxHeartbeats 100000000 in
/-- The layer's result buffer after its operations. -/
theorem seg1_res (W : Valuation τ sig (Elt F)) :
    after ops1 W (Proc.devRef .tc main_v333) = refL1 (W (Proc.devRef .tc main_v187)) (W (Proc.devRef .tc main_arg1)) (W (Proc.devRef .tc main_arg7)) (W (Proc.devRef .tc main_arg8)) (W (Proc.devRef .tc main_arg9)) (W (Proc.devRef .tc main_arg10)) (W (Proc.devRef .tc main_arg11)) := by
  after_results_simp <;> rfl

set_option maxRecDepth 8192 in
set_option maxHeartbeats 100000000 in
theorem seg1_arg0 (W : Valuation τ sig (Elt F)) : after ops1 W (Proc.devRef .tc main_arg0) = W (Proc.devRef .tc main_arg0) := by
  after_results_simp <;> rfl

set_option maxRecDepth 8192 in
set_option maxHeartbeats 100000000 in
theorem seg1_arg1 (W : Valuation τ sig (Elt F)) : after ops1 W (Proc.devRef .tc main_arg1) = W (Proc.devRef .tc main_arg1) := by
  after_results_simp <;> rfl

set_option maxRecDepth 8192 in
set_option maxHeartbeats 100000000 in
theorem seg1_arg2 (W : Valuation τ sig (Elt F)) : after ops1 W (Proc.devRef .tc main_arg2) = W (Proc.devRef .tc main_arg2) := by
  after_results_simp <;> rfl

set_option maxRecDepth 8192 in
set_option maxHeartbeats 100000000 in
theorem seg1_arg3 (W : Valuation τ sig (Elt F)) : after ops1 W (Proc.devRef .tc main_arg3) = W (Proc.devRef .tc main_arg3) := by
  after_results_simp <;> rfl

set_option maxRecDepth 8192 in
set_option maxHeartbeats 100000000 in
theorem seg1_arg4 (W : Valuation τ sig (Elt F)) : after ops1 W (Proc.devRef .tc main_arg4) = W (Proc.devRef .tc main_arg4) := by
  after_results_simp <;> rfl

set_option maxRecDepth 8192 in
set_option maxHeartbeats 100000000 in
theorem seg1_arg5 (W : Valuation τ sig (Elt F)) : after ops1 W (Proc.devRef .tc main_arg5) = W (Proc.devRef .tc main_arg5) := by
  after_results_simp <;> rfl

set_option maxRecDepth 8192 in
set_option maxHeartbeats 100000000 in
theorem seg1_arg6 (W : Valuation τ sig (Elt F)) : after ops1 W (Proc.devRef .tc main_arg6) = W (Proc.devRef .tc main_arg6) := by
  after_results_simp <;> rfl

set_option maxRecDepth 8192 in
set_option maxHeartbeats 100000000 in
theorem seg1_arg7 (W : Valuation τ sig (Elt F)) : after ops1 W (Proc.devRef .tc main_arg7) = W (Proc.devRef .tc main_arg7) := by
  after_results_simp <;> rfl

set_option maxRecDepth 8192 in
set_option maxHeartbeats 100000000 in
theorem seg1_arg8 (W : Valuation τ sig (Elt F)) : after ops1 W (Proc.devRef .tc main_arg8) = W (Proc.devRef .tc main_arg8) := by
  after_results_simp <;> rfl

set_option maxRecDepth 8192 in
set_option maxHeartbeats 100000000 in
theorem seg1_arg9 (W : Valuation τ sig (Elt F)) : after ops1 W (Proc.devRef .tc main_arg9) = W (Proc.devRef .tc main_arg9) := by
  after_results_simp <;> rfl

set_option maxRecDepth 8192 in
set_option maxHeartbeats 100000000 in
theorem seg1_arg10 (W : Valuation τ sig (Elt F)) : after ops1 W (Proc.devRef .tc main_arg10) = W (Proc.devRef .tc main_arg10) := by
  after_results_simp <;> rfl

set_option maxRecDepth 8192 in
set_option maxHeartbeats 100000000 in
theorem seg1_arg11 (W : Valuation τ sig (Elt F)) : after ops1 W (Proc.devRef .tc main_arg11) = W (Proc.devRef .tc main_arg11) := by
  after_results_simp <;> rfl

end Cert.RefSide

end
-- ==== Proof.RefRun2.lean ====
/-
  The reference program's host operations of layer 2 (the three edge types' convolutions of the features after layer 1 and their mean), as a list, and what they leave in the buffers:
  from any contents W of the device's buffers, the layer's result buffer ends at the layer function of the contents of
  the buffers the layer reads, and every argument buffer ends as it was.
-/
import proofs.«151081_j64338610094389_2_alg».proof.Proof.RefGraph
import Idealize.ShloMosaic.Lib.StableHlo.Run

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- The operations of this layer, in the program's order. -/
abbrev ops2 : List (HloOp τ sig (Elt F)) :=
  [ unary main_arg1 main_v334 ((extractStridedSlice S1x2x500000 ![0, 0, 0] · slices_S3x2x500000_S1x2x500000_0_0_0) : (⟨S3x2x500000, .i32⟩ : BufTy).Contents (Elt F) → (⟨S1x2x500000, .i32⟩ : BufTy).Contents (Elt F)),
    reshape main_v334 main_v335 rfl shapeCasts_S1x2x500000_S2x500000,
    unary main_arg7 main_v336 ((extractStridedSlice S1x1x128x128 ![1, 0, 0, 0] · slices_S2x3x128x128_S1x1x128x128_1_0_0_0) : (⟨S2x3x128x128, .f32⟩ : BufTy).Contents (Elt F) → (⟨S1x1x128x128, .f32⟩ : BufTy).Contents (Elt F)),
    reshape main_v336 main_v337 rfl shapeCasts_S1x1x128x128_S128x128,
    unary main_arg8 main_v338 ((extractStridedSlice S1x1x128 ![1, 0, 0] · slices_S2x3x128_S1x1x128_1_0_0) : (⟨S2x3x128, .f32⟩ : BufTy).Contents (Elt F) → (⟨S1x1x128, .f32⟩ : BufTy).Contents (Elt F)),
    reshape main_v338 main_v339 rfl shapeCasts_S1x1x128_S128,
    unary main_arg9 main_v340 ((extractStridedSlice S1x1x128x128 ![1, 0, 0, 0] · slices_S2x3x128x128_S1x1x128x128_1_0_0_0) : (⟨S2x3x128x128, .f32⟩ : BufTy).Contents (Elt F) → (⟨S1x1x128x128, .f32⟩ : BufTy).Contents (Elt F)),
    reshape main_v340 main_v341 rfl shapeCasts_S1x1x128x128_S128x128,
    unary main_v335 main_v342 ((extractStridedSlice S1x500000 ![0, 0] · slices_S2x500000_S1x500000_0_0) : (⟨S2x500000, .i32⟩ : BufTy).Contents (Elt F) → (⟨S1x500000, .i32⟩ : BufTy).Contents (Elt F)),
    reshape main_v342 main_v343 rfl shapeCasts_S1x500000_S500000,
    unary main_v335 main_v344 ((extractStridedSlice S1x500000 ![1, 0] · slices_S2x500000_S1x500000_1_0) : (⟨S2x500000, .i32⟩ : BufTy).Contents (Elt F) → (⟨S1x500000, .i32⟩ : BufTy).Contents (Elt F)),
    reshape main_v344 main_v345 rfl shapeCasts_S1x500000_S500000,
    nullary main_c_51 (constantI S_ 32 0#32),
    unary main_c_51 main_v346 (broadcastInDim S500000 ![] bcast_S_S500000 : (⟨S_, .i32⟩ : BufTy).Contents (Elt F) → (⟨S500000, .i32⟩ : BufTy).Contents (Elt F)),
    binary main_v343 main_v346 main_v347 (cmpi .slt : (⟨S500000, .i32⟩ : BufTy).Contents (Elt F) → (⟨S500000, .i32⟩ : BufTy).Contents (Elt F) → (⟨S500000, .i1⟩ : BufTy).Contents (Elt F)),
    nullary main_c_52 (constantI S_ 32 100000#32),
    unary main_c_52 main_v348 (broadcastInDim S500000 ![] bcast_S_S500000 : (⟨S_, .i32⟩ : BufTy).Contents (Elt F) → (⟨S500000, .i32⟩ : BufTy).Contents (Elt F)),
    binary main_v343 main_v348 main_v349 (addi : (⟨S500000, .i32⟩ : BufTy).Contents (Elt F) → (⟨S500000, .i32⟩ : BufTy).Contents (Elt F) → (⟨S500000, .i32⟩ : BufTy).Contents (Elt F)),
    ternary main_v347 main_v349 main_v343 main_v350 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v350 main_v351 (broadcastInDim S500000x1 ![0] bcast_S500000_S500000x1_0 : (⟨S500000, .i32⟩ : BufTy).Contents (Elt F) → (⟨S500000x1, .i32⟩ : BufTy).Contents (Elt F)),
    binary main_v333 main_v351 main_v352 ((fun x i => Host.gather gather_S100000x128_S500000x1_S500000x128_1_0_n_n_0_1_1128 x i) : (⟨S100000x128, .f32⟩ : BufTy).Contents (Elt F) → (⟨S500000x1, .i32⟩ : BufTy).Contents (Elt F) → (⟨S500000x128, .f32⟩ : BufTy).Contents (Elt F)),
    nullary main_cst_53 (constant S_ .f32 0x00000000#32),
    unary main_cst_53 main_v353 (broadcastInDim S100000x128 ![] bcast_S_S100000x128 : (⟨S_, .f32⟩ : BufTy).Contents (Elt F) → (⟨S100000x128, .f32⟩ : BufTy).Contents (Elt F)),
    unary main_v345 main_v354 (broadcastInDim S500000x1 ![0] bcast_S500000_S500000x1_0 : (⟨S500000, .i32⟩ : BufTy).Contents (Elt F) → (⟨S500000x1, .i32⟩ : BufTy).Contents (Elt F)),
    ternary main_v353 main_v354 main_v352 main_v355 ((fun x i u => Host.scatterAdd scatter_S100000x128_S500000x1_S500000x128_1_0_0_1 x i u) : (⟨S100000x128, .f32⟩ : BufTy).Contents (Elt F) → (⟨S500000x1, .i32⟩ : BufTy).Contents (Elt F) → (⟨S500000x128, .f32⟩ : BufTy).Contents (Elt F) → (⟨S100000x128, .f32⟩ : BufTy).Contents (Elt F)),
    nullary main_cst_54 (constant S_ .f32 0x3F800000#32),
    unary main_cst_54 main_v356 (broadcastInDim S500000 ![] bcast_S_S500000 : (⟨S_, .f32⟩ : BufTy).Contents (Elt F) → (⟨S500000, .f32⟩ : BufTy).Contents (Elt F)),
    nullary main_cst_55 (constant S_ .f32 0x00000000#32),
    unary main_cst_55 main_v357 (broadcastInDim S100000 ![] bcast_S_S100000 : (⟨S_, .f32⟩ : BufTy).Contents (Elt F) → (⟨S100000, .f32⟩ : BufTy).Contents (Elt F)),
    unary main_v345 main_v358 (broadcastInDim S500000x1 ![0] bcast_S500000_S500000x1_0 : (⟨S500000, .i32⟩ : BufTy).Contents (Elt F) → (⟨S500000x1, .i32⟩ : BufTy).Contents (Elt F)),
    ternary main_v357 main_v358 main_v356 main_v359 ((fun x i u => Host.scatterAdd scatter_S100000_S500000x1_S500000_n_0_0_1 x i u) : (⟨S100000, .f32⟩ : BufTy).Contents (Elt F) → (⟨S500000x1, .i32⟩ : BufTy).Contents (Elt F) → (⟨S500000, .f32⟩ : BufTy).Contents (Elt F) → (⟨S100000, .f32⟩ : BufTy).Contents (Elt F)),
    nullary main_cst_56 (constant S_ .f32 0x3F800000#32),
    unary main_cst_56 main_v360 (broadcastInDim S100000 ![] bcast_S_S100000 : (⟨S_, .f32⟩ : BufTy).Contents (Elt F) → (⟨S100000, .f32⟩ : BufTy).Contents (Elt F)),
    binary main_v359 main_v360 main_v361 (maximumf : (⟨S100000, .f32⟩ : BufTy).Contents (Elt F) → (⟨S100000, .f32⟩ : BufTy).Contents (Elt F) → (⟨S100000, .f32⟩ : BufTy).Contents (Elt F)),
    unary main_v361 main_v362 (broadcastInDim S100000x1 ![0] bcast_S100000_S100000x1_0 : (⟨S100000, .f32⟩ : BufTy).Contents (Elt F) → (⟨S100000x1, .f32⟩ : BufTy).Contents (Elt F)),
    unary main_v362 main_v363 (broadcastInDim S100000x128 ![0, 1] bcast_S100000x1_S100000x128_0_1 : (⟨S100000x1, .f32⟩ : BufTy).Contents (Elt F) → (⟨S100000x128, .f32⟩ : BufTy).Contents (Elt F)),
    binary main_v355 main_v363 main_v364 (Host.divf : (⟨S100000x128, .f32⟩ : BufTy).Contents (Elt F) → (⟨S100000x128, .f32⟩ : BufTy).Contents (Elt F) → (⟨S100000x128, .f32⟩ : BufTy).Contents (Elt F)),
    binary main_v364 main_v337 main_v365 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v339 main_v366 (broadcastInDim S1x128 ![1] bcast_S128_S1x128_1 : (⟨S128, .f32⟩ : BufTy).Contents (Elt F) → (⟨S1x128, .f32⟩ : BufTy).Contents (Elt F)),
    unary main_v366 main_v367 (broadcastInDim S100000x128 ![0, 1] bcast_S1x128_S100000x128_0_1 : (⟨S1x128, .f32⟩ : BufTy).Contents (Elt F) → (⟨S100000x128, .f32⟩ : BufTy).Contents (Elt F)),
    binary main_v365 main_v367 main_v368 (addf : (⟨S100000x128, .f32⟩ : BufTy).Contents (Elt F) → (⟨S100000x128, .f32⟩ : BufTy).Contents (Elt F) → (⟨S100000x128, .f32⟩ : BufTy).Contents (Elt F)),
    binary main_v333 main_v341 main_v369 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v368 main_v369 main_v370 (addf : (⟨S100000x128, .f32⟩ : BufTy).Contents (Elt F) → (⟨S100000x128, .f32⟩ : BufTy).Contents (Elt F) → (⟨S100000x128, .f32⟩ : BufTy).Contents (Elt F)),
    nullary main_cst_57 (constant S_ .f32 0x00000000#32),
    unary main_cst_57 main_v371 (broadcastInDim S100000x128 ![] bcast_S_S100000x128 : (⟨S_, .f32⟩ : BufTy).Contents (Elt F) → (⟨S100000x128, .f32⟩ : BufTy).Contents (Elt F)),
    binary main_v371 main_v370 main_v372 (addf : (⟨S100000x128, .f32⟩ : BufTy).Contents (Elt F) → (⟨S100000x128, .f32⟩ : BufTy).Contents (Elt F) → (⟨S100000x128, .f32⟩ : BufTy).Contents (Elt F)),
    unary main_arg1 main_v373 ((extractStridedSlice S1x2x500000 ![1, 0, 0] · slices_S3x2x500000_S1x2x500000_1_0_0) : (⟨S3x2x500000, .i32⟩ : BufTy).Contents (Elt F) → (⟨S1x2x500000, .i32⟩ : BufTy).Contents (Elt F)),
    reshape main_v373 main_v374 rfl shapeCasts_S1x2x500000_S2x500000,
    unary main_arg7 main_v375 ((extractStridedSlice S1x1x128x128 ![1, 1, 0, 0] · slices_S2x3x128x128_S1x1x128x128_1_1_0_0) : (⟨S2x3x128x128, .f32⟩ : BufTy).Contents (Elt F) → (⟨S1x1x128x128, .f32⟩ : BufTy).Contents (Elt F)),
    reshape main_v375 main_v376 rfl shapeCasts_S1x1x128x128_S128x128,
    unary main_arg8 main_v377 ((extractStridedSlice S1x1x128 ![1, 1, 0] · slices_S2x3x128_S1x1x128_1_1_0) : (⟨S2x3x128, .f32⟩ : BufTy).Contents (Elt F) → (⟨S1x1x128, .f32⟩ : BufTy).Contents (Elt F)),
    reshape main_v377 main_v378 rfl shapeCasts_S1x1x128_S128,
    unary main_arg9 main_v379 ((extractStridedSlice S1x1x128x128 ![1, 1, 0, 0] · slices_S2x3x128x128_S1x1x128x128_1_1_0_0) : (⟨S2x3x128x128, .f32⟩ : BufTy).Contents (Elt F) → (⟨S1x1x128x128, .f32⟩ : BufTy).Contents (Elt F)),
    reshape main_v379 main_v380 rfl shapeCasts_S1x1x128x128_S128x128,
    unary main_v374 main_v381 ((extractStridedSlice S1x500000 ![0, 0] · slices_S2x500000_S1x500000_0_0) : (⟨S2x500000, .i32⟩ : BufTy).Contents (Elt F) → (⟨S1x500000, .i32⟩ : BufTy).Contents (Elt F)),
    reshape main_v381 main_v382 rfl shapeCasts_S1x500000_S500000,
    unary main_v374 main_v383 ((extractStridedSlice S1x500000 ![1, 0] · slices_S2x500000_S1x500000_1_0) : (⟨S2x500000, .i32⟩ : BufTy).Contents (Elt F) → (⟨S1x500000, .i32⟩ : BufTy).Contents (Elt F)),
    reshape main_v383 main_v384 rfl shapeCasts_S1x500000_S500000,
    nullary main_c_58 (constantI S_ 32 0#32),
    unary main_c_58 main_v385 (broadcastInDim S500000 ![] bcast_S_S500000 : (⟨S_, .i32⟩ : BufTy).Contents (Elt F) → (⟨S500000, .i32⟩ : BufTy).Contents (Elt F)),
    binary main_v382 main_v385 main_v386 (cmpi .slt : (⟨S500000, .i32⟩ : BufTy).Contents (Elt F) → (⟨S500000, .i32⟩ : BufTy).Contents (Elt F) → (⟨S500000, .i1⟩ : BufTy).Contents (Elt F)),
    nullary main_c_59 (constantI S_ 32 100000#32),
    unary main_c_59 main_v387 (broadcastInDim S500000 ![] bcast_S_S500000 : (⟨S_, .i32⟩ : BufTy).Contents (Elt F) → (⟨S500000, .i32⟩ : BufTy).Contents (Elt F)),
    binary main_v382 main_v387 main_v388 (addi : (⟨S500000, .i32⟩ : BufTy).Contents (Elt F) → (⟨S500000, .i32⟩ : BufTy).Contents (Elt F) → (⟨S500000, .i32⟩ : BufTy).Contents (Elt F)),
    ternary main_v386 main_v388 main_v382 main_v389 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v389 main_v390 (broadcastInDim S500000x1 ![0] bcast_S500000_S500000x1_0 : (⟨S500000, .i32⟩ : BufTy).Contents (Elt F) → (⟨S500000x1, .i32⟩ : BufTy).Contents (Elt F)),
    binary main_v333 main_v390 main_v391 ((fun x i => Host.gather gather_S100000x128_S500000x1_S500000x128_1_0_n_n_0_1_1128 x i) : (⟨S100000x128, .f32⟩ : BufTy).Contents (Elt F) → (⟨S500000x1, .i32⟩ : BufTy).Contents (Elt F) → (⟨S500000x128, .f32⟩ : BufTy).Contents (Elt F)),
    nullary main_cst_60 (constant S_ .f32 0x00000000#32),
    unary main_cst_60 main_v392 (broadcastInDim S100000x128 ![] bcast_S_S100000x128 : (⟨S_, .f32⟩ : BufTy).Contents (Elt F) → (⟨S100000x128, .f32⟩ : BufTy).Contents (Elt F)),
    unary main_v384 main_v393 (broadcastInDim S500000x1 ![0] bcast_S500000_S500000x1_0 : (⟨S500000, .i32⟩ : BufTy).Contents (Elt F) → (⟨S500000x1, .i32⟩ : BufTy).Contents (Elt F)),
    ternary main_v392 main_v393 main_v391 main_v394 ((fun x i u => Host.scatterAdd scatter_S100000x128_S500000x1_S500000x128_1_0_0_1 x i u) : (⟨S100000x128, .f32⟩ : BufTy).Contents (Elt F) → (⟨S500000x1, .i32⟩ : BufTy).Contents (Elt F) → (⟨S500000x128, .f32⟩ : BufTy).Contents (Elt F) → (⟨S100000x128, .f32⟩ : BufTy).Contents (Elt F)),
    nullary main_cst_61 (constant S_ .f32 0x3F800000#32),
    unary main_cst_61 main_v395 (broadcastInDim S500000 ![] bcast_S_S500000 : (⟨S_, .f32⟩ : BufTy).Contents (Elt F) → (⟨S500000, .f32⟩ : BufTy).Contents (Elt F)),
    nullary main_cst_62 (constant S_ .f32 0x00000000#32),
    unary main_cst_62 main_v396 (broadcastInDim S100000 ![] bcast_S_S100000 : (⟨S_, .f32⟩ : BufTy).Contents (Elt F) → (⟨S100000, .f32⟩ : BufTy).Contents (Elt F)),
    unary main_v384 main_v397 (broadcastInDim S500000x1 ![0] bcast_S500000_S500000x1_0 : (⟨S500000, .i32⟩ : BufTy).Contents (Elt F) → (⟨S500000x1, .i32⟩ : BufTy).Contents (Elt F)),
    ternary main_v396 main_v397 main_v395 main_v398 ((fun x i u => Host.scatterAdd scatter_S100000_S500000x1_S500000_n_0_0_1 x i u) : (⟨S100000, .f32⟩ : BufTy).Contents (Elt F) → (⟨S500000x1, .i32⟩ : BufTy).Contents (Elt F) → (⟨S500000, .f32⟩ : BufTy).Contents (Elt F) → (⟨S100000, .f32⟩ : BufTy).Contents (Elt F)),
    nullary main_cst_63 (constant S_ .f32 0x3F800000#32),
    unary main_cst_63 main_v399 (broadcastInDim S100000 ![] bcast_S_S100000 : (⟨S_, .f32⟩ : BufTy).Contents (Elt F) → (⟨S100000, .f32⟩ : BufTy).Contents (Elt F)),
    binary main_v398 main_v399 main_v400 (maximumf : (⟨S100000, .f32⟩ : BufTy).Contents (Elt F) → (⟨S100000, .f32⟩ : BufTy).Contents (Elt F) → (⟨S100000, .f32⟩ : BufTy).Contents (Elt F)),
    unary main_v400 main_v401 (broadcastInDim S100000x1 ![0] bcast_S100000_S100000x1_0 : (⟨S100000, .f32⟩ : BufTy).Contents (Elt F) → (⟨S100000x1, .f32⟩ : BufTy).Contents (Elt F)),
    unary main_v401 main_v402 (broadcastInDim S100000x128 ![0, 1] bcast_S100000x1_S100000x128_0_1 : (⟨S100000x1, .f32⟩ : BufTy).Contents (Elt F) → (⟨S100000x128, .f32⟩ : BufTy).Contents (Elt F)),
    binary main_v394 main_v402 main_v403 (Host.divf : (⟨S100000x128, .f32⟩ : BufTy).Contents (Elt F) → (⟨S100000x128, .f32⟩ : BufTy).Contents (Elt F) → (⟨S100000x128, .f32⟩ : BufTy).Contents (Elt F)),
    binary main_v403 main_v376 main_v404 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v378 main_v405 (broadcastInDim S1x128 ![1] bcast_S128_S1x128_1 : (⟨S128, .f32⟩ : BufTy).Contents (Elt F) → (⟨S1x128, .f32⟩ : BufTy).Contents (Elt F)),
    unary main_v405 main_v406 (broadcastInDim S100000x128 ![0, 1] bcast_S1x128_S100000x128_0_1 : (⟨S1x128, .f32⟩ : BufTy).Contents (Elt F) → (⟨S100000x128, .f32⟩ : BufTy).Contents (Elt F)),
    binary main_v404 main_v406 main_v407 (addf : (⟨S100000x128, .f32⟩ : BufTy).Contents (Elt F) → (⟨S100000x128, .f32⟩ : BufTy).Contents (Elt F) → (⟨S100000x128, .f32⟩ : BufTy).Contents (Elt F)),
    binary main_v333 main_v380 main_v408 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v407 main_v408 main_v409 (addf : (⟨S100000x128, .f32⟩ : BufTy).Contents (Elt F) → (⟨S100000x128, .f32⟩ : BufTy).Contents (Elt F) → (⟨S100000x128, .f32⟩ : BufTy).Contents (Elt F)),
    binary main_v372 main_v409 main_v410 (addf : (⟨S100000x128, .f32⟩ : BufTy).Contents (Elt F) → (⟨S100000x128, .f32⟩ : BufTy).Contents (Elt F) → (⟨S100000x128, .f32⟩ : BufTy).Contents (Elt F)),
    unary main_arg1 main_v411 ((extractStridedSlice S1x2x500000 ![2, 0, 0] · slices_S3x2x500000_S1x2x500000_2_0_0) : (⟨S3x2x500000, .i32⟩ : BufTy).Contents (Elt F) → (⟨S1x2x500000, .i32⟩ : BufTy).Contents (Elt F)),
    reshape main_v411 main_v412 rfl shapeCasts_S1x2x500000_S2x500000,
    unary main_arg7 main_v413 ((extractStridedSlice S1x1x128x128 ![1, 2, 0, 0] · slices_S2x3x128x128_S1x1x128x128_1_2_0_0) : (⟨S2x3x128x128, .f32⟩ : BufTy).Contents (Elt F) → (⟨S1x1x128x128, .f32⟩ : BufTy).Contents (Elt F)),
    reshape main_v413 main_v414 rfl shapeCasts_S1x1x128x128_S128x128,
    unary main_arg8 main_v415 ((extractStridedSlice S1x1x128 ![1, 2, 0] · slices_S2x3x128_S1x1x128_1_2_0) : (⟨S2x3x128, .f32⟩ : BufTy).Contents (Elt F) → (⟨S1x1x128, .f32⟩ : BufTy).Contents (Elt F)),
    reshape main_v415 main_v416 rfl shapeCasts_S1x1x128_S128,
    unary main_arg9 main_v417 ((extractStridedSlice S1x1x128x128 ![1, 2, 0, 0] · slices_S2x3x128x128_S1x1x128x128_1_2_0_0) : (⟨S2x3x128x128, .f32⟩ : BufTy).Contents (Elt F) → (⟨S1x1x128x128, .f32⟩ : BufTy).Contents (Elt F)),
    reshape main_v417 main_v418 rfl shapeCasts_S1x1x128x128_S128x128,
    unary main_v412 main_v419 ((extractStridedSlice S1x500000 ![0, 0] · slices_S2x500000_S1x500000_0_0) : (⟨S2x500000, .i32⟩ : BufTy).Contents (Elt F) → (⟨S1x500000, .i32⟩ : BufTy).Contents (Elt F)),
    reshape main_v419 main_v420 rfl shapeCasts_S1x500000_S500000,
    unary main_v412 main_v421 ((extractStridedSlice S1x500000 ![1, 0] · slices_S2x500000_S1x500000_1_0) : (⟨S2x500000, .i32⟩ : BufTy).Contents (Elt F) → (⟨S1x500000, .i32⟩ : BufTy).Contents (Elt F)),
    reshape main_v421 main_v422 rfl shapeCasts_S1x500000_S500000,
    nullary main_c_64 (constantI S_ 32 0#32),
    unary main_c_64 main_v423 (broadcastInDim S500000 ![] bcast_S_S500000 : (⟨S_, .i32⟩ : BufTy).Contents (Elt F) → (⟨S500000, .i32⟩ : BufTy).Contents (Elt F)),
    binary main_v420 main_v423 main_v424 (cmpi .slt : (⟨S500000, .i32⟩ : BufTy).Contents (Elt F) → (⟨S500000, .i32⟩ : BufTy).Contents (Elt F) → (⟨S500000, .i1⟩ : BufTy).Contents (Elt F)),
    nullary main_c_65 (constantI S_ 32 100000#32),
    unary main_c_65 main_v425 (broadcastInDim S500000 ![] bcast_S_S500000 : (⟨S_, .i32⟩ : BufTy).Contents (Elt F) → (⟨S500000, .i32⟩ : BufTy).Contents (Elt F)),
    binary main_v420 main_v425 main_v426 (addi : (⟨S500000, .i32⟩ : BufTy).Contents (Elt F) → (⟨S500000, .i32⟩ : BufTy).Contents (Elt F) → (⟨S500000, .i32⟩ : BufTy).Contents (Elt F)),
    ternary main_v424 main_v426 main_v420 main_v427 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v427 main_v428 (broadcastInDim S500000x1 ![0] bcast_S500000_S500000x1_0 : (⟨S500000, .i32⟩ : BufTy).Contents (Elt F) → (⟨S500000x1, .i32⟩ : BufTy).Contents (Elt F)),
    binary main_v333 main_v428 main_v429 ((fun x i => Host.gather gather_S100000x128_S500000x1_S500000x128_1_0_n_n_0_1_1128 x i) : (⟨S100000x128, .f32⟩ : BufTy).Contents (Elt F) → (⟨S500000x1, .i32⟩ : BufTy).Contents (Elt F) → (⟨S500000x128, .f32⟩ : BufTy).Contents (Elt F)),
    nullary main_cst_66 (constant S_ .f32 0x00000000#32),
    unary main_cst_66 main_v430 (broadcastInDim S100000x128 ![] bcast_S_S100000x128 : (⟨S_, .f32⟩ : BufTy).Contents (Elt F) → (⟨S100000x128, .f32⟩ : BufTy).Contents (Elt F)),
    unary main_v422 main_v431 (broadcastInDim S500000x1 ![0] bcast_S500000_S500000x1_0 : (⟨S500000, .i32⟩ : BufTy).Contents (Elt F) → (⟨S500000x1, .i32⟩ : BufTy).Contents (Elt F)),
    ternary main_v430 main_v431 main_v429 main_v432 ((fun x i u => Host.scatterAdd scatter_S100000x128_S500000x1_S500000x128_1_0_0_1 x i u) : (⟨S100000x128, .f32⟩ : BufTy).Contents (Elt F) → (⟨S500000x1, .i32⟩ : BufTy).Contents (Elt F) → (⟨S500000x128, .f32⟩ : BufTy).Contents (Elt F) → (⟨S100000x128, .f32⟩ : BufTy).Contents (Elt F)),
    nullary main_cst_67 (constant S_ .f32 0x3F800000#32),
    unary main_cst_67 main_v433 (broadcastInDim S500000 ![] bcast_S_S500000 : (⟨S_, .f32⟩ : BufTy).Contents (Elt F) → (⟨S500000, .f32⟩ : BufTy).Contents (Elt F)),
    nullary main_cst_68 (constant S_ .f32 0x00000000#32),
    unary main_cst_68 main_v434 (broadcastInDim S100000 ![] bcast_S_S100000 : (⟨S_, .f32⟩ : BufTy).Contents (Elt F) → (⟨S100000, .f32⟩ : BufTy).Contents (Elt F)),
    unary main_v422 main_v435 (broadcastInDim S500000x1 ![0] bcast_S500000_S500000x1_0 : (⟨S500000, .i32⟩ : BufTy).Contents (Elt F) → (⟨S500000x1, .i32⟩ : BufTy).Contents (Elt F)),
    ternary main_v434 main_v435 main_v433 main_v436 ((fun x i u => Host.scatterAdd scatter_S100000_S500000x1_S500000_n_0_0_1 x i u) : (⟨S100000, .f32⟩ : BufTy).Contents (Elt F) → (⟨S500000x1, .i32⟩ : BufTy).Contents (Elt F) → (⟨S500000, .f32⟩ : BufTy).Contents (Elt F) → (⟨S100000, .f32⟩ : BufTy).Contents (Elt F)),
    nullary main_cst_69 (constant S_ .f32 0x3F800000#32),
    unary main_cst_69 main_v437 (broadcastInDim S100000 ![] bcast_S_S100000 : (⟨S_, .f32⟩ : BufTy).Contents (Elt F) → (⟨S100000, .f32⟩ : BufTy).Contents (Elt F)),
    binary main_v436 main_v437 main_v438 (maximumf : (⟨S100000, .f32⟩ : BufTy).Contents (Elt F) → (⟨S100000, .f32⟩ : BufTy).Contents (Elt F) → (⟨S100000, .f32⟩ : BufTy).Contents (Elt F)),
    unary main_v438 main_v439 (broadcastInDim S100000x1 ![0] bcast_S100000_S100000x1_0 : (⟨S100000, .f32⟩ : BufTy).Contents (Elt F) → (⟨S100000x1, .f32⟩ : BufTy).Contents (Elt F)),
    unary main_v439 main_v440 (broadcastInDim S100000x128 ![0, 1] bcast_S100000x1_S100000x128_0_1 : (⟨S100000x1, .f32⟩ : BufTy).Contents (Elt F) → (⟨S100000x128, .f32⟩ : BufTy).Contents (Elt F)),
    binary main_v432 main_v440 main_v441 (Host.divf : (⟨S100000x128, .f32⟩ : BufTy).Contents (Elt F) → (⟨S100000x128, .f32⟩ : BufTy).Contents (Elt F) → (⟨S100000x128, .f32⟩ : BufTy).Contents (Elt F)),
    binary main_v441 main_v414 main_v442 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v416 main_v443 (broadcastInDim S1x128 ![1] bcast_S128_S1x128_1 : (⟨S128, .f32⟩ : BufTy).Contents (Elt F) → (⟨S1x128, .f32⟩ : BufTy).Contents (Elt F)),
    unary main_v443 main_v444 (broadcastInDim S100000x128 ![0, 1] bcast_S1x128_S100000x128_0_1 : (⟨S1x128, .f32⟩ : BufTy).Contents (Elt F) → (⟨S100000x128, .f32⟩ : BufTy).Contents (Elt F)),
    binary main_v442 main_v444 main_v445 (addf : (⟨S100000x128, .f32⟩ : BufTy).Contents (Elt F) → (⟨S100000x128, .f32⟩ : BufTy).Contents (Elt F) → (⟨S100000x128, .f32⟩ : BufTy).Contents (Elt F)),
    binary main_v333 main_v418 main_v446 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v445 main_v446 main_v447 (addf : (⟨S100000x128, .f32⟩ : BufTy).Contents (Elt F) → (⟨S100000x128, .f32⟩ : BufTy).Contents (Elt F) → (⟨S100000x128, .f32⟩ : BufTy).Contents (Elt F)),
    binary main_v410 main_v447 main_v448 (addf : (⟨S100000x128, .f32⟩ : BufTy).Contents (Elt F) → (⟨S100000x128, .f32⟩ : BufTy).Contents (Elt F) → (⟨S100000x128, .f32⟩ : BufTy).Contents (Elt F)),
    nullary main_cst_70 (constant S_ .f32 0x40400000#32),
    unary main_cst_70 main_v449 (broadcastInDim S100000x128 ![] bcast_S_S100000x128 : (⟨S_, .f32⟩ : BufTy).Contents (Elt F) → (⟨S100000x128, .f32⟩ : BufTy).Contents (Elt F)),
    binary main_v448 main_v449 main_v450 (Host.divf : (⟨S100000x128, .f32⟩ : BufTy).Contents (Elt F) → (⟨S100000x128, .f32⟩ : BufTy).Contents (Elt F) → (⟨S100000x128, .f32⟩ : BufTy).Contents (Elt F)) ]

set_option maxRecDepth 8192 in
theorem ops2_sub : (ops2 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., binary_bufs_sub .., binary_bufs_sub .., nullary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., binary_bufs_sub .., binary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., binary_bufs_sub .., binary_bufs_sub .., binary_bufs_sub .., nullary_bufs_sub .., unary_bufs_sub .., binary_bufs_sub ..⟩

set_option maxRecDepth 8192 in
set_option maxHeartbeats 40000000 in
theorem ops2_fresh : ∀ op ∈ (ops2 : List (HloOp τ sig (Elt F))), op.fresh = ∅ := by
  intro _ h; (repeat (cases h with | head => rfl | tail _ h => ?_)); exact nomatch h

set_option maxRecDepth 8192 in
set_option maxHeartbeats 100000000 in
/-- The layer's result buffer after its operations. -/
theorem seg2_res (W : Valuation τ sig (Elt F)) :
    after ops2 W (Proc.devRef .tc main_v450) = refL2 (W (Proc.devRef .tc main_v333)) (W (Proc.devRef .tc main_arg1)) (W (Proc.devRef .tc main_arg7)) (W (Proc.devRef .tc main_arg8)) (W (Proc.devRef .tc main_arg9)) := by
  after_results_simp <;> rfl

set_option maxRecDepth 8192 in
set_option maxHeartbeats 100000000 in
theorem seg2_arg0 (W : Valuation τ sig (Elt F)) : after ops2 W (Proc.devRef .tc main_arg0) = W (Proc.devRef .tc main_arg0) := by
  after_results_simp <;> rfl

set_option maxRecDepth 8192 in
set_option maxHeartbeats 100000000 in
theorem seg2_arg1 (W : Valuation τ sig (Elt F)) : after ops2 W (Proc.devRef .tc main_arg1) = W (Proc.devRef .tc main_arg1) := by
  after_results_simp <;> rfl

set_option maxRecDepth 8192 in
set_option maxHeartbeats 100000000 in
theorem seg2_arg2 (W : Valuation τ sig (Elt F)) : after ops2 W (Proc.devRef .tc main_arg2) = W (Proc.devRef .tc main_arg2) := by
  after_results_simp <;> rfl

set_option maxRecDepth 8192 in
set_option maxHeartbeats 100000000 in
theorem seg2_arg3 (W : Valuation τ sig (Elt F)) : after ops2 W (Proc.devRef .tc main_arg3) = W (Proc.devRef .tc main_arg3) := by
  after_results_simp <;> rfl

set_option maxRecDepth 8192 in
set_option maxHeartbeats 100000000 in
theorem seg2_arg4 (W : Valuation τ sig (Elt F)) : after ops2 W (Proc.devRef .tc main_arg4) = W (Proc.devRef .tc main_arg4) := by
  after_results_simp <;> rfl

set_option maxRecDepth 8192 in
set_option maxHeartbeats 100000000 in
theorem seg2_arg5 (W : Valuation τ sig (Elt F)) : after ops2 W (Proc.devRef .tc main_arg5) = W (Proc.devRef .tc main_arg5) := by
  after_results_simp <;> rfl

set_option maxRecDepth 8192 in
set_option maxHeartbeats 100000000 in
theorem seg2_arg6 (W : Valuation τ sig (Elt F)) : after ops2 W (Proc.devRef .tc main_arg6) = W (Proc.devRef .tc main_arg6) := by
  after_results_simp <;> rfl

set_option maxRecDepth 8192 in
set_option maxHeartbeats 100000000 in
theorem seg2_arg7 (W : Valuation τ sig (Elt F)) : after ops2 W (Proc.devRef .tc main_arg7) = W (Proc.devRef .tc main_arg7) := by
  after_results_simp <;> rfl

set_option maxRecDepth 8192 in
set_option maxHeartbeats 100000000 in
theorem seg2_arg8 (W : Valuation τ sig (Elt F)) : after ops2 W (Proc.devRef .tc main_arg8) = W (Proc.devRef .tc main_arg8) := by
  after_results_simp <;> rfl

set_option maxRecDepth 8192 in
set_option maxHeartbeats 100000000 in
theorem seg2_arg9 (W : Valuation τ sig (Elt F)) : after ops2 W (Proc.devRef .tc main_arg9) = W (Proc.devRef .tc main_arg9) := by
  after_results_simp <;> rfl

set_option maxRecDepth 8192 in
set_option maxHeartbeats 100000000 in
theorem seg2_arg10 (W : Valuation τ sig (Elt F)) : after ops2 W (Proc.devRef .tc main_arg10) = W (Proc.devRef .tc main_arg10) := by
  after_results_simp <;> rfl

set_option maxRecDepth 8192 in
set_option maxHeartbeats 100000000 in
theorem seg2_arg11 (W : Valuation τ sig (Elt F)) : after ops2 W (Proc.devRef .tc main_arg11) = W (Proc.devRef .tc main_arg11) := by
  after_results_simp <;> rfl

end Cert.RefSide

end
-- ==== Proof.RefRun.lean ====
/-
  The reference program's run: its @main is the three layers' lists of host operations one after
  the other; from any memory with zero counters every weakly fair execution terminates, the result buffer ends at the
  third layer's function of the second's of the first's of the argument arrays, and the twelve argument buffers end
  as they were. Each layer's list is read from an arbitrary state of the buffers (the modules of the three layers), so
  the composed result never repeats a layer's term.
-/
import proofs.«151081_j64338610094389_2_alg».proof.Proof.RefRun0
import proofs.«151081_j64338610094389_2_alg».proof.Proof.RefRun1
import proofs.«151081_j64338610094389_2_alg».proof.Proof.RefRun2

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- @main's operations: the three layers in order. -/
abbrev ops : List (HloOp τ sig (Elt F)) := ops0 ++ (ops1 ++ ops2)

/-- The buffers after two lists run one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

set_option maxRecDepth 16384 in
set_option maxHeartbeats 8000000 in
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  rw [List.forall_iff_forall_mem]
  intro op hop
  rcases List.mem_append.mp hop with h | h
  · exact List.forall_iff_forall_mem.mp ops0_sub op h
  · rcases List.mem_append.mp h with h | h
    · exact List.forall_iff_forall_mem.mp ops1_sub op h
    · exact List.forall_iff_forall_mem.mp ops2_sub op h

theorem ops_fresh : ∀ op ∈ (ops : List (HloOp τ sig (Elt F))), op.fresh = ∅ := by
  intro op hop
  rcases List.mem_append.mp hop with h | h
  · exact ops0_fresh op h
  · rcases List.mem_append.mp h with h | h
    · exact ops1_fresh op h
    · exact ops2_fresh op h

/-- The result buffer after the whole line. -/
theorem after_v450 (m : (ℓ : Loc nD τ sig) → Buf (Elt F) ℓ) (c : Dev nD) :
    after ops (launchContents m c) (Proc.devRef .tc main_v450) = refOut m c := by
  show after (ops0 ++ (ops1 ++ ops2)) _ _ = _
  rw [after_append, after_append, seg2_res, seg1_res, seg1_arg1, seg1_arg7, seg1_arg8, seg1_arg9, seg0_res,
    seg0_arg1, seg0_arg7, seg0_arg8, seg0_arg9, seg0_arg10, seg0_arg11]
  rfl

theorem after_arg0 (m : (ℓ : Loc nD τ sig) → Buf (Elt F) ℓ) (c : Dev nD) :
    after ops (launchContents m c) (Proc.devRef .tc main_arg0) = m ((c.tc : Thread nD τ).loc main_arg0) := by
  show after (ops0 ++ (ops1 ++ ops2)) _ _ = _
  rw [after_append, after_append, seg2_arg0, seg1_arg0, seg0_arg0]

theorem after_arg1 (m : (ℓ : Loc nD τ sig) → Buf (Elt F) ℓ) (c : Dev nD) :
    after ops (launchContents m c) (Proc.devRef .tc main_arg1) = m ((c.tc : Thread nD τ).loc main_arg1) := by
  show after (ops0 ++ (ops1 ++ ops2)) _ _ = _
  rw [after_append, after_append, seg2_arg1, seg1_arg1, seg0_arg1]

theorem after_arg2 (m : (ℓ : Loc nD τ sig) → Buf (Elt F) ℓ) (c : Dev nD) :
    after ops (launchContents m c) (Proc.devRef .tc main_arg2) = m ((c.tc : Thread nD τ).loc main_arg2) := by
  show after (ops0 ++ (ops1 ++ ops2)) _ _ = _
  rw [after_append, after_append, seg2_arg2, seg1_arg2, seg0_arg2]

theorem after_arg3 (m : (ℓ : Loc nD τ sig) → Buf (Elt F) ℓ) (c : Dev nD) :
    after ops (launchContents m c) (Proc.devRef .tc main_arg3) = m ((c.tc : Thread nD τ).loc main_arg3) := by
  show after (ops0 ++ (ops1 ++ ops2)) _ _ = _
  rw [after_append, after_append, seg2_arg3, seg1_arg3, seg0_arg3]

theorem after_arg4 (m : (ℓ : Loc nD τ sig) → Buf (Elt F) ℓ) (c : Dev nD) :
    after ops (launchContents m c) (Proc.devRef .tc main_arg4) = m ((c.tc : Thread nD τ).loc main_arg4) := by
  show after (ops0 ++ (ops1 ++ ops2)) _ _ = _
  rw [after_append, after_append, seg2_arg4, seg1_arg4, seg0_arg4]

theorem after_arg5 (m : (ℓ : Loc nD τ sig) → Buf (Elt F) ℓ) (c : Dev nD) :
    after ops (launchContents m c) (Proc.devRef .tc main_arg5) = m ((c.tc : Thread nD τ).loc main_arg5) := by
  show after (ops0 ++ (ops1 ++ ops2)) _ _ = _
  rw [after_append, after_append, seg2_arg5, seg1_arg5, seg0_arg5]

theorem after_arg6 (m : (ℓ : Loc nD τ sig) → Buf (Elt F) ℓ) (c : Dev nD) :
    after ops (launchContents m c) (Proc.devRef .tc main_arg6) = m ((c.tc : Thread nD τ).loc main_arg6) := by
  show after (ops0 ++ (ops1 ++ ops2)) _ _ = _
  rw [after_append, after_append, seg2_arg6, seg1_arg6, seg0_arg6]

theorem after_arg7 (m : (ℓ : Loc nD τ sig) → Buf (Elt F) ℓ) (c : Dev nD) :
    after ops (launchContents m c) (Proc.devRef .tc main_arg7) = m ((c.tc : Thread nD τ).loc main_arg7) := by
  show after (ops0 ++ (ops1 ++ ops2)) _ _ = _
  rw [after_append, after_append, seg2_arg7, seg1_arg7, seg0_arg7]

theorem after_arg8 (m : (ℓ : Loc nD τ sig) → Buf (Elt F) ℓ) (c : Dev nD) :
    after ops (launchContents m c) (Proc.devRef .tc main_arg8) = m ((c.tc : Thread nD τ).loc main_arg8) := by
  show after (ops0 ++ (ops1 ++ ops2)) _ _ = _
  rw [after_append, after_append, seg2_arg8, seg1_arg8, seg0_arg8]

theorem after_arg9 (m : (ℓ : Loc nD τ sig) → Buf (Elt F) ℓ) (c : Dev nD) :
    after ops (launchContents m c) (Proc.devRef .tc main_arg9) = m ((c.tc : Thread nD τ).loc main_arg9) := by
  show after (ops0 ++ (ops1 ++ ops2)) _ _ = _
  rw [after_append, after_append, seg2_arg9, seg1_arg9, seg0_arg9]

theorem after_arg10 (m : (ℓ : Loc nD τ sig) → Buf (Elt F) ℓ) (c : Dev nD) :
    after ops (launchContents m c) (Proc.devRef .tc main_arg10) = m ((c.tc : Thread nD τ).loc main_arg10) := by
  show after (ops0 ++ (ops1 ++ ops2)) _ _ = _
  rw [after_append, after_append, seg2_arg10, seg1_arg10, seg0_arg10]

theorem after_arg11 (m : (ℓ : Loc nD τ sig) → Buf (Elt F) ℓ) (c : Dev nD) :
    after ops (launchContents m c) (Proc.devRef .tc main_arg11) = m ((c.tc : Thread nD τ).loc main_arg11) := by
  show after (ops0 ++ (ops1 ++ ops2)) _ _ = _
  rw [after_append, after_append, seg2_arg11, seg1_arg11, seg0_arg11]

/-- On every device, for any float values, from any memory with zero counters: every weakly fair execution of @main
    terminates with the result at the composed layer functions of the arguments and the arguments unchanged. -/
theorem run' (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v450) = refOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v450).trans (after_v450 m c),
      (h c main_arg0).trans (after_arg0 m c),
      (h c main_arg1).trans (after_arg1 m c),
      (h c main_arg2).trans (after_arg2 m c),
      (h c main_arg3).trans (after_arg3 m c),
      (h c main_arg4).trans (after_arg4 m c),
      (h c main_arg5).trans (after_arg5 m c),
      (h c main_arg6).trans (after_arg6 m c),
      (h c main_arg7).trans (after_arg7 m c),
      (h c main_arg8).trans (after_arg8 m c),
      (h c main_arg9).trans (after_arg9 m c),
      (h c main_arg10).trans (after_arg10 m c),
      (h c main_arg11).trans (after_arg11 m c)⟩)
    (run_seq scopedRefs_eq scopedSems_eq defs main (fun _ => ops) main_eq (fun _ => ops_sub) m ρ (fun _ => ops_fresh))

end Cert.RefSide

end
-- ==== Proof.RefFrame.lean ====
/-
  The reference program's frame: its run terminates without a fault and leaves every argument array as it found it.
  The frame claim is the run with the result's value dropped.
-/
import proofs.«151081_j64338610094389_2_alg».proof.Defs
import proofs.«151081_j64338610094389_2_alg».proof.Proof.Gen.ReferenceIdeal
import proofs.«151081_j64338610094389_2_alg».proof.Proof.Gen.Pre_finite_inputs
import proofs.«151081_j64338610094389_2_alg».proof.Proof.RefRun

noncomputable section

open Idealize.ShloMosaic Idealize.SL.Sem

namespace Cert.Proof.RefFrame

/-- Every weakly fair execution of the reference ends, faults nowhere, and ends with its twelve arguments unchanged. -/
theorem frame_ri [hReferenceIdeal : Cert.ReferenceIdeal.Facts] [hPre_finite_inputs : Cert.Pre_finite_inputs.Facts] :
    Cert.frame_ReferenceIdeal := fun m ρ _ =>
  (θ_run Cert.ReferenceIdeal.defs _ _).mono (fun _ h c => (h c).2) (Cert.RefSide.run' (F := Ideal) m ρ)

end Cert.Proof.RefFrame

end
-- ==== Proof.KIRegion0.lean ====
import proofs.«151081_j64338610094389_2_alg».proof.Proof.Gen.KernelIdeal.Launch
import proofs.«151081_j64338610094389_2_alg».proof.Proof.Gen.KernelIdeal.Skeleton
import proofs.«151081_j64338610094389_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding membership in a rectangle of these extents recurses once per coordinate of the long axis
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (Pipeline.UD sig nD τ) ℕ

-- what the TensorCore's buffers hold when the region is entered: everything below is stated at this parameter
variable (V : (c : Dev nD) → (b : Ref sig .tc) → Buf (Elt F) ((c : Thread nD τ).loc b))

/-! # Region 0: the projection kernel

Four windows: the node-feature block (4000×128), the three projection matrices (3×128×128) and their
biases (3×128) come in; the projected features, one 4000×128 slab per edge type, go out as a single
3×4000×128 block. -/

/-! ## The blocks the windows show -/

/-- The block window `w` shows at grid point `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature window's staging buffer holds its block at every point. The window is an input, never idle
    and uncut; the body leaves the buffer as it found it, so a point that does not refetch (the block index
    did not move) still finds the same block. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the matrices' window: its block index is constant, so it is fetched once and found in place
    at every later point. -/
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- And for the biases' window, likewise constant. -/
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes through -/

/-- The whole feature block. -/
abbrev rX0 : Rect S4000x128 := Rect.unit (s := S4000x128) ![0, 0] S4000x128.size inb_S4000x128_S4000x128_0_0
/-- Edge type `k`'s projection matrix: slab `k` of the matrices' block. -/
abbrev rW0_0 : Rect S3x128x128 := Rect.unit (s := S3x128x128) ![0, 0, 0] S1x128x128.size inb_S3x128x128_S1x128x128_0_0_0
abbrev rW0_1 : Rect S3x128x128 := Rect.unit (s := S3x128x128) ![1, 0, 0] S1x128x128.size inb_S3x128x128_S1x128x128_1_0_0
abbrev rW0_2 : Rect S3x128x128 := Rect.unit (s := S3x128x128) ![2, 0, 0] S1x128x128.size inb_S3x128x128_S1x128x128_2_0_0
/-- Edge type `k`'s bias: row `k` of the biases' block. -/
abbrev rB0_0 : Rect S3x128 := Rect.unit (s := S3x128) ![0, 0] S1x128.size inb_S3x128_S1x128_0_0
abbrev rB0_1 : Rect S3x128 := Rect.unit (s := S3x128) ![1, 0] S1x128.size inb_S3x128_S1x128_1_0
abbrev rB0_2 : Rect S3x128 := Rect.unit (s := S3x128) ![2, 0] S1x128.size inb_S3x128_S1x128_2_0
/-- Edge type `k`'s slab of the output block. -/
abbrev rO0_0 : Rect S3x4000x128 := Rect.unit (s := S3x4000x128) ![0, 0, 0] S1x4000x128.size inb_S3x4000x128_S1x4000x128_0_0_0
abbrev rO0_1 : Rect S3x4000x128 := Rect.unit (s := S3x4000x128) ![1, 0, 0] S1x4000x128.size inb_S3x4000x128_S1x4000x128_1_0_0
abbrev rO0_2 : Rect S3x4000x128 := Rect.unit (s := S3x4000x128) ![2, 0, 0] S1x4000x128.size inb_S3x4000x128_S1x4000x128_2_0_0

/-! ## What the body leaves in the output window's buffer -/

/-- The output buffer after the body, from the three input blocks (features, matrices, biases): the three
    slabs the body stores, the last store first. Slab `k` is the features, rounded to half width, times
    matrix `k`, plus bias `k`, clamped below at zero and rounded to half width again. -/
def out0_3 (x0 : Vec F S4000x128 .f32) (x1 : Vec F S3x128x128 .f32) (x2 : Vec F S3x128 .f32) : Vec F S3x4000x128 .bf16 :=
  View.canon [⟨rO0_2, k0_pay1 (k0_pay2 (View.ld x0 rX0)) (View.ld x1 rW0_2) (View.ld x2 rB0_2)⟩,
              ⟨rO0_1, k0_pay4 (View.ld x0 rX0) (View.ld x1 rW0_1) (View.ld x2 rB0_1)⟩,
              ⟨rO0_0, k0_pay3 (View.ld x0 rX0) (View.ld x1 rW0_0) (View.ld x2 rB0_0)⟩]

/-- The three slabs tile the block, so every index of it lies in one of them. -/
theorem cover0_3 (p2 p1 p0 : Vec F S1x4000x128 .bf16) (y : S3x4000x128.Idx) :
    ∃ pc ∈ ([⟨rO0_2, p2⟩, ⟨rO0_1, p1⟩, ⟨rO0_0, p0⟩] : List (View.Piece (Elt F) S3x4000x128 .bf16)), y ∈ pc.1.set :=
  View.cover_of_tiled [⟨rO0_2, p2⟩, ⟨rO0_1, p1⟩, ⟨rO0_0, p0⟩] S1x4000x128.size (by rfl) y

/-! ## The body's triple -/

set_option maxHeartbeats 4000000 in
/-- The kernel body on whole staging buffers — the three inputs' holding `x0`, `x1`, `x2`, the output's
    holding anything — runs to its end without fault, leaves the inputs as they were and the output at
    `out0_3` of them. The body reads each input through the rectangles above, and overwrites each output
    slab after a load of it whose value it never uses; the three stores cover the block, so nothing of
    what the buffer held before survives. -/
theorem sound_kernel0 (c : Dev nD) (E : Set ℕ) (i : grid0.Coords)
    (arg1 : Memref sig .tc .vmem S4000x128 .f32) (harg1 : arg1.IsWhole)
    (arg2 : Memref sig .tc .vmem S3x128x128 .f32) (harg2 : arg2.IsWhole)
    (arg3 : Memref sig .tc .vmem S3x128 .f32) (harg3 : arg3.IsWhole)
    (arg4 : Memref sig .tc .vmem S3x4000x128 .bf16) (harg4 : arg4.IsWhole)
    (x0 : Vec F S4000x128 .f32) (x1 : Vec F S3x128x128 .f32) (x2 : Vec F S3x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0_kernel i arg1 harg1 arg2 harg2 arg3 harg3 arg4 harg4) K := by
  simp only [cc0_kernel_eq_skeleton]; unfold cc0_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _ _ _)

/-! ## The proof data of the pipeline -/

/-- Pipeline 0's proof data on core `c`. The arrays are as the region finds them. After the body at point
    `t` each input's buffer still holds its block, and the output's holds `out0_3` of the three input
    blocks. The invariant is the one of kernels that touch nothing but their windows: the scoped rest
    and the generator register, handed in and given back untouched. Nothing is owed; every share is full. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- What the body finds in each input's buffer: its block, at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation at a generic point -/

/-- What the body is called with at point `t`: the invariant, the core's debts, and each window's current
    staging buffer at what the pipeline left in it. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- What it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the kernel's triple applies; the
    invariant and the debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KIRegion1.lean ====
import proofs.«151081_j64338610094389_2_alg».proof.Proof.Gen.KernelIdeal.Launch
import proofs.«151081_j64338610094389_2_alg».proof.Proof.Gen.KernelIdeal.Skeleton
import proofs.«151081_j64338610094389_2_alg».proof.Proof.Gen.KernelIdeal.Points
import proofs.«151081_j64338610094389_2_alg».proof.Proof.KIRegion0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding membership in a rectangle of these extents recurses once per coordinate of the long axis
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (Pipeline.UD sig nD τ) ℕ

-- what the TensorCore's buffers hold when the region is entered: everything below is stated at this parameter
variable (V : (c : Dev nD) → (b : Ref sig .tc) → Buf (Elt F) ((c : Thread nD τ).loc b))

/-! # Region 1: the first layer's combine kernel

Eleven windows. Ten come in: three 4000×128 blocks of aggregated messages (one per edge type), the
nodes' own 4000×128 feature block, a 4000×3 block of per-type scale columns, the message matrices and the
self matrices (3×128×128 each), the biases (3×128), and the normalisation's gain and shift (128 each). One
goes out: the layer's 4000×128 block, stored whole by a single store. -/

/-! ## The blocks the windows show -/

/-- The block window `w` shows at grid point `t`, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's staging buffer holds its block at every point: the window is an input, never idle and
uncut, and the body leaves the buffer as it found it, so a point that does not refetch — the block index did not
move; for the weights it never moves — still finds the same block. One statement per window. -/

theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (Pipeline.UD sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (Pipeline.UD sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_6_of {c : Dev nD} (dat : Dat τ (Elt F) Unit ℕ (Pipeline.UD sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

theorem before1_7_of {c : Dev nD} (dat : Dat τ (Elt F) Unit ℕ (Pipeline.UD sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

theorem before1_8_of {c : Dev nD} (dat : Dat τ (Elt F) Unit ℕ (Pipeline.UD sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

theorem before1_9_of {c : Dev nD} (dat : Dat τ (Elt F) Unit ℕ (Pipeline.UD sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the combine kernels read and write through

All three combine kernels use the same ones. -/

/-- A whole 4000×128 block. -/
abbrev rX1 : Rect S4000x128 := Rect.unit (s := S4000x128) ![0, 0] S4000x128.size inb_S4000x128_S4000x128_0_0
/-- The whole block of scale columns. -/
abbrev rE1 : Rect S4000x3 := Rect.unit (s := S4000x3) ![0, 0] S4000x3.size inb_S4000x3_S4000x3_0_0
/-- Edge type `k`'s matrix: slab `k` of a 3×128×128 block. -/
abbrev rW1_0 : Rect S3x128x128 := Rect.unit (s := S3x128x128) ![0, 0, 0] S1x128x128.size inb_S3x128x128_S1x128x128_0_0_0
abbrev rW1_1 : Rect S3x128x128 := Rect.unit (s := S3x128x128) ![1, 0, 0] S1x128x128.size inb_S3x128x128_S1x128x128_1_0_0
abbrev rW1_2 : Rect S3x128x128 := Rect.unit (s := S3x128x128) ![2, 0, 0] S1x128x128.size inb_S3x128x128_S1x128x128_2_0_0
/-- Edge type `k`'s bias: row `k` of the 3×128 block. -/
abbrev rB1_0 : Rect S3x128 := Rect.unit (s := S3x128) ![0, 0] S1x128.size inb_S3x128_S1x128_0_0
abbrev rB1_1 : Rect S3x128 := Rect.unit (s := S3x128) ![1, 0] S1x128.size inb_S3x128_S1x128_1_0
abbrev rB1_2 : Rect S3x128 := Rect.unit (s := S3x128) ![2, 0] S1x128.size inb_S3x128_S1x128_2_0
/-- A whole 128-vector. -/
abbrev rV1 : Rect S128 := Rect.unit (s := S128) ![0] S128.size inb_S128_S128_0

/-! ## What the body leaves in the output window's buffer -/

/-- The output buffer after the body, from the ten input blocks in window order: the one whole store's
    payload. The names are the body's own values in the order it computes them; each `View.ld` is a load
    of an input block through one of the rectangles above. Part one reads the five activation blocks and the first edge type's weights, part two the other two types' weights, part three the normalisation vectors; the stored value is the sum of the two terms part three returns. -/
def out1_10 (x0 x1 x2 x3 : Vec F S4000x128 .f32) (x4 : Vec F S4000x3 .f32) (x5 x6 : Vec F S3x128x128 .f32) (x7 : Vec F S3x128 .f32) (x8 x9 : Vec F S128 .f32) : Vec F S4000x128 .f32 :=
  -- the first part's loads, and what it hands on
  let v0 := View.ld x3 rX1
  let v2 := View.ld x4 rE1
  let v4 := View.ld x0 rX1
  let v6 := View.ld x1 rX1
  let v8 := View.ld x2 rX1
  let v15 := View.ld x5 rW1_0
  let v18 := View.ld x6 rW1_0
  let v21 := View.ld x7 rB1_0
  let v1 := k1_pay2 v0
  let v3 := k1_pay3 v2
  let v7 := k1_pay4 v6
  let v9 := k1_pay5 v8
  let v10 : FVec F S4000x128 .f32 := k1_pay6
  let v28 := k1_pay7 v0 v2 v4 v15 v18 v21
  let v35 := k1_pay8 v0 v2 v4 v15 v18 v21
  -- the second part's
  let v42 := View.ld x5 rW1_1
  let v45 := View.ld x6 rW1_1
  let v48 := View.ld x7 rB1_1
  let v69 := View.ld x5 rW1_2
  let v72 := View.ld x6 rW1_2
  let v75 := View.ld x7 rB1_2
  let v64 := k1_pay9 v1 v3 v7 v10 v28 v35 v42 v45 v48
  let v68 := k1_pay10 v3 v9
  let v71 := k1_pay11 v69
  let v74 := k1_pay12 v72
  -- the third part's
  let v114 := View.ld x8 rV1
  let v119 := View.ld x9 rV1
  let v118 := k1_pay13 v1 v64 v68 v71 v74 v75 v114
  let v122 := k1_pay14 v119
  View.canon [⟨rX1, k1_pay1 v118 v122⟩]

/-- The one store is of the whole block, so it covers it. -/
theorem cover1_10 (p0 : Vec F S4000x128 .f32) (y : S4000x128.Idx) :
    ∃ pc ∈ ([⟨rX1, p0⟩] : List (View.Piece (Elt F) S4000x128 .f32)), y ∈ pc.1.set :=
  View.cover_of_tiled [⟨rX1, p0⟩] S4000x128.size (by rfl) y

/-! ## The body's triple -/

set_option maxHeartbeats 4000000 in
/-- The kernel body on whole staging buffers — the ten inputs' holding `x0` … `x9`, the output's holding
    anything — runs to its end without fault, leaves the inputs as they were and the output at `out1_10`
    of them. The body only loads from the inputs; it loads the output once, never using the value, and then
    overwrites it whole, so nothing of what the buffer held before survives. -/
theorem sound_kernel1 (c : Dev nD) (E : Set ℕ) (i : grid1.Coords)
    (arg1 : Memref sig .tc .vmem S4000x128 .f32) (harg1 : arg1.IsWhole)
    (arg2 : Memref sig .tc .vmem S4000x128 .f32) (harg2 : arg2.IsWhole)
    (arg3 : Memref sig .tc .vmem S4000x128 .f32) (harg3 : arg3.IsWhole)
    (arg4 : Memref sig .tc .vmem S4000x128 .f32) (harg4 : arg4.IsWhole)
    (arg5 : Memref sig .tc .vmem S4000x3 .f32) (harg5 : arg5.IsWhole)
    (arg6 : Memref sig .tc .vmem S3x128x128 .f32) (harg6 : arg6.IsWhole)
    (arg7 : Memref sig .tc .vmem S3x128x128 .f32) (harg7 : arg7.IsWhole)
    (arg8 : Memref sig .tc .vmem S3x128 .f32) (harg8 : arg8.IsWhole)
    (arg9 : Memref sig .tc .vmem S128 .f32) (harg9 : arg9.IsWhole)
    (arg10 : Memref sig .tc .vmem S128 .f32) (harg10 : arg10.IsWhole)
    (arg11 : Memref sig .tc .vmem S4000x128 .f32) (harg11 : arg11.IsWhole)
    (x0 x1 x2 x3 : Vec F S4000x128 .f32) (x4 : Vec F S4000x3 .f32) (x5 x6 : Vec F S3x128x128 .f32) (x7 : Vec F S3x128 .f32) (x8 x9 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
        ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
            ∗ owns (c : Thread nD τ) arg11 fullShare (out1_10 x0 x1 x2 x3 x4 x5 x6 x7 x8 x9)) -∗ K ⟨⟩))
      ⊢ wp frame (wpE (defs₀ (F := F)) Variants.none c none) E (cc1_kernel i arg1 harg1 arg2 harg2 arg3 harg3 arg4 harg4 arg5 harg5 arg6 harg6 arg7 harg7 arg8 harg8 arg9 harg9 arg10 harg10 arg11 harg11) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0; subst hf1; subst hf2; subst hf3; subst hf4; subst hf5; subst hf6; subst hf7; subst hf8; subst hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (cover1_10 _)

/-! ## The proof data of the pipeline -/

/-- Pipeline 1's proof data on core `c`. The arrays are as the region finds them. After the body at point
    `t` each input's buffer still holds its block, and the output's holds `out1_10` of the ten input
    blocks. The invariant is the one of kernels that touch nothing but their windows: the scoped rest and
    the generator register, handed in and given back untouched. Nothing is owed; every share is full. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => out1_10 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) :
    (dat1 V c).after 10 t = out1_10 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) := by dsimp only [dat1]

/-- What the body finds in each input's buffer: its block, at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d

/-! ## The body obligation at a generic point -/

/-- What the body is called with at point `t`: the invariant, the core's debts, and each window's current
    staging buffer at what the pipeline left in it. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d)))

/-- What it hands back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t))

/-- The body at any point: the inputs' buffers hold their blocks, so the kernel's triple applies; the
    invariant and the debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel1 c Set.univ (grid1.coords t) _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The pipeline library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KIRegion2.lean ====
import proofs.«151081_j64338610094389_2_alg».proof.Proof.Gen.KernelIdeal.Launch
import proofs.«151081_j64338610094389_2_alg».proof.Proof.Gen.KernelIdeal.Skeleton
import proofs.«151081_j64338610094389_2_alg».proof.Proof.Gen.KernelIdeal.Points
import proofs.«151081_j64338610094389_2_alg».proof.Proof.KIRegion1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding membership in a rectangle of these extents recurses once per coordinate of the long axis
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (Pipeline.UD sig nD τ) ℕ

-- what the TensorCore's buffers hold when the region is entered: everything below is stated at this parameter
variable (V : (c : Dev nD) → (b : Ref sig .tc) → Buf (Elt F) ((c : Thread nD τ).loc b))

/-! # Region 2: the second layer's combine kernel

Eleven windows. Ten come in: three 4000×128 blocks of aggregated messages (one per edge type), the
nodes' own 4000×128 feature block, a 4000×3 block of per-type scale columns, the message matrices and the
self matrices (3×128×128 each), the biases (3×128), and the normalisation's gain and shift (128 each). One
goes out: the layer's 4000×128 block, stored whole by a single store. -/

/-! ## The blocks the windows show -/

/-- The block window `w` shows at grid point `t`, read off the window's array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! Each input window's staging buffer holds its block at every point: the window is an input, never idle and
uncut, and the body leaves the buffer as it found it, so a point that does not refetch — the block index did not
move; for the weights it never moves — still finds the same block. One statement per window. -/

theorem before2_0_of {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (Pipeline.UD sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (Pipeline.UD sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (Pipeline.UD sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (Pipeline.UD sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

theorem before2_5_of {c : Dev nD} (dat : Dat τ (Elt F) Unit ℕ (Pipeline.UD sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

theorem before2_6_of {c : Dev nD} (dat : Dat τ (Elt F) Unit ℕ (Pipeline.UD sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

theorem before2_7_of {c : Dev nD} (dat : Dat τ (Elt F) Unit ℕ (Pipeline.UD sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

theorem before2_8_of {c : Dev nD} (dat : Dat τ (Elt F) Unit ℕ (Pipeline.UD sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

theorem before2_9_of {c : Dev nD} (dat : Dat τ (Elt F) Unit ℕ (Pipeline.UD sig nD τ) ℕ cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)

/-! ## What the body leaves in the output window's buffer -/

/-- The output buffer after the body, from the ten input blocks in window order: the one whole store's
    payload. The names are the body's own values in the order it computes them; each `View.ld` is a load
    of an input block through one of the rectangles above. Part one reads the five activation blocks and the first edge type's weights, part two the other two types' weights; the normalisation vectors are read last, and the stored value is the normalised combination. -/
def out2_10 (x0 x1 x2 x3 : Vec F S4000x128 .f32) (x4 : Vec F S4000x3 .f32) (x5 x6 : Vec F S3x128x128 .f32) (x7 : Vec F S3x128 .f32) (x8 x9 : Vec F S128 .f32) : Vec F S4000x128 .f32 :=
  -- the first part's loads, and what it hands on
  let v0 := View.ld x3 rX1
  let v3 := View.ld x4 rE1
  let v5 := View.ld x0 rX1
  let v7 := View.ld x1 rX1
  let v9 := View.ld x2 rX1
  let v16 := View.ld x5 rW1_0
  let v19 := View.ld x6 rW1_0
  let v22 := View.ld x7 rB1_0
  let v2 := k2_pay2 v0
  let v4 := k2_pay3 v3
  let v10 := k2_pay4 v9
  let v30 := k2_pay5 v0 v3 v5 v16 v19 v22
  let v34 := k2_pay6 v3 v7
  -- the other two edge types' weights
  let v35 := View.ld x5 rW1_1
  let v38 := View.ld x6 rW1_1
  let v41 := View.ld x7 rB1_1
  let v54 := View.ld x5 rW1_2
  let v57 := View.ld x6 rW1_2
  let v60 := View.ld x7 rB1_2
  let v72 := k2_pay7 v2 v4 v10 v30 v34 v35 v38 v41 v54 v57 v60
  let v74 := k2_pay8 v2 v4 v10 v30 v34 v35 v38 v41 v54 v57 v60
  -- the normalisation vectors
  let v91 := View.ld x8 rV1
  let v96 := View.ld x9 rV1
  View.canon [⟨rX1, k2_pay1 v72 v74 v91 v96⟩]

/-- The one store is of the whole block, so it covers it. -/
theorem cover2_10 (p0 : Vec F S4000x128 .f32) (y : S4000x128.Idx) :
    ∃ pc ∈ ([⟨rX1, p0⟩] : List (View.Piece (Elt F) S4000x128 .f32)), y ∈ pc.1.set :=
  View.cover_of_tiled [⟨rX1, p0⟩] S4000x128.size (by rfl) y

/-! ## The body's triple -/

set_option maxHeartbeats 4000000 in
/-- The kernel body on whole staging buffers — the ten inputs' holding `x0` … `x9`, the output's holding
    anything — runs to its end without fault, leaves the inputs as they were and the output at `out2_10`
    of them. The body only loads from the inputs; it loads the output once, never using the value, and then
    overwrites it whole, so nothing of what the buffer held before survives. -/
theorem sound_kernel2 (c : Dev nD) (E : Set ℕ) (i : grid2.Coords)
    (arg1 : Memref sig .tc .vmem S4000x128 .f32) (harg1 : arg1.IsWhole)
    (arg2 : Memref sig .tc .vmem S4000x128 .f32) (harg2 : arg2.IsWhole)
    (arg3 : Memref sig .tc .vmem S4000x128 .f32) (harg3 : arg3.IsWhole)
    (arg4 : Memref sig .tc .vmem S4000x128 .f32) (harg4 : arg4.IsWhole)
    (arg5 : Memref sig .tc .vmem S4000x3 .f32) (harg5 : arg5.IsWhole)
    (arg6 : Memref sig .tc .vmem S3x128x128 .f32) (harg6 : arg6.IsWhole)
    (arg7 : Memref sig .tc .vmem S3x128x128 .f32) (harg7 : arg7.IsWhole)
    (arg8 : Memref sig .tc .vmem S3x128 .f32) (harg8 : arg8.IsWhole)
    (arg9 : Memref sig .tc .vmem S128 .f32) (harg9 : arg9.IsWhole)
    (arg10 : Memref sig .tc .vmem S128 .f32) (harg10 : arg10.IsWhole)
    (arg11 : Memref sig .tc .vmem S4000x128 .f32) (harg11 : arg11.IsWhole)
    (x0 x1 x2 x3 : Vec F S4000x128 .f32) (x4 : Vec F S4000x3 .f32) (x5 x6 : Vec F S3x128x128 .f32) (x7 : Vec F S3x128 .f32) (x8 x9 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
        ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
            ∗ owns (c : Thread nD τ) arg11 fullShare (out2_10 x0 x1 x2 x3 x4 x5 x6 x7 x8 x9)) -∗ K ⟨⟩))
      ⊢ wp frame (wpE (defs₀ (F := F)) Variants.none c none) E (cc2_kernel i arg1 harg1 arg2 harg2 arg3 harg3 arg4 harg4 arg5 harg5 arg6 harg6 arg7 harg7 arg8 harg8 arg9 harg9 arg10 harg10 arg11 harg11) K := by
  simp only [cc2_kernel_eq_skeleton]; unfold cc2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0; subst hf1; subst hf2; subst hf3; subst hf4; subst hf5; subst hf6; subst hf7; subst hf8; subst hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (cover2_10 _)

/-! ## The proof data of the pipeline -/

/-- Pipeline 2's proof data on core `c`. The arrays are as the region finds them. After the body at point
    `t` each input's buffer still holds its block, and the output's holds `out2_10` of the ten input
    blocks. The invariant is the one of kernels that touch nothing but their windows: the scoped rest and
    the generator register, handed in and given back untouched. Nothing is owed; every share is full. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => out2_10 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = iblk2 V c 9 t := by dsimp only [dat2]
theorem after2_10 (c : Dev nD) (t : Fin cfg2.N) :
    (dat2 V c).after 10 t = out2_10 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) := by dsimp only [dat2]

/-- What the body finds in each input's buffer: its block, at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d
theorem before2_9 (c : Dev nD) (t : Fin cfg2.N) (d) : (dat2 V c).before 9 t d = iblk2 V c 9 t :=
  before2_9_of V (dat2 V c) (A_eq2 V c 9) (after2_9 V c) t d

/-! ## The body obligation at a generic point -/

/-- What the body is called with at point `t`: the invariant, the core's debts, and each window's current
    staging buffer at what the pipeline left in it. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d))
    ∗ (∃ d, owns (c : Thread nD τ) (st2_10 t) fullShare ((dat2 V c).before 10 t d)))

/-- What it hands back. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t)
    ∗ owns (c : Thread nD τ) (st2_10 t) fullShare ((dat2 V c).after 10 t))

/-- The body at any point: the inputs' buffers hold their blocks, so the kernel's triple applies; the
    invariant and the debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9, after2_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel2 c Set.univ (grid2.coords t) _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The pipeline library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KIRegion3.lean ====
import proofs.«151081_j64338610094389_2_alg».proof.Proof.Gen.KernelIdeal.Launch
import proofs.«151081_j64338610094389_2_alg».proof.Proof.Gen.KernelIdeal.Skeleton
import proofs.«151081_j64338610094389_2_alg».proof.Proof.Gen.KernelIdeal.Points
import proofs.«151081_j64338610094389_2_alg».proof.Proof.KIRegion2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding membership in a rectangle of these extents recurses once per coordinate of the long axis
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (Pipeline.UD sig nD τ) ℕ

-- what the TensorCore's buffers hold when the region is entered: everything below is stated at this parameter
variable (V : (c : Dev nD) → (b : Ref sig .tc) → Buf (Elt F) ((c : Thread nD τ).loc b))

/-! # Region 3: the last layer's combine kernel

Eleven windows. Ten come in: three 4000×128 blocks of aggregated messages (one per edge type), the
nodes' own 4000×128 feature block, a 4000×3 block of per-type scale columns, the message matrices and the
self matrices (3×128×128 each), the biases (3×128), and the normalisation's gain and shift (128 each). One
goes out: the layer's 4000×128 block, stored whole by a single store. -/

/-! ## The blocks the windows show -/

/-- The block window `w` shows at grid point `t`, read off the window's array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! Each input window's staging buffer holds its block at every point: the window is an input, never idle and
uncut, and the body leaves the buffer as it found it, so a point that does not refetch — the block index did not
move; for the weights it never moves — still finds the same block. One statement per window. -/

theorem before3_0_of {c : Dev nD} (dat : Dat τ (Elt F) Unit ℕ (Pipeline.UD sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (Pipeline.UD sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (Pipeline.UD sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem before3_3_of {c : Dev nD} (dat : Dat τ (Elt F) Unit ℕ (Pipeline.UD sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

theorem before3_4_of {c : Dev nD} (dat : Dat τ (Elt F) Unit ℕ (Pipeline.UD sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

theorem before3_5_of {c : Dev nD} (dat : Dat τ (Elt F) Unit ℕ (Pipeline.UD sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

theorem before3_6_of {c : Dev nD} (dat : Dat τ (Elt F) Unit ℕ (Pipeline.UD sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

theorem before3_7_of {c : Dev nD} (dat : Dat τ (Elt F) Unit ℕ (Pipeline.UD sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)

theorem before3_8_of {c : Dev nD} (dat : Dat τ (Elt F) Unit ℕ (Pipeline.UD sig nD τ) ℕ cfg3 c) (hA : dat.A 8 = V c (Pipeline.arrRef spec3 8))
    (hafter : ∀ t, dat.after 8 t = iblk3 V c 8 t) (t : Fin cfg3.N) (d) : dat.before 8 t d = iblk3 V c 8 t :=
  (dat.before_in_eq_fetched 8 rfl (fun _ => rfl) (fun _ _ _ => rfl) (fun t => by rw [hafter]; unfold Dat.blockOf iblk3; rw [hA]; try rfl) t d).trans
    (by unfold Dat.fetched Dat.blockOf iblk3; rw [hA]; try rfl)

theorem before3_9_of {c : Dev nD} (dat : Dat τ (Elt F) Unit ℕ (Pipeline.UD sig nD τ) ℕ cfg3 c) (hA : dat.A 9 = V c (Pipeline.arrRef spec3 9))
    (hafter : ∀ t, dat.after 9 t = iblk3 V c 9 t) (t : Fin cfg3.N) (d) : dat.before 9 t d = iblk3 V c 9 t :=
  (dat.before_in_eq_fetched 9 rfl (fun _ => rfl) (fun _ _ _ => rfl) (fun t => by rw [hafter]; unfold Dat.blockOf iblk3; rw [hA]; try rfl) t d).trans
    (by unfold Dat.fetched Dat.blockOf iblk3; rw [hA]; try rfl)

/-! ## What the body leaves in the output window's buffer -/

/-- The output buffer after the body, from the ten input blocks in window order: the one whole store's
    payload. The names are the body's own values in the order it computes them; each `View.ld` is a load
    of an input block through one of the rectangles above. Part one reads the five activation blocks and the first edge type's weights; the other two types' weights are read after it. This layer has no normalisation: the blocks \`x8\` and \`x9\` are staged but never read. -/
def out3_10 (x0 x1 x2 x3 : Vec F S4000x128 .f32) (x4 : Vec F S4000x3 .f32) (x5 x6 : Vec F S3x128x128 .f32) (x7 : Vec F S3x128 .f32) (x8 x9 : Vec F S128 .f32) : Vec F S4000x128 .f32 :=
  -- the first part's loads, and what it hands on
  let v0 := View.ld x3 rX1
  let v3 := View.ld x4 rE1
  let v5 := View.ld x0 rX1
  let v7 := View.ld x1 rX1
  let v9 := View.ld x2 rX1
  let v16 := View.ld x5 rW1_0
  let v19 := View.ld x6 rW1_0
  let v22 := View.ld x7 rB1_0
  let v2 := k3_pay2 v0
  let v4 := k3_pay3 v3
  let v10 := k3_pay4 v9
  let v30 := k3_pay5 v0 v3 v5 v16 v19 v22
  let v34 := k3_pay6 v3 v7
  -- the other two edge types' weights
  let v35 := View.ld x5 rW1_1
  let v38 := View.ld x6 rW1_1
  let v41 := View.ld x7 rB1_1
  let v54 := View.ld x5 rW1_2
  let v57 := View.ld x6 rW1_2
  let v60 := View.ld x7 rB1_2
  View.canon [⟨rX1, k3_pay1 v2 v4 v10 v30 v34 v35 v38 v41 v54 v57 v60⟩]

/-- The one store is of the whole block, so it covers it. -/
theorem cover3_10 (p0 : Vec F S4000x128 .f32) (y : S4000x128.Idx) :
    ∃ pc ∈ ([⟨rX1, p0⟩] : List (View.Piece (Elt F) S4000x128 .f32)), y ∈ pc.1.set :=
  View.cover_of_tiled [⟨rX1, p0⟩] S4000x128.size (by rfl) y

/-! ## The body's triple -/

set_option maxHeartbeats 4000000 in
/-- The kernel body on whole staging buffers — the ten inputs' holding `x0` … `x9`, the output's holding
    anything — runs to its end without fault, leaves the inputs as they were and the output at `out3_10`
    of them. The body only loads from the inputs; it loads the output once, never using the value, and then
    overwrites it whole, so nothing of what the buffer held before survives. -/
theorem sound_kernel3 (c : Dev nD) (E : Set ℕ) (i : grid3.Coords)
    (arg1 : Memref sig .tc .vmem S4000x128 .f32) (harg1 : arg1.IsWhole)
    (arg2 : Memref sig .tc .vmem S4000x128 .f32) (harg2 : arg2.IsWhole)
    (arg3 : Memref sig .tc .vmem S4000x128 .f32) (harg3 : arg3.IsWhole)
    (arg4 : Memref sig .tc .vmem S4000x128 .f32) (harg4 : arg4.IsWhole)
    (arg5 : Memref sig .tc .vmem S4000x3 .f32) (harg5 : arg5.IsWhole)
    (arg6 : Memref sig .tc .vmem S3x128x128 .f32) (harg6 : arg6.IsWhole)
    (arg7 : Memref sig .tc .vmem S3x128x128 .f32) (harg7 : arg7.IsWhole)
    (arg8 : Memref sig .tc .vmem S3x128 .f32) (harg8 : arg8.IsWhole)
    (arg9 : Memref sig .tc .vmem S128 .f32) (harg9 : arg9.IsWhole)
    (arg10 : Memref sig .tc .vmem S128 .f32) (harg10 : arg10.IsWhole)
    (arg11 : Memref sig .tc .vmem S4000x128 .f32) (harg11 : arg11.IsWhole)
    (x0 x1 x2 x3 : Vec F S4000x128 .f32) (x4 : Vec F S4000x3 .f32) (x5 x6 : Vec F S3x128x128 .f32) (x7 : Vec F S3x128 .f32) (x8 x9 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
        ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
            ∗ owns (c : Thread nD τ) arg11 fullShare (out3_10 x0 x1 x2 x3 x4 x5 x6 x7 x8 x9)) -∗ K ⟨⟩))
      ⊢ wp frame (wpE (defs₀ (F := F)) Variants.none c none) E (cc3_kernel i arg1 harg1 arg2 harg2 arg3 harg3 arg4 harg4 arg5 harg5 arg6 harg6 arg7 harg7 arg8 harg8 arg9 harg9 arg10 harg10 arg11 harg11) K := by
  simp only [cc3_kernel_eq_skeleton]; unfold cc3_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0; subst hf1; subst hf2; subst hf3; subst hf4; subst hf5; subst hf6; subst hf7; subst hf8; subst hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (cover3_10 _)

/-! ## The proof data of the pipeline -/

/-- Pipeline 3's proof data on core `c`. The arrays are as the region finds them. After the body at point
    `t` each input's buffer still holds its block, and the output's holds `out3_10` of the ten input
    blocks. The invariant is the one of kernels that touch nothing but their windows: the scoped rest and
    the generator register, handed in and given back untouched. Nothing is owed; every share is full. -/
def dat3 (c : Dev nD) : Dat τ (Elt F) Unit ℕ (Pipeline.UD sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => iblk3 V c 9 t
    | ⟨10, _⟩ => out3_10 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) : (dat3 V c).after 9 t = iblk3 V c 9 t := by dsimp only [dat3]
theorem after3_10 (c : Dev nD) (t : Fin cfg3.N) :
    (dat3 V c).after 10 t = out3_10 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) := by dsimp only [dat3]

/-- What the body finds in each input's buffer: its block, at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d
theorem before3_8 (c : Dev nD) (t : Fin cfg3.N) (d) : (dat3 V c).before 8 t d = iblk3 V c 8 t :=
  before3_8_of V (dat3 V c) (A_eq3 V c 8) (after3_8 V c) t d
theorem before3_9 (c : Dev nD) (t : Fin cfg3.N) (d) : (dat3 V c).before 9 t d = iblk3 V c 9 t :=
  before3_9_of V (dat3 V c) (A_eq3 V c 9) (after3_9 V c) t d

/-! ## The body obligation at a generic point -/

/-- What the body is called with at point `t`: the invariant, the core's debts, and each window's current
    staging buffer at what the pipeline left in it. -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d))
    ∗ (∃ d, owns (c : Thread nD τ) (st3_10 t) fullShare ((dat3 V c).before 10 t d)))

/-- What it hands back. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t)
    ∗ owns (c : Thread nD τ) (st3_10 t) fullShare ((dat3 V c).after 10 t))

/-- The body at any point: the inputs' buffers hold their blocks, so the kernel's triple applies; the
    invariant and the debts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8, before3_9]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9, after3_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel3 c Set.univ (grid3.coords t) _ _ _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The pipeline library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KIRun.lean ====
import proofs.«151081_j64338610094389_2_alg».proof.Proof.Gen.KernelIdeal.Launch
import proofs.«151081_j64338610094389_2_alg».proof.Proof.Gen.KernelIdeal.Skeleton
import proofs.«151081_j64338610094389_2_alg».proof.Proof.Gen.KernelIdeal.Points
import proofs.«151081_j64338610094389_2_alg».proof.Proof.KIRegion3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding membership in a rectangle of these extents recurses once per coordinate of the long axis
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-! # The run of @main: four stretches of host operations, each followed by a kernel region

## The host stretches -/

/-! No host operation allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor

/-! The buffers each stretch writes, in order: one result per operation. No argument array is among them. -/
abbrev hostOps0_W : List (Ref sig .tc) := [main_cst, main_v0, main_v1, main_v2, main_cst_0, main_v3, main_v4, main_v5, main_cst_1, main_v6, main_v7, main_cst_2, main_v8, main_v9, main_v10, main_v11, main_cst_3, main_v12, main_v13, main_v14, main_cst_4, main_v15, main_v16, main_cst_5, main_v17, main_v18, main_v19, main_v20, main_cst_6, main_v21, main_v22, main_v23, main_cst_7, main_v24, main_v25, main_cst_8, main_v26, main_v27, main_v28, main_v29, main_v30, main_v31]
abbrev hostOps1_W : List (Ref sig .tc) := [main_v33, main_v34, main_v35, main_v36, main_v37, main_v38, main_c, main_v39, main_v40, main_c_9, main_v41, main_v42, main_v43, main_v44, main_v45, main_v46, main_cst_10, main_v47, main_v48, main_v49, main_v50, main_v51, main_v52, main_v53, main_v54, main_v55, main_c_11, main_v56, main_v57, main_c_12, main_v58, main_v59, main_v60, main_v61, main_v62, main_v63, main_cst_13, main_v64, main_v65, main_v66, main_v67, main_v68, main_v69, main_v70, main_v71, main_v72, main_c_14, main_v73, main_v74, main_c_15, main_v75, main_v76, main_v77, main_v78, main_v79, main_v80, main_cst_16, main_v81, main_v82, main_v83, main_v84, main_v85, main_v86, main_v87]
abbrev hostOps2_W : List (Ref sig .tc) := [main_cst_17, main_v89, main_cst_18, main_v90, main_v91, main_v92, main_v93, main_v94, main_v95, main_c_19, main_v96, main_v97, main_c_20, main_v98, main_v99, main_v100, main_v101, main_v102, main_v103, main_cst_21, main_v104, main_v105, main_v106, main_v107, main_v108, main_v109, main_v110, main_c_22, main_v111, main_v112, main_c_23, main_v113, main_v114, main_v115, main_v116, main_v117, main_v118, main_cst_24, main_v119, main_v120, main_v121, main_v122, main_v123, main_v124, main_v125, main_c_25, main_v126, main_v127, main_c_26, main_v128, main_v129, main_v130, main_v131, main_v132, main_v133, main_cst_27, main_v134, main_v135, main_v136, main_v137, main_v138, main_v139, main_v140, main_v141, main_v142, main_v143, main_v144, main_v145, main_v146]
abbrev hostOps3_W : List (Ref sig .tc) := [main_v148, main_v149, main_v150, main_v151, main_v152, main_c_28, main_v153, main_v154, main_c_29, main_v155, main_v156, main_v157, main_v158, main_v159, main_v160, main_cst_30, main_v161, main_v162, main_v163, main_v164, main_v165, main_v166, main_v167, main_c_31, main_v168, main_v169, main_c_32, main_v170, main_v171, main_v172, main_v173, main_v174, main_v175, main_cst_33, main_v176, main_v177, main_v178, main_v179, main_v180, main_v181, main_v182, main_c_34, main_v183, main_v184, main_c_35, main_v185, main_v186, main_v187, main_v188, main_v189, main_v190, main_cst_36, main_v191, main_v192, main_v193, main_v194, main_v195, main_v196, main_v197, main_v198, main_v199]

set_option maxRecDepth 8192 in
set_option maxHeartbeats 4000000 in
theorem hostOps0_writes : (hostOps0 : List (HloOp τ sig (Elt F))).Forall fun op => op.writes ⊆ (hostOps0_W.map (Proc.devRef (τ := τ) .tc)).toFinset := by
  simp only [List.Forall]
  repeat' apply And.intro
  all_goals first
    | (simp only [StableHlo.nullary_writes, StableHlo.unary_writes, StableHlo.binary_writes, StableHlo.ternary_writes, StableHlo.reshape_writes, StableHlo.nary_writes, Finset.singleton_subset_iff, List.mem_toFinset]; exact List.mem_map_of_mem (by decide))
    | trivial
set_option maxRecDepth 8192 in
set_option maxHeartbeats 4000000 in
theorem hostOps1_writes : (hostOps1 : List (HloOp τ sig (Elt F))).Forall fun op => op.writes ⊆ (hostOps1_W.map (Proc.devRef (τ := τ) .tc)).toFinset := by
  simp only [List.Forall]
  repeat' apply And.intro
  all_goals first
    | (simp only [StableHlo.nullary_writes, StableHlo.unary_writes, StableHlo.binary_writes, StableHlo.ternary_writes, StableHlo.reshape_writes, StableHlo.nary_writes, Finset.singleton_subset_iff, List.mem_toFinset]; exact List.mem_map_of_mem (by decide))
    | trivial
set_option maxRecDepth 8192 in
set_option maxHeartbeats 4000000 in
theorem hostOps2_writes : (hostOps2 : List (HloOp τ sig (Elt F))).Forall fun op => op.writes ⊆ (hostOps2_W.map (Proc.devRef (τ := τ) .tc)).toFinset := by
  simp only [List.Forall]
  repeat' apply And.intro
  all_goals first
    | (simp only [StableHlo.nullary_writes, StableHlo.unary_writes, StableHlo.binary_writes, StableHlo.ternary_writes, StableHlo.reshape_writes, StableHlo.nary_writes, Finset.singleton_subset_iff, List.mem_toFinset]; exact List.mem_map_of_mem (by decide))
    | trivial
set_option maxRecDepth 8192 in
set_option maxHeartbeats 4000000 in
theorem hostOps3_writes : (hostOps3 : List (HloOp τ sig (Elt F))).Forall fun op => op.writes ⊆ (hostOps3_W.map (Proc.devRef (τ := τ) .tc)).toFinset := by
  simp only [List.Forall]
  repeat' apply And.intro
  all_goals first
    | (simp only [StableHlo.nullary_writes, StableHlo.unary_writes, StableHlo.binary_writes, StableHlo.ternary_writes, StableHlo.reshape_writes, StableHlo.nary_writes, Finset.singleton_subset_iff, List.mem_toFinset]; exact List.mem_map_of_mem (by decide))
    | trivial

/-! ## The buffers' contents at each boundary: a fold from the launch memory

A host stretch leaves what its operations compute from what it found. A region leaves its windows' arrays at
what the pipeline's write-backs make of them — an input array as it was, the output array with every point's
block written — and every other buffer untouched. -/

/-- Core `c`'s buffers at launch. -/
abbrev W0 : Dev nD → Valuation τ sig (Elt F) := fun c b => (s₀ m ρ).mem ((c : Dev nD), b)
/-- The same read at the TensorCore's references. -/
abbrev V0 : (c : Dev nD) → (b : Ref sig .tc) → Buf (Elt F) ((c : Thread nD τ).loc b) := fun c b => W0 m ρ c b

/-- After host stretch 0: where region 0 is entered. -/
def W1 (c : Dev nD) : Valuation τ sig (Elt F) := StableHlo.after hostOps0 (W0 m ρ c)
abbrev V1 : (c : Dev nD) → (b : Ref sig .tc) → Buf (Elt F) ((c : Thread nD τ).loc b) := fun c b => W1 m ρ c b
/-- A buffer the stretch does not write is as before it. -/
theorem W1_keep (c : Dev nD) (r : Ref sig .tc) (h : r ∉ hostOps0_W) :
    W1 m ρ c (Proc.devRef .tc r) = W0 m ρ c (Proc.devRef .tc r) :=
  StableHlo.after_of_writes_sub hostOps0 _ hostOps0_writes h

/-- After region 0: its arrays at what the pipeline leaves, every other buffer as the region found it. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
/-- At region 0's exit each of its arrays holds what the pipeline leaves, and every other buffer what it held
    at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- An input array of region 0 is as the region found it: the pipeline only reads it. -/
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hw _).trans (A_eq0 (V1 m ρ) c w))

/-- After host stretch 1: where region 1 is entered. -/
def W3 (c : Dev nD) : Valuation τ sig (Elt F) := StableHlo.after hostOps1 (W2 m ρ c)
abbrev V3 : (c : Dev nD) → (b : Ref sig .tc) → Buf (Elt F) ((c : Thread nD τ).loc b) := fun c b => W3 m ρ c b
/-- A buffer the stretch does not write is as before it. -/
theorem W3_keep (c : Dev nD) (r : Ref sig .tc) (h : r ∉ hostOps1_W) :
    W3 m ρ c (Proc.devRef .tc r) = W2 m ρ c (Proc.devRef .tc r) :=
  StableHlo.after_of_writes_sub hostOps1 _ hostOps1_writes h

/-- After region 1: its arrays at what the pipeline leaves, every other buffer as the region found it. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
/-- At region 1's exit each of its arrays holds what the pipeline leaves, and every other buffer what it held
    at entry. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- An input array of region 1 is as the region found it: the pipeline only reads it. -/
theorem W4_in (c : Dev nD) (w : Fin cfg1.W) (hw : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hw _).trans (A_eq1 (V3 m ρ) c w))

/-- After host stretch 2: where region 2 is entered. -/
def W5 (c : Dev nD) : Valuation τ sig (Elt F) := StableHlo.after hostOps2 (W4 m ρ c)
abbrev V5 : (c : Dev nD) → (b : Ref sig .tc) → Buf (Elt F) ((c : Thread nD τ).loc b) := fun c b => W5 m ρ c b
/-- A buffer the stretch does not write is as before it. -/
theorem W5_keep (c : Dev nD) (r : Ref sig .tc) (h : r ∉ hostOps2_W) :
    W5 m ρ c (Proc.devRef .tc r) = W4 m ρ c (Proc.devRef .tc r) :=
  StableHlo.after_of_writes_sub hostOps2 _ hostOps2_writes h

/-- After region 2: its arrays at what the pipeline leaves, every other buffer as the region found it. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
/-- At region 2's exit each of its arrays holds what the pipeline leaves, and every other buffer what it held
    at entry. -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- An input array of region 2 is as the region found it: the pipeline only reads it. -/
theorem W6_in (c : Dev nD) (w : Fin cfg2.W) (hw : (cfg2.win w).isOut = false) :
    W6 m ρ c (Proc.devRef .tc (Pipeline.arrRef spec2 w)) = W5 m ρ c (Proc.devRef .tc (Pipeline.arrRef spec2 w)) :=
  (W6_arr m ρ c w).trans (((dat2 (V5 m ρ) c).arrAt_in w hw _).trans (A_eq2 (V5 m ρ) c w))

/-- After host stretch 3: where region 3 is entered. -/
def W7 (c : Dev nD) : Valuation τ sig (Elt F) := StableHlo.after hostOps3 (W6 m ρ c)
abbrev V7 : (c : Dev nD) → (b : Ref sig .tc) → Buf (Elt F) ((c : Thread nD τ).loc b) := fun c b => W7 m ρ c b
/-- A buffer the stretch does not write is as before it. -/
theorem W7_keep (c : Dev nD) (r : Ref sig .tc) (h : r ∉ hostOps3_W) :
    W7 m ρ c (Proc.devRef .tc r) = W6 m ρ c (Proc.devRef .tc r) :=
  StableHlo.after_of_writes_sub hostOps3 _ hostOps3_writes h

/-- After region 3: its arrays at what the pipeline leaves, every other buffer as the region found it. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
/-- At region 3's exit each of its arrays holds what the pipeline leaves, and every other buffer what it held
    at entry. -/
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)
/-- An input array of region 3 is as the region found it: the pipeline only reads it. -/
theorem W8_in (c : Dev nD) (w : Fin cfg3.W) (hw : (cfg3.win w).isOut = false) :
    W8 m ρ c (Proc.devRef .tc (Pipeline.arrRef spec3 w)) = W7 m ρ c (Proc.devRef .tc (Pipeline.arrRef spec3 w)) :=
  (W8_arr m ρ c w).trans (((dat3 (V7 m ρ) c).arrAt_in w hw _).trans (A_eq3 (V7 m ρ) c w))

/-! ### The arguments end as launched

No host operation writes an argument array, and a region either does not touch it or reads it through an
input window; so the fold at an argument's buffer walks back to the launch memory. -/
theorem W8_main_arg0 (c : Dev nD) : W8 m ρ c (Proc.devRef .tc main_arg0) = m ((c : Thread nD τ).loc main_arg0) :=
  calc W8 m ρ c (Proc.devRef .tc main_arg0)
    _ = W7 m ρ c (Proc.devRef .tc main_arg0) := W8_of_ne m ρ c main_arg0 (by decide)
    _ = W6 m ρ c (Proc.devRef .tc main_arg0) := W7_keep m ρ c main_arg0 (by decide)
    _ = W5 m ρ c (Proc.devRef .tc main_arg0) := W6_of_ne m ρ c main_arg0 (by decide)
    _ = W4 m ρ c (Proc.devRef .tc main_arg0) := W5_keep m ρ c main_arg0 (by decide)
    _ = W3 m ρ c (Proc.devRef .tc main_arg0) := W4_in m ρ c 3 rfl
    _ = W2 m ρ c (Proc.devRef .tc main_arg0) := W3_keep m ρ c main_arg0 (by decide)
    _ = W1 m ρ c (Proc.devRef .tc main_arg0) := W2_in m ρ c 0 rfl
    _ = W0 m ρ c (Proc.devRef .tc main_arg0) := W1_keep m ρ c main_arg0 (by decide)
    _ = m ((c : Thread nD τ).loc main_arg0) := rfl
theorem W8_main_arg1 (c : Dev nD) : W8 m ρ c (Proc.devRef .tc main_arg1) = m ((c : Thread nD τ).loc main_arg1) :=
  calc W8 m ρ c (Proc.devRef .tc main_arg1)
    _ = W7 m ρ c (Proc.devRef .tc main_arg1) := W8_of_ne m ρ c main_arg1 (by decide)
    _ = W6 m ρ c (Proc.devRef .tc main_arg1) := W7_keep m ρ c main_arg1 (by decide)
    _ = W5 m ρ c (Proc.devRef .tc main_arg1) := W6_of_ne m ρ c main_arg1 (by decide)
    _ = W4 m ρ c (Proc.devRef .tc main_arg1) := W5_keep m ρ c main_arg1 (by decide)
    _ = W3 m ρ c (Proc.devRef .tc main_arg1) := W4_of_ne m ρ c main_arg1 (by decide)
    _ = W2 m ρ c (Proc.devRef .tc main_arg1) := W3_keep m ρ c main_arg1 (by decide)
    _ = W1 m ρ c (Proc.devRef .tc main_arg1) := W2_of_ne m ρ c main_arg1 (by decide)
    _ = W0 m ρ c (Proc.devRef .tc main_arg1) := W1_keep m ρ c main_arg1 (by decide)
    _ = m ((c : Thread nD τ).loc main_arg1) := rfl
theorem W8_main_arg2 (c : Dev nD) : W8 m ρ c (Proc.devRef .tc main_arg2) = m ((c : Thread nD τ).loc main_arg2) :=
  calc W8 m ρ c (Proc.devRef .tc main_arg2)
    _ = W7 m ρ c (Proc.devRef .tc main_arg2) := W8_of_ne m ρ c main_arg2 (by decide)
    _ = W6 m ρ c (Proc.devRef .tc main_arg2) := W7_keep m ρ c main_arg2 (by decide)
    _ = W5 m ρ c (Proc.devRef .tc main_arg2) := W6_of_ne m ρ c main_arg2 (by decide)
    _ = W4 m ρ c (Proc.devRef .tc main_arg2) := W5_keep m ρ c main_arg2 (by decide)
    _ = W3 m ρ c (Proc.devRef .tc main_arg2) := W4_of_ne m ρ c main_arg2 (by decide)
    _ = W2 m ρ c (Proc.devRef .tc main_arg2) := W3_keep m ρ c main_arg2 (by decide)
    _ = W1 m ρ c (Proc.devRef .tc main_arg2) := W2_in m ρ c 1 rfl
    _ = W0 m ρ c (Proc.devRef .tc main_arg2) := W1_keep m ρ c main_arg2 (by decide)
    _ = m ((c : Thread nD τ).loc main_arg2) := rfl
theorem W8_main_arg3 (c : Dev nD) : W8 m ρ c (Proc.devRef .tc main_arg3) = m ((c : Thread nD τ).loc main_arg3) :=
  calc W8 m ρ c (Proc.devRef .tc main_arg3)
    _ = W7 m ρ c (Proc.devRef .tc main_arg3) := W8_of_ne m ρ c main_arg3 (by decide)
    _ = W6 m ρ c (Proc.devRef .tc main_arg3) := W7_keep m ρ c main_arg3 (by decide)
    _ = W5 m ρ c (Proc.devRef .tc main_arg3) := W6_of_ne m ρ c main_arg3 (by decide)
    _ = W4 m ρ c (Proc.devRef .tc main_arg3) := W5_keep m ρ c main_arg3 (by decide)
    _ = W3 m ρ c (Proc.devRef .tc main_arg3) := W4_of_ne m ρ c main_arg3 (by decide)
    _ = W2 m ρ c (Proc.devRef .tc main_arg3) := W3_keep m ρ c main_arg3 (by decide)
    _ = W1 m ρ c (Proc.devRef .tc main_arg3) := W2_in m ρ c 2 rfl
    _ = W0 m ρ c (Proc.devRef .tc main_arg3) := W1_keep m ρ c main_arg3 (by decide)
    _ = m ((c : Thread nD τ).loc main_arg3) := rfl
theorem W8_main_arg4 (c : Dev nD) : W8 m ρ c (Proc.devRef .tc main_arg4) = m ((c : Thread nD τ).loc main_arg4) :=
  calc W8 m ρ c (Proc.devRef .tc main_arg4)
    _ = W7 m ρ c (Proc.devRef .tc main_arg4) := W8_of_ne m ρ c main_arg4 (by decide)
    _ = W6 m ρ c (Proc.devRef .tc main_arg4) := W7_keep m ρ c main_arg4 (by decide)
    _ = W5 m ρ c (Proc.devRef .tc main_arg4) := W6_of_ne m ρ c main_arg4 (by decide)
    _ = W4 m ρ c (Proc.devRef .tc main_arg4) := W5_keep m ρ c main_arg4 (by decide)
    _ = W3 m ρ c (Proc.devRef .tc main_arg4) := W4_in m ρ c 5 rfl
    _ = W2 m ρ c (Proc.devRef .tc main_arg4) := W3_keep m ρ c main_arg4 (by decide)
    _ = W1 m ρ c (Proc.devRef .tc main_arg4) := W2_of_ne m ρ c main_arg4 (by decide)
    _ = W0 m ρ c (Proc.devRef .tc main_arg4) := W1_keep m ρ c main_arg4 (by decide)
    _ = m ((c : Thread nD τ).loc main_arg4) := rfl
theorem W8_main_arg5 (c : Dev nD) : W8 m ρ c (Proc.devRef .tc main_arg5) = m ((c : Thread nD τ).loc main_arg5) :=
  calc W8 m ρ c (Proc.devRef .tc main_arg5)
    _ = W7 m ρ c (Proc.devRef .tc main_arg5) := W8_of_ne m ρ c main_arg5 (by decide)
    _ = W6 m ρ c (Proc.devRef .tc main_arg5) := W7_keep m ρ c main_arg5 (by decide)
    _ = W5 m ρ c (Proc.devRef .tc main_arg5) := W6_of_ne m ρ c main_arg5 (by decide)
    _ = W4 m ρ c (Proc.devRef .tc main_arg5) := W5_keep m ρ c main_arg5 (by decide)
    _ = W3 m ρ c (Proc.devRef .tc main_arg5) := W4_in m ρ c 7 rfl
    _ = W2 m ρ c (Proc.devRef .tc main_arg5) := W3_keep m ρ c main_arg5 (by decide)
    _ = W1 m ρ c (Proc.devRef .tc main_arg5) := W2_of_ne m ρ c main_arg5 (by decide)
    _ = W0 m ρ c (Proc.devRef .tc main_arg5) := W1_keep m ρ c main_arg5 (by decide)
    _ = m ((c : Thread nD τ).loc main_arg5) := rfl
theorem W8_main_arg6 (c : Dev nD) : W8 m ρ c (Proc.devRef .tc main_arg6) = m ((c : Thread nD τ).loc main_arg6) :=
  calc W8 m ρ c (Proc.devRef .tc main_arg6)
    _ = W7 m ρ c (Proc.devRef .tc main_arg6) := W8_of_ne m ρ c main_arg6 (by decide)
    _ = W6 m ρ c (Proc.devRef .tc main_arg6) := W7_keep m ρ c main_arg6 (by decide)
    _ = W5 m ρ c (Proc.devRef .tc main_arg6) := W6_of_ne m ρ c main_arg6 (by decide)
    _ = W4 m ρ c (Proc.devRef .tc main_arg6) := W5_keep m ρ c main_arg6 (by decide)
    _ = W3 m ρ c (Proc.devRef .tc main_arg6) := W4_in m ρ c 6 rfl
    _ = W2 m ρ c (Proc.devRef .tc main_arg6) := W3_keep m ρ c main_arg6 (by decide)
    _ = W1 m ρ c (Proc.devRef .tc main_arg6) := W2_of_ne m ρ c main_arg6 (by decide)
    _ = W0 m ρ c (Proc.devRef .tc main_arg6) := W1_keep m ρ c main_arg6 (by decide)
    _ = m ((c : Thread nD τ).loc main_arg6) := rfl
theorem W8_main_arg7 (c : Dev nD) : W8 m ρ c (Proc.devRef .tc main_arg7) = m ((c : Thread nD τ).loc main_arg7) :=
  calc W8 m ρ c (Proc.devRef .tc main_arg7)
    _ = W7 m ρ c (Proc.devRef .tc main_arg7) := W8_of_ne m ρ c main_arg7 (by decide)
    _ = W6 m ρ c (Proc.devRef .tc main_arg7) := W7_keep m ρ c main_arg7 (by decide)
    _ = W5 m ρ c (Proc.devRef .tc main_arg7) := W6_of_ne m ρ c main_arg7 (by decide)
    _ = W4 m ρ c (Proc.devRef .tc main_arg7) := W5_keep m ρ c main_arg7 (by decide)
    _ = W3 m ρ c (Proc.devRef .tc main_arg7) := W4_of_ne m ρ c main_arg7 (by decide)
    _ = W2 m ρ c (Proc.devRef .tc main_arg7) := W3_keep m ρ c main_arg7 (by decide)
    _ = W1 m ρ c (Proc.devRef .tc main_arg7) := W2_of_ne m ρ c main_arg7 (by decide)
    _ = W0 m ρ c (Proc.devRef .tc main_arg7) := W1_keep m ρ c main_arg7 (by decide)
    _ = m ((c : Thread nD τ).loc main_arg7) := rfl
theorem W8_main_arg8 (c : Dev nD) : W8 m ρ c (Proc.devRef .tc main_arg8) = m ((c : Thread nD τ).loc main_arg8) :=
  calc W8 m ρ c (Proc.devRef .tc main_arg8)
    _ = W7 m ρ c (Proc.devRef .tc main_arg8) := W8_of_ne m ρ c main_arg8 (by decide)
    _ = W6 m ρ c (Proc.devRef .tc main_arg8) := W7_keep m ρ c main_arg8 (by decide)
    _ = W5 m ρ c (Proc.devRef .tc main_arg8) := W6_of_ne m ρ c main_arg8 (by decide)
    _ = W4 m ρ c (Proc.devRef .tc main_arg8) := W5_keep m ρ c main_arg8 (by decide)
    _ = W3 m ρ c (Proc.devRef .tc main_arg8) := W4_of_ne m ρ c main_arg8 (by decide)
    _ = W2 m ρ c (Proc.devRef .tc main_arg8) := W3_keep m ρ c main_arg8 (by decide)
    _ = W1 m ρ c (Proc.devRef .tc main_arg8) := W2_of_ne m ρ c main_arg8 (by decide)
    _ = W0 m ρ c (Proc.devRef .tc main_arg8) := W1_keep m ρ c main_arg8 (by decide)
    _ = m ((c : Thread nD τ).loc main_arg8) := rfl
theorem W8_main_arg9 (c : Dev nD) : W8 m ρ c (Proc.devRef .tc main_arg9) = m ((c : Thread nD τ).loc main_arg9) :=
  calc W8 m ρ c (Proc.devRef .tc main_arg9)
    _ = W7 m ρ c (Proc.devRef .tc main_arg9) := W8_of_ne m ρ c main_arg9 (by decide)
    _ = W6 m ρ c (Proc.devRef .tc main_arg9) := W7_keep m ρ c main_arg9 (by decide)
    _ = W5 m ρ c (Proc.devRef .tc main_arg9) := W6_of_ne m ρ c main_arg9 (by decide)
    _ = W4 m ρ c (Proc.devRef .tc main_arg9) := W5_keep m ρ c main_arg9 (by decide)
    _ = W3 m ρ c (Proc.devRef .tc main_arg9) := W4_of_ne m ρ c main_arg9 (by decide)
    _ = W2 m ρ c (Proc.devRef .tc main_arg9) := W3_keep m ρ c main_arg9 (by decide)
    _ = W1 m ρ c (Proc.devRef .tc main_arg9) := W2_of_ne m ρ c main_arg9 (by decide)
    _ = W0 m ρ c (Proc.devRef .tc main_arg9) := W1_keep m ρ c main_arg9 (by decide)
    _ = m ((c : Thread nD τ).loc main_arg9) := rfl
theorem W8_main_arg10 (c : Dev nD) : W8 m ρ c (Proc.devRef .tc main_arg10) = m ((c : Thread nD τ).loc main_arg10) :=
  calc W8 m ρ c (Proc.devRef .tc main_arg10)
    _ = W7 m ρ c (Proc.devRef .tc main_arg10) := W8_of_ne m ρ c main_arg10 (by decide)
    _ = W6 m ρ c (Proc.devRef .tc main_arg10) := W7_keep m ρ c main_arg10 (by decide)
    _ = W5 m ρ c (Proc.devRef .tc main_arg10) := W6_of_ne m ρ c main_arg10 (by decide)
    _ = W4 m ρ c (Proc.devRef .tc main_arg10) := W5_keep m ρ c main_arg10 (by decide)
    _ = W3 m ρ c (Proc.devRef .tc main_arg10) := W4_of_ne m ρ c main_arg10 (by decide)
    _ = W2 m ρ c (Proc.devRef .tc main_arg10) := W3_keep m ρ c main_arg10 (by decide)
    _ = W1 m ρ c (Proc.devRef .tc main_arg10) := W2_of_ne m ρ c main_arg10 (by decide)
    _ = W0 m ρ c (Proc.devRef .tc main_arg10) := W1_keep m ρ c main_arg10 (by decide)
    _ = m ((c : Thread nD τ).loc main_arg10) := rfl
theorem W8_main_arg11 (c : Dev nD) : W8 m ρ c (Proc.devRef .tc main_arg11) = m ((c : Thread nD τ).loc main_arg11) :=
  calc W8 m ρ c (Proc.devRef .tc main_arg11)
    _ = W7 m ρ c (Proc.devRef .tc main_arg11) := W8_of_ne m ρ c main_arg11 (by decide)
    _ = W6 m ρ c (Proc.devRef .tc main_arg11) := W7_keep m ρ c main_arg11 (by decide)
    _ = W5 m ρ c (Proc.devRef .tc main_arg11) := W6_of_ne m ρ c main_arg11 (by decide)
    _ = W4 m ρ c (Proc.devRef .tc main_arg11) := W5_keep m ρ c main_arg11 (by decide)
    _ = W3 m ρ c (Proc.devRef .tc main_arg11) := W4_of_ne m ρ c main_arg11 (by decide)
    _ = W2 m ρ c (Proc.devRef .tc main_arg11) := W3_keep m ρ c main_arg11 (by decide)
    _ = W1 m ρ c (Proc.devRef .tc main_arg11) := W2_of_ne m ρ c main_arg11 (by decide)
    _ = W0 m ρ c (Proc.devRef .tc main_arg11) := W1_keep m ρ c main_arg11 (by decide)
    _ = m ((c : Thread nD τ).loc main_arg11) := rfl

/-! ## The proof data family and the thread state -/

/-- No pipeline has a prefetched table. -/
abbrev adm : (p : Fin 4) → (pcfgs (F := F) p).Adm := fun p => (cfgs p).toPCfg_adm
/-- Every pipeline's proof data, each at the contents its region is entered from. -/
def pdats : (p : Fin 4) → (c : Dev nD) → Dat τ (Elt F) Unit ℕ (Pipeline.UD sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state, and its
    debts, which are none. -/
abbrev R (c : Dev nD) : sProp 𝕄 := iprop((∃ r, prngReg c r) ∗ ∃ W, owes (c : Thread nD τ) (0 : CellTallies nD τ sig Unit) W)
/-- A host stretch as a segment: from every unscoped buffer at the contents `W` to the same buffers at what the
    operations make of them, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, without the debts: every unscoped buffer at the last boundary's contents, the generator
    register at some state. -/
abbrev Tₙ (c : Dev nD) : sProp 𝕄 := iprop(StableHlo.held (c : Thread nD τ) (Pipeline.ucRefs τ sig) (W8 m ρ c) ∗ ∃ r, prngReg c r)

/-! ## The regions as segments

Each region is entered from every unscoped buffer at the contents before it and left at the contents after it.
At entry its arrays are split out of the unscoped buffers, at exit they are put back at what the pipeline left;
the generator register goes into the kernel's invariant and comes back; nothing is owed, and the kernel has no
semaphore of its own. -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := Pipeline.UD sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := Pipeline.UD sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := Pipeline.UD sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := Pipeline.UD sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := Pipeline.UD sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's eight segments in order: a host stretch from its boundary's contents, then the region it feeds. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ) ]

set_option maxHeartbeats 4000000 in
/-- @main is the run of the segments: it is the chain of its eight items, and the segments' run is the chain of
    their fragments, which are those items. -/
theorem main_run (c : Dev nD) : main (F := F) c = Pipeline.Seg.run (segs m ρ) := (main_chain c).trans (by chain_rfl)

set_option backward.isDefEq.respectTransparency.types false in
/-- The run: from any memory with zero counters, every weakly fair execution of @main on the TensorCores
    terminates without fault, and in every final state each unscoped buffer of each core holds what the fold
    says — the last boundary's contents `W8`. -/
theorem run_main : θ_run defs (onTc (τ := τ) (main (F := F))) ⟨m, fun _ => 0, ρ⟩
    (fun r => ∀ c : Dev nD, ∀ b ∈ Pipeline.ucRefs τ sig, r.2.mem (((c : Thread nD τ)).1, b) = W8 m ρ c b) :=
  Pipeline.θ_run_regions_kit (pcfgs (F := F)) adm (pdats m ρ) () cellOf_inj embL defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun _ h => h)

/-- The frame: under no assumption on the launch memory, @main runs to its end without fault and every argument
    array ends as launched — the run above, each argument read back through the fold. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c =>
    ⟨(h c _ (mem_uc main_arg0 (by decide))).trans (W8_main_arg0 m ρ c),
     (h c _ (mem_uc main_arg1 (by decide))).trans (W8_main_arg1 m ρ c),
     (h c _ (mem_uc main_arg2 (by decide))).trans (W8_main_arg2 m ρ c),
     (h c _ (mem_uc main_arg3 (by decide))).trans (W8_main_arg3 m ρ c),
     (h c _ (mem_uc main_arg4 (by decide))).trans (W8_main_arg4 m ρ c),
     (h c _ (mem_uc main_arg5 (by decide))).trans (W8_main_arg5 m ρ c),
     (h c _ (mem_uc main_arg6 (by decide))).trans (W8_main_arg6 m ρ c),
     (h c _ (mem_uc main_arg7 (by decide))).trans (W8_main_arg7 m ρ c),
     (h c _ (mem_uc main_arg8 (by decide))).trans (W8_main_arg8 m ρ c),
     (h c _ (mem_uc main_arg9 (by decide))).trans (W8_main_arg9 m ρ c),
     (h c _ (mem_uc main_arg10 (by decide))).trans (W8_main_arg10 m ρ c),
     (h c _ (mem_uc main_arg11 (by decide))).trans (W8_main_arg11 m ρ c)⟩)
    (run_main m ρ)

/-- info: 'Cert.KernelIdeal.Hand.run_main' depends on axioms: [propext, Classical.choice, Quot.sound] -/
#guard_msgs in #print axioms run_main
/-- info: 'Cert.KernelIdeal.Hand.frame' depends on axioms: [propext, Classical.choice, Quot.sound] -/
#guard_msgs in #print axioms frame

end Cert.KernelIdeal.Hand

end
-- ==== Proof.LibNary3.lean ====
/-
  A host operation with THREE operands given as a literal family of references (a concatenation of three arrays), read
  at its result: the operation's function applied to the three operands' contents, each AT ITS OWN REFERENCE
  (`Fin.cons` of the three) rather than through the family's lookup `![x, a, b] k` — so that a pass reading the
  operands' contents back through the operations before it can go on. The library states this for four operands; this
  is the same for three. Nothing here mentions a program.
-/
import Idealize.ShloMosaic.Lib.StableHlo.Run

namespace Cert.Lib.Nary3

open Idealize.ShloMosaic Idealize.ShloMosaic.StableHlo

variable {τ : Topo} {sig : RefSig} {Val : EltTy → Type} {x a b y : Ref sig .tc}

/-- The result of a three-operand operation, each operand's contents at its own reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a))
          (Fin.cons (F (Proc.devRef .tc b)) (fun i => i.elim0)))) := by
  rw [nary_result]; congr 1; funext k; fin_cases k <;> rfl

/-- The same, in the form a simplifier pass keys on. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a))
          (Fin.cons (F (Proc.devRef .tc b)) (fun i => i.elim0)))) :=
  nary3_result f hxs hy F

end Cert.Lib.Nary3

/-- The buffers' contents after a literal list of host operations, read back in ONE simplifier pass — the library's
    pass with the three-operand lemma above in place of the generic one for an operand family. -/
macro "after_results_simp3" : tactic =>
  `(tactic| (simp (disch := decide) only [Idealize.ShloMosaic.StableHlo.after_cons, Idealize.ShloMosaic.StableHlo.after_nil,
      Idealize.ShloMosaic.StableHlo.nullary_result', Idealize.ShloMosaic.StableHlo.unary_result',
      Idealize.ShloMosaic.StableHlo.binary_result', Idealize.ShloMosaic.StableHlo.ternary_result',
      Idealize.ShloMosaic.StableHlo.quaternary_result', Idealize.ShloMosaic.StableHlo.reshape_result',
      Cert.Lib.Nary3.nary3_result',
      Idealize.ShloMosaic.StableHlo.nullary_result_ne', Idealize.ShloMosaic.StableHlo.unary_result_ne',
      Idealize.ShloMosaic.StableHlo.binary_result_ne', Idealize.ShloMosaic.StableHlo.ternary_result_ne',
      Idealize.ShloMosaic.StableHlo.quaternary_result_ne', Idealize.ShloMosaic.StableHlo.reshape_result_ne',
      Idealize.ShloMosaic.StableHlo.nary_result_ne']))
-- ==== Proof.KIHost.lean ====
/-
  What the kernel program's host operations hand to each region, as terms of the argument arrays.

  Between the regions the host code cuts the source and destination index vectors of each edge type out of the edge
  array, gathers feature rows at the (wrapped) sources and adds them into zeros at the destinations (the aggregation),
  counts the in-degrees the same way and takes the reciprocals of the degrees clamped below at one (stored as the three
  columns of one n×3 array), cuts a layer's weight stacks out of the doubly stacked arrays, and a gain or offset row out
  of the 2×k arrays. Each is named here as the kernel's own operations spell it, and each region operand's contents at
  the region's entry is read back through the operations before it.
-/
import proofs.«151081_j64338610094389_2_alg».proof.Proof.KIRun
import proofs.«151081_j64338610094389_2_alg».proof.Proof.LibNary3
import Idealize.ShloMosaic.Lib.ValueIdx

set_option maxRecDepth 16384

noncomputable section

namespace Cert.KernelIdeal.HandValue

open Idealize.ShloMosaic Idealize.ShloMosaic.TcCoe Idealize.SL.Sem Idealize.ShloMosaic.StableHlo
open Cert.KernelIdeal Cert.KernelIdeal.Gen Cert.KernelIdeal.Hand

/-! ## The graph, as the kernel's host code spells it -/

/-- The source indices of edge type o. -/
def srcK (e : IVec S3x2x500000 32) (o : ℕ) (h : S3x2x500000.Slices ![o, 0, 0] S1x1x500000) : IVec S500000 32 :=
  shapeCast S500000 (extractStridedSlice (s := S3x2x500000) S1x1x500000 ![o, 0, 0] e h) shapeCasts_S1x1x500000_S500000

/-- The destination indices of edge type o. -/
def dstK (e : IVec S3x2x500000 32) (o : ℕ) (h : S3x2x500000.Slices ![o, 1, 0] S1x1x500000) : IVec S500000 32 :=
  shapeCast S500000 (extractStridedSlice (s := S3x2x500000) S1x1x500000 ![o, 1, 0] e h) shapeCasts_S1x1x500000_S500000

/-- An index vector with the node count added to its negative entries. -/
def wrapK (s : IVec S500000 32) : IVec S500000 32 :=
  select (cmpi .slt s (broadcastInDim S500000 ![] bcast_S_S500000 (constantI S_ 32 0#32)))
    (addi s (broadcastInDim S500000 ![] bcast_S_S500000 (constantI S_ 32 100000#32))) s

/-- The aggregation: the rows of a half-width feature array at the wrapped sources, widened, added into zeros at the
    destinations. -/
def aggK (src dst : IVec S500000 32) (feat : FVec Ideal S100000x128 .bf16) : FVec Ideal S100000x128 .f32 :=
  Host.scatterAdd scatter_S100000x128_S500000x1_S500000x128_1_0_0_1
    (broadcastInDim S100000x128 ![] bcast_S_S100000x128 (constant S_ .f32 0x00000000#32))
    (broadcastInDim S500000x1 ![0] bcast_S500000_S500000x1_0 dst)
    (extf .f32 (Host.gather gather_S100000x128_S500000x1_S500000x128_1_0_n_n_0_1_1128 feat
      (broadcastInDim S500000x1 ![0] bcast_S500000_S500000x1_0 (wrapK src))) bitsLt_bf16_f32)

/-- The divisor: ones added into zeros at the destinations, clamped below at one. -/
def degK (dst : IVec S500000 32) : FVec Ideal S100000 .f32 :=
  maximumf
    (Host.scatterAdd scatter_S100000_S500000x1_S500000_n_0_0_1
      (broadcastInDim S100000 ![] bcast_S_S100000 (constant S_ .f32 0x00000000#32))
      (broadcastInDim S500000x1 ![0] bcast_S500000_S500000x1_0 dst)
      (broadcastInDim S500000 ![] bcast_S_S500000 (constant S_ .f32 0x3F800000#32)))
    (broadcastInDim S100000 ![] bcast_S_S100000 (constant S_ .f32 0x3F800000#32))

/-- The reciprocal divisors, as a column. -/
def invColK (dst : IVec S500000 32) : FVec Ideal S100000x1 .f32 :=
  broadcastInDim S100000x1 ![0] bcast_S100000_S100000x1_0
    (Host.divf (broadcastInDim S100000 ![] bcast_S_S100000 (constant S_ .f32 0x3F800000#32)) (degK dst))

/-- The three edge types' reciprocal divisors side by side. -/
def invAllK (e : IVec S3x2x500000 32) : FVec Ideal S100000x3 .f32 :=
  concatenate S100000x3 1
    [⟨S100000x1, invColK (dstK e 0 slices_S3x2x500000_S1x1x500000_0_1_0)⟩,
     ⟨S100000x1, invColK (dstK e 1 slices_S3x2x500000_S1x1x500000_1_1_0)⟩,
     ⟨S100000x1, invColK (dstK e 2 slices_S3x2x500000_S1x1x500000_2_1_0)⟩]
    concatenates_S100000x1_S100000x1_S100000x1_S100000x3_d1

/-- Row o of a 2×k array, as a vector. -/
def rowK (B : FVec Ideal S2x128 .f32) (o : ℕ) (h : S2x128.Slices ![o, 0] S1x128) : FVec Ideal S128 .f32 :=
  shapeCast S128 (extractStridedSlice (s := S2x128) S1x128 ![o, 0] B h) shapeCasts_S1x128_S128

/-- Layer l's stack of three matrices. -/
def stackK (W : FVec Ideal S2x3x128x128 .f32) (l : ℕ) (h : S2x3x128x128.Slices ![l, 0, 0, 0] S1x3x128x128) :
    FVec Ideal S3x128x128 .f32 :=
  shapeCast S3x128x128 (extractStridedSlice (s := S2x3x128x128) S1x3x128x128 ![l, 0, 0, 0] W h) shapeCasts_S1x3x128x128_S3x128x128

/-- Layer l's three bias rows. -/
def stackRowK (B : FVec Ideal S2x3x128 .f32) (l : ℕ) (h : S2x3x128.Slices ![l, 0, 0] S1x3x128) : FVec Ideal S3x128 .f32 :=
  shapeCast S3x128 (extractStridedSlice (s := S2x3x128) S1x3x128 ![l, 0, 0] B h) shapeCasts_S1x3x128_S3x128

/-- The features narrowed to half width (the identity on the extended reals). -/
def narrowK (h : FVec Ideal S100000x128 .f32) : FVec Ideal S100000x128 .bf16 := truncf .bf16 h bitsLt_bf16_f32

/-- Slab o of the stacked projections, as an n×k array. -/
def slabK (HS : FVec Ideal S3x100000x128 .bf16) (o : ℕ) (h : S3x100000x128.Slices ![o, 0, 0] S1x100000x128) :
    FVec Ideal S100000x128 .bf16 :=
  shapeCast S100000x128 (extractStridedSlice (s := S3x100000x128) S1x100000x128 ![o, 0, 0] HS h) shapeCasts_S1x100000x128_S100000x128

variable (m : (ℓ : Loc nD τ sig) → Buf (Elt Ideal) ℓ) (ρ : Dev nD → PrngReg)

/-! ## The first stretch: the reciprocal degrees -/

set_option maxHeartbeats 4000000 in
/-- The reciprocal degrees after the first stretch. -/
theorem W1_v31 (c : Dev nD) :
    W1 (F := Ideal) m ρ c (Proc.devRef .tc main_v31) = invAllK (m ((c : Thread nD τ).loc main_arg1)) := by
  unfold W1
  after_results_simp3
  rfl

/-! ## The second stretch: the aggregates of the projected features, and layer 0's gain and offset -/

set_option maxHeartbeats 4000000 in
theorem W3_v49 (c : Dev nD) :
    W3 (F := Ideal) m ρ c (Proc.devRef .tc main_v49)
      = aggK (srcK (W2 m ρ c (Proc.devRef .tc main_arg1)) 0 slices_S3x2x500000_S1x1x500000_0_0_0)
          (dstK (W2 m ρ c (Proc.devRef .tc main_arg1)) 0 slices_S3x2x500000_S1x1x500000_0_1_0)
          (slabK (W2 m ρ c (Proc.devRef .tc main_v32)) 0 slices_S3x100000x128_S1x100000x128_0_0_0) := by
  unfold W3
  after_results_simp3
  rfl

set_option maxHeartbeats 4000000 in
theorem W3_v66 (c : Dev nD) :
    W3 (F := Ideal) m ρ c (Proc.devRef .tc main_v66)
      = aggK (srcK (W2 m ρ c (Proc.devRef .tc main_arg1)) 1 slices_S3x2x500000_S1x1x500000_1_0_0)
          (dstK (W2 m ρ c (Proc.devRef .tc main_arg1)) 1 slices_S3x2x500000_S1x1x500000_1_1_0)
          (slabK (W2 m ρ c (Proc.devRef .tc main_v32)) 1 slices_S3x100000x128_S1x100000x128_1_0_0) := by
  unfold W3
  after_results_simp3
  rfl

set_option maxHeartbeats 4000000 in
theorem W3_v83 (c : Dev nD) :
    W3 (F := Ideal) m ρ c (Proc.devRef .tc main_v83)
      = aggK (srcK (W2 m ρ c (Proc.devRef .tc main_arg1)) 2 slices_S3x2x500000_S1x1x500000_2_0_0)
          (dstK (W2 m ρ c (Proc.devRef .tc main_arg1)) 2 slices_S3x2x500000_S1x1x500000_2_1_0)
          (slabK (W2 m ρ c (Proc.devRef .tc main_v32)) 2 slices_S3x100000x128_S1x100000x128_2_0_0) := by
  unfold W3
  after_results_simp3
  rfl

set_option maxHeartbeats 4000000 in
theorem W3_v85 (c : Dev nD) : W3 (F := Ideal) m ρ c (Proc.devRef .tc main_v85) = rowK (W2 m ρ c (Proc.devRef .tc main_arg10)) 0 slices_S2x128_S1x128_0_0 := by
  unfold W3
  after_results_simp3
  rfl

set_option maxHeartbeats 4000000 in
theorem W3_v87 (c : Dev nD) : W3 (F := Ideal) m ρ c (Proc.devRef .tc main_v87) = rowK (W2 m ρ c (Proc.devRef .tc main_arg11)) 0 slices_S2x128_S1x128_0_0 := by
  unfold W3
  after_results_simp3
  rfl

/-! ## The third stretch: the aggregates of layer 0's features, layer 1's weights, gain and offset -/

set_option maxHeartbeats 4000000 in
theorem W5_v106 (c : Dev nD) :
    W5 (F := Ideal) m ρ c (Proc.devRef .tc main_v106)
      = aggK (srcK (W4 m ρ c (Proc.devRef .tc main_arg1)) 0 slices_S3x2x500000_S1x1x500000_0_0_0)
          (dstK (W4 m ρ c (Proc.devRef .tc main_arg1)) 0 slices_S3x2x500000_S1x1x500000_0_1_0)
          (narrowK (W4 m ρ c (Proc.devRef .tc main_v88))) := by
  unfold W5
  after_results_simp3
  rfl

set_option maxHeartbeats 4000000 in
theorem W5_v121 (c : Dev nD) :
    W5 (F := Ideal) m ρ c (Proc.devRef .tc main_v121)
      = aggK (srcK (W4 m ρ c (Proc.devRef .tc main_arg1)) 1 slices_S3x2x500000_S1x1x500000_1_0_0)
          (dstK (W4 m ρ c (Proc.devRef .tc main_arg1)) 1 slices_S3x2x500000_S1x1x500000_1_1_0)
          (narrowK (W4 m ρ c (Proc.devRef .tc main_v88))) := by
  unfold W5
  after_results_simp3
  rfl

set_option maxHeartbeats 4000000 in
theorem W5_v136 (c : Dev nD) :
    W5 (F := Ideal) m ρ c (Proc.devRef .tc main_v136)
      = aggK (srcK (W4 m ρ c (Proc.devRef .tc main_arg1)) 2 slices_S3x2x500000_S1x1x500000_2_0_0)
          (dstK (W4 m ρ c (Proc.devRef .tc main_arg1)) 2 slices_S3x2x500000_S1x1x500000_2_1_0)
          (narrowK (W4 m ρ c (Proc.devRef .tc main_v88))) := by
  unfold W5
  after_results_simp3
  rfl

set_option maxHeartbeats 4000000 in
theorem W5_v138 (c : Dev nD) : W5 (F := Ideal) m ρ c (Proc.devRef .tc main_v138) = rowK (W4 m ρ c (Proc.devRef .tc main_arg10)) 1 slices_S2x128_S1x128_1_0 := by
  unfold W5
  after_results_simp3
  rfl

set_option maxHeartbeats 4000000 in
theorem W5_v140 (c : Dev nD) : W5 (F := Ideal) m ρ c (Proc.devRef .tc main_v140) = rowK (W4 m ρ c (Proc.devRef .tc main_arg11)) 1 slices_S2x128_S1x128_1_0 := by
  unfold W5
  after_results_simp3
  rfl

set_option maxHeartbeats 4000000 in
theorem W5_v142 (c : Dev nD) : W5 (F := Ideal) m ρ c (Proc.devRef .tc main_v142) = stackK (W4 m ρ c (Proc.devRef .tc main_arg7)) 0 slices_S2x3x128x128_S1x3x128x128_0_0_0_0 := by
  unfold W5
  after_results_simp3
  rfl

set_option maxHeartbeats 4000000 in
theorem W5_v144 (c : Dev nD) : W5 (F := Ideal) m ρ c (Proc.devRef .tc main_v144) = stackRowK (W4 m ρ c (Proc.devRef .tc main_arg8)) 0 slices_S2x3x128_S1x3x128_0_0_0 := by
  unfold W5
  after_results_simp3
  rfl

set_option maxHeartbeats 4000000 in
theorem W5_v146 (c : Dev nD) : W5 (F := Ideal) m ρ c (Proc.devRef .tc main_v146) = stackK (W4 m ρ c (Proc.devRef .tc main_arg9)) 0 slices_S2x3x128x128_S1x3x128x128_0_0_0_0 := by
  unfold W5
  after_results_simp3
  rfl

/-! ## The fourth stretch: the aggregates of layer 1's features, layer 2's weights -/

set_option maxHeartbeats 4000000 in
theorem W7_v163 (c : Dev nD) :
    W7 (F := Ideal) m ρ c (Proc.devRef .tc main_v163)
      = aggK (srcK (W6 m ρ c (Proc.devRef .tc main_arg1)) 0 slices_S3x2x500000_S1x1x500000_0_0_0)
          (dstK (W6 m ρ c (Proc.devRef .tc main_arg1)) 0 slices_S3x2x500000_S1x1x500000_0_1_0)
          (narrowK (W6 m ρ c (Proc.devRef .tc main_v147))) := by
  unfold W7
  after_results_simp3
  rfl

set_option maxHeartbeats 4000000 in
theorem W7_v178 (c : Dev nD) :
    W7 (F := Ideal) m ρ c (Proc.devRef .tc main_v178)
      = aggK (srcK (W6 m ρ c (Proc.devRef .tc main_arg1)) 1 slices_S3x2x500000_S1x1x500000_1_0_0)
          (dstK (W6 m ρ c (Proc.devRef .tc main_arg1)) 1 slices_S3x2x500000_S1x1x500000_1_1_0)
          (narrowK (W6 m ρ c (Proc.devRef .tc main_v147))) := by
  unfold W7
  after_results_simp3
  rfl

set_option maxHeartbeats 4000000 in
theorem W7_v193 (c : Dev nD) :
    W7 (F := Ideal) m ρ c (Proc.devRef .tc main_v193)
      = aggK (srcK (W6 m ρ c (Proc.devRef .tc main_arg1)) 2 slices_S3x2x500000_S1x1x500000_2_0_0)
          (dstK (W6 m ρ c (Proc.devRef .tc main_arg1)) 2 slices_S3x2x500000_S1x1x500000_2_1_0)
          (narrowK (W6 m ρ c (Proc.devRef .tc main_v147))) := by
  unfold W7
  after_results_simp3
  rfl

set_option maxHeartbeats 4000000 in
theorem W7_v195 (c : Dev nD) : W7 (F := Ideal) m ρ c (Proc.devRef .tc main_v195) = stackK (W6 m ρ c (Proc.devRef .tc main_arg7)) 1 slices_S2x3x128x128_S1x3x128x128_1_0_0_0 := by
  unfold W7
  after_results_simp3
  rfl

set_option maxHeartbeats 4000000 in
theorem W7_v197 (c : Dev nD) : W7 (F := Ideal) m ρ c (Proc.devRef .tc main_v197) = stackRowK (W6 m ρ c (Proc.devRef .tc main_arg8)) 1 slices_S2x3x128_S1x3x128_1_0_0 := by
  unfold W7
  after_results_simp3
  rfl

set_option maxHeartbeats 4000000 in
theorem W7_v199 (c : Dev nD) : W7 (F := Ideal) m ρ c (Proc.devRef .tc main_v199) = stackK (W6 m ρ c (Proc.devRef .tc main_arg9)) 1 slices_S2x3x128x128_S1x3x128x128_1_0_0_0 := by
  unfold W7
  after_results_simp3
  rfl

end Cert.KernelIdeal.HandValue

end
-- ==== Proof.LibRowReductions.lean ====
/-
  A row-wise reduction of an a×b block read at an index, on the extended reals: the maximum along each row as the
  fold of max over the row's entries (a vector reduction and the reference's one-operand reduce alike), the sum along
  each row as the sum over the row's entries, and the re-shapings and broadcasts that put a column of per-row values
  or a row of per-column values beside the block. Nothing here mentions a program.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value
import Idealize.ShloMosaic.Lib.ValueLayout

open scoped BigOperators

namespace Cert.Lib.RowReductions

open Idealize.ShloMosaic Idealize.ShloMosaic.ValueIdx

/-! ## Reductions along each row -/

section Rows
variable {a b : Nat} {φ : FTy}

/-- The row index p with column k put back is (p, k). -/
theorem lift_row (h : (⟨2, ![a, b]⟩ : Shape).Reduces [1] ⟨1, ![a]⟩) (p : Fin a)
    (k : Fin ((⟨2, ![a, b]⟩ : Shape).size 1)) : h.lift (ix1 p) k = ix2 p (⟨k.val, k.isLt⟩ : Fin b) := by
  funext ax; apply Fin.ext
  match ax with
  | ⟨0, _⟩ => rfl
  | ⟨1, _⟩ => rfl

/-- The maximum along each row of an a×b block is at p the fold of max, from the accumulator's value, over the
    entries (p, k) of row p. -/
theorem rowmax_apply (src : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (p : Fin a) :
    multiReduction .maximumf [1] ⟨1, ![a]⟩ src acc h hφ hacc (ix1 p)
      = (Finset.univ : Finset (Fin b)).fold max (FloatOps.ofBits (F := Ideal) φ acc) (fun k => src (ix2 p k)) := by
  rw [Ideal.multiReduction_maximumf_single]
  have hf : (src ∘ h.lift (ix1 p)) = fun k : Fin b => src (ix2 p k) :=
    funext fun k => congrArg src (lift_row h p k)
  exact congrArg (fun f => Finset.fold max (FloatOps.ofBits (F := Ideal) φ acc) f (Finset.univ : Finset (Fin b))) hf

/-- The sum along each row of an a×b block is at p the sum over k of the block at (p, k). -/
theorem rowsum_apply (src : FVec Ideal ⟨2, ![a, b]⟩ φ) (acc : BitVec φ.bits)
    (h : (⟨2, ![a, b]⟩ : Shape).Reduces [1] ⟨1, ![a]⟩) (hφ : FKind.Formats φ)
    (hacc : acc = FKind.add.neutral φ hφ) (p : Fin a) :
    multiReduction .add [1] ⟨1, ![a]⟩ src acc h hφ hacc (ix1 p) = ∑ k : Fin b, src (ix2 p k) := by
  rw [Ideal.multiReduction_add_single]
  exact Finset.sum_congr rfl fun k _ => congrArg src (lift_row h p k)

/-- The reference's one-operand reduce with a maximum body along each row of an a×b block is at p the fold of max,
    from the initial value's element, over the entries (p, k) of row p. -/
theorem host_rowmax_apply {u : Shape} (x : (⟨2, ![a, b]⟩ : Shape).Idx → Ideal .f32) (init : u.Idx → Ideal .f32)
    (h' : (⟨2, ![a, b]⟩ : Shape).ReducesTo [1] ⟨1, ![a]⟩) (hu : 0 < u.numel) (p : Fin a) :
    Host.reduce (FloatOps.maximumf (F := Ideal) (φ := .f32)) x init h' hu (ix1 p)
      = (Finset.univ : Finset (Fin b)).fold max (init (Shape.Idx.first hu)) (fun k => x (ix2 p k)) := by
  have h : (⟨2, ![a, b]⟩ : Shape).Reduces [1] ⟨1, ![a]⟩ := ⟨h'.1, Nat.one_pos, h'.2⟩
  rw [Host.reduce_eq_fold_single FloatOps.maximumf x init h' h hu]
  have hf : (x ∘ h.lift (ix1 p)) = fun k : Fin b => x (ix2 p k) :=
    funext fun k => congrArg x (lift_row h p k)
  exact congrArg (fun f => Finset.fold max (init (Shape.Idx.first hu)) f (Finset.univ : Finset (Fin b))) hf

end Rows

/-! ## Re-shapings and broadcasts of per-row and per-column values -/

section Layout
variable {α : Type} {a b : Nat}

/-- A vector of a entries viewed as an a×1 column reads its entry p at (p, 0). -/
theorem shapeCast_col_apply (x : (⟨1, ![a]⟩ : Shape).Idx → α) (h : (⟨1, ![a]⟩ : Shape).ShapeCasts ⟨2, ![a, 1]⟩)
    (p : Fin a) : shapeCast ⟨2, ![a, 1]⟩ x h (ix2 p 0) = x (ix1 p) := by
  refine shapeCast_apply x h _ _ ?_
  rw [Shape.rowMajor_val_one, Shape.rowMajor_val_two]
  show p.val = p.val * 1 + 0
  omega

/-- An a×1 column broadcast across b columns reads its entry p at every (p, q). -/
theorem broadcast_col_apply (x : (⟨2, ![a, 1]⟩ : Shape).Idx → α) (h : (⟨2, ![a, 1]⟩ : Shape).Broadcasts ⟨2, ![a, b]⟩)
    (p : Fin a) (q : Fin b) : broadcastTo ⟨2, ![a, b]⟩ x h (ix2 p q) = x (ix2 p 0) :=
  broadcastTo_apply x h _ _ fun ax => by
    match ax with
    | ⟨0, _⟩ =>
      show p.val = if a = 1 then 0 else p.val
      split_ifs with ha
      · have := p.isLt; omega
      · rfl
    | ⟨1, _⟩ => rfl

/-- A vector of b entries viewed as a 1×b row reads its entry q at (0, q). -/
theorem shapeCast_rowvec_apply (x : (⟨1, ![b]⟩ : Shape).Idx → α) (h : (⟨1, ![b]⟩ : Shape).ShapeCasts ⟨2, ![1, b]⟩)
    (q : Fin b) : shapeCast ⟨2, ![1, b]⟩ x h (ix2 0 q) = x (ix1 q) := by
  refine shapeCast_apply x h _ _ ?_
  rw [Shape.rowMajor_val_one, Shape.rowMajor_val_two]
  show q.val = (0 : Nat) * b + q.val
  omega

end Layout

/-! ## The accumulator of a maximum -/

/-- The maximum of −∞ and x is x. -/
theorem fold_max_bot (x : EReal) : max (⊥ : EReal) x = x := max_eq_right bot_le

/-- The single-precision bit pattern FF800000 is −∞. -/
theorem ofBits_neg_inf_f32 : Ideal.ofBits .f32 0xFF800000#32 = (⊥ : EReal) := by
  simp [Ideal.ofBits, Ideal.ieee]

/-! ## The reference's broadcasts of per-row values and of a scalar -/

section HostBroadcasts
variable {α : Type} {n c : Nat}

/-- A vector of n entries broadcast into an n×1 column along the rows reads its entry p at (p, 0). -/
theorem bcastInDim_col_apply (x : (⟨1, ![n]⟩ : Shape).Idx → α)
    (h : (⟨1, ![n]⟩ : Shape).BroadcastsInDim ⟨2, ![n, 1]⟩ ![0]) (p : Fin n) :
    broadcastInDim ⟨2, ![n, 1]⟩ ![0] h x (ix2 p 0) = x (ix1 p) :=
  broadcastInDim_apply _ h x _ _ fun ax => by
    match ax with
    | ⟨0, _⟩ =>
      show p.val = if n = 1 then 0 else p.val
      split_ifs with hn
      · have := p.isLt; omega
      · rfl

/-- An n×1 column broadcast into an n×c block, axis for axis, reads its entry p at every (p, q). -/
theorem bcastInDim_cols_apply (x : (⟨2, ![n, 1]⟩ : Shape).Idx → α)
    (h : (⟨2, ![n, 1]⟩ : Shape).BroadcastsInDim ⟨2, ![n, c]⟩ ![0, 1]) (p : Fin n) (q : Fin c) :
    broadcastInDim ⟨2, ![n, c]⟩ ![0, 1] h x (ix2 p q) = x (ix2 p 0) :=
  broadcastInDim_apply _ h x _ _ fun ax => by
    match ax with
    | ⟨0, _⟩ =>
      show p.val = if n = 1 then 0 else p.val
      split_ifs with hn
      · have := p.isLt; omega
      · rfl
    | ⟨1, _⟩ => rfl

/-- A scalar broadcast into an n×c block reads the scalar at every index. -/
theorem bcastInDim_scalar_apply (x : (⟨0, ![]⟩ : Shape).Idx → α)
    (h : (⟨0, ![]⟩ : Shape).BroadcastsInDim ⟨2, ![n, c]⟩ ![]) (i : (⟨2, ![n, c]⟩ : Shape).Idx) :
    broadcastInDim ⟨2, ![n, c]⟩ ![] h x i = x ix0 :=
  broadcastInDim_apply _ h x _ _ fun ax => ax.elim0

end HostBroadcasts

end Cert.Lib.RowReductions
-- ==== Proof.LibBlockReads.lean ====
/-
  Vector operations of a kernel body read at an index, on the extended reals: a matrix product accumulated into
  zeros as the sum over the contracted coordinate (both operand orders), a sum along the first or the last axis
  of a rank-3 block as a sum over that axis's coordinate, and the re-shapings and broadcasts that put a row
  vector or a matrix of per-row scales beside a block. Nothing here mentions a program.
-/
import Idealize.ShloMosaic.PureOps.Ideal.Laws
import Idealize.ShloMosaic.Lib.ValueIdx
import Idealize.ShloMosaic.Lib.Pipeline.Value

open scoped BigOperators

namespace Cert.Lib.BlockReads

open Idealize.ShloMosaic Idealize.ShloMosaic.ValueIdx

/-! ## Matrix products into a zero accumulator -/

section Matmul
variable {m k n : Nat} {φ₁ φ₂ : FTy}

/-- A product of an m×k by a k×n matrix (contracting the left operand's columns with the right operand's rows),
    accumulated into zeros, is at (a, b) the sum over c of A(a, c) · B(c, b). -/
theorem matmul_zero_rows_apply (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A product of an m×k matrix by the TRANSPOSE of an n×k matrix (both operands contracted along their columns),
    accumulated into zeros, is at (a, b) the sum over c of A(a, c) · B(b, c). -/
theorem matmul_zero_cols_apply (d : DotDims ⟨2, ![m, k]⟩ ⟨2, ![n, k]⟩ ⟨2, ![m, n]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (A : FVec Ideal ⟨2, ![m, k]⟩ φ₁) (B : FVec Ideal ⟨2, ![n, k]⟩ φ₂)
    (a : Fin m) (b : Fin n) :
    matmul d prec A B (constant ⟨2, ![m, n]⟩ .f32 0x00000000#32) (ix2 a b) = ∑ c : Fin k, A (ix2 a c) * B (ix2 b c) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Matmul

/-! ## Sums along one axis of a rank-3 block -/

section AxisSums
variable {a b c : Nat} {φ : FTy}

/-- The sum along the FIRST axis of an a×b×c block is at (q, r) the sum over p of the block at (p, q, r). -/
theorem sum_first_axis_apply (src : FVec Ideal ⟨3, ![a, b, c]⟩ φ) (acc : BitVec φ.bits)
    (h : (⟨3, ![a, b, c]⟩ : Shape).Reduces [0] ⟨2, ![b, c]⟩) (hφ : FKind.Formats φ) (hacc : acc = FKind.add.neutral φ hφ)
    (q : Fin b) (r : Fin c) :
    multiReduction .add [0] ⟨2, ![b, c]⟩ src acc h hφ hacc (ix2 q r) = ∑ p : Fin a, src (ix3 p q r) := by
  rw [Ideal.multiReduction_add_single]
  refine Finset.sum_congr rfl fun p _ => congrArg src ?_
  funext ax; apply Fin.ext
  match ax with
  | ⟨0, _⟩ => rfl
  | ⟨1, _⟩ => rfl
  | ⟨2, _⟩ => rfl

/-- The sum along the LAST axis of an a×b×c block is at (p, q) the sum over r of the block at (p, q, r). -/
theorem sum_last_axis_apply (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ r : Fin c, src (ix3 p q r) := by
  rw [Ideal.multiReduction_add_single]
  refine Finset.sum_congr rfl fun r _ => congrArg src ?_
  funext ax; apply Fin.ext
  match ax with
  | ⟨0, _⟩ => rfl
  | ⟨1, _⟩ => rfl
  | ⟨2, _⟩ => rfl

end AxisSums

/-! ## Re-shapings and broadcasts of per-row values -/

section Layout
variable {α : Type} {a b c : Nat}

/-- A 1×b row broadcast down a rows reads its entry b. -/
theorem broadcast_row_apply (x : (⟨2, ![1, b]⟩ : Shape).Idx → α) (h : (⟨2, ![1, b]⟩ : Shape).Broadcasts ⟨2, ![a, b]⟩)
    (p : Fin a) (q : Fin b) : broadcastTo ⟨2, ![a, b]⟩ x h (ix2 p q) = x (ix2 0 q) :=
  broadcastTo_apply x h _ _ fun ax => by
    match ax with
    | ⟨0, _⟩ => rfl
    | ⟨1, _⟩ =>
      show q.val = if b = 1 then 0 else q.val
      split_ifs with hb
      · have := q.isLt; omega
      · rfl

/-- A b×c matrix viewed as one 1×b×c slab and broadcast along a new leading axis of extent a reads the matrix. -/
theorem broadcast_slab_apply (x : (⟨2, ![b, c]⟩ : Shape).Idx → α)
    (h₁ : (⟨2, ![b, c]⟩ : Shape).ShapeCasts ⟨3, ![1, b, c]⟩)
    (h₂ : (⟨3, ![1, b, c]⟩ : Shape).Broadcasts ⟨3, ![a, b, c]⟩) (p : Fin a) (q : Fin b) (r : Fin c) :
    broadcastTo ⟨3, ![a, b, c]⟩ (shapeCast ⟨3, ![1, b, c]⟩ x h₁) h₂ (ix3 p q r) = x (ix2 q r) := by
  refine (broadcastTo_apply _ h₂ _ (ix3 0 q r) fun ax => ?_).trans ?_
  · match ax with
    | ⟨0, _⟩ => rfl
    | ⟨1, _⟩ =>
      show q.val = if b = 1 then 0 else q.val
      split_ifs with hb
      · have := q.isLt; omega
      · rfl
    | ⟨2, _⟩ =>
      show r.val = if c = 1 then 0 else r.val
      split_ifs with hc
      · have := r.isLt; omega
      · rfl
  · refine shapeCast_apply x h₁ _ _ ?_
    rw [Shape.rowMajor_val_two, Shape.rowMajor_val_three]
    show q.val * c + r.val = ((0 : Nat) * b + q.val) * c + r.val
    rw [Nat.zero_mul, Nat.zero_add]

/-- An a×b matrix viewed as a×b×1 columns and broadcast along a new trailing axis of extent c reads the matrix. -/
theorem broadcast_cols_apply (x : (⟨2, ![a, b]⟩ : Shape).Idx → α)
    (h₁ : (⟨2, ![a, b]⟩ : Shape).ShapeCasts ⟨3, ![a, b, 1]⟩)
    (h₂ : (⟨3, ![a, b, 1]⟩ : Shape).Broadcasts ⟨3, ![a, b, c]⟩) (p : Fin a) (q : Fin b) (r : Fin c) :
    broadcastTo ⟨3, ![a, b, c]⟩ (shapeCast ⟨3, ![a, b, 1]⟩ x h₁) h₂ (ix3 p q r) = x (ix2 p q) := by
  refine (broadcastTo_apply _ h₂ _ (ix3 p q 0) fun ax => ?_).trans ?_
  · match ax with
    | ⟨0, _⟩ =>
      show p.val = if a = 1 then 0 else p.val
      split_ifs with ha
      · have := p.isLt; omega
      · rfl
    | ⟨1, _⟩ =>
      show q.val = if b = 1 then 0 else q.val
      split_ifs with hb
      · have := q.isLt; omega
      · rfl
    | ⟨2, _⟩ => rfl
  · refine shapeCast_apply x h₁ _ _ ?_
    rw [Shape.rowMajor_val_two, Shape.rowMajor_val_three]
    show p.val * b + q.val = (p.val * b + q.val) * 1 + 0
    omega

end Layout

end Cert.Lib.BlockReads
-- ==== Proof.LibMatProd.lean ====
/-
  Dense matrix products on the extended reals, as functions of whole arrays.

  `matProd A B` is the product of an m×k by a k×n array: entry (a, b) is the sum over c of A(a, c) · B(c, b). A plain
  product accumulated into zeros (the left operand's columns contracted with the right operand's rows, no batch axes)
  is this function; the host's dot_general with the same dimension numbers is the same sum with no accumulator, so it
  is this function too; and an entry of a product depends on one row of the left operand and one column of the right,
  so the product of a block of rows of A with B is those rows of `matProd A B`. Sums on the extended reals are taken
  in any order, so no finiteness is asked. Nothing here mentions a program.
-/
import Idealize.ShloMosaic.PureOps.Ideal.Laws
import Idealize.ShloMosaic.Lib.ValueIdx
import proofs.«151081_j64338610094389_2_alg».proof.Proof.LibBlockReads

open scoped BigOperators

noncomputable section

namespace Cert.Lib.MatProd

open Idealize.ShloMosaic Idealize.ShloMosaic.ValueIdx

variable {m k n : Nat}

/-- The product of an m×k by a k×n array of extended reals. -/
def matProd (A : (⟨2, ![m, k]⟩ : Shape).Idx → EReal) (B : (⟨2, ![k, n]⟩ : Shape).Idx → EReal) :
    (⟨2, ![m, n]⟩ : Shape).Idx → EReal :=
  fun i => ∑ c : Fin k, A (ix2 (i 0) c) * B (ix2 c (i 1))

theorem matProd_apply (A : (⟨2, ![m, k]⟩ : Shape).Idx → EReal) (B : (⟨2, ![k, n]⟩ : Shape).Idx → EReal)
    (a : Fin m) (b : Fin n) : matProd A B (ix2 a b) = ∑ c : Fin k, A (ix2 a c) * B (ix2 c b) := rfl

/-- A plain product into a zero accumulator is `matProd`: entry by entry it is the sum over the contracted
    coordinate. -/
theorem matmul_zero_eq_matProd {φ₁ φ₂ : FTy} (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (A : FVec Ideal ⟨2, ![m, k]⟩ φ₁) (B : FVec Ideal ⟨2, ![k, n]⟩ φ₂) :
    matmul d prec A B (constant ⟨2, ![m, n]⟩ .f32 0x00000000#32) = matProd A B := by
  funext i
  obtain ⟨a, b, rfl⟩ : ∃ (a : Fin m) (b : Fin n), i = ix2 a b := ⟨i 0, i 1, eq_ix2 i⟩
  exact Cert.Lib.BlockReads.matmul_zero_rows_apply d hlc hrc hln hrn hlb hrb prec A B a b

/-- The host's dot_general is, on the extended reals, the product into a zero accumulator with the same dimension
    numbers: both are the sum over the contracted index of the products of the operands' entries. -/
theorem dotGeneral_eq_matmul_zero {sl sr so : Shape} {φ₁ φ₂ : FTy} (d : DotDims sl sr so)
    (prec prec' : Option ContractPrecision) (sched : HostSchedule) (A : FVec Ideal sl φ₁) (B : FVec Ideal sr φ₂) :
    FloatOps.dotGeneral d prec sched A B = matmul d prec' A B (constant so .f32 0x00000000#32) := by
  funext j
  show _ = FloatOps.matmul d prec' A B _ j
  rw [Ideal.dotGeneral_apply, Ideal.matmul_constant_zero_apply]

/-- So the host's plain dot_general is `matProd`, whatever the precision and the schedule. -/
theorem dotGeneral_eq_matProd {φ₁ φ₂ : FTy} (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (A : FVec Ideal ⟨2, ![m, k]⟩ φ₁) (B : FVec Ideal ⟨2, ![k, n]⟩ φ₂) :
    FloatOps.dotGeneral d prec sched A B = matProd A B :=
  (dotGeneral_eq_matmul_zero d prec none sched A B).trans (matmul_zero_eq_matProd d hlc hrc hln hrn hlb hrb none A B)

/-- An entry of a product depends on one row of the left operand and one column of the right: if row y of A' is row r
    of A and column b of B' is column b' of B, then `matProd A' B'` at (y, b) is `matProd A B` at (r, b'). So the
    product of a block of rows of A with B is the same rows of `matProd A B`. -/
theorem matProd_block {m' n' : Nat} (A : (⟨2, ![m, k]⟩ : Shape).Idx → EReal) (A' : (⟨2, ![m', k]⟩ : Shape).Idx → EReal)
    (B : (⟨2, ![k, n]⟩ : Shape).Idx → EReal) (B' : (⟨2, ![k, n']⟩ : Shape).Idx → EReal)
    (y : Fin m') (b : Fin n') (r : Fin m) (b' : Fin n)
    (hA : ∀ c : Fin k, A' (ix2 y c) = A (ix2 r c)) (hB : ∀ c : Fin k, B' (ix2 c b) = B (ix2 c b')) :
    matProd A' B' (ix2 y b) = matProd A B (ix2 r b') := by
  rw [matProd_apply, matProd_apply]
  exact Finset.sum_congr rfl fun c _ => by rw [hA c, hB c]

end Cert.Lib.MatProd

end
-- ==== Proof.LibRowVector.lean ====
/-
  A vector of n entries as the single row of a 1×n array, and that row repeated down the r rows of an r×n array, read
  at an index: the re-shaping [n]→[1,n], the reference's broadcast of a vector along the columns of a 1×n array, its
  broadcast of a 1×n row into an r×n array, and its broadcast of a scalar into an array of any shape. Nothing here
  mentions a program.
-/
import Idealize.ShloMosaic.Lib.ValueIdx
import Idealize.ShloMosaic.Lib.Pipeline.Value
import Idealize.ShloMosaic.Lib.ValueLayout
import proofs.«151081_j64338610094389_2_alg».proof.Proof.LibRowReductions

namespace Cert.Lib.RowVector

open Idealize.ShloMosaic Idealize.ShloMosaic.ValueIdx

variable {α : Type} {r n : Nat}

/-- A vector of n entries as the single row of a 1×n array: entry (0, q) is entry q. -/
def asRow (x : (⟨1, ![n]⟩ : Shape).Idx → α) : (⟨2, ![1, n]⟩ : Shape).Idx → α := fun i => x (ix1 (i 1))

theorem asRow_apply (x : (⟨1, ![n]⟩ : Shape).Idx → α) (q : Fin n) : asRow x (ix2 0 q) = x (ix1 q) := rfl

/-- Every index of a 1×n array is in row 0. -/
theorem idx_row (i : (⟨2, ![1, n]⟩ : Shape).Idx) : i = ix2 0 (i 1) := by
  funext d
  match d with
  | ⟨0, _⟩ =>
    have h : (i 0).val < 1 := (i 0).isLt
    exact Fin.ext (by show (i 0).val = 0; omega)
  | ⟨1, _⟩ => rfl

/-- The re-shaping [n]→[1,n] is `asRow`. -/
theorem shapeCast_eq_asRow (x : (⟨1, ![n]⟩ : Shape).Idx → α) (h : (⟨1, ![n]⟩ : Shape).ShapeCasts ⟨2, ![1, n]⟩) :
    shapeCast ⟨2, ![1, n]⟩ x h = asRow x := by
  funext i
  rw [idx_row i]
  exact Cert.Lib.RowReductions.shapeCast_rowvec_apply x h (i 1)

/-- The reference's broadcast of a vector along the columns of a 1×n array is `asRow`. -/
theorem bcastInDim_eq_asRow (x : (⟨1, ![n]⟩ : Shape).Idx → α)
    (h : (⟨1, ![n]⟩ : Shape).BroadcastsInDim ⟨2, ![1, n]⟩ ![1]) :
    broadcastInDim ⟨2, ![1, n]⟩ ![1] h x = asRow x := by
  funext i
  rw [idx_row i]
  refine broadcastInDim_apply _ h x _ _ fun ax => ?_
  match ax with
  | ⟨0, _⟩ =>
    show (i 1).val = if n = 1 then 0 else (i 1).val
    have h1 : (i 1).val < n := (i 1).isLt
    split_ifs with hn
    · omega
    · rfl

/-- A 1×n row broadcast into an r×n array, axis for axis, reads its entry q at every (p, q). -/
theorem bcastInDim_rows_apply (x : (⟨2, ![1, n]⟩ : Shape).Idx → α)
    (h : (⟨2, ![1, n]⟩ : Shape).BroadcastsInDim ⟨2, ![r, n]⟩ ![0, 1]) (p : Fin r) (q : Fin n) :
    broadcastInDim ⟨2, ![r, n]⟩ ![0, 1] h x (ix2 p q) = x (ix2 0 q) :=
  broadcastInDim_apply _ h x _ _ fun ax => by
    match ax with
    | ⟨0, _⟩ =>
      show (0 : Nat) = if (1 : Nat) = 1 then 0 else p.val
      rw [if_pos rfl]
    | ⟨1, _⟩ =>
      show q.val = if n = 1 then 0 else q.val
      split_ifs with hn
      · have := q.isLt; omega
      · rfl

/-- A scalar broadcast into an array of any shape reads the scalar at every index. -/
theorem bcastInDim_scalar_apply {s : Shape} (x : (⟨0, ![]⟩ : Shape).Idx → α)
    (h : (⟨0, ![]⟩ : Shape).BroadcastsInDim s ![]) (i : s.Idx) : broadcastInDim s ![] h x i = x ix0 :=
  broadcastInDim_apply _ h x _ _ fun ax => ax.elim0

end Cert.Lib.RowVector
-- ==== Proof.LibBiasRelu.lean ====
/-
  A bias row added to every row of a matrix and the result clamped below at zero, on the extended reals: the
  function itself, the kernel body's spelling of it (the row re-shaped in place, broadcast down the rows, added, and
  the maximum taken with a splat of the zero word), the reference's spelling (the bias vector broadcast into a 1×k row
  and then into the n×k array, added, and the maximum taken with a broadcast zero), and the fact that an entry depends
  on one entry of the matrix. The zero is kept as the value of the zero word, the same on both sides.
  Nothing here mentions a program.
-/
import Idealize.ShloMosaic.PureOps.Ideal.Laws
import Idealize.ShloMosaic.Lib.ValueIdx
import Idealize.ShloMosaic.Lib.Pipeline.Value
import proofs.«151081_j64338610094389_2_alg».proof.Proof.LibBlockReads
import proofs.«151081_j64338610094389_2_alg».proof.Proof.LibRowVector

noncomputable section

namespace Cert.Lib.BiasRelu

open Idealize.ShloMosaic Idealize.ShloMosaic.ValueIdx Cert.Lib.RowVector

variable {n n' k : Nat}

/-- Entry (p, q) is the maximum of X(p, q) + b(0, q) and zero. -/
def biasRelu (X : (⟨2, ![n, k]⟩ : Shape).Idx → EReal) (b : (⟨2, ![1, k]⟩ : Shape).Idx → EReal) :
    (⟨2, ![n, k]⟩ : Shape).Idx → EReal :=
  fun i => max (X i + b (ix2 (0 : Fin 1) (⟨(i 1).val, idx2_lt1 i⟩ : Fin k))) (Ideal.ofBits .f32 0x00000000#32)

theorem biasRelu_apply (X : (⟨2, ![n, k]⟩ : Shape).Idx → EReal) (b : (⟨2, ![1, k]⟩ : Shape).Idx → EReal)
    (p : Fin n) (q : Fin k) :
    biasRelu X b (ix2 p q) = max (X (ix2 p q) + b (ix2 0 q)) (Ideal.ofBits .f32 0x00000000#32) := rfl

/-- An entry depends on one entry of the matrix: equal entries give equal results. -/
theorem biasRelu_rows (X : (⟨2, ![n, k]⟩ : Shape).Idx → EReal) (X' : (⟨2, ![n', k]⟩ : Shape).Idx → EReal)
    (b : (⟨2, ![1, k]⟩ : Shape).Idx → EReal) (p' : Fin n') (p : Fin n) (q : Fin k)
    (h : X' (ix2 p' q) = X (ix2 p q)) : biasRelu X' b (ix2 p' q) = biasRelu X b (ix2 p q) := by
  rw [biasRelu_apply, biasRelu_apply, h]

/-- The kernel body's spelling. -/
theorem body_eq (x0 : FVec Ideal ⟨2, ![n, k]⟩ .f32) (x2 : FVec Ideal ⟨2, ![1, k]⟩ .f32)
    (h0 : (⟨2, ![n, k]⟩ : Shape).ShapeCasts ⟨2, ![n, k]⟩) (h2 : (⟨2, ![1, k]⟩ : Shape).ShapeCasts ⟨2, ![1, k]⟩)
    (hb : (⟨2, ![1, k]⟩ : Shape).Broadcasts ⟨2, ![n, k]⟩) :
    maximumf (addf (shapeCast ⟨2, ![n, k]⟩ x0 h0) (broadcastTo ⟨2, ![n, k]⟩ (shapeCast ⟨2, ![1, k]⟩ x2 h2) hb))
      (broadcast ⟨2, ![n, k]⟩ (Scalar.ofBits (F := Ideal) .f32 0x00000000#32)) = biasRelu x0 x2 := by
  funext i
  obtain ⟨p, q, rfl⟩ : ∃ (p : Fin n) (q : Fin k), i = ix2 p q := ⟨i 0, i 1, eq_ix2 i⟩
  rw [maximumf_apply, addf_apply, shapeCast_self, shapeCast_self, Cert.Lib.BlockReads.broadcast_row_apply]
  rfl

/-- The reference's spelling: the bias vector as a 1×k row. -/
theorem host_eq (X : FVec Ideal ⟨2, ![n, k]⟩ .f32) (b : FVec Ideal ⟨1, ![k]⟩ .f32)
    (h1 : (⟨1, ![k]⟩ : Shape).BroadcastsInDim ⟨2, ![1, k]⟩ ![1])
    (h2 : (⟨2, ![1, k]⟩ : Shape).BroadcastsInDim ⟨2, ![n, k]⟩ ![0, 1])
    (h3 : (⟨0, ![]⟩ : Shape).BroadcastsInDim ⟨2, ![n, k]⟩ ![]) :
    maximumf (addf X (broadcastInDim ⟨2, ![n, k]⟩ ![0, 1] h2 (broadcastInDim ⟨2, ![1, k]⟩ ![1] h1 b)))
      (broadcastInDim ⟨2, ![n, k]⟩ ![] h3 (constant (F := Ideal) ⟨0, ![]⟩ .f32 0x00000000#32)) = biasRelu X (asRow b) := by
  funext i
  obtain ⟨p, q, rfl⟩ : ∃ (p : Fin n) (q : Fin k), i = ix2 p q := ⟨i 0, i 1, eq_ix2 i⟩
  rw [maximumf_apply, addf_apply, bcastInDim_rows_apply, bcastInDim_eq_asRow, bcastInDim_scalar_apply]
  rfl

end Cert.Lib.BiasRelu

end
-- ==== Proof.LibDenseLayers.lean ====
/-
  Dense layers on the extended reals, as functions of whole arrays.

  A layer takes an r×k array X, a k×n array W and a vector b of n entries to the r×n array whose entry (p, q) is the
  sum over c of X(p, c) · W(c, q), plus b(q) — `affine` — or the maximum of that and zero — `dense`. An entry of a
  layer's result depends on one row of X, one column of W and one entry of b, so a layer applied to some rows of X
  (and to some columns of W with the matching entries of b) gives those rows (and columns) of the layer applied to
  the whole arrays: `dense_rows`, `affine_rows`, `affine_block`, with the row and column maps as variables. The two
  spellings of the bias are read once — a kernel body's (the vector re-shaped to a 1×n row, broadcast down the rows,
  added: `body_bias`, and with the maximum with a splat of the zero word: `body_bias_max`) and a host program's (the
  vector broadcast into a 1×n row and that into the r×n array, added: `host_bias`; with the maximum it is
  `Cert.Lib.BiasRelu.host_eq`) — and `max_biasAdd` takes the maximum of an already-read bias with the zero splat
  (the form a rewriting pass meets, since it reads the inner sum first). Sums and maxima on the extended reals need no
  finiteness here: nothing is distributed or cancelled. Nothing here mentions a program.
-/
import Idealize.ShloMosaic.PureOps.Ideal.Laws
import Idealize.ShloMosaic.Lib.ValueIdx
import Idealize.ShloMosaic.Lib.Pipeline.Value
import proofs.«151081_j64338610094389_2_alg».proof.Proof.LibMatProd
import proofs.«151081_j64338610094389_2_alg».proof.Proof.LibBiasRelu
import proofs.«151081_j64338610094389_2_alg».proof.Proof.LibRowVector
import proofs.«151081_j64338610094389_2_alg».proof.Proof.LibBlockReads

open scoped BigOperators

noncomputable section

namespace Cert.Layers

open Idealize.ShloMosaic Idealize.ShloMosaic.ValueIdx Cert.Lib.MatProd Cert.Lib.BiasRelu Cert.Lib.RowVector

variable {r r' k n n' : Nat}

/-- Entry (p, q) is X(p, q) + b(0, q). -/
def biasAdd (X : (⟨2, ![r, n]⟩ : Shape).Idx → EReal) (b : (⟨2, ![1, n]⟩ : Shape).Idx → EReal) :
    (⟨2, ![r, n]⟩ : Shape).Idx → EReal :=
  fun i => X i + b (ix2 (0 : Fin 1) (⟨(i 1).val, idx2_lt1 i⟩ : Fin n))

theorem biasAdd_apply (X : (⟨2, ![r, n]⟩ : Shape).Idx → EReal) (b : (⟨2, ![1, n]⟩ : Shape).Idx → EReal)
    (p : Fin r) (q : Fin n) : biasAdd X b (ix2 p q) = X (ix2 p q) + b (ix2 0 q) := rfl

/-- A layer with the maximum: entry (p, q) is max (∑ c, X(p, c) · W(c, q) + b(q)) 0. -/
def dense (X : (⟨2, ![r, k]⟩ : Shape).Idx → EReal) (W : (⟨2, ![k, n]⟩ : Shape).Idx → EReal)
    (b : (⟨1, ![n]⟩ : Shape).Idx → EReal) : (⟨2, ![r, n]⟩ : Shape).Idx → EReal :=
  biasRelu (matProd X W) (asRow b)

/-- A layer without it: entry (p, q) is ∑ c, X(p, c) · W(c, q) + b(q). -/
def affine (X : (⟨2, ![r, k]⟩ : Shape).Idx → EReal) (W : (⟨2, ![k, n]⟩ : Shape).Idx → EReal)
    (b : (⟨1, ![n]⟩ : Shape).Idx → EReal) : (⟨2, ![r, n]⟩ : Shape).Idx → EReal :=
  biasAdd (matProd X W) (asRow b)

/-- If row p of X' is row ρ p of X, row p of `dense X' W b` is row ρ p of `dense X W b`. -/
theorem dense_rows (X : (⟨2, ![r, k]⟩ : Shape).Idx → EReal) (X' : (⟨2, ![r', k]⟩ : Shape).Idx → EReal)
    (W : (⟨2, ![k, n]⟩ : Shape).Idx → EReal) (b : (⟨1, ![n]⟩ : Shape).Idx → EReal) (ρ : Fin r' → Fin r)
    (h : ∀ (p : Fin r') (c : Fin k), X' (ix2 p c) = X (ix2 (ρ p) c)) (p : Fin r') (q : Fin n) :
    dense X' W b (ix2 p q) = dense X W b (ix2 (ρ p) q) :=
  biasRelu_rows _ _ _ p (ρ p) q (matProd_block X X' W W p q (ρ p) q (h p) fun _ => rfl)

/-- The same for a layer without the maximum, a block of columns of W and the matching entries of b taken as well:
    if also column q of W' is column γ q of W and entry q of b' is entry γ q of b, entry (p, q) of
    `affine X' W' b'` is entry (ρ p, γ q) of `affine X W b`. -/
theorem affine_block (X : (⟨2, ![r, k]⟩ : Shape).Idx → EReal) (X' : (⟨2, ![r', k]⟩ : Shape).Idx → EReal)
    (W : (⟨2, ![k, n]⟩ : Shape).Idx → EReal) (W' : (⟨2, ![k, n']⟩ : Shape).Idx → EReal)
    (b : (⟨1, ![n]⟩ : Shape).Idx → EReal) (b' : (⟨1, ![n']⟩ : Shape).Idx → EReal)
    (ρ : Fin r' → Fin r) (γ : Fin n' → Fin n)
    (hX : ∀ (p : Fin r') (c : Fin k), X' (ix2 p c) = X (ix2 (ρ p) c))
    (hW : ∀ (c : Fin k) (q : Fin n'), W' (ix2 c q) = W (ix2 c (γ q)))
    (hb : ∀ q : Fin n', b' (ix1 q) = b (ix1 (γ q))) (p : Fin r') (q : Fin n') :
    affine X' W' b' (ix2 p q) = affine X W b (ix2 (ρ p) (γ q)) := by
  unfold affine
  rw [biasAdd_apply, biasAdd_apply, asRow_apply, asRow_apply, hb q,
    matProd_block X X' W W' p q (ρ p) (γ q) (hX p) fun c => hW c q]

theorem affine_rows (X : (⟨2, ![r, k]⟩ : Shape).Idx → EReal) (X' : (⟨2, ![r', k]⟩ : Shape).Idx → EReal)
    (W : (⟨2, ![k, n]⟩ : Shape).Idx → EReal) (b : (⟨1, ![n]⟩ : Shape).Idx → EReal) (ρ : Fin r' → Fin r)
    (h : ∀ (p : Fin r') (c : Fin k), X' (ix2 p c) = X (ix2 (ρ p) c)) (p : Fin r') (q : Fin n) :
    affine X' W b (ix2 p q) = affine X W b (ix2 (ρ p) q) :=
  affine_block X X' W W b b ρ id h (fun _ _ => rfl) (fun _ => rfl) p q

/-! ## The two spellings of a layer's bias and maximum -/

/-- The kernel body's bias: the vector re-shaped to a 1×n row and broadcast down the rows, then added. -/
theorem body_bias (M : FVec Ideal ⟨2, ![r, n]⟩ .f32) (v : FVec Ideal ⟨1, ![n]⟩ .f32)
    (h : (⟨1, ![n]⟩ : Shape).ShapeCasts ⟨2, ![1, n]⟩) (hb : (⟨2, ![1, n]⟩ : Shape).Broadcasts ⟨2, ![r, n]⟩) :
    addf M (broadcastTo ⟨2, ![r, n]⟩ (shapeCast ⟨2, ![1, n]⟩ v h) hb) = biasAdd M (asRow v) := by
  funext i
  obtain ⟨p, q, rfl⟩ : ∃ (p : Fin r) (q : Fin n), i = ix2 p q := ⟨i 0, i 1, eq_ix2 i⟩
  rw [addf_apply, Cert.Lib.BlockReads.broadcast_row_apply, shapeCast_eq_asRow]
  rfl

/-- The kernel body's bias and maximum with a splat of the zero word. -/
theorem body_bias_max (M : FVec Ideal ⟨2, ![r, n]⟩ .f32) (v : FVec Ideal ⟨1, ![n]⟩ .f32)
    (h : (⟨1, ![n]⟩ : Shape).ShapeCasts ⟨2, ![1, n]⟩) (hb : (⟨2, ![1, n]⟩ : Shape).Broadcasts ⟨2, ![r, n]⟩) :
    maximumf (addf M (broadcastTo ⟨2, ![r, n]⟩ (shapeCast ⟨2, ![1, n]⟩ v h) hb))
      (broadcast ⟨2, ![r, n]⟩ (Scalar.ofBits (F := Ideal) .f32 0x00000000#32)) = biasRelu M (asRow v) := by
  funext i
  obtain ⟨p, q, rfl⟩ : ∃ (p : Fin r) (q : Fin n), i = ix2 p q := ⟨i 0, i 1, eq_ix2 i⟩
  rw [maximumf_apply, addf_apply, Cert.Lib.BlockReads.broadcast_row_apply, shapeCast_eq_asRow]
  rfl

/-- The reference's bias: the vector broadcast into a 1×n row and that into the r×n array, then added. -/
theorem host_bias (M : FVec Ideal ⟨2, ![r, n]⟩ .f32) (v : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![r, n]⟩ ![0, 1]) :
    addf M (broadcastInDim ⟨2, ![r, n]⟩ ![0, 1] h2 (broadcastInDim ⟨2, ![1, n]⟩ ![1] h1 v)) = biasAdd M (asRow v) := by
  funext i
  obtain ⟨p, q, rfl⟩ : ∃ (p : Fin r) (q : Fin n), i = ix2 p q := ⟨i 0, i 1, eq_ix2 i⟩
  rw [addf_apply, bcastInDim_rows_apply, bcastInDim_eq_asRow]
  rfl

/-- The maximum of a biased matrix with a splat of the zero word is the bias and maximum in one. -/
theorem max_biasAdd (M : (⟨2, ![r, n]⟩ : Shape).Idx → EReal) (b : (⟨2, ![1, n]⟩ : Shape).Idx → EReal) :
    maximumf (F := Ideal) (s := ⟨2, ![r, n]⟩) (φ := .f32) (biasAdd M b)
      (broadcast ⟨2, ![r, n]⟩ (FloatOps.ofBits (F := Ideal) .f32 0x00000000#32)) = biasRelu M b := by
  funext i
  rw [maximumf_apply]
  rfl

end Cert.Layers

end
-- ==== Proof.SageStages.lean ====
/-
  The stages of a mean-aggregating graph convolution layer, as functions of whole arrays of extended reals.

  A layer takes, per edge type, the per-node sums of the neighbours' features (an n×k array A), the per-node divisor
  (a vector s of n entries, the in-degree clamped below at one) and the nodes' own features H, and computes
      (A / s) · Wl + bl + H · Wr,
  optionally scaled row by row to unit Euclidean length (the length clamped below at a small ε); the three edge types'
  results are added from a zero and divided by three; between layers the rows are clamped below at zero and
  standardised (row mean and row variance over the k columns, a small ε added to the variance) with a gain and an offset
  per column.

  Every stage here is ROW-LOCAL: entry (p, q) of its result reads row p of its array operands only (and whole weight
  matrices and vectors). So a stage applied to a block of consecutive rows is the same rows of the stage applied to the
  whole arrays; that is stated once per stage (`*_rows`), with the row map a variable. Literal words (zero, 128, the two
  ε) stay as parameters: the same word stands on both sides of the comparison and is never evaluated here.
  Nothing in this file mentions a program.
-/
import Idealize.ShloMosaic.PureOps.Ideal.Laws
import Idealize.ShloMosaic.Lib.ValueIdx
import proofs.«151081_j64338610094389_2_alg».proof.Proof.LibDenseLayers

open scoped BigOperators

noncomputable section

namespace Cert.Sage

open Idealize.ShloMosaic Idealize.ShloMosaic.ValueIdx Cert.Lib.MatProd Cert.Layers

variable {n n' k : Nat}

/-! ## Slices of stacked weights -/

/-- Matrix t of a stack of matrices. -/
def slab {T a b : Nat} (W : (⟨3, ![T, a, b]⟩ : Shape).Idx → EReal) (t : Fin T) : (⟨2, ![a, b]⟩ : Shape).Idx → EReal :=
  fun i => W (ix3 t (i 0) (i 1))

/-- Matrix (l, t) of a doubly stacked family of matrices. -/
def slab2 {L T a b : Nat} (W : (⟨4, ![L, T, a, b]⟩ : Shape).Idx → EReal) (l : Fin L) (t : Fin T) :
    (⟨2, ![a, b]⟩ : Shape).Idx → EReal :=
  fun i => W (ix4 l t (i 0) (i 1))

/-- Row t of a matrix, as a vector. -/
def rowVec {T a : Nat} (B : (⟨2, ![T, a]⟩ : Shape).Idx → EReal) (t : Fin T) : (⟨1, ![a]⟩ : Shape).Idx → EReal :=
  fun i => B (ix2 t (i 0))

/-- Row (l, t) of a stack of matrices, as a vector. -/
def rowVec2 {L T a : Nat} (B : (⟨3, ![L, T, a]⟩ : Shape).Idx → EReal) (l : Fin L) (t : Fin T) :
    (⟨1, ![a]⟩ : Shape).Idx → EReal :=
  fun i => B (ix3 l t (i 0))

/-! ## The stages -/

/-- Every row divided by that row's divisor: entry (p, q) is A(p, q) / s(p). -/
def divRows (A : (⟨2, ![n, k]⟩ : Shape).Idx → EReal) (s : (⟨1, ![n]⟩ : Shape).Idx → EReal) :
    (⟨2, ![n, k]⟩ : Shape).Idx → EReal :=
  fun i => Ideal.div (A i) (s (ix1 (i 0)))

theorem divRows_apply (A : (⟨2, ![n, k]⟩ : Shape).Idx → EReal) (s : (⟨1, ![n]⟩ : Shape).Idx → EReal)
    (p : Fin n) (q : Fin k) : divRows A s (ix2 p q) = Ideal.div (A (ix2 p q)) (s (ix1 p)) := rfl

/-- The convolution proper: entry (p, q) is ∑ c, A(p, c) · Wl(c, q) + bl(q) + ∑ c, H(p, c) · Wr(c, q). -/
def conv {m : Nat} (A : (⟨2, ![n, k]⟩ : Shape).Idx → EReal) (H : (⟨2, ![n, k]⟩ : Shape).Idx → EReal)
    (Wl : (⟨2, ![k, m]⟩ : Shape).Idx → EReal) (bl : (⟨1, ![m]⟩ : Shape).Idx → EReal)
    (Wr : (⟨2, ![k, m]⟩ : Shape).Idx → EReal) : (⟨2, ![n, m]⟩ : Shape).Idx → EReal :=
  fun i => affine A Wl bl i + matProd H Wr i

theorem conv_apply {m : Nat} (A H : (⟨2, ![n, k]⟩ : Shape).Idx → EReal)
    (Wl : (⟨2, ![k, m]⟩ : Shape).Idx → EReal) (bl : (⟨1, ![m]⟩ : Shape).Idx → EReal)
    (Wr : (⟨2, ![k, m]⟩ : Shape).Idx → EReal) (p : Fin n) (q : Fin m) :
    conv A H Wl bl Wr (ix2 p q) = affine A Wl bl (ix2 p q) + matProd H Wr (ix2 p q) := rfl

/-- The sum of the squares of row p. -/
def rowSq (O : (⟨2, ![n, k]⟩ : Shape).Idx → EReal) (p : Fin n) : EReal := ∑ j : Fin k, O (ix2 p j) * O (ix2 p j)

/-- Every row scaled to unit length, the length clamped below at ε: entry (p, q) is O(p, q) / max (√(∑ j, O(p, j)²)) ε. -/
def unitRows (ε : EReal) (O : (⟨2, ![n, k]⟩ : Shape).Idx → EReal) : (⟨2, ![n, k]⟩ : Shape).Idx → EReal :=
  fun i => Ideal.div (O i) (max (Ideal.sqrt (rowSq O (i 0))) ε)

theorem unitRows_apply (ε : EReal) (O : (⟨2, ![n, k]⟩ : Shape).Idx → EReal) (p : Fin n) (q : Fin k) :
    unitRows ε O (ix2 p q) = Ideal.div (O (ix2 p q)) (max (Ideal.sqrt (rowSq O p)) ε) := rfl

/-- Three arrays added from z and divided by three: entry i is (z + X₀ i + X₁ i + X₂ i) · (1/3). -/
def third (z : EReal) (X₀ X₁ X₂ : (⟨2, ![n, k]⟩ : Shape).Idx → EReal) : (⟨2, ![n, k]⟩ : Shape).Idx → EReal :=
  fun i => (z + X₀ i + X₁ i + X₂ i) * ((1 / 3 : ℝ) : EReal)

theorem third_apply (z : EReal) (X₀ X₁ X₂ : (⟨2, ![n, k]⟩ : Shape).Idx → EReal) (i : (⟨2, ![n, k]⟩ : Shape).Idx) :
    third z X₀ X₁ X₂ i = (z + X₀ i + X₁ i + X₂ i) * ((1 / 3 : ℝ) : EReal) := rfl

/-- Every entry clamped below at z. -/
def clampBelow (z : EReal) (X : (⟨2, ![n, k]⟩ : Shape).Idx → EReal) : (⟨2, ![n, k]⟩ : Shape).Idx → EReal :=
  fun i => max (X i) z

theorem clampBelow_apply (z : EReal) (X : (⟨2, ![n, k]⟩ : Shape).Idx → EReal) (i : (⟨2, ![n, k]⟩ : Shape).Idx) :
    clampBelow z X i = max (X i) z := rfl

/-- The mean of row p: its sum divided by the column count κ. -/
def rowMean (κ : EReal) (X : (⟨2, ![n, k]⟩ : Shape).Idx → EReal) (p : Fin n) : EReal :=
  Ideal.div (∑ j : Fin k, X (ix2 p j)) κ

/-- The variance of row p about its mean. -/
def rowVar (κ : EReal) (X : (⟨2, ![n, k]⟩ : Shape).Idx → EReal) (p : Fin n) : EReal :=
  Ideal.div (∑ j : Fin k, (X (ix2 p j) - rowMean κ X p) * (X (ix2 p j) - rowMean κ X p)) κ

/-- Every row standardised, then a gain and an offset per column:
    entry (p, q) is (X(p, q) − mean p) / √(var p + ε) · g(q) + b(q). -/
def standardise (κ ε : EReal) (X : (⟨2, ![n, k]⟩ : Shape).Idx → EReal)
    (g b : (⟨1, ![k]⟩ : Shape).Idx → EReal) : (⟨2, ![n, k]⟩ : Shape).Idx → EReal :=
  fun i => Ideal.div (X i - rowMean κ X (i 0)) (Ideal.sqrt (rowVar κ X (i 0) + ε)) * g (ix1 (i 1)) + b (ix1 (i 1))

theorem standardise_apply (κ ε : EReal) (X : (⟨2, ![n, k]⟩ : Shape).Idx → EReal)
    (g b : (⟨1, ![k]⟩ : Shape).Idx → EReal) (p : Fin n) (q : Fin k) :
    standardise κ ε X g b (ix2 p q)
      = Ideal.div (X (ix2 p q) - rowMean κ X p) (Ideal.sqrt (rowVar κ X p + ε)) * g (ix1 q) + b (ix1 q) := rfl

/-! ## Each stage reads one row -/

section Rows

variable (ρ : Fin n' → Fin n)

theorem divRows_rows (A : (⟨2, ![n, k]⟩ : Shape).Idx → EReal) (A' : (⟨2, ![n', k]⟩ : Shape).Idx → EReal)
    (s : (⟨1, ![n]⟩ : Shape).Idx → EReal) (s' : (⟨1, ![n']⟩ : Shape).Idx → EReal)
    (hA : ∀ (p : Fin n') (c : Fin k), A' (ix2 p c) = A (ix2 (ρ p) c)) (hs : ∀ p : Fin n', s' (ix1 p) = s (ix1 (ρ p)))
    (p : Fin n') (q : Fin k) : divRows A' s' (ix2 p q) = divRows A s (ix2 (ρ p) q) := by
  rw [divRows_apply, divRows_apply, hA, hs]

theorem conv_rows {m : Nat} (A H : (⟨2, ![n, k]⟩ : Shape).Idx → EReal) (A' H' : (⟨2, ![n', k]⟩ : Shape).Idx → EReal)
    (Wl : (⟨2, ![k, m]⟩ : Shape).Idx → EReal) (bl : (⟨1, ![m]⟩ : Shape).Idx → EReal)
    (Wr : (⟨2, ![k, m]⟩ : Shape).Idx → EReal)
    (hA : ∀ (p : Fin n') (c : Fin k), A' (ix2 p c) = A (ix2 (ρ p) c))
    (hH : ∀ (p : Fin n') (c : Fin k), H' (ix2 p c) = H (ix2 (ρ p) c)) (p : Fin n') (q : Fin m) :
    conv A' H' Wl bl Wr (ix2 p q) = conv A H Wl bl Wr (ix2 (ρ p) q) := by
  rw [conv_apply, conv_apply, affine_rows A A' Wl bl ρ hA p q,
    matProd_block H H' Wr Wr p q (ρ p) q (hH p) fun _ => rfl]

theorem rowSq_rows (O : (⟨2, ![n, k]⟩ : Shape).Idx → EReal) (O' : (⟨2, ![n', k]⟩ : Shape).Idx → EReal)
    (hO : ∀ (p : Fin n') (c : Fin k), O' (ix2 p c) = O (ix2 (ρ p) c)) (p : Fin n') : rowSq O' p = rowSq O (ρ p) :=
  Finset.sum_congr rfl fun j _ => by rw [hO]

theorem unitRows_rows (ε : EReal) (O : (⟨2, ![n, k]⟩ : Shape).Idx → EReal) (O' : (⟨2, ![n', k]⟩ : Shape).Idx → EReal)
    (hO : ∀ (p : Fin n') (c : Fin k), O' (ix2 p c) = O (ix2 (ρ p) c)) (p : Fin n') (q : Fin k) :
    unitRows ε O' (ix2 p q) = unitRows ε O (ix2 (ρ p) q) := by
  rw [unitRows_apply, unitRows_apply, hO, rowSq_rows ρ O O' hO]

theorem third_rows (z : EReal) (X₀ X₁ X₂ : (⟨2, ![n, k]⟩ : Shape).Idx → EReal)
    (X₀' X₁' X₂' : (⟨2, ![n', k]⟩ : Shape).Idx → EReal)
    (h₀ : ∀ (p : Fin n') (c : Fin k), X₀' (ix2 p c) = X₀ (ix2 (ρ p) c))
    (h₁ : ∀ (p : Fin n') (c : Fin k), X₁' (ix2 p c) = X₁ (ix2 (ρ p) c))
    (h₂ : ∀ (p : Fin n') (c : Fin k), X₂' (ix2 p c) = X₂ (ix2 (ρ p) c)) (p : Fin n') (q : Fin k) :
    third z X₀' X₁' X₂' (ix2 p q) = third z X₀ X₁ X₂ (ix2 (ρ p) q) := by
  rw [third_apply, third_apply, h₀, h₁, h₂]

theorem clampBelow_rows (z : EReal) (X : (⟨2, ![n, k]⟩ : Shape).Idx → EReal) (X' : (⟨2, ![n', k]⟩ : Shape).Idx → EReal)
    (hX : ∀ (p : Fin n') (c : Fin k), X' (ix2 p c) = X (ix2 (ρ p) c)) (p : Fin n') (q : Fin k) :
    clampBelow z X' (ix2 p q) = clampBelow z X (ix2 (ρ p) q) := by
  rw [clampBelow_apply, clampBelow_apply, hX]

theorem rowMean_rows (κ : EReal) (X : (⟨2, ![n, k]⟩ : Shape).Idx → EReal) (X' : (⟨2, ![n', k]⟩ : Shape).Idx → EReal)
    (hX : ∀ (p : Fin n') (c : Fin k), X' (ix2 p c) = X (ix2 (ρ p) c)) (p : Fin n') :
    rowMean κ X' p = rowMean κ X (ρ p) :=
  congrArg (Ideal.div · κ) (Finset.sum_congr rfl fun j _ => hX p j)

theorem rowVar_rows (κ : EReal) (X : (⟨2, ![n, k]⟩ : Shape).Idx → EReal) (X' : (⟨2, ![n', k]⟩ : Shape).Idx → EReal)
    (hX : ∀ (p : Fin n') (c : Fin k), X' (ix2 p c) = X (ix2 (ρ p) c)) (p : Fin n') :
    rowVar κ X' p = rowVar κ X (ρ p) :=
  congrArg (Ideal.div · κ) (Finset.sum_congr rfl fun j _ => by rw [hX, rowMean_rows ρ κ X X' hX])

theorem standardise_rows (κ ε : EReal) (X : (⟨2, ![n, k]⟩ : Shape).Idx → EReal) (X' : (⟨2, ![n', k]⟩ : Shape).Idx → EReal)
    (g b : (⟨1, ![k]⟩ : Shape).Idx → EReal)
    (hX : ∀ (p : Fin n') (c : Fin k), X' (ix2 p c) = X (ix2 (ρ p) c)) (p : Fin n') (q : Fin k) :
    standardise κ ε X' g b (ix2 p q) = standardise κ ε X g b (ix2 (ρ p) q) := by
  rw [standardise_apply, standardise_apply, hX, rowMean_rows ρ κ X X' hX, rowVar_rows ρ κ X X' hX]

end Rows

end Cert.Sage

end
-- ==== Proof.SageBody.lean ====
/-
  A kernel body's spelling of each stage of the graph convolution layer, read once.

  The body works on a block of rows held as vectors. It multiplies the aggregated features by a column of a block of
  reciprocal degrees (kept beside them, one column per edge type), takes two matrix products into zero accumulators
  with a bias row between them, scales rows to unit length through a lane sum of squares, a square root and a clamp,
  adds three such results from a splat zero and multiplies by a scalar standing for one third, clamps at zero, and
  standardises rows through two lane sums and a reciprocal square root. Each spelling equals the stage of
  SageStages.lean (or, for the reciprocal-degree product, the function `mulCol` here), as whole-block functions.

  Two laws of the extended reals join the body's spellings to the stages:
    * c · rsqrt v = c / √v for every v > 0 — at v = ⊤ both sides are c · 0, at a positive real both are c · (√v)⁻¹;
    * a · (1 / d) = a / d for every d ≠ 0.
  Neither needs c or a finite. The variance plus ε is positive because a sum of squares is nonnegative on the
  extended reals (the square of either infinity is +∞) and a quotient of a nonnegative by a positive is nonnegative.
  Nothing here mentions a program.
-/
import Idealize.ShloMosaic.PureOps.Ideal.Laws
import Idealize.ShloMosaic.Lib.ValueIdx
import Idealize.ShloMosaic.Lib.ValueLayout
import Idealize.ShloMosaic.Lib.Pipeline.Value
import proofs.«151081_j64338610094389_2_alg».proof.Proof.LibRowReductions
import proofs.«151081_j64338610094389_2_alg».proof.Proof.LibDenseLayers
import proofs.«151081_j64338610094389_2_alg».proof.Proof.SageStages

open scoped BigOperators

noncomputable section

namespace Cert.Sage

open Idealize.ShloMosaic Idealize.ShloMosaic.ValueIdx Cert.Lib.MatProd Cert.Layers Cert.Lib.RowReductions
  Cert.Lib.RowVector

variable {n k m : Nat}

/-! ## Two laws of the extended reals -/

/-- The product with the reciprocal square root is the quotient by the square root, for a positive argument. -/
theorem mul_rsqrt (c v : EReal) (hv : 0 < v) : c * Ideal.rsqrt v = Ideal.div c (Ideal.sqrt v) := by
  induction v using EReal.rec with
  | bot => exact absurd hv (not_lt.2 bot_le)
  | top =>
    have h0 : (⊤ : EReal) ≠ 0 := EReal.top_ne_zero
    rw [Ideal.rsqrt_top, Ideal.sqrt_top, Ideal.div, if_neg h0, EReal.inv_top]
  | coe r =>
    have hr : 0 < r := by exact_mod_cast hv
    have hs : 0 < Real.sqrt r := Real.sqrt_pos.2 hr
    have hne : ((Real.sqrt r : ℝ) : EReal) ≠ 0 := by exact_mod_cast hs.ne'
    rw [Ideal.rsqrt_coe, Ideal.sqrt_coe, if_neg (not_lt.2 hr.le), if_neg hr.ne', if_neg (not_lt.2 hr.le), Ideal.div,
      if_neg hne, EReal.coe_inv]

/-- The product with the quotient of one is the quotient, for a nonzero divisor. -/
theorem mul_one_div (a d : EReal) (hd : d ≠ 0) : a * Ideal.div 1 d = Ideal.div a d := by
  simp only [Ideal.div, if_neg hd, one_mul]

/-- A square is nonnegative on the extended reals. -/
theorem mul_self_nonneg' (x : EReal) : 0 ≤ x * x := by
  induction x using EReal.rec with
  | bot => simp
  | top => simp
  | coe r => exact_mod_cast mul_self_nonneg r

/-- A nonnegative divided by a positive is nonnegative. -/
theorem div_nonneg' (s κ : EReal) (hs : 0 ≤ s) (hκ : 0 < κ) : 0 ≤ Ideal.div s κ := by
  simp only [Ideal.div, if_neg hκ.ne']
  exact mul_nonneg hs (EReal.inv_nonneg_of_nonneg hκ.le)

/-! ## The reciprocal-degree product -/

/-- Entry (p, q) is A(p, q) · D(p, o): every row multiplied by that row's entry in column o of D. -/
def mulCol (A : (⟨2, ![n, k]⟩ : Shape).Idx → EReal) (D : (⟨2, ![n, m]⟩ : Shape).Idx → EReal) (o : Fin m) :
    (⟨2, ![n, k]⟩ : Shape).Idx → EReal :=
  fun i => A i * D (ix2 (i 0) o)

theorem mulCol_apply (A : (⟨2, ![n, k]⟩ : Shape).Idx → EReal) (D : (⟨2, ![n, m]⟩ : Shape).Idx → EReal) (o : Fin m)
    (p : Fin n) (q : Fin k) : mulCol A D o (ix2 p q) = A (ix2 p q) * D (ix2 p o) := rfl

/-- The body's spelling: column o cut out of the block of reciprocals, broadcast across the columns, multiplied in. -/
theorem body_mulCol (A : FVec Ideal ⟨2, ![n, k]⟩ .f32) (D : FVec Ideal ⟨2, ![n, m]⟩ .f32) (o : Nat) (ho : o < m)
    (hs : (⟨2, ![n, m]⟩ : Shape).Slices ![0, o] ⟨2, ![n, 1]⟩)
    (hb : (⟨2, ![n, 1]⟩ : Shape).Broadcasts ⟨2, ![n, k]⟩) :
    mulf A (broadcastTo ⟨2, ![n, k]⟩ (extractStridedSlice ⟨2, ![n, 1]⟩ ![0, o] D hs) hb) = mulCol A D ⟨o, ho⟩ := by
  funext i
  obtain ⟨p, q, rfl⟩ : ∃ (p : Fin n) (q : Fin k), i = ix2 p q := ⟨i 0, i 1, eq_ix2 i⟩
  rw [mulf_apply, broadcast_col_apply, slice2_axis1_apply o D hs p 0 ⟨o, ho⟩ (by show o = o + 0; rfl)]
  rfl

/-- Where column o of D holds the quotients of one by a vector d of nonzero divisors, that product is the rows divided by d. -/
theorem mulCol_eq_divRows (A : (⟨2, ![n, k]⟩ : Shape).Idx → EReal) (D : (⟨2, ![n, m]⟩ : Shape).Idx → EReal) (o : Fin m)
    (d : (⟨1, ![n]⟩ : Shape).Idx → EReal) (hD : ∀ p : Fin n, D (ix2 p o) = Ideal.div 1 (d (ix1 p)))
    (hd : ∀ p : Fin n, d (ix1 p) ≠ 0) : mulCol A D o = divRows A d := by
  funext i
  obtain ⟨p, q, rfl⟩ : ∃ (p : Fin n) (q : Fin k), i = ix2 p q := ⟨i 0, i 1, eq_ix2 i⟩
  rw [mulCol_apply, divRows_apply, hD, mul_one_div _ _ (hd p)]

/-! ## The convolution -/

/-- The body's spelling: both operands of each product narrowed (the identity on the extended reals), the products
    taken into zero accumulators, the bias re-shaped to a row and broadcast down the rows between them. -/
theorem body_conv (A H : FVec Ideal ⟨2, ![n, k]⟩ .f32) (Wl Wr : FVec Ideal ⟨2, ![k, m]⟩ .f32)
    (bl : FVec Ideal ⟨1, ![m]⟩ .f32) (d : DotDims ⟨2, ![n, k]⟩ ⟨2, ![k, m]⟩ ⟨2, ![n, m]⟩)
    (hlc : d.lhsContracting = [1]) (hrc : d.rhsContracting = [0]) (hln : d.lhsNonContracting = [0])
    (hrn : d.rhsNonContracting = [1]) (hlb : d.lhsBatch = []) (hrb : d.rhsBatch = [])
    (hlt : FTy.bf16.bits < FTy.f32.bits)
    (h1 : (⟨1, ![m]⟩ : Shape).ShapeCasts ⟨2, ![1, m]⟩) (hb : (⟨2, ![1, m]⟩ : Shape).Broadcasts ⟨2, ![n, m]⟩) :
    addf (addf (matmul d none (truncf .bf16 A hlt) (truncf .bf16 Wl hlt) (constant ⟨2, ![n, m]⟩ .f32 0x00000000#32))
        (broadcastTo ⟨2, ![n, m]⟩ (shapeCast ⟨2, ![1, m]⟩ bl h1) hb))
      (matmul d none (truncf .bf16 H hlt) (truncf .bf16 Wr hlt) (constant ⟨2, ![n, m]⟩ .f32 0x00000000#32))
    = conv A H Wl bl Wr := by
  rw [matmul_zero_eq_matProd d hlc hrc hln hrn hlb hrb, matmul_zero_eq_matProd d hlc hrc hln hrn hlb hrb, body_bias]
  rfl

/-! ## Rows of unit length -/

/-- The body's spelling: the lane sum of the squares, as a column; its square root clamped below at the word e;
    broadcast across the columns; the quotient. -/
theorem body_unitRows (O : FVec Ideal ⟨2, ![n, k]⟩ .f32) (e : BitVec 32)
    (hr : (⟨2, ![n, k]⟩ : Shape).Reduces [1] ⟨1, ![n]⟩) (hφ : FKind.Formats FTy.f32)
    (hacc : (0x00000000#32 : BitVec FTy.f32.bits) = FKind.add.neutral FTy.f32 hφ)
    (hc : (⟨1, ![n]⟩ : Shape).ShapeCasts ⟨2, ![n, 1]⟩) (hb : (⟨2, ![n, 1]⟩ : Shape).Broadcasts ⟨2, ![n, k]⟩) :
    divf O (broadcastTo ⟨2, ![n, k]⟩
      (maximumf (sqrt (shapeCast ⟨2, ![n, 1]⟩ (multiReduction .add [1] ⟨1, ![n]⟩ (mulf O O) 0x00000000#32 hr hφ hacc) hc))
        (broadcast ⟨2, ![n, 1]⟩ (Scalar.ofBits (F := Ideal) .f32 e))) hb)
    = unitRows (Ideal.ofBits .f32 e) O := by
  funext i
  obtain ⟨p, q, rfl⟩ : ∃ (p : Fin n) (q : Fin k), i = ix2 p q := ⟨i 0, i 1, eq_ix2 i⟩
  rw [divf_apply, broadcast_col_apply, maximumf_apply, unitRows_apply]
  show Ideal.div _ (max (Ideal.sqrt (shapeCast ⟨2, ![n, 1]⟩ _ hc (ix2 p 0))) _) = _
  rw [shapeCast_col_apply, rowsum_apply]
  rfl

/-! ## A third of three -/

/-- The body's spelling: three blocks added onto a splat of the word z, the sum multiplied by a splat scalar c that
    stands for one third. -/
theorem body_third (z : BitVec 32) (c : Ideal .f32) (hc : c = ((1 / 3 : ℝ) : EReal))
    (X₀ X₁ X₂ : FVec Ideal ⟨2, ![n, k]⟩ .f32) :
    mulf (addf (addf (addf (broadcast ⟨2, ![n, k]⟩ (Scalar.ofBits (F := Ideal) .f32 z)) X₀) X₁) X₂)
        (broadcast ⟨2, ![n, k]⟩ c)
    = third (Ideal.ofBits .f32 z) X₀ X₁ X₂ := by
  subst hc
  rfl

/-- The body's clamp below at a splat of the word z. -/
theorem body_clamp (z : BitVec 32) (X : FVec Ideal ⟨2, ![n, k]⟩ .f32) :
    maximumf X (broadcast ⟨2, ![n, k]⟩ (Scalar.ofBits (F := Ideal) .f32 z)) = clampBelow (Ideal.ofBits .f32 z) X := rfl

/-! ## Standardised rows -/

/-- The body's row mean: the lane sum as a column, divided by a splat of the word w. -/
theorem body_rowMean (X : FVec Ideal ⟨2, ![n, k]⟩ .f32) (w : BitVec 32)
    (hr : (⟨2, ![n, k]⟩ : Shape).Reduces [1] ⟨1, ![n]⟩) (hφ : FKind.Formats FTy.f32)
    (hacc : (0x00000000#32 : BitVec FTy.f32.bits) = FKind.add.neutral FTy.f32 hφ)
    (hc : (⟨1, ![n]⟩ : Shape).ShapeCasts ⟨2, ![n, 1]⟩) (p : Fin n) :
    divf (shapeCast ⟨2, ![n, 1]⟩ (multiReduction .add [1] ⟨1, ![n]⟩ X 0x00000000#32 hr hφ hacc) hc)
        (broadcast ⟨2, ![n, 1]⟩ (Scalar.ofBits (F := Ideal) .f32 w)) (ix2 p 0)
      = rowMean (Ideal.ofBits .f32 w) X p := by
  rw [divf_apply, shapeCast_col_apply, rowsum_apply]
  rfl

/-- The body's spelling of the standardisation, with the gain and the offset as rows broadcast down the block: the
    centred block multiplied by the reciprocal square root of the variance plus ε. -/
theorem body_standardise (X : FVec Ideal ⟨2, ![n, k]⟩ .f32) (g b : FVec Ideal ⟨1, ![k]⟩ .f32) (w e : BitVec 32)
    (hw : 0 < Ideal.ofBits .f32 w) (he : 0 < Ideal.ofBits .f32 e)
    (hr : (⟨2, ![n, k]⟩ : Shape).Reduces [1] ⟨1, ![n]⟩) (hφ : FKind.Formats FTy.f32)
    (hacc : (0x00000000#32 : BitVec FTy.f32.bits) = FKind.add.neutral FTy.f32 hφ)
    (hc : (⟨1, ![n]⟩ : Shape).ShapeCasts ⟨2, ![n, 1]⟩) (hb : (⟨2, ![n, 1]⟩ : Shape).Broadcasts ⟨2, ![n, k]⟩)
    (h1 : (⟨1, ![k]⟩ : Shape).ShapeCasts ⟨2, ![1, k]⟩) (hbr : (⟨2, ![1, k]⟩ : Shape).Broadcasts ⟨2, ![n, k]⟩) :
    let μ : FVec Ideal ⟨2, ![n, 1]⟩ .f32 :=
      divf (shapeCast ⟨2, ![n, 1]⟩ (multiReduction .add [1] ⟨1, ![n]⟩ X 0x00000000#32 hr hφ hacc) hc)
        (broadcast ⟨2, ![n, 1]⟩ (Scalar.ofBits (F := Ideal) .f32 w))
    let C : FVec Ideal ⟨2, ![n, k]⟩ .f32 := subf X (broadcastTo ⟨2, ![n, k]⟩ μ hb)
    let σ : FVec Ideal ⟨2, ![n, 1]⟩ .f32 :=
      divf (shapeCast ⟨2, ![n, 1]⟩ (multiReduction .add [1] ⟨1, ![n]⟩ (mulf C C) 0x00000000#32 hr hφ hacc) hc)
        (broadcast ⟨2, ![n, 1]⟩ (Scalar.ofBits (F := Ideal) .f32 w))
    addf (mulf (mulf C (broadcastTo ⟨2, ![n, k]⟩
            (rsqrt (addf σ (broadcast ⟨2, ![n, 1]⟩ (Scalar.ofBits (F := Ideal) .f32 e)))) hb))
          (broadcastTo ⟨2, ![n, k]⟩ (shapeCast ⟨2, ![1, k]⟩ g h1) hbr))
        (broadcastTo ⟨2, ![n, k]⟩ (shapeCast ⟨2, ![1, k]⟩ b h1) hbr)
      = standardise (Ideal.ofBits .f32 w) (Ideal.ofBits .f32 e) X g b := by
  intro μ C σ
  funext i
  obtain ⟨p, q, rfl⟩ : ∃ (p : Fin n) (q : Fin k), i = ix2 p q := ⟨i 0, i 1, eq_ix2 i⟩
  have hμ : μ (ix2 p 0) = rowMean (Ideal.ofBits .f32 w) X p := body_rowMean X w hr hφ hacc hc p
  have hC : ∀ j : Fin k, C (ix2 p j) = X (ix2 p j) - rowMean (Ideal.ofBits .f32 w) X p := fun j => by
    show X (ix2 p j) - broadcastTo ⟨2, ![n, k]⟩ μ hb (ix2 p j) = _
    rw [broadcast_col_apply, hμ]
  have hσ : σ (ix2 p 0) = rowVar (Ideal.ofBits .f32 w) X p := by
    show Ideal.div (shapeCast ⟨2, ![n, 1]⟩ _ hc (ix2 p 0)) _ = _
    rw [shapeCast_col_apply, rowsum_apply]
    exact congrArg (Ideal.div · (Ideal.ofBits .f32 w)) (Finset.sum_congr rfl fun j _ => by rw [mulf_apply, hC])
  have hpos : 0 < rowVar (Ideal.ofBits .f32 w) X p + Ideal.ofBits .f32 e :=
    he.trans_le (le_add_of_nonneg_left
      (div_nonneg' _ _ (Finset.sum_nonneg fun j _ => mul_self_nonneg' _) hw))
  rw [addf_apply, mulf_apply, mulf_apply, hC, broadcast_col_apply, Cert.Lib.BlockReads.broadcast_row_apply,
    Cert.Lib.BlockReads.broadcast_row_apply, shapeCast_rowvec_apply, shapeCast_rowvec_apply, standardise_apply]
  show (_ * Ideal.rsqrt (σ (ix2 p 0) + Ideal.ofBits .f32 e)) * _ + _ = _
  rw [hσ, mul_rsqrt _ _ hpos]

end Cert.Sage

end
-- ==== Proof.SageLoads.lean ====
/-
  What a kernel body reads when it loads one matrix out of a stack of matrices, or one row out of a matrix, through a
  unit-stride rectangle at a literal offset, and drops the leading unit axis: matrix t of the stack (`slab`), row t of
  the matrix as a vector (`rowVec`). A load through rectangle r reads the block at r's offsets plus the position in
  the rectangle. Nothing here mentions a program.
-/
import Idealize.ShloMosaic.Lib.ValueIdx
import Idealize.ShloMosaic.Lib.ValueLayout
import Idealize.ShloMosaic.Lib.Pipeline.Value
import proofs.«151081_j64338610094389_2_alg».proof.Proof.SageStages

noncomputable section

namespace Cert.Sage

open Idealize.ShloMosaic Idealize.ShloMosaic.ValueIdx

/-- Matrix t of a stack, loaded as a 1×a×b slab and re-shaped to a×b. -/
theorem ld_slab {T a b : Nat} (W : Vec Ideal ⟨3, ![T, a, b]⟩ .f32) (t : Nat) (ht : t < T)
    (inb : ∀ ax, (![t, 0, 0] : Fin 3 → Nat) ax + (⟨3, ![1, a, b]⟩ : Shape).size ax ≤ (⟨3, ![T, a, b]⟩ : Shape).size ax)
    (h : (⟨3, ![1, a, b]⟩ : Shape).ShapeCasts ⟨2, ![a, b]⟩) :
    shapeCast ⟨2, ![a, b]⟩
        (View.ld (Val := Elt Ideal) (e' := EltTy.f32) W
          (Rect.unit (s := ⟨3, ![T, a, b]⟩) ![t, 0, 0] (⟨3, ![1, a, b]⟩ : Shape).size inb)) h
      = slab W ⟨t, ht⟩ := by
  funext i
  obtain ⟨p, q, rfl⟩ : ∃ (p : Fin a) (q : Fin b), i = ix2 p q := ⟨i 0, i 1, eq_ix2 i⟩
  rw [shapeCast_1ab_ab_apply]
  show W _ = W (ix3 ⟨t, ht⟩ p q)
  congr 1
  funext ax
  apply Fin.ext
  match ax with
  | ⟨0, _⟩ => show t + 1 * 0 = t; omega
  | ⟨1, _⟩ => show 0 + 1 * p.val = p.val; omega
  | ⟨2, _⟩ => show 0 + 1 * q.val = q.val; omega

/-- Row t of a matrix, loaded as a 1×a row and re-shaped to a vector. -/
theorem ld_row {T a : Nat} (B : Vec Ideal ⟨2, ![T, a]⟩ .f32) (t : Nat) (ht : t < T)
    (inb : ∀ ax, (![t, 0] : Fin 2 → Nat) ax + (⟨2, ![1, a]⟩ : Shape).size ax ≤ (⟨2, ![T, a]⟩ : Shape).size ax)
    (h : (⟨2, ![1, a]⟩ : Shape).ShapeCasts ⟨1, ![a]⟩) :
    shapeCast ⟨1, ![a]⟩
        (View.ld (Val := Elt Ideal) (e' := EltTy.f32) B
          (Rect.unit (s := ⟨2, ![T, a]⟩) ![t, 0] (⟨2, ![1, a]⟩ : Shape).size inb)) h
      = rowVec B ⟨t, ht⟩ := by
  funext i
  obtain ⟨q, rfl⟩ : ∃ q : Fin a, i = ix1 q := ⟨i 0, eq_ix1 i⟩
  rw [shapeCast_1a_a_apply]
  show B _ = B (ix2 ⟨t, ht⟩ q)
  congr 1
  funext ax
  apply Fin.ext
  match ax with
  | ⟨0, _⟩ => show t + 1 * 0 = t; omega
  | ⟨1, _⟩ => show 0 + 1 * q.val = q.val; omega

end Cert.Sage

end
-- ==== Proof.KIValue0.lean ====
/-
  The projection kernel's block, as a function: slab t of the 3×4000×128 block it stores is the dense layer with a
  maximum — the feature block times matrix t of the stack, plus row t of the biases, clamped below at zero — of the
  4000×128 feature block. Each of the body's three stored values is that layer re-shaped to a 1×4000×128 slab; the
  three slabs tile the block.
-/
import proofs.«151081_j64338610094389_2_alg».proof.Proof.KIRegion0
import proofs.«151081_j64338610094389_2_alg».proof.Proof.SageBody
import proofs.«151081_j64338610094389_2_alg».proof.Proof.SageLoads

set_option maxRecDepth 16384

noncomputable section

namespace Cert.Sage

open Idealize.ShloMosaic Idealize.ShloMosaic.ValueIdx Cert.Lib.MatProd Cert.Layers

/-- The three edge types' projections stacked: entry (t, r, j) is the dense layer with matrix t and bias row t at (r, j). -/
def projAll {n k : Nat} (x : (⟨2, ![n, k]⟩ : Shape).Idx → EReal) (Wp : (⟨3, ![3, k, k]⟩ : Shape).Idx → EReal)
    (bp : (⟨2, ![3, k]⟩ : Shape).Idx → EReal) : (⟨3, ![3, n, k]⟩ : Shape).Idx → EReal :=
  fun i => dense x (slab Wp (i 0)) (rowVec bp (i 0)) (ix2 (i 1) (i 2))

theorem projAll_apply {n k : Nat} (x : (⟨2, ![n, k]⟩ : Shape).Idx → EReal) (Wp : (⟨3, ![3, k, k]⟩ : Shape).Idx → EReal)
    (bp : (⟨2, ![3, k]⟩ : Shape).Idx → EReal) (t : Fin 3) (r : Fin n) (j : Fin k) :
    projAll x Wp bp (ix3 t r j) = dense x (slab Wp t) (rowVec bp t) (ix2 r j) := rfl

end Cert.Sage

namespace Cert.KernelIdeal.HandValue

open Idealize.ShloMosaic Idealize.ShloMosaic.ValueIdx Cert.KernelIdeal Cert.KernelIdeal.Gen Cert.KernelIdeal.Hand
open Cert.Lib.MatProd Cert.Layers Cert.Sage

/-- One stored value of the projection body, from the loaded feature block, matrix slab and bias row: the dense layer
    with a maximum, as a 1×4000×128 slab. -/
theorem slab_eq (v0 : Vec Ideal S4000x128 .f32) (v2 : Vec Ideal S1x128x128 .f32) (v6 : Vec Ideal S1x128 .f32) :
    k0_pay3 (F := Ideal) v0 v2 v6
      = shapeCast S1x4000x128
          (dense v0 (shapeCast S128x128 v2 shapeCasts_S1x128x128_S128x128) (shapeCast S128 v6 shapeCasts_S1x128_S128))
          shapeCasts_S4000x128_S1x4000x128 := by
  unfold k0_pay3 k0_pay2
  dsimp only
  rw [matmul_zero_eq_matProd dot_S4000x128_S128x128_S4000x128_1_0_0_1_n_n rfl rfl rfl rfl rfl rfl, body_bias_max]
  rfl

/-- The second stored value: the same layer with the second matrix and bias row. -/
theorem slab_eq' (v0 : Vec Ideal S4000x128 .f32) (v17 : Vec Ideal S1x128x128 .f32) (v21 : Vec Ideal S1x128 .f32) :
    k0_pay4 (F := Ideal) v0 v17 v21
      = shapeCast S1x4000x128
          (dense v0 (shapeCast S128x128 v17 shapeCasts_S1x128x128_S128x128) (shapeCast S128 v21 shapeCasts_S1x128_S128))
          shapeCasts_S4000x128_S1x4000x128 := by
  unfold k0_pay4 k0_pay2
  dsimp only
  rw [matmul_zero_eq_matProd dot_S4000x128_S128x128_S4000x128_1_0_0_1_n_n rfl rfl rfl rfl rfl rfl, body_bias_max]
  rfl

/-- The third stored value, from the narrowed feature block the first part hands on (the narrowing is the identity on
    the extended reals). -/
theorem slab_eq'' (v0 : Vec Ideal S4000x128 .f32) (v32 : Vec Ideal S1x128x128 .f32) (v36 : Vec Ideal S1x128 .f32) :
    k0_pay1 (F := Ideal) (k0_pay2 v0) v32 v36
      = shapeCast S1x4000x128
          (dense v0 (shapeCast S128x128 v32 shapeCasts_S1x128x128_S128x128) (shapeCast S128 v36 shapeCasts_S1x128_S128))
          shapeCasts_S4000x128_S1x4000x128 := by
  unfold k0_pay1 k0_pay2
  dsimp only
  rw [matmul_zero_eq_matProd dot_S4000x128_S128x128_S4000x128_1_0_0_1_n_n rfl rfl rfl rfl rfl rfl, body_bias_max]
  rfl

theorem zero2 : (![0, 0] : Fin 2 → Nat) = fun _ => 0 := funext fun a => by fin_cases a <;> rfl

/-- Position (u, r, j) of slab t of the output block is position (t, r, j) of the block. -/
theorem emb_slab (t : Nat) (inb : ∀ ax, (![t, 0, 0] : Fin 3 → Nat) ax + S1x4000x128.size ax ≤ S3x4000x128.size ax)
    (ht : t < 3) (u : Fin 1) (r : Fin 4000) (j : Fin 128) :
    (Rect.unit (s := S3x4000x128) ![t, 0, 0] S1x4000x128.size inb).emb (ix3 u r j) = ix3 (⟨t, ht⟩ : Fin 3) r j := by
  funext ax
  apply Fin.ext
  match ax with
  | ⟨0, _⟩ => show t + 1 * u.val = t; omega
  | ⟨1, _⟩ => show 0 + 1 * r.val = r.val; omega
  | ⟨2, _⟩ => show 0 + 1 * j.val = j.val; omega

/-- THE BLOCK the projection body leaves: slab t is the dense layer with a maximum of the feature block, with matrix
    t and bias row t. -/
theorem out0_eq (x0 : Vec Ideal S4000x128 .f32) (x1 : Vec Ideal S3x128x128 .f32) (x2 : Vec Ideal S3x128 .f32) :
    out0_3 (F := Ideal) x0 x1 x2 = projAll x0 x1 x2 := by
  funext y
  unfold out0_3
  refine View.canon_apply_of_pieces (Val := Elt Ideal) (e := .bf16) (projAll x0 x1 x2 : S3x4000x128.Idx → Elt Ideal .bf16) _ ?_ y
    (cover0_3 _ _ _ y)
  intro p hp x
  simp only [List.mem_cons, List.not_mem_nil, or_false] at hp
  rcases hp with rfl | rfl | rfl
  · obtain ⟨u, r, j, rfl⟩ : ∃ (u : Fin 1) (r : Fin 4000) (j : Fin 128), x = ix3 u r j := ⟨x 0, x 1, x 2, eq_ix3 (n0 := 1) (n1 := 4000) (n2 := 128) x⟩
    show k0_pay1 (k0_pay2 (View.ld x0 rX0)) (View.ld x1 rW0_2) (View.ld x2 rB0_2) (ix3 u r j) = projAll x0 x1 x2 (rO0_2.emb (ix3 u r j))
    rw [slab_eq'', shapeCast_ab_1ab_apply, View.ld_unit_zero (S := S4000x128) zero2 _ x0, ld_slab x1 2 (by decide),
      ld_row x2 2 (by decide), emb_slab 2 _ (by decide)]
    rfl
  · obtain ⟨u, r, j, rfl⟩ : ∃ (u : Fin 1) (r : Fin 4000) (j : Fin 128), x = ix3 u r j := ⟨x 0, x 1, x 2, eq_ix3 (n0 := 1) (n1 := 4000) (n2 := 128) x⟩
    show k0_pay4 (View.ld x0 rX0) (View.ld x1 rW0_1) (View.ld x2 rB0_1) (ix3 u r j) = projAll x0 x1 x2 (rO0_1.emb (ix3 u r j))
    rw [slab_eq', shapeCast_ab_1ab_apply, View.ld_unit_zero (S := S4000x128) zero2 _ x0, ld_slab x1 1 (by decide),
      ld_row x2 1 (by decide), emb_slab 1 _ (by decide)]
    rfl
  · obtain ⟨u, r, j, rfl⟩ : ∃ (u : Fin 1) (r : Fin 4000) (j : Fin 128), x = ix3 u r j := ⟨x 0, x 1, x 2, eq_ix3 (n0 := 1) (n1 := 4000) (n2 := 128) x⟩
    show k0_pay3 (View.ld x0 rX0) (View.ld x1 rW0_0) (View.ld x2 rB0_0) (ix3 u r j) = projAll x0 x1 x2 (rO0_0.emb (ix3 u r j))
    rw [slab_eq, shapeCast_ab_1ab_apply, View.ld_unit_zero (S := S4000x128) zero2 _ x0, ld_slab x1 0 (by decide),
      ld_row x2 0 (by decide), emb_slab 0 _ (by decide)]
    rfl

end Cert.KernelIdeal.HandValue

end
-- ==== Proof.KIFinal0.lean ====
/-
  The projection region's output array: after the region, the 3×100000×128 array holds, in slab t, the dense layer with
  a maximum of ALL the node features with matrix t and bias row t — `projAll` of the arrays the region found. Grid
  point i stores rows 4000·i … 4000·i + 3999 of every slab; a row of the layer reads that row of the features only, so
  the block the body leaves is those rows of the whole layer; the 25 blocks tile the array.
-/
import proofs.«151081_j64338610094389_2_alg».proof.Proof.KIValue0

set_option maxRecDepth 16384

noncomputable section

namespace Cert.KernelIdeal.HandValue

open Idealize.ShloMosaic Idealize.ShloMosaic.TcCoe Idealize.ShloMosaic.ValueIdx
open Cert.KernelIdeal Cert.KernelIdeal.Gen Cert.KernelIdeal.Hand
open Idealize.ShloMosaic.Pipeline (Dat)
open Cert.Lib.MatProd Cert.Layers Cert.Sage

variable (V : (c : Dev nD) → (b : Ref sig .tc) → Buf (Elt Ideal) ((c : Thread nD τ).loc b))

/-- The printed index maps over the grid: the feature window and the output window move together along the rows, the
    weight windows stay at the origin. -/
theorem idx_facts0 : ∀ t : Fin cfg0.N,
    win0_0.index t (0 : Fin 2) = win0_3.index t (1 : Fin 3) ∧ win0_0.index t (1 : Fin 2) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (0 : Fin 3) = 0 ∧ win0_3.index t (2 : Fin 3) = 0 ∧ win0_3.index t (1 : Fin 3) ≤ 24 :=
  (by decide +kernel : ∀ t : Fin grid0.N, _)

/-- Every row block is some point's. -/
theorem idx_onto0 : ∀ q : Fin 25, ∃ t : Fin cfg0.N, win0_3.index t = ![0, q.val, 0] :=
  (by decide +kernel : ∀ q : Fin 25, ∃ t : Fin grid0.N, win0_3.index t = ![0, q.val, 0])

/-- What point t writes back is block t of the stacked projection of the arrays the region found. -/
theorem flushed0_eq (c : Dev nD) (t : Fin cfg0.N) :
    (dat0 V c).flushed 3 t = ((cfg0.win 3).blk t).view.read (Elt Ideal)
      (projAll (V c main_arg0) (V c main_arg2) (V c main_arg3) : S3x100000x128.Idx → Elt Ideal .bf16) := by
  show (cfg0.win 3).cut (grid0.coords t) ((dat0 V c).after 3 t) = _
  rw [after0_3, out0_eq]
  obtain ⟨e0, e1, e2, e3, e4, e5, e6, e7, e8, e9⟩ := idx_facts0 t
  funext j
  obtain ⟨s, r, q, rfl⟩ : ∃ (s : Fin 3) (r : Fin 4000) (q : Fin 128), j = ix3 s r q :=
    ⟨j 0, j 1, j 2, eq_ix3 (n0 := 3) (n1 := 4000) (n2 := 128) j⟩
  show projAll (iblk0 V c 0 t) (iblk0 V c 1 t) (iblk0 V c 2 t) (ix3 s r q)
      = projAll (V c main_arg0) (V c main_arg2) (V c main_arg3) (((cfg0.win 3).blk t).view.emb (ix3 s r q))
  have hrow : win0_3.index t (1 : Fin 3) * 4000 + r.val < 100000 := by have := r.isLt; omega
  have hemb : ((cfg0.win 3).blk t).view.emb (ix3 s r q)
      = ix3 s (⟨win0_3.index t (1 : Fin 3) * 4000 + r.val, hrow⟩ : Fin 100000) q := by
    funext a; apply Fin.ext
    match a with
    | ⟨0, _⟩ => show win0_3.index t (0 : Fin 3) * 3 + 1 * s.val = s.val; omega
    | ⟨1, _⟩ => show win0_3.index t (1 : Fin 3) * 4000 + 1 * r.val = win0_3.index t (1 : Fin 3) * 4000 + r.val; omega
    | ⟨2, _⟩ => show win0_3.index t (2 : Fin 3) * 128 + 1 * q.val = q.val; omega
  have hW : (iblk0 V c 1 t : S3x128x128.Idx → Elt Ideal .f32) = V c main_arg2 := by
    funext y
    show V c main_arg2 (((cfg0.win 1).blk t).view.emb y) = V c main_arg2 y
    congr 1; funext a; apply Fin.ext
    match a with
    | ⟨0, _⟩ => show win0_1.index t (0 : Fin 3) * 3 + 1 * (y 0).val = (y 0).val; omega
    | ⟨1, _⟩ => show win0_1.index t (1 : Fin 3) * 128 + 1 * (y 1).val = (y 1).val; omega
    | ⟨2, _⟩ => show win0_1.index t (2 : Fin 3) * 128 + 1 * (y 2).val = (y 2).val; omega
  have hB : (iblk0 V c 2 t : S3x128.Idx → Elt Ideal .f32) = V c main_arg3 := by
    funext y
    show V c main_arg3 (((cfg0.win 2).blk t).view.emb y) = V c main_arg3 y
    congr 1; funext a; apply Fin.ext
    match a with
    | ⟨0, _⟩ => show win0_2.index t (0 : Fin 2) * 3 + 1 * (y 0).val = (y 0).val; omega
    | ⟨1, _⟩ => show win0_2.index t (1 : Fin 2) * 128 + 1 * (y 1).val = (y 1).val; omega
  rw [hemb, projAll_apply, projAll_apply, hW, hB]
  exact dense_rows (V c main_arg0) (iblk0 V c 0 t) _ _
    (fun p => (⟨win0_3.index t (1 : Fin 3) * 4000 + p.val, by have := p.isLt; omega⟩ : Fin 100000))
    (fun p cc => by
      show V c main_arg0 (((cfg0.win 0).blk t).view.emb (ix2 p cc)) = V c main_arg0 (ix2 _ cc)
      congr 1; funext a; apply Fin.ext
      match a with
      | ⟨0, _⟩ => show win0_0.index t (0 : Fin 2) * 4000 + 1 * p.val = win0_3.index t (1 : Fin 3) * 4000 + p.val; omega
      | ⟨1, _⟩ => show win0_0.index t (1 : Fin 2) * 128 + 1 * cc.val = cc.val; omega) r q

/-- An index of the array is in point t's block iff each coordinate is in the block's range on its axis. -/
theorem mem_blk0 (t : Fin cfg0.N) (i : S3x100000x128.Idx) :
    i ∈ ((cfg0.win 3).blk t).view.set ↔ ∀ a : Fin 3, win0_3.index t a * S3x4000x128.size a ≤ (i a).val
      ∧ (i a).val < win0_3.index t a * S3x4000x128.size a + S3x4000x128.size a := by
  show i ∈ ((View.whole main_v32).slice (win0_3.rect t)).set ↔ _
  rw [View.set_slice_whole, Rect.mem_set_unit]
  exact Iff.rfl

/-- The 25 blocks tile the array: row r lies in the block of point r / 4000. -/
theorem cover0 (i : S3x100000x128.Idx) :
    ∃ t : Fin cfg0.N, (cfg0.win 3).flush t = true ∧ i ∈ ((cfg0.win 3).blk t).view.set := by
  have h0 : (i 0).val < 3 := (i 0).isLt
  have h1 : (i 1).val < 100000 := (i 1).isLt
  have h2 : (i 2).val < 128 := (i 2).isLt
  obtain ⟨t, ht⟩ := idx_onto0 ⟨(i 1).val / 4000, by omega⟩
  have q0 : win0_3.index t (0 : Fin 3) = 0 := congrFun ht 0
  have q1 : win0_3.index t (1 : Fin 3) = (i 1).val / 4000 := congrFun ht 1
  have q2 : win0_3.index t (2 : Fin 3) = 0 := congrFun ht 2
  refine ⟨t, flush0_3 t, ?_⟩
  rw [mem_blk0]
  intro a
  match a with
  | ⟨0, _⟩ => show win0_3.index t (0 : Fin 3) * 3 ≤ (i 0).val ∧ (i 0).val < win0_3.index t (0 : Fin 3) * 3 + 3; omega
  | ⟨1, _⟩ => show win0_3.index t (1 : Fin 3) * 4000 ≤ (i 1).val ∧ (i 1).val < win0_3.index t (1 : Fin 3) * 4000 + 4000; omega
  | ⟨2, _⟩ => show win0_3.index t (2 : Fin 3) * 128 ≤ (i 2).val ∧ (i 2).val < win0_3.index t (2 : Fin 3) * 128 + 128; omega

/-- THE ARRAY after the projection region: the stacked projection of the arrays the region found. -/
theorem final0 (c : Dev nD) :
    (dat0 V c).arrAt 3 cfg0.N
      = (projAll (V c main_arg0) (V c main_arg2) (V c main_arg3) : S3x100000x128.Idx → Elt Ideal .bf16) :=
  (dat0 V c).arrAt_eq_of_cover 3 _ (fun t _ => flushed0_eq V c t) cover0

end Cert.KernelIdeal.HandValue

end
-- ==== Proof.SageBlocks.lean ====
/-
  What each combining kernel computes on a block of rows, as ONE function of its ten operands: the three aggregated
  feature blocks a₀ a₁ a₂, the nodes' own features h, the block D of reciprocal degrees (one column per edge type), the
  stacked weights Wl, Wr and biases bl, and the gain and offset vectors g, b.

    share₀ / share  — one edge type's term: the aggregate times its reciprocal-degree column, convolved with h (and, in
                      layer 0, scaled to unit rows);
    block₀          — layer 0: a third of the three unit-row terms, clamped below, standardised;
    block₁          — layer 1: a third of the three terms, clamped below, standardised;
    block₂          — layer 2: a third of the three terms.

  Each reads one row of a₀ a₁ a₂ h D per result row, so applied to a block of rows it gives those rows of the function
  applied to the whole arrays (`block₀_rows` …, the row map ρ a variable). And where column t of D holds the quotients
  1 / dₜ of nonzero divisors, the terms are the specification's: the aggregate divided row by row by dₜ (`share_eq`).
  Nothing here mentions a program.
-/
import proofs.«151081_j64338610094389_2_alg».proof.Proof.SageBody

noncomputable section

namespace Cert.Sage

open Idealize.ShloMosaic Idealize.ShloMosaic.ValueIdx Cert.Lib.MatProd Cert.Layers

variable {n n' k m : Nat}

/-- One edge type's term of a later layer. -/
def share (a h : (⟨2, ![n, k]⟩ : Shape).Idx → EReal) (D : (⟨2, ![n, m]⟩ : Shape).Idx → EReal) (o : Fin m)
    (Wl : (⟨2, ![k, k]⟩ : Shape).Idx → EReal) (bl : (⟨1, ![k]⟩ : Shape).Idx → EReal)
    (Wr : (⟨2, ![k, k]⟩ : Shape).Idx → EReal) : (⟨2, ![n, k]⟩ : Shape).Idx → EReal :=
  conv (mulCol a D o) h Wl bl Wr

/-- One edge type's term of layer 0: the same, its rows scaled to unit length. -/
def share₀ (ε : EReal) (a h : (⟨2, ![n, k]⟩ : Shape).Idx → EReal) (D : (⟨2, ![n, m]⟩ : Shape).Idx → EReal) (o : Fin m)
    (Wl : (⟨2, ![k, k]⟩ : Shape).Idx → EReal) (bl : (⟨1, ![k]⟩ : Shape).Idx → EReal)
    (Wr : (⟨2, ![k, k]⟩ : Shape).Idx → EReal) : (⟨2, ![n, k]⟩ : Shape).Idx → EReal :=
  unitRows ε (share a h D o Wl bl Wr)

/-- Layer 2's block. -/
def block₂ (z : EReal) (a₀ a₁ a₂ h : (⟨2, ![n, k]⟩ : Shape).Idx → EReal) (D : (⟨2, ![n, 3]⟩ : Shape).Idx → EReal)
    (Wl Wr : (⟨3, ![3, k, k]⟩ : Shape).Idx → EReal) (bl : (⟨2, ![3, k]⟩ : Shape).Idx → EReal) :
    (⟨2, ![n, k]⟩ : Shape).Idx → EReal :=
  third z (share a₀ h D 0 (slab Wl 0) (rowVec bl 0) (slab Wr 0))
    (share a₁ h D 1 (slab Wl 1) (rowVec bl 1) (slab Wr 1))
    (share a₂ h D 2 (slab Wl 2) (rowVec bl 2) (slab Wr 2))

/-- Layer 1's block. -/
def block₁ (z κ εₙ : EReal) (a₀ a₁ a₂ h : (⟨2, ![n, k]⟩ : Shape).Idx → EReal) (D : (⟨2, ![n, 3]⟩ : Shape).Idx → EReal)
    (Wl Wr : (⟨3, ![3, k, k]⟩ : Shape).Idx → EReal) (bl : (⟨2, ![3, k]⟩ : Shape).Idx → EReal)
    (g b : (⟨1, ![k]⟩ : Shape).Idx → EReal) : (⟨2, ![n, k]⟩ : Shape).Idx → EReal :=
  standardise κ εₙ (clampBelow z (block₂ z a₀ a₁ a₂ h D Wl Wr bl)) g b

/-- Layer 0's block. -/
def block₀ (z κ ε εₙ : EReal) (a₀ a₁ a₂ h : (⟨2, ![n, k]⟩ : Shape).Idx → EReal) (D : (⟨2, ![n, 3]⟩ : Shape).Idx → EReal)
    (Wl Wr : (⟨3, ![3, k, k]⟩ : Shape).Idx → EReal) (bl : (⟨2, ![3, k]⟩ : Shape).Idx → EReal)
    (g b : (⟨1, ![k]⟩ : Shape).Idx → EReal) : (⟨2, ![n, k]⟩ : Shape).Idx → EReal :=
  standardise κ εₙ (clampBelow z (third z
      (share₀ ε a₀ h D 0 (slab Wl 0) (rowVec bl 0) (slab Wr 0))
      (share₀ ε a₁ h D 1 (slab Wl 1) (rowVec bl 1) (slab Wr 1))
      (share₀ ε a₂ h D 2 (slab Wl 2) (rowVec bl 2) (slab Wr 2)))) g b

/-! ## Each block function reads one row -/

section Rows

variable (ρ : Fin n' → Fin n)

theorem mulCol_rows (A : (⟨2, ![n, k]⟩ : Shape).Idx → EReal) (A' : (⟨2, ![n', k]⟩ : Shape).Idx → EReal)
    (D : (⟨2, ![n, m]⟩ : Shape).Idx → EReal) (D' : (⟨2, ![n', m]⟩ : Shape).Idx → EReal) (o : Fin m)
    (hA : ∀ (p : Fin n') (c : Fin k), A' (ix2 p c) = A (ix2 (ρ p) c))
    (hD : ∀ (p : Fin n') (c : Fin m), D' (ix2 p c) = D (ix2 (ρ p) c)) (p : Fin n') (q : Fin k) :
    mulCol A' D' o (ix2 p q) = mulCol A D o (ix2 (ρ p) q) := by
  rw [mulCol_apply, mulCol_apply, hA, hD]

theorem share_rows (a h : (⟨2, ![n, k]⟩ : Shape).Idx → EReal) (a' h' : (⟨2, ![n', k]⟩ : Shape).Idx → EReal)
    (D : (⟨2, ![n, m]⟩ : Shape).Idx → EReal) (D' : (⟨2, ![n', m]⟩ : Shape).Idx → EReal) (o : Fin m)
    (Wl : (⟨2, ![k, k]⟩ : Shape).Idx → EReal) (bl : (⟨1, ![k]⟩ : Shape).Idx → EReal)
    (Wr : (⟨2, ![k, k]⟩ : Shape).Idx → EReal)
    (ha : ∀ (p : Fin n') (c : Fin k), a' (ix2 p c) = a (ix2 (ρ p) c))
    (hh : ∀ (p : Fin n') (c : Fin k), h' (ix2 p c) = h (ix2 (ρ p) c))
    (hD : ∀ (p : Fin n') (c : Fin m), D' (ix2 p c) = D (ix2 (ρ p) c)) (p : Fin n') (q : Fin k) :
    share a' h' D' o Wl bl Wr (ix2 p q) = share a h D o Wl bl Wr (ix2 (ρ p) q) :=
  conv_rows ρ _ _ _ _ Wl bl Wr (mulCol_rows ρ a a' D D' o ha hD) hh p q

theorem share₀_rows (ε : EReal) (a h : (⟨2, ![n, k]⟩ : Shape).Idx → EReal) (a' h' : (⟨2, ![n', k]⟩ : Shape).Idx → EReal)
    (D : (⟨2, ![n, m]⟩ : Shape).Idx → EReal) (D' : (⟨2, ![n', m]⟩ : Shape).Idx → EReal) (o : Fin m)
    (Wl : (⟨2, ![k, k]⟩ : Shape).Idx → EReal) (bl : (⟨1, ![k]⟩ : Shape).Idx → EReal)
    (Wr : (⟨2, ![k, k]⟩ : Shape).Idx → EReal)
    (ha : ∀ (p : Fin n') (c : Fin k), a' (ix2 p c) = a (ix2 (ρ p) c))
    (hh : ∀ (p : Fin n') (c : Fin k), h' (ix2 p c) = h (ix2 (ρ p) c))
    (hD : ∀ (p : Fin n') (c : Fin m), D' (ix2 p c) = D (ix2 (ρ p) c)) (p : Fin n') (q : Fin k) :
    share₀ ε a' h' D' o Wl bl Wr (ix2 p q) = share₀ ε a h D o Wl bl Wr (ix2 (ρ p) q) :=
  unitRows_rows ρ ε _ _ (share_rows ρ a h a' h' D D' o Wl bl Wr ha hh hD) p q

variable (a₀ a₁ a₂ h : (⟨2, ![n, k]⟩ : Shape).Idx → EReal) (a₀' a₁' a₂' h' : (⟨2, ![n', k]⟩ : Shape).Idx → EReal)
  (D : (⟨2, ![n, 3]⟩ : Shape).Idx → EReal) (D' : (⟨2, ![n', 3]⟩ : Shape).Idx → EReal)
  (Wl Wr : (⟨3, ![3, k, k]⟩ : Shape).Idx → EReal) (bl : (⟨2, ![3, k]⟩ : Shape).Idx → EReal)
  (g b : (⟨1, ![k]⟩ : Shape).Idx → EReal)
  (h₀ : ∀ (p : Fin n') (c : Fin k), a₀' (ix2 p c) = a₀ (ix2 (ρ p) c))
  (h₁ : ∀ (p : Fin n') (c : Fin k), a₁' (ix2 p c) = a₁ (ix2 (ρ p) c))
  (h₂ : ∀ (p : Fin n') (c : Fin k), a₂' (ix2 p c) = a₂ (ix2 (ρ p) c))
  (hh : ∀ (p : Fin n') (c : Fin k), h' (ix2 p c) = h (ix2 (ρ p) c))
  (hD : ∀ (p : Fin n') (c : Fin 3), D' (ix2 p c) = D (ix2 (ρ p) c))

include h₀ h₁ h₂ hh hD

theorem block₂_rows (z : EReal) (p : Fin n') (q : Fin k) :
    block₂ z a₀' a₁' a₂' h' D' Wl Wr bl (ix2 p q) = block₂ z a₀ a₁ a₂ h D Wl Wr bl (ix2 (ρ p) q) :=
  third_rows ρ z _ _ _ _ _ _
    (share_rows ρ a₀ h a₀' h' D D' 0 _ _ _ h₀ hh hD)
    (share_rows ρ a₁ h a₁' h' D D' 1 _ _ _ h₁ hh hD)
    (share_rows ρ a₂ h a₂' h' D D' 2 _ _ _ h₂ hh hD) p q

theorem block₁_rows (z κ εₙ : EReal) (p : Fin n') (q : Fin k) :
    block₁ z κ εₙ a₀' a₁' a₂' h' D' Wl Wr bl g b (ix2 p q) = block₁ z κ εₙ a₀ a₁ a₂ h D Wl Wr bl g b (ix2 (ρ p) q) :=
  standardise_rows ρ κ εₙ _ _ g b
    (clampBelow_rows ρ z _ _ (block₂_rows ρ a₀ a₁ a₂ h a₀' a₁' a₂' h' D D' Wl Wr bl h₀ h₁ h₂ hh hD z)) p q

theorem block₀_rows (z κ ε εₙ : EReal) (p : Fin n') (q : Fin k) :
    block₀ z κ ε εₙ a₀' a₁' a₂' h' D' Wl Wr bl g b (ix2 p q) = block₀ z κ ε εₙ a₀ a₁ a₂ h D Wl Wr bl g b (ix2 (ρ p) q) :=
  standardise_rows ρ κ εₙ _ _ g b
    (clampBelow_rows ρ z _ _ (third_rows ρ z _ _ _ _ _ _
      (share₀_rows ρ ε a₀ h a₀' h' D D' 0 _ _ _ h₀ hh hD)
      (share₀_rows ρ ε a₁ h a₁' h' D D' 1 _ _ _ h₁ hh hD)
      (share₀_rows ρ ε a₂ h a₂' h' D D' 2 _ _ _ h₂ hh hD))) p q

end Rows

/-! ## With the reciprocal degrees in D, the terms are the specification's -/

/-- Where column o of D holds 1 / d for a vector d of nonzero divisors, a term multiplies nothing: it divides by d. -/
theorem share_eq (a h : (⟨2, ![n, k]⟩ : Shape).Idx → EReal) (D : (⟨2, ![n, m]⟩ : Shape).Idx → EReal) (o : Fin m)
    (d : (⟨1, ![n]⟩ : Shape).Idx → EReal) (hD : ∀ p : Fin n, D (ix2 p o) = Ideal.div 1 (d (ix1 p)))
    (hd : ∀ p : Fin n, d (ix1 p) ≠ 0)
    (Wl : (⟨2, ![k, k]⟩ : Shape).Idx → EReal) (bl : (⟨1, ![k]⟩ : Shape).Idx → EReal)
    (Wr : (⟨2, ![k, k]⟩ : Shape).Idx → EReal) :
    share a h D o Wl bl Wr = conv (divRows a d) h Wl bl Wr := by
  unfold share
  rw [mulCol_eq_divRows a D o d hD hd]

end Cert.Sage

end
-- ==== Proof.SageConsts.lean ====
/-
  The few literal words of the two programs whose VALUE the comparison needs, as the extended reals they denote: 3.0
  (the reference divides by it where the kernel multiplies by a named third), 1.0 (the reciprocal degrees are quotients
  of it), and that 128.0 and the variance's ε denote positive numbers (so a variance plus ε is positive). Every other
  word stands unevaluated on both sides. All of them are stated in this one module (the row-reduction lemmas, imported
  here, evaluate the one word −∞ the same way).
-/
import Idealize.ShloMosaic.PureOps.Ideal
import proofs.«151081_j64338610094389_2_alg».proof.Proof.LibRowReductions

noncomputable section

namespace Cert.Sage.Consts

open Idealize.ShloMosaic

/-- The word 3.0 denotes the real 3. -/
theorem ofBits_three : Ideal.ofBits .f32 0x40400000#32 = ((3 : ℝ) : EReal) := by
  simp [Ideal.ofBits, Ideal.ieee, -EReal.coe_mul]; norm_num

/-- The word 1.0 denotes 1. -/
theorem ofBits_one : Ideal.ofBits .f32 0x3F800000#32 = 1 := by
  simp [Ideal.ofBits, Ideal.ieee, -EReal.coe_mul]; norm_num

/-- The word 128.0 denotes a positive number. -/
theorem pos_128 : 0 < Ideal.ofBits .f32 0x43000000#32 := by
  simp [Ideal.ofBits, Ideal.ieee]
  exact_mod_cast (by positivity : (0 : ℝ) < 8388608 * (2 ^ 16)⁻¹)

/-- The variance's ε (the word 0x3727C5AC) denotes a positive number. -/
theorem pos_eps : 0 < Ideal.ofBits .f32 0x3727C5AC#32 := by
  simp [Ideal.ofBits, Ideal.ieee]
  exact_mod_cast (by positivity : (0 : ℝ) < 10995116 * (2 ^ 40)⁻¹)

end Cert.Sage.Consts

end
-- ==== Proof.KIValue1.lean ====
/-
  The layer-0 combining kernel's block, as a function: what its one store leaves in the output block is `block₀` of its
  ten input blocks — a third of the three edge types' unit-row terms, clamped below at zero and standardised. The
  body's scalar for one third is a named constant whose value at the extended reals is 1/3.
-/
import proofs.«151081_j64338610094389_2_alg».proof.Proof.KIRegion1
import proofs.«151081_j64338610094389_2_alg».proof.Proof.SageBlocks
import proofs.«151081_j64338610094389_2_alg».proof.Proof.SageLoads
import proofs.«151081_j64338610094389_2_alg».proof.Proof.SageConsts

set_option maxRecDepth 16384

noncomputable section

namespace Cert.KernelIdeal.HandValue

open Idealize.ShloMosaic Idealize.ShloMosaic.ValueIdx Cert.KernelIdeal Cert.KernelIdeal.Gen Cert.KernelIdeal.Hand
open Cert.Lib.MatProd Cert.Layers Cert.Sage Cert.Sage.Consts

theorem zero2 : (![0, 0] : Fin 2 → Nat) = fun _ => 0 := funext fun a => by fin_cases a <;> rfl
theorem zero1 : (![0] : Fin 1 → Nat) = fun _ => 0 := funext fun a => by fin_cases a; rfl

/-- The named third is the rational 1/3 on the extended reals, by the program's table. -/
theorem inv_3 : Named.named (F := Ideal) Cert.KernelIdeal.κ "inv_3" (φ := .f32) 0x3EAAAAAB#32 = ((1 / 3 : ℝ) : EReal) :=
  IdealRules.named_const.ideal_named_scalar _ _ _ _ rfl

/-- Layer 0's block with the edge types' indices written as pairs (the form the loads' lemmas produce). -/
theorem block₀_pairs {n k : Nat} (z κ ε εₙ : EReal) (a₀ a₁ a₂ h : (⟨2, ![n, k]⟩ : Shape).Idx → EReal)
    (D : (⟨2, ![n, 3]⟩ : Shape).Idx → EReal) (Wl Wr : (⟨3, ![3, k, k]⟩ : Shape).Idx → EReal)
    (bl : (⟨2, ![3, k]⟩ : Shape).Idx → EReal) (g b : (⟨1, ![k]⟩ : Shape).Idx → EReal) :
    block₀ z κ ε εₙ a₀ a₁ a₂ h D Wl Wr bl g b
      = standardise κ εₙ (clampBelow z (third z
          (unitRows ε (conv (mulCol a₀ D ⟨0, by decide⟩) h (slab Wl ⟨0, by decide⟩) (rowVec bl ⟨0, by decide⟩) (slab Wr ⟨0, by decide⟩)))
          (unitRows ε (conv (mulCol a₁ D ⟨1, by decide⟩) h (slab Wl ⟨1, by decide⟩) (rowVec bl ⟨1, by decide⟩) (slab Wr ⟨1, by decide⟩)))
          (unitRows ε (conv (mulCol a₂ D ⟨2, by decide⟩) h (slab Wl ⟨2, by decide⟩) (rowVec bl ⟨2, by decide⟩) (slab Wr ⟨2, by decide⟩)))))
        g b := rfl

set_option maxHeartbeats 2000000 in
theorem out1_eq (x0 x1 x2 x3 : Vec Ideal S4000x128 .f32) (x4 : Vec Ideal S4000x3 .f32) (x5 x6 : Vec Ideal S3x128x128 .f32)
    (x7 : Vec Ideal S3x128 .f32) (x8 x9 : Vec Ideal S128 .f32) :
    out1_10 (F := Ideal) x0 x1 x2 x3 x4 x5 x6 x7 x8 x9
      = block₀ (Ideal.ofBits .f32 0x00000000#32) (Ideal.ofBits .f32 0x43000000#32) (Ideal.ofBits .f32 0x2B8CBCCC#32)
          (Ideal.ofBits .f32 0x3727C5AC#32) x0 x1 x2 x3 x4 x5 x6 x7 x8 x9 := by
  unfold out1_10
  dsimp only
  rw [View.canon_unit_zero zero2]
  unfold k1_pay1 k1_pay13 k1_pay14 k1_pay12 k1_pay11 k1_pay10 k1_pay9 k1_pay8 k1_pay7 k1_pay6 k1_pay5 k1_pay4 k1_pay3 k1_pay2
  dsimp only
  rw [View.ld_unit_zero (S := S4000x128) zero2 _ x0, View.ld_unit_zero (S := S4000x128) zero2 _ x1,
    View.ld_unit_zero (S := S4000x128) zero2 _ x2, View.ld_unit_zero (S := S4000x128) zero2 _ x3,
    View.ld_unit_zero (S := S4000x3) zero2 _ x4, View.ld_unit_zero (S := S128) zero1 _ x8,
    View.ld_unit_zero (S := S128) zero1 _ x9]
  simp only [shapeCast_self]
  rw [ld_slab x5 0 (by decide), ld_slab x5 1 (by decide), ld_slab x5 2 (by decide),
    ld_slab x6 0 (by decide), ld_slab x6 1 (by decide), ld_slab x6 2 (by decide),
    ld_row x7 0 (by decide), ld_row x7 1 (by decide), ld_row x7 2 (by decide)]
  rw [body_mulCol x0 x4 0 (by decide), body_mulCol x1 x4 1 (by decide), body_mulCol x2 x4 2 (by decide)]
  rw [body_conv _ x3 (slab x5 ⟨0, by decide⟩) (slab x6 ⟨0, by decide⟩) (rowVec x7 ⟨0, by decide⟩)
      dot_S4000x128_S128x128_S4000x128_1_0_0_1_n_n rfl rfl rfl rfl rfl rfl,
    body_conv _ x3 (slab x5 ⟨1, by decide⟩) (slab x6 ⟨1, by decide⟩) (rowVec x7 ⟨1, by decide⟩)
      dot_S4000x128_S128x128_S4000x128_1_0_0_1_n_n rfl rfl rfl rfl rfl rfl,
    body_conv _ x3 (slab x5 ⟨2, by decide⟩) (slab x6 ⟨2, by decide⟩) (rowVec x7 ⟨2, by decide⟩)
      dot_S4000x128_S128x128_S4000x128_1_0_0_1_n_n rfl rfl rfl rfl rfl rfl]
  rw [block₀_pairs]
  generalize conv (mulCol x0 x4 ⟨0, by decide⟩) x3 (slab x5 ⟨0, by decide⟩) (rowVec x7 ⟨0, by decide⟩) (slab x6 ⟨0, by decide⟩) = c0
  generalize conv (mulCol x1 x4 ⟨1, by decide⟩) x3 (slab x5 ⟨1, by decide⟩) (rowVec x7 ⟨1, by decide⟩) (slab x6 ⟨1, by decide⟩) = c1
  generalize conv (mulCol x2 x4 ⟨2, by decide⟩) x3 (slab x5 ⟨2, by decide⟩) (rowVec x7 ⟨2, by decide⟩) (slab x6 ⟨2, by decide⟩) = c2
  rw [body_unitRows c0 0x2B8CBCCC#32 reduces_S4000x128_S4000 (.inl rfl) rfl shapeCasts_S4000_S4000x1 broadcasts_S4000x1_S4000x128,
    body_unitRows c1 0x2B8CBCCC#32 reduces_S4000x128_S4000 (.inl rfl) rfl shapeCasts_S4000_S4000x1 broadcasts_S4000x1_S4000x128,
    body_unitRows c2 0x2B8CBCCC#32 reduces_S4000x128_S4000 (.inl rfl) rfl shapeCasts_S4000_S4000x1 broadcasts_S4000x1_S4000x128]
  generalize unitRows (Ideal.ofBits .f32 0x2B8CBCCC#32) c0 = u0
  generalize unitRows (Ideal.ofBits .f32 0x2B8CBCCC#32) c1 = u1
  generalize unitRows (Ideal.ofBits .f32 0x2B8CBCCC#32) c2 = u2
  rw [body_third 0x00000000#32 _ inv_3 u0 u1 u2]
  generalize third (Ideal.ofBits .f32 0x00000000#32) u0 u1 u2 = T
  rw [body_clamp 0x00000000#32 T]
  generalize clampBelow (Ideal.ofBits .f32 0x00000000#32) T = X
  have hst := body_standardise X x8 x9 0x43000000#32 0x3727C5AC#32 pos_128 pos_eps reduces_S4000x128_S4000 (.inl rfl) rfl
    shapeCasts_S4000_S4000x1 broadcasts_S4000x1_S4000x128 shapeCasts_S128_S1x128 broadcasts_S1x128_S4000x128
  dsimp only at hst
  exact hst

end Cert.KernelIdeal.HandValue

end
-- ==== Proof.KIFinal1.lean ====
/-
  The output array of the first combining region: after the region, the 100000×128 array holds a third of the three edge types' unit-row terms, clamped below at zero and standardised —
  `block₀` of the WHOLE arrays the region found. Grid point i stores rows 4000·i … 4000·i + 3999; a row of the
  result reads that row of the three aggregates, of the nodes' features and of the reciprocal degrees only (the weights,
  biases, gain and offset are read whole at every point), so the block the body leaves is those rows of the function of the
  whole arrays; the 25 blocks tile the array.
-/
import proofs.«151081_j64338610094389_2_alg».proof.Proof.KIValue1

set_option maxRecDepth 16384

noncomputable section

namespace Cert.KernelIdeal.HandValue

open Idealize.ShloMosaic Idealize.ShloMosaic.TcCoe Idealize.ShloMosaic.ValueIdx
open Cert.KernelIdeal Cert.KernelIdeal.Gen Cert.KernelIdeal.Hand
open Idealize.ShloMosaic.Pipeline (Dat)
open Cert.Lib.MatProd Cert.Layers Cert.Sage

variable (V : (c : Dev nD) → (b : Ref sig .tc) → Buf (Elt Ideal) ((c : Thread nD τ).loc b))

/-- Row r of block i, of 25 blocks of 4000 rows, is a row of the array. -/
theorem row_lt1 (i r : Nat) (hi : i ≤ 24) (hr : r < 4000) : i * 4000 + r < 100000 := by omega

/-- The index maps over the grid: the five row-block windows (the aggregates, the features, the reciprocal degrees)
    move with the output window along the rows, at column block 0; the weight, bias, gain and offset windows stay at
    the origin; there are 25 row blocks. -/
theorem idx_facts1 : ∀ t : Fin cfg1.N,
    win1_0.index t (0 : Fin 2) = win1_10.index t (0 : Fin 2)
    ∧ win1_0.index t (1 : Fin 2) = 0
    ∧ win1_1.index t (0 : Fin 2) = win1_10.index t (0 : Fin 2)
    ∧ win1_1.index t (1 : Fin 2) = 0
    ∧ win1_2.index t (0 : Fin 2) = win1_10.index t (0 : Fin 2)
    ∧ win1_2.index t (1 : Fin 2) = 0
    ∧ win1_3.index t (0 : Fin 2) = win1_10.index t (0 : Fin 2)
    ∧ win1_3.index t (1 : Fin 2) = 0
    ∧ win1_4.index t (0 : Fin 2) = win1_10.index t (0 : Fin 2)
    ∧ win1_4.index t (1 : Fin 2) = 0
    ∧ win1_5.index t (0 : Fin 3) = 0
    ∧ win1_5.index t (1 : Fin 3) = 0
    ∧ win1_5.index t (2 : Fin 3) = 0
    ∧ win1_6.index t (0 : Fin 3) = 0
    ∧ win1_6.index t (1 : Fin 3) = 0
    ∧ win1_6.index t (2 : Fin 3) = 0
    ∧ win1_7.index t (0 : Fin 2) = 0
    ∧ win1_7.index t (1 : Fin 2) = 0
    ∧ win1_8.index t (0 : Fin 1) = 0
    ∧ win1_9.index t (0 : Fin 1) = 0
    ∧ win1_10.index t (1 : Fin 2) = 0
    ∧ win1_10.index t (0 : Fin 2) ≤ 24 :=
  (by decide +kernel : ∀ t : Fin grid1.N, _)

/-- Every row block is some point's. -/
theorem idx_onto1 : ∀ q : Fin 25, ∃ t : Fin cfg1.N, win1_10.index t = ![q.val, 0] :=
  (by decide +kernel : ∀ q : Fin 25, ∃ t : Fin grid1.N, win1_10.index t = ![q.val, 0])

set_option maxHeartbeats 1000000 in
/-- What point t writes back is block t of the layer's function of the arrays the region found. -/
theorem flushed1_eq (c : Dev nD) (t : Fin cfg1.N) :
    (dat1 V c).flushed 10 t = ((cfg1.win 10).blk t).view.read (Elt Ideal)
      (block₀ (Ideal.ofBits .f32 0x00000000#32) (Ideal.ofBits .f32 0x43000000#32) (Ideal.ofBits .f32 0x2B8CBCCC#32) (Ideal.ofBits .f32 0x3727C5AC#32) (V c main_v49) (V c main_v66) (V c main_v83) (V c main_arg0) (V c main_v31) (V c main_arg4) (V c main_arg6) (V c main_arg5) (V c main_v85) (V c main_v87) : S100000x128.Idx → Elt Ideal .f32) := by
  show (cfg1.win 10).cut (grid1.coords t) ((dat1 V c).after 10 t) = _
  rw [after1_10, out1_eq]
  obtain ⟨e0, z0, e1, z1, e2, z2, e3, z3, e4, z4, f50, f51, f52, f60, f61, f62, f70, f71, f8, f9, o1, o0⟩ := idx_facts1 t
  funext j
  obtain ⟨r, q, rfl⟩ : ∃ (r : Fin 4000) (q : Fin 128), j = ix2 r q := ⟨j 0, j 1, eq_ix2 (n0 := 4000) (n1 := 128) j⟩
  show block₀ (Ideal.ofBits .f32 0x00000000#32) (Ideal.ofBits .f32 0x43000000#32) (Ideal.ofBits .f32 0x2B8CBCCC#32) (Ideal.ofBits .f32 0x3727C5AC#32) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (ix2 r q)
      = block₀ (Ideal.ofBits .f32 0x00000000#32) (Ideal.ofBits .f32 0x43000000#32) (Ideal.ofBits .f32 0x2B8CBCCC#32) (Ideal.ofBits .f32 0x3727C5AC#32) (V c main_v49) (V c main_v66) (V c main_v83) (V c main_arg0) (V c main_v31) (V c main_arg4) (V c main_arg6) (V c main_arg5) (V c main_v85) (V c main_v87) (((cfg1.win 10).blk t).view.emb (ix2 r q))
  have hrow : win1_10.index t (0 : Fin 2) * 4000 + r.val < 100000 := row_lt1 _ _ o0 r.isLt
  have hemb : ((cfg1.win 10).blk t).view.emb (ix2 r q)
      = ix2 (⟨win1_10.index t (0 : Fin 2) * 4000 + r.val, hrow⟩ : Fin 100000) q := by
    funext a; apply Fin.ext
    match a with
    | ⟨0, _⟩ => show win1_10.index t (0 : Fin 2) * 4000 + 1 * r.val = win1_10.index t (0 : Fin 2) * 4000 + r.val; rw [Nat.one_mul]
    | ⟨1, _⟩ => show win1_10.index t (1 : Fin 2) * 128 + 1 * q.val = q.val; rw [o1, Nat.zero_mul, Nat.zero_add, Nat.one_mul]
  have h5 : (iblk1 V c 5 t : S3x128x128.Idx → Elt Ideal .f32) = V c main_arg4 := by
    funext y
    show V c main_arg4 (((cfg1.win 5).blk t).view.emb y) = V c main_arg4 y
    congr 1; funext a; apply Fin.ext
    match a with
    | ⟨0, _⟩ => show win1_5.index t (0 : Fin 3) * 3 + 1 * (y 0).val = (y 0).val; rw [f50, Nat.zero_mul, Nat.zero_add, Nat.one_mul]
    | ⟨1, _⟩ => show win1_5.index t (1 : Fin 3) * 128 + 1 * (y 1).val = (y 1).val; rw [f51, Nat.zero_mul, Nat.zero_add, Nat.one_mul]
    | ⟨2, _⟩ => show win1_5.index t (2 : Fin 3) * 128 + 1 * (y 2).val = (y 2).val; rw [f52, Nat.zero_mul, Nat.zero_add, Nat.one_mul]
  have h6 : (iblk1 V c 6 t : S3x128x128.Idx → Elt Ideal .f32) = V c main_arg6 := by
    funext y
    show V c main_arg6 (((cfg1.win 6).blk t).view.emb y) = V c main_arg6 y
    congr 1; funext a; apply Fin.ext
    match a with
    | ⟨0, _⟩ => show win1_6.index t (0 : Fin 3) * 3 + 1 * (y 0).val = (y 0).val; rw [f60, Nat.zero_mul, Nat.zero_add, Nat.one_mul]
    | ⟨1, _⟩ => show win1_6.index t (1 : Fin 3) * 128 + 1 * (y 1).val = (y 1).val; rw [f61, Nat.zero_mul, Nat.zero_add, Nat.one_mul]
    | ⟨2, _⟩ => show win1_6.index t (2 : Fin 3) * 128 + 1 * (y 2).val = (y 2).val; rw [f62, Nat.zero_mul, Nat.zero_add, Nat.one_mul]
  have h7 : (iblk1 V c 7 t : S3x128.Idx → Elt Ideal .f32) = V c main_arg5 := by
    funext y
    show V c main_arg5 (((cfg1.win 7).blk t).view.emb y) = V c main_arg5 y
    congr 1; funext a; apply Fin.ext
    match a with
    | ⟨0, _⟩ => show win1_7.index t (0 : Fin 2) * 3 + 1 * (y 0).val = (y 0).val; rw [f70, Nat.zero_mul, Nat.zero_add, Nat.one_mul]
    | ⟨1, _⟩ => show win1_7.index t (1 : Fin 2) * 128 + 1 * (y 1).val = (y 1).val; rw [f71, Nat.zero_mul, Nat.zero_add, Nat.one_mul]
  have h8 : (iblk1 V c 8 t : S128.Idx → Elt Ideal .f32) = V c main_v85 := by
    funext y
    show V c main_v85 (((cfg1.win 8).blk t).view.emb y) = V c main_v85 y
    congr 1; funext a; apply Fin.ext
    match a with
    | ⟨0, _⟩ => show win1_8.index t (0 : Fin 1) * 128 + 1 * (y 0).val = (y 0).val; rw [f8, Nat.zero_mul, Nat.zero_add, Nat.one_mul]
  have h9 : (iblk1 V c 9 t : S128.Idx → Elt Ideal .f32) = V c main_v87 := by
    funext y
    show V c main_v87 (((cfg1.win 9).blk t).view.emb y) = V c main_v87 y
    congr 1; funext a; apply Fin.ext
    match a with
    | ⟨0, _⟩ => show win1_9.index t (0 : Fin 1) * 128 + 1 * (y 0).val = (y 0).val; rw [f9, Nat.zero_mul, Nat.zero_add, Nat.one_mul]
  rw [hemb, h5, h6, h7, h8, h9]
  exact block₀_rows
    (fun p => (⟨win1_10.index t (0 : Fin 2) * 4000 + p.val, row_lt1 _ _ o0 p.isLt⟩ : Fin 100000))
    (V c main_v49) (V c main_v66) (V c main_v83) (V c main_arg0) (iblk1 V c 0 t) (iblk1 V c 1 t) (iblk1 V c 2 t) (iblk1 V c 3 t) (V c main_v31) (iblk1 V c 4 t) (V c main_arg4) (V c main_arg6) (V c main_arg5) (V c main_v85) (V c main_v87)
    (fun p cc => by
      show V c main_v49 (((cfg1.win 0).blk t).view.emb (ix2 p cc)) = V c main_v49 (ix2 _ cc)
      congr 1; funext a; apply Fin.ext
      match a with
      | ⟨0, _⟩ => show win1_0.index t (0 : Fin 2) * 4000 + 1 * p.val = win1_10.index t (0 : Fin 2) * 4000 + p.val; rw [e0, Nat.one_mul]
      | ⟨1, _⟩ => show win1_0.index t (1 : Fin 2) * 128 + 1 * cc.val = cc.val; rw [z0, Nat.zero_mul, Nat.zero_add, Nat.one_mul])
    (fun p cc => by
      show V c main_v66 (((cfg1.win 1).blk t).view.emb (ix2 p cc)) = V c main_v66 (ix2 _ cc)
      congr 1; funext a; apply Fin.ext
      match a with
      | ⟨0, _⟩ => show win1_1.index t (0 : Fin 2) * 4000 + 1 * p.val = win1_10.index t (0 : Fin 2) * 4000 + p.val; rw [e1, Nat.one_mul]
      | ⟨1, _⟩ => show win1_1.index t (1 : Fin 2) * 128 + 1 * cc.val = cc.val; rw [z1, Nat.zero_mul, Nat.zero_add, Nat.one_mul])
    (fun p cc => by
      show V c main_v83 (((cfg1.win 2).blk t).view.emb (ix2 p cc)) = V c main_v83 (ix2 _ cc)
      congr 1; funext a; apply Fin.ext
      match a with
      | ⟨0, _⟩ => show win1_2.index t (0 : Fin 2) * 4000 + 1 * p.val = win1_10.index t (0 : Fin 2) * 4000 + p.val; rw [e2, Nat.one_mul]
      | ⟨1, _⟩ => show win1_2.index t (1 : Fin 2) * 128 + 1 * cc.val = cc.val; rw [z2, Nat.zero_mul, Nat.zero_add, Nat.one_mul])
    (fun p cc => by
      show V c main_arg0 (((cfg1.win 3).blk t).view.emb (ix2 p cc)) = V c main_arg0 (ix2 _ cc)
      congr 1; funext a; apply Fin.ext
      match a with
      | ⟨0, _⟩ => show win1_3.index t (0 : Fin 2) * 4000 + 1 * p.val = win1_10.index t (0 : Fin 2) * 4000 + p.val; rw [e3, Nat.one_mul]
      | ⟨1, _⟩ => show win1_3.index t (1 : Fin 2) * 128 + 1 * cc.val = cc.val; rw [z3, Nat.zero_mul, Nat.zero_add, Nat.one_mul])
    (fun p cc => by
      show V c main_v31 (((cfg1.win 4).blk t).view.emb (ix2 p cc)) = V c main_v31 (ix2 _ cc)
      congr 1; funext a; apply Fin.ext
      match a with
      | ⟨0, _⟩ => show win1_4.index t (0 : Fin 2) * 4000 + 1 * p.val = win1_10.index t (0 : Fin 2) * 4000 + p.val; rw [e4, Nat.one_mul]
      | ⟨1, _⟩ => show win1_4.index t (1 : Fin 2) * 3 + 1 * cc.val = cc.val; rw [z4, Nat.zero_mul, Nat.zero_add, Nat.one_mul])
    (Ideal.ofBits .f32 0x00000000#32) (Ideal.ofBits .f32 0x43000000#32) (Ideal.ofBits .f32 0x2B8CBCCC#32) (Ideal.ofBits .f32 0x3727C5AC#32) r q

/-- An index of the array is in point t's block iff each coordinate is in the block's range on its axis. -/
theorem mem_blk1 (t : Fin cfg1.N) (i : S100000x128.Idx) :
    i ∈ ((cfg1.win 10).blk t).view.set ↔ ∀ a : Fin 2, win1_10.index t a * S4000x128.size a ≤ (i a).val
      ∧ (i a).val < win1_10.index t a * S4000x128.size a + S4000x128.size a := by
  show i ∈ ((View.whole main_v88).slice (win1_10.rect t)).set ↔ _
  rw [View.set_slice_whole, Rect.mem_set_unit]
  exact Iff.rfl

/-- The 25 blocks tile the array: row r lies in the block of point r / 4000. -/
theorem cover1 (i : S100000x128.Idx) :
    ∃ t : Fin cfg1.N, (cfg1.win 10).flush t = true ∧ i ∈ ((cfg1.win 10).blk t).view.set := by
  have h0 : (i 0).val < 100000 := (i 0).isLt
  have h1 : (i 1).val < 128 := (i 1).isLt
  obtain ⟨t, ht⟩ := idx_onto1 ⟨(i 0).val / 4000, by omega⟩
  have q0 : win1_10.index t (0 : Fin 2) = (i 0).val / 4000 := congrFun ht 0
  have q1 : win1_10.index t (1 : Fin 2) = 0 := congrFun ht 1
  refine ⟨t, flush1_10 t, ?_⟩
  rw [mem_blk1]
  intro a
  match a with
  | ⟨0, _⟩ => show win1_10.index t (0 : Fin 2) * 4000 ≤ (i 0).val ∧ (i 0).val < win1_10.index t (0 : Fin 2) * 4000 + 4000; omega
  | ⟨1, _⟩ => show win1_10.index t (1 : Fin 2) * 128 ≤ (i 1).val ∧ (i 1).val < win1_10.index t (1 : Fin 2) * 128 + 128; omega

/-- THE ARRAY after the first combining region: the layer's function of the arrays the region found. -/
theorem final1 (c : Dev nD) :
    (dat1 V c).arrAt 10 cfg1.N
      = (block₀ (Ideal.ofBits .f32 0x00000000#32) (Ideal.ofBits .f32 0x43000000#32) (Ideal.ofBits .f32 0x2B8CBCCC#32) (Ideal.ofBits .f32 0x3727C5AC#32) (V c main_v49) (V c main_v66) (V c main_v83) (V c main_arg0) (V c main_v31) (V c main_arg4) (V c main_arg6) (V c main_arg5) (V c main_v85) (V c main_v87) : S100000x128.Idx → Elt Ideal .f32) :=
  (dat1 V c).arrAt_eq_of_cover 10 _ (fun t _ => flushed1_eq V c t) cover1

end Cert.KernelIdeal.HandValue

end
-- ==== Proof.KIValue2.lean ====
/-
  The layer-1 combining kernel's block, as a function: what its one store leaves in the output block is `block₁` of its
  ten input blocks — a third of the three edge types' terms, clamped below at zero and standardised.
-/
import proofs.«151081_j64338610094389_2_alg».proof.Proof.KIRegion2
import proofs.«151081_j64338610094389_2_alg».proof.Proof.KIValue1

set_option maxRecDepth 16384

noncomputable section

namespace Cert.KernelIdeal.HandValue

open Idealize.ShloMosaic Idealize.ShloMosaic.ValueIdx Cert.KernelIdeal Cert.KernelIdeal.Gen Cert.KernelIdeal.Hand
open Cert.Lib.MatProd Cert.Layers Cert.Sage Cert.Sage.Consts

/-- A third of the three terms, with the edge types' indices written as pairs (the form the loads' lemmas produce). -/
theorem block₂_pairs {n k : Nat} (z : EReal) (a₀ a₁ a₂ h : (⟨2, ![n, k]⟩ : Shape).Idx → EReal)
    (D : (⟨2, ![n, 3]⟩ : Shape).Idx → EReal) (Wl Wr : (⟨3, ![3, k, k]⟩ : Shape).Idx → EReal)
    (bl : (⟨2, ![3, k]⟩ : Shape).Idx → EReal) :
    block₂ z a₀ a₁ a₂ h D Wl Wr bl
      = third z
          (conv (mulCol a₀ D ⟨0, by decide⟩) h (slab Wl ⟨0, by decide⟩) (rowVec bl ⟨0, by decide⟩) (slab Wr ⟨0, by decide⟩))
          (conv (mulCol a₁ D ⟨1, by decide⟩) h (slab Wl ⟨1, by decide⟩) (rowVec bl ⟨1, by decide⟩) (slab Wr ⟨1, by decide⟩))
          (conv (mulCol a₂ D ⟨2, by decide⟩) h (slab Wl ⟨2, by decide⟩) (rowVec bl ⟨2, by decide⟩) (slab Wr ⟨2, by decide⟩)) := rfl

set_option maxHeartbeats 2000000 in
theorem out2_eq (x0 x1 x2 x3 : Vec Ideal S4000x128 .f32) (x4 : Vec Ideal S4000x3 .f32) (x5 x6 : Vec Ideal S3x128x128 .f32)
    (x7 : Vec Ideal S3x128 .f32) (x8 x9 : Vec Ideal S128 .f32) :
    out2_10 (F := Ideal) x0 x1 x2 x3 x4 x5 x6 x7 x8 x9
      = block₁ (Ideal.ofBits .f32 0x00000000#32) (Ideal.ofBits .f32 0x43000000#32) (Ideal.ofBits .f32 0x3727C5AC#32)
          x0 x1 x2 x3 x4 x5 x6 x7 x8 x9 := by
  unfold out2_10
  dsimp only
  rw [View.canon_unit_zero zero2]
  unfold k2_pay1 k2_pay8 k2_pay7 k2_pay6 k2_pay5 k2_pay4 k2_pay3 k2_pay2
  dsimp only
  rw [View.ld_unit_zero (S := S128) zero1 _ x8, View.ld_unit_zero (S := S128) zero1 _ x9]
  rw [View.ld_unit_zero (S := S4000x128) zero2 _ x0, View.ld_unit_zero (S := S4000x128) zero2 _ x1,
    View.ld_unit_zero (S := S4000x128) zero2 _ x2, View.ld_unit_zero (S := S4000x128) zero2 _ x3,
    View.ld_unit_zero (S := S4000x3) zero2 _ x4]
  simp only [shapeCast_self]
  rw [ld_slab x5 0 (by decide), ld_slab x5 1 (by decide), ld_slab x5 2 (by decide),
    ld_slab x6 0 (by decide), ld_slab x6 1 (by decide), ld_slab x6 2 (by decide),
    ld_row x7 0 (by decide), ld_row x7 1 (by decide), ld_row x7 2 (by decide)]
  rw [body_mulCol x0 x4 0 (by decide), body_mulCol x1 x4 1 (by decide), body_mulCol x2 x4 2 (by decide)]
  rw [body_conv _ x3 (slab x5 ⟨0, by decide⟩) (slab x6 ⟨0, by decide⟩) (rowVec x7 ⟨0, by decide⟩)
      dot_S4000x128_S128x128_S4000x128_1_0_0_1_n_n rfl rfl rfl rfl rfl rfl,
    body_conv _ x3 (slab x5 ⟨1, by decide⟩) (slab x6 ⟨1, by decide⟩) (rowVec x7 ⟨1, by decide⟩)
      dot_S4000x128_S128x128_S4000x128_1_0_0_1_n_n rfl rfl rfl rfl rfl rfl,
    body_conv _ x3 (slab x5 ⟨2, by decide⟩) (slab x6 ⟨2, by decide⟩) (rowVec x7 ⟨2, by decide⟩)
      dot_S4000x128_S128x128_S4000x128_1_0_0_1_n_n rfl rfl rfl rfl rfl rfl]
  unfold block₁
  rw [block₂_pairs]
  generalize conv (mulCol x0 x4 ⟨0, by decide⟩) x3 (slab x5 ⟨0, by decide⟩) (rowVec x7 ⟨0, by decide⟩) (slab x6 ⟨0, by decide⟩) = c0
  generalize conv (mulCol x1 x4 ⟨1, by decide⟩) x3 (slab x5 ⟨1, by decide⟩) (rowVec x7 ⟨1, by decide⟩) (slab x6 ⟨1, by decide⟩) = c1
  generalize conv (mulCol x2 x4 ⟨2, by decide⟩) x3 (slab x5 ⟨2, by decide⟩) (rowVec x7 ⟨2, by decide⟩) (slab x6 ⟨2, by decide⟩) = c2
  rw [body_third 0x00000000#32 _ inv_3 c0 c1 c2]
  generalize third (Ideal.ofBits .f32 0x00000000#32) c0 c1 c2 = T
  rw [body_clamp 0x00000000#32 T]
  generalize clampBelow (Ideal.ofBits .f32 0x00000000#32) T = X
  have hst := body_standardise X x8 x9 0x43000000#32 0x3727C5AC#32 pos_128 pos_eps reduces_S4000x128_S4000 (.inl rfl) rfl
    shapeCasts_S4000_S4000x1 broadcasts_S4000x1_S4000x128 shapeCasts_S128_S1x128 broadcasts_S1x128_S4000x128
  dsimp only at hst
  exact hst

end Cert.KernelIdeal.HandValue

end
-- ==== Proof.KIFinal2.lean ====
/-
  The output array of the second combining region: after the region, the 100000×128 array holds a third of the three edge types' terms, clamped below at zero and standardised —
  `block₁` of the WHOLE arrays the region found. Grid point i stores rows 4000·i … 4000·i + 3999; a row of the
  result reads that row of the three aggregates, of the nodes' features and of the reciprocal degrees only (the weights,
  biases, gain and offset are read whole at every point), so the block the body leaves is those rows of the function of the
  whole arrays; the 25 blocks tile the array.
-/
import proofs.«151081_j64338610094389_2_alg».proof.Proof.KIValue2

set_option maxRecDepth 16384

noncomputable section

namespace Cert.KernelIdeal.HandValue

open Idealize.ShloMosaic Idealize.ShloMosaic.TcCoe Idealize.ShloMosaic.ValueIdx
open Cert.KernelIdeal Cert.KernelIdeal.Gen Cert.KernelIdeal.Hand
open Idealize.ShloMosaic.Pipeline (Dat)
open Cert.Lib.MatProd Cert.Layers Cert.Sage

variable (V : (c : Dev nD) → (b : Ref sig .tc) → Buf (Elt Ideal) ((c : Thread nD τ).loc b))

/-- Row r of block i, of 25 blocks of 4000 rows, is a row of the array. -/
theorem row_lt2 (i r : Nat) (hi : i ≤ 24) (hr : r < 4000) : i * 4000 + r < 100000 := by omega

/-- The index maps over the grid: the five row-block windows (the aggregates, the features, the reciprocal degrees)
    move with the output window along the rows, at column block 0; the weight, bias, gain and offset windows stay at
    the origin; there are 25 row blocks. -/
theorem idx_facts2 : ∀ t : Fin cfg2.N,
    win2_0.index t (0 : Fin 2) = win2_10.index t (0 : Fin 2)
    ∧ win2_0.index t (1 : Fin 2) = 0
    ∧ win2_1.index t (0 : Fin 2) = win2_10.index t (0 : Fin 2)
    ∧ win2_1.index t (1 : Fin 2) = 0
    ∧ win2_2.index t (0 : Fin 2) = win2_10.index t (0 : Fin 2)
    ∧ win2_2.index t (1 : Fin 2) = 0
    ∧ win2_3.index t (0 : Fin 2) = win2_10.index t (0 : Fin 2)
    ∧ win2_3.index t (1 : Fin 2) = 0
    ∧ win2_4.index t (0 : Fin 2) = win2_10.index t (0 : Fin 2)
    ∧ win2_4.index t (1 : Fin 2) = 0
    ∧ win2_5.index t (0 : Fin 3) = 0
    ∧ win2_5.index t (1 : Fin 3) = 0
    ∧ win2_5.index t (2 : Fin 3) = 0
    ∧ win2_6.index t (0 : Fin 3) = 0
    ∧ win2_6.index t (1 : Fin 3) = 0
    ∧ win2_6.index t (2 : Fin 3) = 0
    ∧ win2_7.index t (0 : Fin 2) = 0
    ∧ win2_7.index t (1 : Fin 2) = 0
    ∧ win2_8.index t (0 : Fin 1) = 0
    ∧ win2_9.index t (0 : Fin 1) = 0
    ∧ win2_10.index t (1 : Fin 2) = 0
    ∧ win2_10.index t (0 : Fin 2) ≤ 24 :=
  (by decide +kernel : ∀ t : Fin grid2.N, _)

/-- Every row block is some point's. -/
theorem idx_onto2 : ∀ q : Fin 25, ∃ t : Fin cfg2.N, win2_10.index t = ![q.val, 0] :=
  (by decide +kernel : ∀ q : Fin 25, ∃ t : Fin grid2.N, win2_10.index t = ![q.val, 0])

set_option maxHeartbeats 1000000 in
/-- What point t writes back is block t of the layer's function of the arrays the region found. -/
theorem flushed2_eq (c : Dev nD) (t : Fin cfg2.N) :
    (dat2 V c).flushed 10 t = ((cfg2.win 10).blk t).view.read (Elt Ideal)
      (block₁ (Ideal.ofBits .f32 0x00000000#32) (Ideal.ofBits .f32 0x43000000#32) (Ideal.ofBits .f32 0x3727C5AC#32) (V c main_v106) (V c main_v121) (V c main_v136) (V c main_v88) (V c main_v31) (V c main_v142) (V c main_v146) (V c main_v144) (V c main_v138) (V c main_v140) : S100000x128.Idx → Elt Ideal .f32) := by
  show (cfg2.win 10).cut (grid2.coords t) ((dat2 V c).after 10 t) = _
  rw [after2_10, out2_eq]
  obtain ⟨e0, z0, e1, z1, e2, z2, e3, z3, e4, z4, f50, f51, f52, f60, f61, f62, f70, f71, f8, f9, o1, o0⟩ := idx_facts2 t
  funext j
  obtain ⟨r, q, rfl⟩ : ∃ (r : Fin 4000) (q : Fin 128), j = ix2 r q := ⟨j 0, j 1, eq_ix2 (n0 := 4000) (n1 := 128) j⟩
  show block₁ (Ideal.ofBits .f32 0x00000000#32) (Ideal.ofBits .f32 0x43000000#32) (Ideal.ofBits .f32 0x3727C5AC#32) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (ix2 r q)
      = block₁ (Ideal.ofBits .f32 0x00000000#32) (Ideal.ofBits .f32 0x43000000#32) (Ideal.ofBits .f32 0x3727C5AC#32) (V c main_v106) (V c main_v121) (V c main_v136) (V c main_v88) (V c main_v31) (V c main_v142) (V c main_v146) (V c main_v144) (V c main_v138) (V c main_v140) (((cfg2.win 10).blk t).view.emb (ix2 r q))
  have hrow : win2_10.index t (0 : Fin 2) * 4000 + r.val < 100000 := row_lt2 _ _ o0 r.isLt
  have hemb : ((cfg2.win 10).blk t).view.emb (ix2 r q)
      = ix2 (⟨win2_10.index t (0 : Fin 2) * 4000 + r.val, hrow⟩ : Fin 100000) q := by
    funext a; apply Fin.ext
    match a with
    | ⟨0, _⟩ => show win2_10.index t (0 : Fin 2) * 4000 + 1 * r.val = win2_10.index t (0 : Fin 2) * 4000 + r.val; rw [Nat.one_mul]
    | ⟨1, _⟩ => show win2_10.index t (1 : Fin 2) * 128 + 1 * q.val = q.val; rw [o1, Nat.zero_mul, Nat.zero_add, Nat.one_mul]
  have h5 : (iblk2 V c 5 t : S3x128x128.Idx → Elt Ideal .f32) = V c main_v142 := by
    funext y
    show V c main_v142 (((cfg2.win 5).blk t).view.emb y) = V c main_v142 y
    congr 1; funext a; apply Fin.ext
    match a with
    | ⟨0, _⟩ => show win2_5.index t (0 : Fin 3) * 3 + 1 * (y 0).val = (y 0).val; rw [f50, Nat.zero_mul, Nat.zero_add, Nat.one_mul]
    | ⟨1, _⟩ => show win2_5.index t (1 : Fin 3) * 128 + 1 * (y 1).val = (y 1).val; rw [f51, Nat.zero_mul, Nat.zero_add, Nat.one_mul]
    | ⟨2, _⟩ => show win2_5.index t (2 : Fin 3) * 128 + 1 * (y 2).val = (y 2).val; rw [f52, Nat.zero_mul, Nat.zero_add, Nat.one_mul]
  have h6 : (iblk2 V c 6 t : S3x128x128.Idx → Elt Ideal .f32) = V c main_v146 := by
    funext y
    show V c main_v146 (((cfg2.win 6).blk t).view.emb y) = V c main_v146 y
    congr 1; funext a; apply Fin.ext
    match a with
    | ⟨0, _⟩ => show win2_6.index t (0 : Fin 3) * 3 + 1 * (y 0).val = (y 0).val; rw [f60, Nat.zero_mul, Nat.zero_add, Nat.one_mul]
    | ⟨1, _⟩ => show win2_6.index t (1 : Fin 3) * 128 + 1 * (y 1).val = (y 1).val; rw [f61, Nat.zero_mul, Nat.zero_add, Nat.one_mul]
    | ⟨2, _⟩ => show win2_6.index t (2 : Fin 3) * 128 + 1 * (y 2).val = (y 2).val; rw [f62, Nat.zero_mul, Nat.zero_add, Nat.one_mul]
  have h7 : (iblk2 V c 7 t : S3x128.Idx → Elt Ideal .f32) = V c main_v144 := by
    funext y
    show V c main_v144 (((cfg2.win 7).blk t).view.emb y) = V c main_v144 y
    congr 1; funext a; apply Fin.ext
    match a with
    | ⟨0, _⟩ => show win2_7.index t (0 : Fin 2) * 3 + 1 * (y 0).val = (y 0).val; rw [f70, Nat.zero_mul, Nat.zero_add, Nat.one_mul]
    | ⟨1, _⟩ => show win2_7.index t (1 : Fin 2) * 128 + 1 * (y 1).val = (y 1).val; rw [f71, Nat.zero_mul, Nat.zero_add, Nat.one_mul]
  have h8 : (iblk2 V c 8 t : S128.Idx → Elt Ideal .f32) = V c main_v138 := by
    funext y
    show V c main_v138 (((cfg2.win 8).blk t).view.emb y) = V c main_v138 y
    congr 1; funext a; apply Fin.ext
    match a with
    | ⟨0, _⟩ => show win2_8.index t (0 : Fin 1) * 128 + 1 * (y 0).val = (y 0).val; rw [f8, Nat.zero_mul, Nat.zero_add, Nat.one_mul]
  have h9 : (iblk2 V c 9 t : S128.Idx → Elt Ideal .f32) = V c main_v140 := by
    funext y
    show V c main_v140 (((cfg2.win 9).blk t).view.emb y) = V c main_v140 y
    congr 1; funext a; apply Fin.ext
    match a with
    | ⟨0, _⟩ => show win2_9.index t (0 : Fin 1) * 128 + 1 * (y 0).val = (y 0).val; rw [f9, Nat.zero_mul, Nat.zero_add, Nat.one_mul]
  rw [hemb, h5, h6, h7, h8, h9]
  exact block₁_rows
    (fun p => (⟨win2_10.index t (0 : Fin 2) * 4000 + p.val, row_lt2 _ _ o0 p.isLt⟩ : Fin 100000))
    (V c main_v106) (V c main_v121) (V c main_v136) (V c main_v88) (iblk2 V c 0 t) (iblk2 V c 1 t) (iblk2 V c 2 t) (iblk2 V c 3 t) (V c main_v31) (iblk2 V c 4 t) (V c main_v142) (V c main_v146) (V c main_v144) (V c main_v138) (V c main_v140)
    (fun p cc => by
      show V c main_v106 (((cfg2.win 0).blk t).view.emb (ix2 p cc)) = V c main_v106 (ix2 _ cc)
      congr 1; funext a; apply Fin.ext
      match a with
      | ⟨0, _⟩ => show win2_0.index t (0 : Fin 2) * 4000 + 1 * p.val = win2_10.index t (0 : Fin 2) * 4000 + p.val; rw [e0, Nat.one_mul]
      | ⟨1, _⟩ => show win2_0.index t (1 : Fin 2) * 128 + 1 * cc.val = cc.val; rw [z0, Nat.zero_mul, Nat.zero_add, Nat.one_mul])
    (fun p cc => by
      show V c main_v121 (((cfg2.win 1).blk t).view.emb (ix2 p cc)) = V c main_v121 (ix2 _ cc)
      congr 1; funext a; apply Fin.ext
      match a with
      | ⟨0, _⟩ => show win2_1.index t (0 : Fin 2) * 4000 + 1 * p.val = win2_10.index t (0 : Fin 2) * 4000 + p.val; rw [e1, Nat.one_mul]
      | ⟨1, _⟩ => show win2_1.index t (1 : Fin 2) * 128 + 1 * cc.val = cc.val; rw [z1, Nat.zero_mul, Nat.zero_add, Nat.one_mul])
    (fun p cc => by
      show V c main_v136 (((cfg2.win 2).blk t).view.emb (ix2 p cc)) = V c main_v136 (ix2 _ cc)
      congr 1; funext a; apply Fin.ext
      match a with
      | ⟨0, _⟩ => show win2_2.index t (0 : Fin 2) * 4000 + 1 * p.val = win2_10.index t (0 : Fin 2) * 4000 + p.val; rw [e2, Nat.one_mul]
      | ⟨1, _⟩ => show win2_2.index t (1 : Fin 2) * 128 + 1 * cc.val = cc.val; rw [z2, Nat.zero_mul, Nat.zero_add, Nat.one_mul])
    (fun p cc => by
      show V c main_v88 (((cfg2.win 3).blk t).view.emb (ix2 p cc)) = V c main_v88 (ix2 _ cc)
      congr 1; funext a; apply Fin.ext
      match a with
      | ⟨0, _⟩ => show win2_3.index t (0 : Fin 2) * 4000 + 1 * p.val = win2_10.index t (0 : Fin 2) * 4000 + p.val; rw [e3, Nat.one_mul]
      | ⟨1, _⟩ => show win2_3.index t (1 : Fin 2) * 128 + 1 * cc.val = cc.val; rw [z3, Nat.zero_mul, Nat.zero_add, Nat.one_mul])
    (fun p cc => by
      show V c main_v31 (((cfg2.win 4).blk t).view.emb (ix2 p cc)) = V c main_v31 (ix2 _ cc)
      congr 1; funext a; apply Fin.ext
      match a with
      | ⟨0, _⟩ => show win2_4.index t (0 : Fin 2) * 4000 + 1 * p.val = win2_10.index t (0 : Fin 2) * 4000 + p.val; rw [e4, Nat.one_mul]
      | ⟨1, _⟩ => show win2_4.index t (1 : Fin 2) * 3 + 1 * cc.val = cc.val; rw [z4, Nat.zero_mul, Nat.zero_add, Nat.one_mul])
    (Ideal.ofBits .f32 0x00000000#32) (Ideal.ofBits .f32 0x43000000#32) (Ideal.ofBits .f32 0x3727C5AC#32) r q

/-- An index of the array is in point t's block iff each coordinate is in the block's range on its axis. -/
theorem mem_blk2 (t : Fin cfg2.N) (i : S100000x128.Idx) :
    i ∈ ((cfg2.win 10).blk t).view.set ↔ ∀ a : Fin 2, win2_10.index t a * S4000x128.size a ≤ (i a).val
      ∧ (i a).val < win2_10.index t a * S4000x128.size a + S4000x128.size a := by
  show i ∈ ((View.whole main_v147).slice (win2_10.rect t)).set ↔ _
  rw [View.set_slice_whole, Rect.mem_set_unit]
  exact Iff.rfl

/-- The 25 blocks tile the array: row r lies in the block of point r / 4000. -/
theorem cover2 (i : S100000x128.Idx) :
    ∃ t : Fin cfg2.N, (cfg2.win 10).flush t = true ∧ i ∈ ((cfg2.win 10).blk t).view.set := by
  have h0 : (i 0).val < 100000 := (i 0).isLt
  have h1 : (i 1).val < 128 := (i 1).isLt
  obtain ⟨t, ht⟩ := idx_onto2 ⟨(i 0).val / 4000, by omega⟩
  have q0 : win2_10.index t (0 : Fin 2) = (i 0).val / 4000 := congrFun ht 0
  have q1 : win2_10.index t (1 : Fin 2) = 0 := congrFun ht 1
  refine ⟨t, flush2_10 t, ?_⟩
  rw [mem_blk2]
  intro a
  match a with
  | ⟨0, _⟩ => show win2_10.index t (0 : Fin 2) * 4000 ≤ (i 0).val ∧ (i 0).val < win2_10.index t (0 : Fin 2) * 4000 + 4000; omega
  | ⟨1, _⟩ => show win2_10.index t (1 : Fin 2) * 128 ≤ (i 1).val ∧ (i 1).val < win2_10.index t (1 : Fin 2) * 128 + 128; omega

/-- THE ARRAY after the second combining region: the layer's function of the arrays the region found. -/
theorem final2 (c : Dev nD) :
    (dat2 V c).arrAt 10 cfg2.N
      = (block₁ (Ideal.ofBits .f32 0x00000000#32) (Ideal.ofBits .f32 0x43000000#32) (Ideal.ofBits .f32 0x3727C5AC#32) (V c main_v106) (V c main_v121) (V c main_v136) (V c main_v88) (V c main_v31) (V c main_v142) (V c main_v146) (V c main_v144) (V c main_v138) (V c main_v140) : S100000x128.Idx → Elt Ideal .f32) :=
  (dat2 V c).arrAt_eq_of_cover 10 _ (fun t _ => flushed2_eq V c t) cover2

end Cert.KernelIdeal.HandValue

end
-- ==== Proof.KIValue3.lean ====
/-
  The layer-2 combining kernel's block, as a function: what its one store leaves in the output block is `block₂` of its
  input blocks — a third of the three edge types' terms (its gain and offset windows are not read).
-/
import proofs.«151081_j64338610094389_2_alg».proof.Proof.KIRegion3
import proofs.«151081_j64338610094389_2_alg».proof.Proof.KIValue2

set_option maxRecDepth 16384

noncomputable section

namespace Cert.KernelIdeal.HandValue

open Idealize.ShloMosaic Idealize.ShloMosaic.ValueIdx Cert.KernelIdeal Cert.KernelIdeal.Gen Cert.KernelIdeal.Hand
open Cert.Lib.MatProd Cert.Layers Cert.Sage Cert.Sage.Consts

set_option maxHeartbeats 2000000 in
theorem out3_eq (x0 x1 x2 x3 : Vec Ideal S4000x128 .f32) (x4 : Vec Ideal S4000x3 .f32) (x5 x6 : Vec Ideal S3x128x128 .f32)
    (x7 : Vec Ideal S3x128 .f32) (x8 x9 : Vec Ideal S128 .f32) :
    out3_10 (F := Ideal) x0 x1 x2 x3 x4 x5 x6 x7 x8 x9
      = block₂ (Ideal.ofBits .f32 0x00000000#32) x0 x1 x2 x3 x4 x5 x6 x7 := by
  unfold out3_10
  dsimp only
  rw [View.canon_unit_zero zero2]
  unfold k3_pay1 k3_pay6 k3_pay5 k3_pay4 k3_pay3 k3_pay2
  dsimp only
  rw [View.ld_unit_zero (S := S4000x128) zero2 _ x0, View.ld_unit_zero (S := S4000x128) zero2 _ x1,
    View.ld_unit_zero (S := S4000x128) zero2 _ x2, View.ld_unit_zero (S := S4000x128) zero2 _ x3,
    View.ld_unit_zero (S := S4000x3) zero2 _ x4]
  simp only [shapeCast_self]
  rw [ld_slab x5 0 (by decide), ld_slab x5 1 (by decide), ld_slab x5 2 (by decide),
    ld_slab x6 0 (by decide), ld_slab x6 1 (by decide), ld_slab x6 2 (by decide),
    ld_row x7 0 (by decide), ld_row x7 1 (by decide), ld_row x7 2 (by decide)]
  rw [body_mulCol x0 x4 0 (by decide), body_mulCol x1 x4 1 (by decide), body_mulCol x2 x4 2 (by decide)]
  rw [body_conv _ x3 (slab x5 ⟨0, by decide⟩) (slab x6 ⟨0, by decide⟩) (rowVec x7 ⟨0, by decide⟩)
      dot_S4000x128_S128x128_S4000x128_1_0_0_1_n_n rfl rfl rfl rfl rfl rfl,
    body_conv _ x3 (slab x5 ⟨1, by decide⟩) (slab x6 ⟨1, by decide⟩) (rowVec x7 ⟨1, by decide⟩)
      dot_S4000x128_S128x128_S4000x128_1_0_0_1_n_n rfl rfl rfl rfl rfl rfl,
    body_conv _ x3 (slab x5 ⟨2, by decide⟩) (slab x6 ⟨2, by decide⟩) (rowVec x7 ⟨2, by decide⟩)
      dot_S4000x128_S128x128_S4000x128_1_0_0_1_n_n rfl rfl rfl rfl rfl rfl]
  rw [block₂_pairs]
  generalize conv (mulCol x0 x4 ⟨0, by decide⟩) x3 (slab x5 ⟨0, by decide⟩) (rowVec x7 ⟨0, by decide⟩) (slab x6 ⟨0, by decide⟩) = c0
  generalize conv (mulCol x1 x4 ⟨1, by decide⟩) x3 (slab x5 ⟨1, by decide⟩) (rowVec x7 ⟨1, by decide⟩) (slab x6 ⟨1, by decide⟩) = c1
  generalize conv (mulCol x2 x4 ⟨2, by decide⟩) x3 (slab x5 ⟨2, by decide⟩) (rowVec x7 ⟨2, by decide⟩) (slab x6 ⟨2, by decide⟩) = c2
  exact body_third 0x00000000#32 _ inv_3 c0 c1 c2

end Cert.KernelIdeal.HandValue

end
-- ==== Proof.KIFinal3.lean ====
/-
  The output array of the last combining region: after the region, the 100000×128 array holds a third of the three edge types' terms —
  `block₂` of the WHOLE arrays the region found. Grid point i stores rows 4000·i … 4000·i + 3999; a row of the
  result reads that row of the three aggregates, of the nodes' features and of the reciprocal degrees only (the weights,
  biases are read whole at every point), so the block the body leaves is those rows of the function of the
  whole arrays; the 25 blocks tile the array.
-/
import proofs.«151081_j64338610094389_2_alg».proof.Proof.KIValue3

set_option maxRecDepth 16384

noncomputable section

namespace Cert.KernelIdeal.HandValue

open Idealize.ShloMosaic Idealize.ShloMosaic.TcCoe Idealize.ShloMosaic.ValueIdx
open Cert.KernelIdeal Cert.KernelIdeal.Gen Cert.KernelIdeal.Hand
open Idealize.ShloMosaic.Pipeline (Dat)
open Cert.Lib.MatProd Cert.Layers Cert.Sage

variable (V : (c : Dev nD) → (b : Ref sig .tc) → Buf (Elt Ideal) ((c : Thread nD τ).loc b))

/-- Row r of block i, of 25 blocks of 4000 rows, is a row of the array. -/
theorem row_lt3 (i r : Nat) (hi : i ≤ 24) (hr : r < 4000) : i * 4000 + r < 100000 := by omega

/-- The index maps over the grid: the five row-block windows (the aggregates, the features, the reciprocal degrees)
    move with the output window along the rows, at column block 0; the weight, bias and the two unused windows stay at
    the origin; there are 25 row blocks. -/
theorem idx_facts3 : ∀ t : Fin cfg3.N,
    win3_0.index t (0 : Fin 2) = win3_10.index t (0 : Fin 2)
    ∧ win3_0.index t (1 : Fin 2) = 0
    ∧ win3_1.index t (0 : Fin 2) = win3_10.index t (0 : Fin 2)
    ∧ win3_1.index t (1 : Fin 2) = 0
    ∧ win3_2.index t (0 : Fin 2) = win3_10.index t (0 : Fin 2)
    ∧ win3_2.index t (1 : Fin 2) = 0
    ∧ win3_3.index t (0 : Fin 2) = win3_10.index t (0 : Fin 2)
    ∧ win3_3.index t (1 : Fin 2) = 0
    ∧ win3_4.index t (0 : Fin 2) = win3_10.index t (0 : Fin 2)
    ∧ win3_4.index t (1 : Fin 2) = 0
    ∧ win3_5.index t (0 : Fin 3) = 0
    ∧ win3_5.index t (1 : Fin 3) = 0
    ∧ win3_5.index t (2 : Fin 3) = 0
    ∧ win3_6.index t (0 : Fin 3) = 0
    ∧ win3_6.index t (1 : Fin 3) = 0
    ∧ win3_6.index t (2 : Fin 3) = 0
    ∧ win3_7.index t (0 : Fin 2) = 0
    ∧ win3_7.index t (1 : Fin 2) = 0
    ∧ win3_8.index t (0 : Fin 1) = 0
    ∧ win3_9.index t (0 : Fin 1) = 0
    ∧ win3_10.index t (1 : Fin 2) = 0
    ∧ win3_10.index t (0 : Fin 2) ≤ 24 :=
  (by decide +kernel : ∀ t : Fin grid3.N, _)

/-- Every row block is some point's. -/
theorem idx_onto3 : ∀ q : Fin 25, ∃ t : Fin cfg3.N, win3_10.index t = ![q.val, 0] :=
  (by decide +kernel : ∀ q : Fin 25, ∃ t : Fin grid3.N, win3_10.index t = ![q.val, 0])

set_option maxHeartbeats 1000000 in
/-- What point t writes back is block t of the layer's function of the arrays the region found. -/
theorem flushed3_eq (c : Dev nD) (t : Fin cfg3.N) :
    (dat3 V c).flushed 10 t = ((cfg3.win 10).blk t).view.read (Elt Ideal)
      (block₂ (Ideal.ofBits .f32 0x00000000#32) (V c main_v163) (V c main_v178) (V c main_v193) (V c main_v147) (V c main_v31) (V c main_v195) (V c main_v199) (V c main_v197) : S100000x128.Idx → Elt Ideal .f32) := by
  show (cfg3.win 10).cut (grid3.coords t) ((dat3 V c).after 10 t) = _
  rw [after3_10, out3_eq]
  obtain ⟨e0, z0, e1, z1, e2, z2, e3, z3, e4, z4, f50, f51, f52, f60, f61, f62, f70, f71, f8, f9, o1, o0⟩ := idx_facts3 t
  funext j
  obtain ⟨r, q, rfl⟩ : ∃ (r : Fin 4000) (q : Fin 128), j = ix2 r q := ⟨j 0, j 1, eq_ix2 (n0 := 4000) (n1 := 128) j⟩
  show block₂ (Ideal.ofBits .f32 0x00000000#32) (iblk3 V c 0 t) (iblk3 V c 1 t) (iblk3 V c 2 t) (iblk3 V c 3 t) (iblk3 V c 4 t) (iblk3 V c 5 t) (iblk3 V c 6 t) (iblk3 V c 7 t) (ix2 r q)
      = block₂ (Ideal.ofBits .f32 0x00000000#32) (V c main_v163) (V c main_v178) (V c main_v193) (V c main_v147) (V c main_v31) (V c main_v195) (V c main_v199) (V c main_v197) (((cfg3.win 10).blk t).view.emb (ix2 r q))
  have hrow : win3_10.index t (0 : Fin 2) * 4000 + r.val < 100000 := row_lt3 _ _ o0 r.isLt
  have hemb : ((cfg3.win 10).blk t).view.emb (ix2 r q)
      = ix2 (⟨win3_10.index t (0 : Fin 2) * 4000 + r.val, hrow⟩ : Fin 100000) q := by
    funext a; apply Fin.ext
    match a with
    | ⟨0, _⟩ => show win3_10.index t (0 : Fin 2) * 4000 + 1 * r.val = win3_10.index t (0 : Fin 2) * 4000 + r.val; rw [Nat.one_mul]
    | ⟨1, _⟩ => show win3_10.index t (1 : Fin 2) * 128 + 1 * q.val = q.val; rw [o1, Nat.zero_mul, Nat.zero_add, Nat.one_mul]
  have h5 : (iblk3 V c 5 t : S3x128x128.Idx → Elt Ideal .f32) = V c main_v195 := by
    funext y
    show V c main_v195 (((cfg3.win 5).blk t).view.emb y) = V c main_v195 y
    congr 1; funext a; apply Fin.ext
    match a with
    | ⟨0, _⟩ => show win3_5.index t (0 : Fin 3) * 3 + 1 * (y 0).val = (y 0).val; rw [f50, Nat.zero_mul, Nat.zero_add, Nat.one_mul]
    | ⟨1, _⟩ => show win3_5.index t (1 : Fin 3) * 128 + 1 * (y 1).val = (y 1).val; rw [f51, Nat.zero_mul, Nat.zero_add, Nat.one_mul]
    | ⟨2, _⟩ => show win3_5.index t (2 : Fin 3) * 128 + 1 * (y 2).val = (y 2).val; rw [f52, Nat.zero_mul, Nat.zero_add, Nat.one_mul]
  have h6 : (iblk3 V c 6 t : S3x128x128.Idx → Elt Ideal .f32) = V c main_v199 := by
    funext y
    show V c main_v199 (((cfg3.win 6).blk t).view.emb y) = V c main_v199 y
    congr 1; funext a; apply Fin.ext
    match a with
    | ⟨0, _⟩ => show win3_6.index t (0 : Fin 3) * 3 + 1 * (y 0).val = (y 0).val; rw [f60, Nat.zero_mul, Nat.zero_add, Nat.one_mul]
    | ⟨1, _⟩ => show win3_6.index t (1 : Fin 3) * 128 + 1 * (y 1).val = (y 1).val; rw [f61, Nat.zero_mul, Nat.zero_add, Nat.one_mul]
    | ⟨2, _⟩ => show win3_6.index t (2 : Fin 3) * 128 + 1 * (y 2).val = (y 2).val; rw [f62, Nat.zero_mul, Nat.zero_add, Nat.one_mul]
  have h7 : (iblk3 V c 7 t : S3x128.Idx → Elt Ideal .f32) = V c main_v197 := by
    funext y
    show V c main_v197 (((cfg3.win 7).blk t).view.emb y) = V c main_v197 y
    congr 1; funext a; apply Fin.ext
    match a with
    | ⟨0, _⟩ => show win3_7.index t (0 : Fin 2) * 3 + 1 * (y 0).val = (y 0).val; rw [f70, Nat.zero_mul, Nat.zero_add, Nat.one_mul]
    | ⟨1, _⟩ => show win3_7.index t (1 : Fin 2) * 128 + 1 * (y 1).val = (y 1).val; rw [f71, Nat.zero_mul, Nat.zero_add, Nat.one_mul]
  rw [hemb, h5, h6, h7]
  exact block₂_rows
    (fun p => (⟨win3_10.index t (0 : Fin 2) * 4000 + p.val, row_lt3 _ _ o0 p.isLt⟩ : Fin 100000))
    (V c main_v163) (V c main_v178) (V c main_v193) (V c main_v147) (iblk3 V c 0 t) (iblk3 V c 1 t) (iblk3 V c 2 t) (iblk3 V c 3 t) (V c main_v31) (iblk3 V c 4 t) (V c main_v195) (V c main_v199) (V c main_v197)
    (fun p cc => by
      show V c main_v163 (((cfg3.win 0).blk t).view.emb (ix2 p cc)) = V c main_v163 (ix2 _ cc)
      congr 1; funext a; apply Fin.ext
      match a with
      | ⟨0, _⟩ => show win3_0.index t (0 : Fin 2) * 4000 + 1 * p.val = win3_10.index t (0 : Fin 2) * 4000 + p.val; rw [e0, Nat.one_mul]
      | ⟨1, _⟩ => show win3_0.index t (1 : Fin 2) * 128 + 1 * cc.val = cc.val; rw [z0, Nat.zero_mul, Nat.zero_add, Nat.one_mul])
    (fun p cc => by
      show V c main_v178 (((cfg3.win 1).blk t).view.emb (ix2 p cc)) = V c main_v178 (ix2 _ cc)
      congr 1; funext a; apply Fin.ext
      match a with
      | ⟨0, _⟩ => show win3_1.index t (0 : Fin 2) * 4000 + 1 * p.val = win3_10.index t (0 : Fin 2) * 4000 + p.val; rw [e1, Nat.one_mul]
      | ⟨1, _⟩ => show win3_1.index t (1 : Fin 2) * 128 + 1 * cc.val = cc.val; rw [z1, Nat.zero_mul, Nat.zero_add, Nat.one_mul])
    (fun p cc => by
      show V c main_v193 (((cfg3.win 2).blk t).view.emb (ix2 p cc)) = V c main_v193 (ix2 _ cc)
      congr 1; funext a; apply Fin.ext
      match a with
      | ⟨0, _⟩ => show win3_2.index t (0 : Fin 2) * 4000 + 1 * p.val = win3_10.index t (0 : Fin 2) * 4000 + p.val; rw [e2, Nat.one_mul]
      | ⟨1, _⟩ => show win3_2.index t (1 : Fin 2) * 128 + 1 * cc.val = cc.val; rw [z2, Nat.zero_mul, Nat.zero_add, Nat.one_mul])
    (fun p cc => by
      show V c main_v147 (((cfg3.win 3).blk t).view.emb (ix2 p cc)) = V c main_v147 (ix2 _ cc)
      congr 1; funext a; apply Fin.ext
      match a with
      | ⟨0, _⟩ => show win3_3.index t (0 : Fin 2) * 4000 + 1 * p.val = win3_10.index t (0 : Fin 2) * 4000 + p.val; rw [e3, Nat.one_mul]
      | ⟨1, _⟩ => show win3_3.index t (1 : Fin 2) * 128 + 1 * cc.val = cc.val; rw [z3, Nat.zero_mul, Nat.zero_add, Nat.one_mul])
    (fun p cc => by
      show V c main_v31 (((cfg3.win 4).blk t).view.emb (ix2 p cc)) = V c main_v31 (ix2 _ cc)
      congr 1; funext a; apply Fin.ext
      match a with
      | ⟨0, _⟩ => show win3_4.index t (0 : Fin 2) * 4000 + 1 * p.val = win3_10.index t (0 : Fin 2) * 4000 + p.val; rw [e4, Nat.one_mul]
      | ⟨1, _⟩ => show win3_4.index t (1 : Fin 2) * 3 + 1 * cc.val = cc.val; rw [z4, Nat.zero_mul, Nat.zero_add, Nat.one_mul])
    (Ideal.ofBits .f32 0x00000000#32) r q

/-- An index of the array is in point t's block iff each coordinate is in the block's range on its axis. -/
theorem mem_blk3 (t : Fin cfg3.N) (i : S100000x128.Idx) :
    i ∈ ((cfg3.win 10).blk t).view.set ↔ ∀ a : Fin 2, win3_10.index t a * S4000x128.size a ≤ (i a).val
      ∧ (i a).val < win3_10.index t a * S4000x128.size a + S4000x128.size a := by
  show i ∈ ((View.whole main_v200).slice (win3_10.rect t)).set ↔ _
  rw [View.set_slice_whole, Rect.mem_set_unit]
  exact Iff.rfl

/-- The 25 blocks tile the array: row r lies in the block of point r / 4000. -/
theorem cover3 (i : S100000x128.Idx) :
    ∃ t : Fin cfg3.N, (cfg3.win 10).flush t = true ∧ i ∈ ((cfg3.win 10).blk t).view.set := by
  have h0 : (i 0).val < 100000 := (i 0).isLt
  have h1 : (i 1).val < 128 := (i 1).isLt
  obtain ⟨t, ht⟩ := idx_onto3 ⟨(i 0).val / 4000, by omega⟩
  have q0 : win3_10.index t (0 : Fin 2) = (i 0).val / 4000 := congrFun ht 0
  have q1 : win3_10.index t (1 : Fin 2) = 0 := congrFun ht 1
  refine ⟨t, flush3_10 t, ?_⟩
  rw [mem_blk3]
  intro a
  match a with
  | ⟨0, _⟩ => show win3_10.index t (0 : Fin 2) * 4000 ≤ (i 0).val ∧ (i 0).val < win3_10.index t (0 : Fin 2) * 4000 + 4000; omega
  | ⟨1, _⟩ => show win3_10.index t (1 : Fin 2) * 128 ≤ (i 1).val ∧ (i 1).val < win3_10.index t (1 : Fin 2) * 128 + 128; omega

/-- THE ARRAY after the last combining region: the layer's function of the arrays the region found. -/
theorem final3 (c : Dev nD) :
    (dat3 V c).arrAt 10 cfg3.N
      = (block₂ (Ideal.ofBits .f32 0x00000000#32) (V c main_v163) (V c main_v178) (V c main_v193) (V c main_v147) (V c main_v31) (V c main_v195) (V c main_v199) (V c main_v197) : S100000x128.Idx → Elt Ideal .f32) :=
  (dat3 V c).arrAt_eq_of_cover 10 _ (fun t _ => flushed3_eq V c t) cover3

end Cert.KernelIdeal.HandValue

end
-- ==== Proof.SageNet.lean ====
/-
  The whole three-layer network as ONE function of the argument arrays.

  The graph enters through six parameters only: per edge type t an aggregation aₜ — the map taking an n×k feature array
  to the per-node sums of its rows over the incoming edges of type t — and the per-node divisor dₜ (the in-degree
  clamped below at one). Both programs compute these by the same gather and scatter-add, so the network is stated over
  them as given maps and never opens them.

  Layer 0, per edge type: project the input features by a dense layer with a maximum (weights Wp, bp), aggregate, divide
  by the degree, convolve with the node's own INPUT features (weights Wl0, bl0, Wr0), scale every row to unit length;
  the three results are added from zero and divided by three, clamped below at zero and standardised (g₀, b₀).
  Layers 1 and 2, per edge type: aggregate the current features, divide by the degree, convolve with the node's own
  features (weights Wl, bl, Wr of that layer); added from zero and divided by three; after layer 1 clamped and
  standardised (g₁, b₁), after layer 2 returned as is.
-/
import proofs.«151081_j64338610094389_2_alg».proof.Proof.SageStages

noncomputable section

namespace Cert.Sage

open Idealize.ShloMosaic Idealize.ShloMosaic.ValueIdx Cert.Lib.MatProd Cert.Layers

variable {n k : Nat}

/-- One edge type's share of layer 0. -/
def first (a : ((⟨2, ![n, k]⟩ : Shape).Idx → EReal) → (⟨2, ![n, k]⟩ : Shape).Idx → EReal)
    (d : (⟨1, ![n]⟩ : Shape).Idx → EReal) (ε : EReal) (x : (⟨2, ![n, k]⟩ : Shape).Idx → EReal)
    (Wp : (⟨2, ![k, k]⟩ : Shape).Idx → EReal) (bp : (⟨1, ![k]⟩ : Shape).Idx → EReal)
    (Wl : (⟨2, ![k, k]⟩ : Shape).Idx → EReal) (bl : (⟨1, ![k]⟩ : Shape).Idx → EReal)
    (Wr : (⟨2, ![k, k]⟩ : Shape).Idx → EReal) : (⟨2, ![n, k]⟩ : Shape).Idx → EReal :=
  unitRows ε (conv (divRows (a (dense x Wp bp)) d) x Wl bl Wr)

/-- One edge type's share of a later layer. -/
def later (a : ((⟨2, ![n, k]⟩ : Shape).Idx → EReal) → (⟨2, ![n, k]⟩ : Shape).Idx → EReal)
    (d : (⟨1, ![n]⟩ : Shape).Idx → EReal) (h : (⟨2, ![n, k]⟩ : Shape).Idx → EReal)
    (Wl : (⟨2, ![k, k]⟩ : Shape).Idx → EReal) (bl : (⟨1, ![k]⟩ : Shape).Idx → EReal)
    (Wr : (⟨2, ![k, k]⟩ : Shape).Idx → EReal) : (⟨2, ![n, k]⟩ : Shape).Idx → EReal :=
  conv (divRows (a h) d) h Wl bl Wr

/-- The features after layer 0. -/
def hidden₁ (a₀ a₁ a₂ : ((⟨2, ![n, k]⟩ : Shape).Idx → EReal) → (⟨2, ![n, k]⟩ : Shape).Idx → EReal)
    (d₀ d₁ d₂ : (⟨1, ![n]⟩ : Shape).Idx → EReal) (z κ ε εₙ : EReal)
    (x : (⟨2, ![n, k]⟩ : Shape).Idx → EReal)
    (Wp : (⟨3, ![3, k, k]⟩ : Shape).Idx → EReal) (bp : (⟨2, ![3, k]⟩ : Shape).Idx → EReal)
    (Wl0 : (⟨3, ![3, k, k]⟩ : Shape).Idx → EReal) (bl0 : (⟨2, ![3, k]⟩ : Shape).Idx → EReal)
    (Wr0 : (⟨3, ![3, k, k]⟩ : Shape).Idx → EReal)
    (g b : (⟨2, ![2, k]⟩ : Shape).Idx → EReal) : (⟨2, ![n, k]⟩ : Shape).Idx → EReal :=
  standardise κ εₙ (clampBelow z (third z
      (first a₀ d₀ ε x (slab Wp 0) (rowVec bp 0) (slab Wl0 0) (rowVec bl0 0) (slab Wr0 0))
      (first a₁ d₁ ε x (slab Wp 1) (rowVec bp 1) (slab Wl0 1) (rowVec bl0 1) (slab Wr0 1))
      (first a₂ d₂ ε x (slab Wp 2) (rowVec bp 2) (slab Wl0 2) (rowVec bl0 2) (slab Wr0 2))))
    (rowVec g 0) (rowVec b 0)

/-- A later layer before its clamp and standardisation: the three edge types' shares added and divided by three. -/
def mixed (a₀ a₁ a₂ : ((⟨2, ![n, k]⟩ : Shape).Idx → EReal) → (⟨2, ![n, k]⟩ : Shape).Idx → EReal)
    (d₀ d₁ d₂ : (⟨1, ![n]⟩ : Shape).Idx → EReal) (z : EReal) (h : (⟨2, ![n, k]⟩ : Shape).Idx → EReal)
    (Wl : (⟨4, ![2, 3, k, k]⟩ : Shape).Idx → EReal) (bl : (⟨3, ![2, 3, k]⟩ : Shape).Idx → EReal)
    (Wr : (⟨4, ![2, 3, k, k]⟩ : Shape).Idx → EReal) (l : Fin 2) : (⟨2, ![n, k]⟩ : Shape).Idx → EReal :=
  third z
    (later a₀ d₀ h (slab2 Wl l 0) (rowVec2 bl l 0) (slab2 Wr l 0))
    (later a₁ d₁ h (slab2 Wl l 1) (rowVec2 bl l 1) (slab2 Wr l 1))
    (later a₂ d₂ h (slab2 Wl l 2) (rowVec2 bl l 2) (slab2 Wr l 2))

/-- The features after layer 1. -/
def hidden₂ (a₀ a₁ a₂ : ((⟨2, ![n, k]⟩ : Shape).Idx → EReal) → (⟨2, ![n, k]⟩ : Shape).Idx → EReal)
    (d₀ d₁ d₂ : (⟨1, ![n]⟩ : Shape).Idx → EReal) (z κ εₙ : EReal) (h : (⟨2, ![n, k]⟩ : Shape).Idx → EReal)
    (Wl : (⟨4, ![2, 3, k, k]⟩ : Shape).Idx → EReal) (bl : (⟨3, ![2, 3, k]⟩ : Shape).Idx → EReal)
    (Wr : (⟨4, ![2, 3, k, k]⟩ : Shape).Idx → EReal)
    (g b : (⟨2, ![2, k]⟩ : Shape).Idx → EReal) : (⟨2, ![n, k]⟩ : Shape).Idx → EReal :=
  standardise κ εₙ (clampBelow z (mixed a₀ a₁ a₂ d₀ d₁ d₂ z h Wl bl Wr 0)) (rowVec g 1) (rowVec b 1)

/-- The network's result: layer 2 of the features after layer 1 of the features after layer 0. -/
def net (a₀ a₁ a₂ : ((⟨2, ![n, k]⟩ : Shape).Idx → EReal) → (⟨2, ![n, k]⟩ : Shape).Idx → EReal)
    (d₀ d₁ d₂ : (⟨1, ![n]⟩ : Shape).Idx → EReal) (z κ ε εₙ : EReal)
    (x : (⟨2, ![n, k]⟩ : Shape).Idx → EReal)
    (Wp : (⟨3, ![3, k, k]⟩ : Shape).Idx → EReal) (bp : (⟨2, ![3, k]⟩ : Shape).Idx → EReal)
    (Wl0 : (⟨3, ![3, k, k]⟩ : Shape).Idx → EReal) (bl0 : (⟨2, ![3, k]⟩ : Shape).Idx → EReal)
    (Wr0 : (⟨3, ![3, k, k]⟩ : Shape).Idx → EReal)
    (Wl : (⟨4, ![2, 3, k, k]⟩ : Shape).Idx → EReal) (bl : (⟨3, ![2, 3, k]⟩ : Shape).Idx → EReal)
    (Wr : (⟨4, ![2, 3, k, k]⟩ : Shape).Idx → EReal)
    (g b : (⟨2, ![2, k]⟩ : Shape).Idx → EReal) : (⟨2, ![n, k]⟩ : Shape).Idx → EReal :=
  mixed a₀ a₁ a₂ d₀ d₁ d₂ z
    (hidden₂ a₀ a₁ a₂ d₀ d₁ d₂ z κ εₙ
      (hidden₁ a₀ a₁ a₂ d₀ d₁ d₂ z κ ε εₙ x Wp bp Wl0 bl0 Wr0 g b) Wl bl Wr g b)
    Wl bl Wr 1

end Cert.Sage

end
-- ==== Proof.SageChain.lean ====
/-
  The combining kernels' block functions, applied to whole arrays, are the network's layers.

  Where column t of D holds the quotients 1 / dₜ of nonzero divisors, where the aggregated operands are the
  aggregations aₜ of the layer's input features, and where the weight stacks handed to the kernel are a layer's slice of
  the doubly stacked weights, `block₀` is `hidden₁`, `block₁` is `hidden₂` and `block₂` is `mixed` — so the three
  regions one after the other compute `net`. Nothing here mentions a program.
-/
import proofs.«151081_j64338610094389_2_alg».proof.Proof.SageBlocks
import proofs.«151081_j64338610094389_2_alg».proof.Proof.SageNet

noncomputable section

namespace Cert.Sage

open Idealize.ShloMosaic Idealize.ShloMosaic.ValueIdx Cert.Lib.MatProd Cert.Layers

variable {n k : Nat}
  (a₀ a₁ a₂ : ((⟨2, ![n, k]⟩ : Shape).Idx → EReal) → (⟨2, ![n, k]⟩ : Shape).Idx → EReal)
  (d₀ d₁ d₂ : (⟨1, ![n]⟩ : Shape).Idx → EReal) (D : (⟨2, ![n, 3]⟩ : Shape).Idx → EReal)
  (hD₀ : ∀ p : Fin n, D (ix2 p 0) = Ideal.div 1 (d₀ (ix1 p)))
  (hD₁ : ∀ p : Fin n, D (ix2 p 1) = Ideal.div 1 (d₁ (ix1 p)))
  (hD₂ : ∀ p : Fin n, D (ix2 p 2) = Ideal.div 1 (d₂ (ix1 p)))
  (hd₀ : ∀ p : Fin n, d₀ (ix1 p) ≠ 0) (hd₁ : ∀ p : Fin n, d₁ (ix1 p) ≠ 0) (hd₂ : ∀ p : Fin n, d₂ (ix1 p) ≠ 0)

include hD₀ hD₁ hD₂ hd₀ hd₁ hd₂

/-- Layer 0: the block function of the aggregated projections is the features after layer 0. -/
theorem block₀_eq_hidden₁ (z κ ε εₙ : EReal) (x : (⟨2, ![n, k]⟩ : Shape).Idx → EReal)
    (Wp : (⟨3, ![3, k, k]⟩ : Shape).Idx → EReal) (bp : (⟨2, ![3, k]⟩ : Shape).Idx → EReal)
    (Wl0 : (⟨3, ![3, k, k]⟩ : Shape).Idx → EReal) (bl0 : (⟨2, ![3, k]⟩ : Shape).Idx → EReal)
    (Wr0 : (⟨3, ![3, k, k]⟩ : Shape).Idx → EReal) (g b : (⟨2, ![2, k]⟩ : Shape).Idx → EReal) :
    block₀ z κ ε εₙ (a₀ (dense x (slab Wp 0) (rowVec bp 0))) (a₁ (dense x (slab Wp 1) (rowVec bp 1)))
        (a₂ (dense x (slab Wp 2) (rowVec bp 2))) x D Wl0 Wr0 bl0 (rowVec g 0) (rowVec b 0)
      = hidden₁ a₀ a₁ a₂ d₀ d₁ d₂ z κ ε εₙ x Wp bp Wl0 bl0 Wr0 g b := by
  unfold block₀ hidden₁ share₀ first
  rw [share_eq _ _ D 0 d₀ hD₀ hd₀, share_eq _ _ D 1 d₁ hD₁ hd₁, share_eq _ _ D 2 d₂ hD₂ hd₂]

/-- A later layer before its clamp: the block function of the aggregated features, with layer l's weight stacks, is
    the three shares added and divided by three. -/
theorem block₂_eq_mixed (z : EReal) (h : (⟨2, ![n, k]⟩ : Shape).Idx → EReal)
    (Wl : (⟨4, ![2, 3, k, k]⟩ : Shape).Idx → EReal) (bl : (⟨3, ![2, 3, k]⟩ : Shape).Idx → EReal)
    (Wr : (⟨4, ![2, 3, k, k]⟩ : Shape).Idx → EReal) (l : Fin 2)
    (Wl' Wr' : (⟨3, ![3, k, k]⟩ : Shape).Idx → EReal) (bl' : (⟨2, ![3, k]⟩ : Shape).Idx → EReal)
    (hWl : ∀ t : Fin 3, slab Wl' t = slab2 Wl l t) (hWr : ∀ t : Fin 3, slab Wr' t = slab2 Wr l t)
    (hbl : ∀ t : Fin 3, rowVec bl' t = rowVec2 bl l t) :
    block₂ z (a₀ h) (a₁ h) (a₂ h) h D Wl' Wr' bl' = mixed a₀ a₁ a₂ d₀ d₁ d₂ z h Wl bl Wr l := by
  unfold block₂ mixed later
  rw [share_eq _ _ D 0 d₀ hD₀ hd₀, share_eq _ _ D 1 d₁ hD₁ hd₁, share_eq _ _ D 2 d₂ hD₂ hd₂,
    hWl 0, hWl 1, hWl 2, hWr 0, hWr 1, hWr 2, hbl 0, hbl 1, hbl 2]

/-- Layer 1: the block function with layer 0's weight stacks (index 0 of the later layers' arrays) and the second gain
    and offset rows is the features after layer 1. -/
theorem block₁_eq_hidden₂ (z κ εₙ : EReal) (h : (⟨2, ![n, k]⟩ : Shape).Idx → EReal)
    (Wl : (⟨4, ![2, 3, k, k]⟩ : Shape).Idx → EReal) (bl : (⟨3, ![2, 3, k]⟩ : Shape).Idx → EReal)
    (Wr : (⟨4, ![2, 3, k, k]⟩ : Shape).Idx → EReal) (g b : (⟨2, ![2, k]⟩ : Shape).Idx → EReal)
    (Wl' Wr' : (⟨3, ![3, k, k]⟩ : Shape).Idx → EReal) (bl' : (⟨2, ![3, k]⟩ : Shape).Idx → EReal)
    (hWl : ∀ t : Fin 3, slab Wl' t = slab2 Wl 0 t) (hWr : ∀ t : Fin 3, slab Wr' t = slab2 Wr 0 t)
    (hbl : ∀ t : Fin 3, rowVec bl' t = rowVec2 bl 0 t) :
    block₁ z κ εₙ (a₀ h) (a₁ h) (a₂ h) h D Wl' Wr' bl' (rowVec g 1) (rowVec b 1)
      = hidden₂ a₀ a₁ a₂ d₀ d₁ d₂ z κ εₙ h Wl bl Wr g b := by
  unfold block₁ hidden₂
  rw [block₂_eq_mixed a₀ a₁ a₂ d₀ d₁ d₂ D hD₀ hD₁ hD₂ hd₀ hd₁ hd₂ z h Wl bl Wr 0 Wl' Wr' bl' hWl hWr hbl]

end Cert.Sage

end
-- ==== Proof.SageSlices.lean ====
/-
  The host's way of cutting a matrix or a row out of a stacked array — a slice of extent one along the leading axis,
  re-shaped to drop that axis — read as the stack's own slab or row (`slab`, `slab2`, `rowVec`, `rowVec2` of
  SageStages.lean); a layer's stack cut out of a doubly stacked array; and three n×1 columns placed side by side, read
  at a column. Nothing here mentions a program.
-/
import Idealize.ShloMosaic.Lib.ValueIdx
import Idealize.ShloMosaic.Lib.ValueLayout
import Idealize.ShloMosaic.Lib.Pipeline.Value
import proofs.«151081_j64338610094389_2_alg».proof.Proof.SageStages

noncomputable section

namespace Cert.Sage

open Idealize.ShloMosaic Idealize.ShloMosaic.ValueIdx

/-- Row o of a T×a matrix, cut out as a 1×a slice and re-shaped to a vector. -/
theorem slice_row {T a : Nat} (B : (⟨2, ![T, a]⟩ : Shape).Idx → EReal) (o : Nat) (ho : o < T)
    (hs : (⟨2, ![T, a]⟩ : Shape).Slices ![o, 0] ⟨2, ![1, a]⟩) (hc : (⟨2, ![1, a]⟩ : Shape).ShapeCasts ⟨1, ![a]⟩) :
    shapeCast ⟨1, ![a]⟩ (extractStridedSlice ⟨2, ![1, a]⟩ ![o, 0] B hs) hc = rowVec B ⟨o, ho⟩ := by
  funext i
  obtain ⟨q, rfl⟩ : ∃ q : Fin a, i = ix1 q := ⟨i 0, eq_ix1 i⟩
  rw [shapeCast_1a_a_apply, slice2_axis0_apply o B hs 0 q ⟨o, ho⟩ (by show o = o + 0; rfl)]
  rfl

/-- Matrix o of a stack, cut out as a 1×a×b slice and re-shaped to a×b. -/
theorem slice_slab {T a b : Nat} (W : (⟨3, ![T, a, b]⟩ : Shape).Idx → EReal) (o : Nat) (ho : o < T)
    (hs : (⟨3, ![T, a, b]⟩ : Shape).Slices ![o, 0, 0] ⟨3, ![1, a, b]⟩)
    (hc : (⟨3, ![1, a, b]⟩ : Shape).ShapeCasts ⟨2, ![a, b]⟩) :
    shapeCast ⟨2, ![a, b]⟩ (extractStridedSlice ⟨3, ![1, a, b]⟩ ![o, 0, 0] W hs) hc = slab W ⟨o, ho⟩ := by
  funext i
  obtain ⟨p, q, rfl⟩ : ∃ (p : Fin a) (q : Fin b), i = ix2 p q := ⟨i 0, i 1, eq_ix2 i⟩
  rw [shapeCast_1ab_ab_apply]
  refine (extractStridedSlice_apply _ W hs (ix3 0 p q) (ix3 ⟨o, ho⟩ p q) fun ax => ?_).trans rfl
  match ax with
  | ⟨0, _⟩ => show o = o + 0; rfl
  | ⟨1, _⟩ => show p.val = 0 + p.val; omega
  | ⟨2, _⟩ => show q.val = 0 + q.val; omega

/-- Layer l's stack of matrices, cut out of a doubly stacked array as a 1×T×a×b slice and re-shaped to T×a×b: its
    matrix t is matrix (l, t) of the whole. -/
theorem slice_stack {L T a b : Nat} (W : (⟨4, ![L, T, a, b]⟩ : Shape).Idx → EReal) (l : Nat) (hl : l < L)
    (hs : (⟨4, ![L, T, a, b]⟩ : Shape).Slices ![l, 0, 0, 0] ⟨4, ![1, T, a, b]⟩)
    (hc : (⟨4, ![1, T, a, b]⟩ : Shape).ShapeCasts ⟨3, ![T, a, b]⟩) (t : Fin T) :
    slab (shapeCast ⟨3, ![T, a, b]⟩ (extractStridedSlice ⟨4, ![1, T, a, b]⟩ ![l, 0, 0, 0] W hs) hc) t
      = slab2 W ⟨l, hl⟩ t := by
  funext i
  obtain ⟨p, q, rfl⟩ : ∃ (p : Fin a) (q : Fin b), i = ix2 p q := ⟨i 0, i 1, eq_ix2 i⟩
  show shapeCast ⟨3, ![T, a, b]⟩ _ hc (ix3 t p q) = W (ix4 ⟨l, hl⟩ t p q)
  rw [shapeCast_1abc_abc_apply]
  refine extractStridedSlice_apply _ W hs (ix4 0 t p q) (ix4 ⟨l, hl⟩ t p q) fun ax => ?_
  match ax with
  | ⟨0, _⟩ => show l = l + 0; rfl
  | ⟨1, _⟩ => show t.val = 0 + t.val; omega
  | ⟨2, _⟩ => show p.val = 0 + p.val; omega
  | ⟨3, _⟩ => show q.val = 0 + q.val; omega

/-- Layer l's bias rows, cut out of a stack of matrices as a 1×T×a slice and re-shaped to T×a: its row t is row (l, t)
    of the whole. -/
theorem slice_stackRow {L T a : Nat} (B : (⟨3, ![L, T, a]⟩ : Shape).Idx → EReal) (l : Nat) (hl : l < L)
    (hs : (⟨3, ![L, T, a]⟩ : Shape).Slices ![l, 0, 0] ⟨3, ![1, T, a]⟩)
    (hc : (⟨3, ![1, T, a]⟩ : Shape).ShapeCasts ⟨2, ![T, a]⟩) (t : Fin T) :
    rowVec (shapeCast ⟨2, ![T, a]⟩ (extractStridedSlice ⟨3, ![1, T, a]⟩ ![l, 0, 0] B hs) hc) t = rowVec2 B ⟨l, hl⟩ t := by
  funext i
  obtain ⟨q, rfl⟩ : ∃ q : Fin a, i = ix1 q := ⟨i 0, eq_ix1 i⟩
  show shapeCast ⟨2, ![T, a]⟩ _ hc (ix2 t q) = B (ix3 ⟨l, hl⟩ t q)
  rw [shapeCast_1ab_ab_apply]
  refine extractStridedSlice_apply _ B hs (ix3 0 t q) (ix3 ⟨l, hl⟩ t q) fun ax => ?_
  match ax with
  | ⟨0, _⟩ => show l = l + 0; rfl
  | ⟨1, _⟩ => show t.val = 0 + t.val; omega
  | ⟨2, _⟩ => show q.val = 0 + q.val; omega

/-- Three n×1 columns placed side by side: column k of the n×3 array is the k-th of them. -/
theorem columns3_apply {α : Type} {n : Nat} (x₀ x₁ x₂ : (⟨2, ![n, 1]⟩ : Shape).Idx → α)
    (h : Shape.Concatenates [(⟨2, ![n, 1]⟩ : Shape), ⟨2, ![n, 1]⟩, ⟨2, ![n, 1]⟩] ⟨2, ![n, 3]⟩ 1) (p : Fin n) :
    concatenate ⟨2, ![n, 3]⟩ 1 [⟨⟨2, ![n, 1]⟩, x₀⟩, ⟨⟨2, ![n, 1]⟩, x₁⟩, ⟨⟨2, ![n, 1]⟩, x₂⟩] h (ix2 p 0) = x₀ (ix2 p 0)
    ∧ concatenate ⟨2, ![n, 3]⟩ 1 [⟨⟨2, ![n, 1]⟩, x₀⟩, ⟨⟨2, ![n, 1]⟩, x₁⟩, ⟨⟨2, ![n, 1]⟩, x₂⟩] h (ix2 p 1) = x₁ (ix2 p 0)
    ∧ concatenate ⟨2, ![n, 3]⟩ 1 [⟨⟨2, ![n, 1]⟩, x₀⟩, ⟨⟨2, ![n, 1]⟩, x₁⟩, ⟨⟨2, ![n, 1]⟩, x₂⟩] h (ix2 p 2) = x₂ (ix2 p 0) := by
  have hi : ∀ (k : Fin 3) (b : Fin (⟨2, ![n, 1]⟩ : Shape).rank), b.cast (rfl : (⟨2, ![n, 1]⟩ : Shape).rank = 2) ≠ (1 : Fin 2) →
      ((ix2 p (0 : Fin 1) : (⟨2, ![n, 1]⟩ : Shape).Idx) b).val = ((ix2 p k : (⟨2, ![n, 3]⟩ : Shape).Idx) (b.cast rfl)).val := by
    intro k b hb
    match b with
    | ⟨0, _⟩ => rfl
    | ⟨1, _⟩ => exact absurd rfl hb
  refine ⟨?_, ?_, ?_⟩
  · exact concatenate_apply_piece (t := ⟨2, ![n, 3]⟩) 1 [⟨⟨2, ![n, 1]⟩, x₀⟩, ⟨⟨2, ![n, 1]⟩, x₁⟩, ⟨⟨2, ![n, 1]⟩, x₂⟩] h (ix2 p 0) 0 (by simp) ⟨2, ![n, 1]⟩ x₀ rfl rfl 0 rfl
      (ix2 p 0) (hi 0) rfl
  · exact concatenate_apply_piece (t := ⟨2, ![n, 3]⟩) 1 [⟨⟨2, ![n, 1]⟩, x₀⟩, ⟨⟨2, ![n, 1]⟩, x₁⟩, ⟨⟨2, ![n, 1]⟩, x₂⟩] h (ix2 p 1) 1 (by simp) ⟨2, ![n, 1]⟩ x₁ rfl rfl 1 rfl
      (ix2 p 0) (hi 1) rfl
  · exact concatenate_apply_piece (t := ⟨2, ![n, 3]⟩) 1 [⟨⟨2, ![n, 1]⟩, x₀⟩, ⟨⟨2, ![n, 1]⟩, x₁⟩, ⟨⟨2, ![n, 1]⟩, x₂⟩] h (ix2 p 2) 2 (by simp) ⟨2, ![n, 1]⟩ x₂ rfl rfl 2 rfl
      (ix2 p 0) (hi 2) rfl

end Cert.Sage

end
-- ==== Proof.KIChain.lean ====
/-
  The kernel program's result array is the network function of its argument arrays.

  The fold of buffer contents through @main is walked back from the last region: region 3's array is layer 2's block
  function of what the fourth host stretch handed it, which is the aggregations of region 2's array (narrowed to half
  width, the identity here), the reciprocal degrees and layer 2's weight stacks; region 2's array likewise over region
  1's; region 1's over the projections region 0 stored and the input features. The arguments are unchanged at every
  boundary (no operation and no region writes one), and the reciprocal-degree array is written once, by the first
  stretch. With the reciprocals read column by column as quotients of one by degrees that are at least one, the block
  functions are the network's layers.
-/
import proofs.«151081_j64338610094389_2_alg».proof.Proof.KIHost
import proofs.«151081_j64338610094389_2_alg».proof.Proof.KIFinal0
import proofs.«151081_j64338610094389_2_alg».proof.Proof.KIFinal1
import proofs.«151081_j64338610094389_2_alg».proof.Proof.KIFinal2
import proofs.«151081_j64338610094389_2_alg».proof.Proof.KIFinal3
import proofs.«151081_j64338610094389_2_alg».proof.Proof.SageChain
import proofs.«151081_j64338610094389_2_alg».proof.Proof.SageSlices
import proofs.«151081_j64338610094389_2_alg».proof.Proof.SageConsts

set_option maxRecDepth 16384

noncomputable section

namespace Cert.KernelIdeal.HandValue

open Idealize.ShloMosaic Idealize.ShloMosaic.TcCoe Idealize.ShloMosaic.ValueIdx Idealize.SL.Sem
open Cert.KernelIdeal Cert.KernelIdeal.Gen Cert.KernelIdeal.Hand
open Cert.Lib.MatProd Cert.Layers Cert.Sage Cert.Sage.Consts Cert.Lib.RowReductions

/-! ## The graph data, per edge type -/

/-- The aggregation over edge type t. -/
def aggAt (e : IVec S3x2x500000 32) : Fin 3 → (S100000x128.Idx → EReal) → S100000x128.Idx → EReal
  | 0 => fun f => aggK (srcK e 0 slices_S3x2x500000_S1x1x500000_0_0_0) (dstK e 0 slices_S3x2x500000_S1x1x500000_0_1_0) f
  | 1 => fun f => aggK (srcK e 1 slices_S3x2x500000_S1x1x500000_1_0_0) (dstK e 1 slices_S3x2x500000_S1x1x500000_1_1_0) f
  | 2 => fun f => aggK (srcK e 2 slices_S3x2x500000_S1x1x500000_2_0_0) (dstK e 2 slices_S3x2x500000_S1x1x500000_2_1_0) f

/-- The divisor of edge type t. -/
def degAt (e : IVec S3x2x500000 32) : Fin 3 → S100000.Idx → EReal
  | 0 => degK (dstK e 0 slices_S3x2x500000_S1x1x500000_0_1_0)
  | 1 => degK (dstK e 1 slices_S3x2x500000_S1x1x500000_1_1_0)
  | 2 => degK (dstK e 2 slices_S3x2x500000_S1x1x500000_2_1_0)

/-- A divisor is at least one, so it is not zero. -/
theorem degK_ne_zero (dst : IVec S500000 32) (p : Fin 100000) : degK dst (ix1 p) ≠ 0 := by
  have key : ∀ a : FVec Ideal S100000 .f32, (1 : EReal)
      ≤ maximumf a (broadcastInDim S100000 ![] bcast_S_S100000 (constant (F := Ideal) S_ .f32 0x3F800000#32)) (ix1 p) := by
    intro a
    rw [maximumf_apply, Cert.Lib.RowVector.bcastInDim_scalar_apply, constant_apply, ofBits_one]
    exact le_max_right _ _
  exact (lt_of_lt_of_le zero_lt_one (key _)).ne'

/-- A reciprocal-degree column at row p is the quotient of one by the divisor at p. -/
theorem invColK_apply (dst : IVec S500000 32) (p : Fin 100000) :
    invColK dst (ix2 p 0) = Ideal.div 1 (degK dst (ix1 p)) := by
  have key : ∀ d : FVec Ideal S100000 .f32,
      broadcastInDim S100000x1 ![0] bcast_S100000_S100000x1_0
          (Host.divf (broadcastInDim S100000 ![] bcast_S_S100000 (constant (F := Ideal) S_ .f32 0x3F800000#32)) d) (ix2 p 0)
        = Ideal.div 1 (d (ix1 p)) := by
    intro d
    have h1 : broadcastInDim S100000 ![] bcast_S_S100000 (constant (F := Ideal) S_ .f32 0x3F800000#32) (ix1 p) = 1 := by
      rw [Cert.Lib.RowVector.bcastInDim_scalar_apply, constant_apply, ofBits_one]
    rw [bcastInDim_col_apply]
    show Ideal.div (broadcastInDim S100000 ![] bcast_S_S100000 (constant (F := Ideal) S_ .f32 0x3F800000#32) (ix1 p))
        (d (ix1 p)) = _
    rw [h1]
  exact key _

theorem invAll_col (e : IVec S3x2x500000 32) (p : Fin 100000) :
    invAllK e (ix2 p 0) = Ideal.div 1 (degAt e 0 (ix1 p)) ∧ invAllK e (ix2 p 1) = Ideal.div 1 (degAt e 1 (ix1 p))
      ∧ invAllK e (ix2 p 2) = Ideal.div 1 (degAt e 2 (ix1 p)) := by
  obtain ⟨h0, h1, h2⟩ := columns3_apply (invColK (dstK e 0 slices_S3x2x500000_S1x1x500000_0_1_0)) (invColK (dstK e 1 slices_S3x2x500000_S1x1x500000_1_1_0))
    (invColK (dstK e 2 slices_S3x2x500000_S1x1x500000_2_1_0)) concatenates_S100000x1_S100000x1_S100000x1_S100000x3_d1 p
  exact ⟨h0.trans (invColK_apply _ p), h1.trans (invColK_apply _ p), h2.trans (invColK_apply _ p)⟩

variable (m : (ℓ : Loc nD τ sig) → Buf (Elt Ideal) ℓ) (ρ : Dev nD → PrngReg)

/-! ## What is unchanged at each boundary -/

theorem W2_arg1 (c : Dev nD) : W2 (F := Ideal) m ρ c (Proc.devRef .tc main_arg1) = m ((c : Thread nD τ).loc main_arg1) :=
  (W2_of_ne m ρ c main_arg1 (by decide)).trans (W1_keep m ρ c main_arg1 (by decide))
theorem W2_arg10 (c : Dev nD) : W2 (F := Ideal) m ρ c (Proc.devRef .tc main_arg10) = m ((c : Thread nD τ).loc main_arg10) :=
  (W2_of_ne m ρ c main_arg10 (by decide)).trans (W1_keep m ρ c main_arg10 (by decide))
theorem W2_arg11 (c : Dev nD) : W2 (F := Ideal) m ρ c (Proc.devRef .tc main_arg11) = m ((c : Thread nD τ).loc main_arg11) :=
  (W2_of_ne m ρ c main_arg11 (by decide)).trans (W1_keep m ρ c main_arg11 (by decide))
theorem W2_arg0 (c : Dev nD) : W2 (F := Ideal) m ρ c (Proc.devRef .tc main_arg0) = m ((c : Thread nD τ).loc main_arg0) :=
  (W2_in m ρ c 0 rfl).trans (W1_keep m ρ c main_arg0 (by decide))
theorem W2_v31 (c : Dev nD) : W2 (F := Ideal) m ρ c (Proc.devRef .tc main_v31) = invAllK (m ((c : Thread nD τ).loc main_arg1)) :=
  (W2_of_ne m ρ c main_v31 (by decide)).trans (W1_v31 m ρ c)
theorem W2_arg (c : Dev nD) (r : Ref sig .tc) (h2 : ∀ w, Pipeline.arrRef spec0 w ≠ r) (h1 : r ∉ hostOps0_W) :
    W2 (F := Ideal) m ρ c (Proc.devRef .tc r) = m ((c : Thread nD τ).loc r) :=
  (W2_of_ne m ρ c r h2).trans (W1_keep m ρ c r h1)

theorem W3_arg0 (c : Dev nD) : W3 (F := Ideal) m ρ c (Proc.devRef .tc main_arg0) = m ((c : Thread nD τ).loc main_arg0) :=
  (W3_keep m ρ c main_arg0 (by decide)).trans (W2_arg0 m ρ c)
theorem W3_v31 (c : Dev nD) : W3 (F := Ideal) m ρ c (Proc.devRef .tc main_v31) = invAllK (m ((c : Thread nD τ).loc main_arg1)) :=
  (W3_keep m ρ c main_v31 (by decide)).trans (W2_v31 m ρ c)
theorem W3_arg (c : Dev nD) (r : Ref sig .tc) (h3 : r ∉ hostOps1_W) (h2 : ∀ w, Pipeline.arrRef spec0 w ≠ r) (h1 : r ∉ hostOps0_W) :
    W3 (F := Ideal) m ρ c (Proc.devRef .tc r) = m ((c : Thread nD τ).loc r) :=
  (W3_keep m ρ c r h3).trans (W2_arg m ρ c r h2 h1)

theorem W4_arg (c : Dev nD) (r : Ref sig .tc) (h4 : ∀ w, Pipeline.arrRef spec1 w ≠ r) (h3 : r ∉ hostOps1_W)
    (h2 : ∀ w, Pipeline.arrRef spec0 w ≠ r) (h1 : r ∉ hostOps0_W) :
    W4 (F := Ideal) m ρ c (Proc.devRef .tc r) = m ((c : Thread nD τ).loc r) :=
  (W4_of_ne m ρ c r h4).trans (W3_arg m ρ c r h3 h2 h1)
theorem W4_v31 (c : Dev nD) : W4 (F := Ideal) m ρ c (Proc.devRef .tc main_v31) = invAllK (m ((c : Thread nD τ).loc main_arg1)) :=
  (W4_in m ρ c 4 rfl).trans (W3_v31 m ρ c)
theorem W5_v31 (c : Dev nD) : W5 (F := Ideal) m ρ c (Proc.devRef .tc main_v31) = invAllK (m ((c : Thread nD τ).loc main_arg1)) :=
  (W5_keep m ρ c main_v31 (by decide)).trans (W4_v31 m ρ c)
theorem W6_arg (c : Dev nD) (r : Ref sig .tc) (h6 : ∀ w, Pipeline.arrRef spec2 w ≠ r) (h5 : r ∉ hostOps2_W)
    (h4 : ∀ w, Pipeline.arrRef spec1 w ≠ r) (h3 : r ∉ hostOps1_W)
    (h2 : ∀ w, Pipeline.arrRef spec0 w ≠ r) (h1 : r ∉ hostOps0_W) :
    W6 (F := Ideal) m ρ c (Proc.devRef .tc r) = m ((c : Thread nD τ).loc r) :=
  (W6_of_ne m ρ c r h6).trans ((W5_keep m ρ c r h5).trans (W4_arg m ρ c r h4 h3 h2 h1))
theorem W6_v31 (c : Dev nD) : W6 (F := Ideal) m ρ c (Proc.devRef .tc main_v31) = invAllK (m ((c : Thread nD τ).loc main_arg1)) :=
  (W6_in m ρ c 4 rfl).trans (W5_v31 m ρ c)
theorem W7_v31 (c : Dev nD) : W7 (F := Ideal) m ρ c (Proc.devRef .tc main_v31) = invAllK (m ((c : Thread nD τ).loc main_arg1)) :=
  (W7_keep m ρ c main_v31 (by decide)).trans (W6_v31 m ρ c)

/-! ## Region by region -/

variable (c : Dev nD)

set_option quotPrecheck false in
local notation "E" => m ((c : Thread nD τ).loc main_arg1)
local notation "zW" => Ideal.ofBits FTy.f32 0x00000000#32
local notation "κW" => Ideal.ofBits FTy.f32 0x43000000#32
local notation "εW" => Ideal.ofBits FTy.f32 0x2B8CBCCC#32
local notation "εN" => Ideal.ofBits FTy.f32 0x3727C5AC#32

/-- The first stretch leaves an argument as launched. -/
theorem W1_arg (r : Ref sig .tc) (h1 : r ∉ hostOps0_W) :
    W1 (F := Ideal) m ρ c (Proc.devRef .tc r) = m ((c : Thread nD τ).loc r) := W1_keep m ρ c r h1

/-- Slab o of the stacked projections is the dense layer with matrix o and bias row o. -/
theorem slabK_projAll (x : S100000x128.Idx → EReal) (Wp : S3x128x128.Idx → EReal) (bp : S3x128.Idx → EReal)
    (o : ℕ) (ho : o < 3) (hs : S3x100000x128.Slices ![o, 0, 0] S1x100000x128) :
    slabK (projAll x Wp bp) o hs = dense x (slab Wp ⟨o, ho⟩) (rowVec bp ⟨o, ho⟩) := by
  unfold slabK
  rw [slice_slab (projAll x Wp bp) o ho hs shapeCasts_S1x100000x128_S100000x128]
  funext i
  obtain ⟨p, q, rfl⟩ : ∃ (p : Fin 100000) (q : Fin 128), i = ix2 p q := ⟨i 0, i 1, eq_ix2 i⟩
  rfl

/-- After the projection region: the stacked projections of the input features. -/
theorem W2_v32 : W2 (F := Ideal) m ρ c (Proc.devRef .tc main_v32)
    = projAll (m ((c : Thread nD τ).loc main_arg0)) (m ((c : Thread nD τ).loc main_arg2)) (m ((c : Thread nD τ).loc main_arg3)) := by
  refine (W2_arr m ρ c 3).trans ((final0 (V1 m ρ) c).trans ?_)
  show projAll (W1 m ρ c (Proc.devRef .tc main_arg0)) (W1 m ρ c (Proc.devRef .tc main_arg2)) (W1 m ρ c (Proc.devRef .tc main_arg3)) = _
  rw [W1_arg m ρ c main_arg0 (by decide), W1_arg m ρ c main_arg2 (by decide), W1_arg m ρ c main_arg3 (by decide)]

/-- After region 1: the features after layer 0. -/
theorem W4_v88 : W4 (F := Ideal) m ρ c (Proc.devRef .tc main_v88)
    = hidden₁ (aggAt E 0) (aggAt E 1) (aggAt E 2) (degAt E 0) (degAt E 1) (degAt E 2) zW κW εW εN
        (m ((c : Thread nD τ).loc main_arg0)) (m ((c : Thread nD τ).loc main_arg2)) (m ((c : Thread nD τ).loc main_arg3))
        (m ((c : Thread nD τ).loc main_arg4)) (m ((c : Thread nD τ).loc main_arg5)) (m ((c : Thread nD τ).loc main_arg6))
        (m ((c : Thread nD τ).loc main_arg10)) (m ((c : Thread nD τ).loc main_arg11)) := by
  refine (W4_arr m ρ c 10).trans ((final1 (V3 m ρ) c).trans ?_)
  show block₀ zW κW εW εN (W3 m ρ c (Proc.devRef .tc main_v49)) (W3 m ρ c (Proc.devRef .tc main_v66))
      (W3 m ρ c (Proc.devRef .tc main_v83)) (W3 m ρ c (Proc.devRef .tc main_arg0)) (W3 m ρ c (Proc.devRef .tc main_v31))
      (W3 m ρ c (Proc.devRef .tc main_arg4)) (W3 m ρ c (Proc.devRef .tc main_arg6)) (W3 m ρ c (Proc.devRef .tc main_arg5))
      (W3 m ρ c (Proc.devRef .tc main_v85)) (W3 m ρ c (Proc.devRef .tc main_v87)) = _
  rw [W3_v49, W3_v66, W3_v83, W3_arg0, W3_v31, W3_arg m ρ c main_arg4 (by decide) (by decide) (by decide),
    W3_arg m ρ c main_arg6 (by decide) (by decide) (by decide), W3_arg m ρ c main_arg5 (by decide) (by decide) (by decide),
    W3_v85, W3_v87, W2_arg1, W2_v32, W2_arg10, W2_arg11,
    slabK_projAll _ _ _ 0 (by decide), slabK_projAll _ _ _ 1 (by decide), slabK_projAll _ _ _ 2 (by decide)]
  unfold rowK
  rw [slice_row (m ((c : Thread nD τ).loc main_arg10)) 0 (by decide), slice_row (m ((c : Thread nD τ).loc main_arg11)) 0 (by decide)]
  exact block₀_eq_hidden₁ (aggAt E 0) (aggAt E 1) (aggAt E 2) (degAt E 0) (degAt E 1) (degAt E 2) (invAllK E)
    (fun p => (invAll_col E p).1) (fun p => (invAll_col E p).2.1) (fun p => (invAll_col E p).2.2)
    (degK_ne_zero _) (degK_ne_zero _) (degK_ne_zero _) zW κW εW εN _ _ _ _ _ _ _ _

/-- After region 2: the features after layer 1. -/
theorem W6_v147 : W6 (F := Ideal) m ρ c (Proc.devRef .tc main_v147)
    = hidden₂ (aggAt E 0) (aggAt E 1) (aggAt E 2) (degAt E 0) (degAt E 1) (degAt E 2) zW κW εN
        (W4 (F := Ideal) m ρ c (Proc.devRef .tc main_v88))
        (m ((c : Thread nD τ).loc main_arg7)) (m ((c : Thread nD τ).loc main_arg8)) (m ((c : Thread nD τ).loc main_arg9))
        (m ((c : Thread nD τ).loc main_arg10)) (m ((c : Thread nD τ).loc main_arg11)) := by
  refine (W6_arr m ρ c 10).trans ((final2 (V5 m ρ) c).trans ?_)
  show block₁ zW κW εN (W5 m ρ c (Proc.devRef .tc main_v106)) (W5 m ρ c (Proc.devRef .tc main_v121))
      (W5 m ρ c (Proc.devRef .tc main_v136)) (W5 m ρ c (Proc.devRef .tc main_v88)) (W5 m ρ c (Proc.devRef .tc main_v31))
      (W5 m ρ c (Proc.devRef .tc main_v142)) (W5 m ρ c (Proc.devRef .tc main_v146)) (W5 m ρ c (Proc.devRef .tc main_v144))
      (W5 m ρ c (Proc.devRef .tc main_v138)) (W5 m ρ c (Proc.devRef .tc main_v140)) = _
  rw [W5_v106, W5_v121, W5_v136, W5_keep m ρ c main_v88 (by decide), W5_v31, W5_v142, W5_v146, W5_v144, W5_v138, W5_v140,
    W4_arg m ρ c main_arg1 (by decide) (by decide) (by decide) (by decide),
    W4_arg m ρ c main_arg7 (by decide) (by decide) (by decide) (by decide),
    W4_arg m ρ c main_arg8 (by decide) (by decide) (by decide) (by decide),
    W4_arg m ρ c main_arg9 (by decide) (by decide) (by decide) (by decide),
    W4_arg m ρ c main_arg10 (by decide) (by decide) (by decide) (by decide),
    W4_arg m ρ c main_arg11 (by decide) (by decide) (by decide) (by decide)]
  unfold rowK
  rw [slice_row (m ((c : Thread nD τ).loc main_arg10)) 1 (by decide), slice_row (m ((c : Thread nD τ).loc main_arg11)) 1 (by decide)]
  exact block₁_eq_hidden₂ (aggAt E 0) (aggAt E 1) (aggAt E 2) (degAt E 0) (degAt E 1) (degAt E 2) (invAllK E)
    (fun p => (invAll_col E p).1) (fun p => (invAll_col E p).2.1) (fun p => (invAll_col E p).2.2)
    (degK_ne_zero _) (degK_ne_zero _) (degK_ne_zero _) zW κW εN _ _ _ _ _ _ _ _ _
    (fun t => slice_stack _ 0 (by decide) _ _ t) (fun t => slice_stack _ 0 (by decide) _ _ t)
    (fun t => slice_stackRow _ 0 (by decide) _ _ t)

/-- After region 3: the network's result. -/
theorem W8_v200 : W8 (F := Ideal) m ρ c (Proc.devRef .tc main_v200)
    = net (aggAt E 0) (aggAt E 1) (aggAt E 2) (degAt E 0) (degAt E 1) (degAt E 2) zW κW εW εN
        (m ((c : Thread nD τ).loc main_arg0)) (m ((c : Thread nD τ).loc main_arg2)) (m ((c : Thread nD τ).loc main_arg3))
        (m ((c : Thread nD τ).loc main_arg4)) (m ((c : Thread nD τ).loc main_arg5)) (m ((c : Thread nD τ).loc main_arg6))
        (m ((c : Thread nD τ).loc main_arg7)) (m ((c : Thread nD τ).loc main_arg8)) (m ((c : Thread nD τ).loc main_arg9))
        (m ((c : Thread nD τ).loc main_arg10)) (m ((c : Thread nD τ).loc main_arg11)) := by
  refine (W8_arr m ρ c 10).trans ((final3 (V7 m ρ) c).trans ?_)
  show block₂ zW (W7 m ρ c (Proc.devRef .tc main_v163)) (W7 m ρ c (Proc.devRef .tc main_v178))
      (W7 m ρ c (Proc.devRef .tc main_v193)) (W7 m ρ c (Proc.devRef .tc main_v147)) (W7 m ρ c (Proc.devRef .tc main_v31))
      (W7 m ρ c (Proc.devRef .tc main_v195)) (W7 m ρ c (Proc.devRef .tc main_v199)) (W7 m ρ c (Proc.devRef .tc main_v197)) = _
  rw [W7_v163, W7_v178, W7_v193, W7_keep m ρ c main_v147 (by decide), W7_v31, W7_v195, W7_v199, W7_v197,
    W6_arg m ρ c main_arg1 (by decide) (by decide) (by decide) (by decide) (by decide) (by decide),
    W6_arg m ρ c main_arg7 (by decide) (by decide) (by decide) (by decide) (by decide) (by decide),
    W6_arg m ρ c main_arg8 (by decide) (by decide) (by decide) (by decide) (by decide) (by decide),
    W6_arg m ρ c main_arg9 (by decide) (by decide) (by decide) (by decide) (by decide) (by decide)]
  unfold net
  rw [← W4_v88 m ρ c, ← W6_v147 m ρ c]
  exact block₂_eq_mixed (aggAt E 0) (aggAt E 1) (aggAt E 2) (degAt E 0) (degAt E 1) (degAt E 2) (invAllK E)
    (fun p => (invAll_col E p).1) (fun p => (invAll_col E p).2.1) (fun p => (invAll_col E p).2.2)
    (degK_ne_zero _) (degK_ne_zero _) (degK_ne_zero _) zW _ _ _ _ 1 _ _ _
    (fun t => slice_stack _ 1 (by decide) _ _ t) (fun t => slice_stack _ 1 (by decide) _ _ t)
    (fun t => slice_stackRow _ 1 (by decide) _ _ t)

end Cert.KernelIdeal.HandValue

end
-- ==== Proof.LibHostRows.lean ====
/-
  The reference's sum along each row of an a×b array, on the extended reals, read at an index: the initial value plus
  the sum over the row's entries. Nothing here mentions a program.
-/
import Idealize.ShloMosaic.PureOps.Ideal
import Idealize.ShloMosaic.PureOps.Ideal.Laws
import Idealize.ShloMosaic.Lib.ValueIdx
import proofs.«151081_j64338610094389_2_alg».proof.Proof.LibRowReductions

open scoped BigOperators

namespace Cert.Lib.HostRows

open Idealize.ShloMosaic Idealize.ShloMosaic.ValueIdx

variable {a b : Nat}

/-- The reference's one-operand reduce with an add body along each row of an a×b array is at p the initial value's
    element plus the sum over k of the array at (p, k). -/
theorem host_rowsum_apply {u : Shape} (x : FVec Ideal ⟨2, ![a, b]⟩ .f32) (init : u.Idx → Ideal .f32)
    (h' : (⟨2, ![a, b]⟩ : Shape).ReducesTo [1] ⟨1, ![a]⟩) (hu : 0 < u.numel) (p : Fin a) :
    Host.reduceAdd x init h' hu (ix1 p) = init (Shape.Idx.first hu) + ∑ k : Fin b, x (ix2 p k) := by
  have h : (⟨2, ![a, b]⟩ : Shape).Reduces [1] ⟨1, ![a]⟩ := ⟨h'.1, Nat.one_pos, h'.2⟩
  simp only [Host.reduceAdd, Ideal.hostReduceAdd_def]
  rw [Ideal.hostReduceAdd_single h' h]
  exact congrArg (_ + ·) (Finset.sum_congr rfl fun k _ => congrArg x (Cert.Lib.RowReductions.lift_row h p k))

end Cert.Lib.HostRows
-- ==== Proof.RefStages.lean ====
/-
  The reference's spelling of each stage IS the stage function, on the extended reals.

  The stage functions (divRows, conv, unitRows, third, clampBelow, standardise, dense, and the slices of the stacked
  weights) are stated over whole arrays with no program in sight. The reference writes the same functions with
  broadcasts, row reductions from a zero, host quotients and a strided slice followed by a re-shaping. Index by index
  the two agree: a broadcast reads its operand at the kept coordinates, a row reduction from the zero word is the
  plain sum of the row (the zero word denotes 0), a host quotient is the division, and the quotient by the word of
  3.0 is the product with one third (the one literal evaluated: the word denotes the real 3). The other literal words
  (zero as the clamp's bound, 128.0, the two small words) stay unevaluated: they are parameters of the stage functions.
-/
import proofs.«151081_j64338610094389_2_alg».proof.Proof.SageNet
import proofs.«151081_j64338610094389_2_alg».proof.Proof.SageConsts
import proofs.«151081_j64338610094389_2_alg».proof.Proof.RefGraph
import proofs.«151081_j64338610094389_2_alg».proof.Proof.LibHostRows
import Idealize.ShloMosaic.Lib.IdealHost
import Idealize.ShloMosaic.Lib.ValueLayout

open scoped BigOperators

noncomputable section

namespace Cert.RefSide

open Cert.ReferenceIdeal Cert.ReferenceIdeal.Gen Idealize.ShloMosaic Idealize.ShloMosaic.ValueIdx
open Cert.Sage Cert.Lib.MatProd Cert.Layers Cert.Lib.RowVector Cert.Lib.BiasRelu

/-! ## The literal words -/

/-- The zero word. -/
abbrev wZero : EReal := Ideal.ofBits .f32 0x00000000#32
/-- The word of 128.0, the column count. -/
abbrev wCols : EReal := Ideal.ofBits .f32 0x43000000#32
/-- The small word the unit-length divisor is clamped below at. -/
abbrev wUnit : EReal := Ideal.ofBits .f32 0x2B8CBCCC#32
/-- The small word added to the variance. -/
abbrev wVar : EReal := Ideal.ofBits .f32 0x3727C5AC#32

/-! ## Broadcasts and row sums read at an index -/

theorem zeros2_apply (i : S100000x128.Idx) : zeros2 (F := Ideal) i = wZero :=
  Cert.Lib.RowVector.bcastInDim_scalar_apply _ _ i

theorem biasR_apply (v : FVec Ideal S128 .f32) (p : Fin 100000) (q : Fin 128) : biasR v (ix2 p q) = v (ix1 q) := by
  unfold biasR
  rw [Cert.Lib.RowVector.bcastInDim_rows_apply, Cert.Lib.RowVector.bcastInDim_eq_asRow]
  rfl

theorem colsR_apply (d : FVec Ideal S100000x1 .f32) (p : Fin 100000) (q : Fin 128) : colsR d (ix2 p q) = d (ix2 p 0) :=
  Cert.Lib.RowReductions.bcastInDim_cols_apply _ _ p q

theorem colR_apply (d : FVec Ideal S100000 .f32) (p : Fin 100000) : colR d (ix2 p 0) = d (ix1 p) :=
  Cert.Lib.RowReductions.bcastInDim_col_apply _ _ p

theorem wordCol_apply (w : BitVec 32) (i : S100000x1.Idx) : wordCol (F := Ideal) w i = Ideal.ofBits .f32 w :=
  Cert.Lib.RowVector.bcastInDim_scalar_apply _ _ i

/-- The host's square root at an index is the square root of the element. -/
theorem hostSqrt_apply {s : Shape} (x : FVec Ideal s .f32) (i : s.Idx) : Host.sqrt x i = Ideal.sqrt (x i) :=
  Ideal.hostUnary_sqrt_def (x i)

/-- The reference's row sum from the zero word is the plain sum of the row. -/
theorem rowSumR_apply (X : FVec Ideal S100000x128 .f32) (p : Fin 100000) :
    rowSumR X (ix1 p) = ∑ k : Fin 128, X (ix2 p k) := by
  unfold rowSumR
  rw [Cert.Lib.HostRows.host_rowsum_apply]
  show Ideal.ofBits .f32 0x00000000#32 + _ = _
  rw [Ideal.ofBits_zero_f32, zero_add]

/-! ## The stages -/

theorem dotR_eq (A : FVec Ideal S100000x128 .f32) (W : FVec Ideal S128x128 .f32) : dotR A W = matProd A W :=
  dotGeneral_eq_matProd _ rfl rfl rfl rfl rfl rfl none .single A W

theorem divRowsR_eq (A : FVec Ideal S100000x128 .f32) (d : FVec Ideal S100000 .f32) : divRowsR A d = divRows A d := by
  funext i
  obtain ⟨p, q, rfl⟩ : ∃ (p : Fin 100000) (q : Fin 128), i = ix2 p q := ⟨i 0, i 1, eq_ix2 i⟩
  rw [divRows_apply]
  unfold divRowsR
  rw [hostDivf_apply, colsR_apply, colR_apply]

theorem reluR_eq (X : FVec Ideal S100000x128 .f32) : reluR X = clampBelow wZero X := by
  funext i
  rw [clampBelow_apply]
  unfold reluR
  rw [maximumf_apply, zeros2_apply]

theorem denseR_eq (x : FVec Ideal S100000x128 .f32) (Wp : FVec Ideal S128x128 .f32) (bp : FVec Ideal S128 .f32) :
    denseR x Wp bp = dense x Wp bp := by
  unfold denseR reluR zeros2 biasR dense
  rw [dotR_eq]
  exact Cert.Lib.BiasRelu.host_eq _ _ _ _ _

theorem convR_eq (A H : FVec Ideal S100000x128 .f32) (Wl : FVec Ideal S128x128 .f32) (bl : FVec Ideal S128 .f32)
    (Wr : FVec Ideal S128x128 .f32) : convR A H Wl bl Wr = conv A H Wl bl Wr := by
  unfold convR biasR
  rw [dotR_eq, dotR_eq, Cert.Layers.host_bias]
  rfl

theorem unitR_eq (O : FVec Ideal S100000x128 .f32) : unitR O = unitRows wUnit O := by
  funext i
  obtain ⟨p, q, rfl⟩ : ∃ (p : Fin 100000) (q : Fin 128), i = ix2 p q := ⟨i 0, i 1, eq_ix2 i⟩
  rw [unitRows_apply]
  unfold unitR
  rw [hostDivf_apply, colsR_apply, maximumf_apply, wordCol_apply, hostSqrt_apply, colR_apply, rowSumR_apply]
  rfl

theorem thirdR_eq (X₀ X₁ X₂ : FVec Ideal S100000x128 .f32) : thirdR X₀ X₁ X₂ = third wZero X₀ X₁ X₂ := by
  funext i
  rw [third_apply]
  unfold thirdR
  rw [hostDivf_apply, addf_apply, addf_apply, addf_apply, zeros2_apply, Cert.Lib.RowVector.bcastInDim_scalar_apply]
  show Ideal.div _ (Ideal.ofBits .f32 0x40400000#32) = _
  rw [Cert.Sage.Consts.ofBits_three, Ideal.div_coe (by norm_num : (3 : ℝ) ≠ 0)]

theorem meanR_apply (X : FVec Ideal S100000x128 .f32) (p : Fin 100000) : meanR X (ix2 p 0) = rowMean wCols X p := by
  unfold meanR rowMean
  rw [hostDivf_apply, colR_apply, rowSumR_apply, wordCol_apply]

theorem centredR_apply (X : FVec Ideal S100000x128 .f32) (p : Fin 100000) (q : Fin 128) :
    centredR X (ix2 p q) = X (ix2 p q) - rowMean wCols X p := by
  unfold centredR
  rw [subf_apply, colsR_apply, meanR_apply]

theorem varR_apply (X : FVec Ideal S100000x128 .f32) (p : Fin 100000) : varR X (ix2 p 0) = rowVar wCols X p := by
  unfold varR rowVar
  rw [hostDivf_apply, colR_apply, rowSumR_apply, wordCol_apply]
  exact congrArg (Ideal.div · wCols) (Finset.sum_congr rfl fun j _ => by rw [mulf_apply, centredR_apply])

theorem lnR_eq (X : FVec Ideal S100000x128 .f32) (g b : FVec Ideal S128 .f32) :
    lnR X g b = standardise wCols wVar X g b := by
  funext i
  obtain ⟨p, q, rfl⟩ : ∃ (p : Fin 100000) (q : Fin 128), i = ix2 p q := ⟨i 0, i 1, eq_ix2 i⟩
  rw [standardise_apply]
  unfold lnR
  rw [addf_apply, mulf_apply, hostDivf_apply, centredR_apply, colsR_apply, biasR_apply, biasR_apply, hostSqrt_apply,
    addf_apply, varR_apply, wordCol_apply]

/-! ## The slices of the stacked weights -/

theorem slab3R_eq (W : FVec Ideal S3x128x128 .f32) (t : Fin 3) (h : S3x128x128.Slices ![t.val, 0, 0] S1x128x128) :
    slab3R W t.val h = slab W t := by
  funext i
  obtain ⟨a, b, rfl⟩ : ∃ (a : Fin 128) (b : Fin 128), i = ix2 a b := ⟨i 0, i 1, eq_ix2 i⟩
  unfold slab3R
  rw [shapeCast_1ab_ab_apply]
  exact extractStridedSlice_apply _ _ _ _ (ix3 t a b) fun ax => by
    match ax with
    | ⟨0, _⟩ => exact (Nat.add_zero _).symm
    | ⟨1, _⟩ => exact (Nat.zero_add _).symm
    | ⟨2, _⟩ => exact (Nat.zero_add _).symm

theorem rowR_eq {T : ℕ} (B : FVec Ideal ⟨2, ![T, 128]⟩ .f32) (t : Fin T)
    (h : (⟨2, ![T, 128]⟩ : Shape).Slices ![t.val, 0] S1x128) : rowR B t.val h = rowVec B t := by
  funext i
  obtain ⟨q, rfl⟩ : ∃ q : Fin 128, i = ix1 q := ⟨i 0, eq_ix1 i⟩
  unfold rowR
  rw [shapeCast_1a_a_apply]
  exact slice2_axis0_apply t.val B h 0 q t (Nat.add_zero _).symm

theorem slab4R_eq (W : FVec Ideal S2x3x128x128 .f32) (l : Fin 2) (t : Fin 3)
    (h : S2x3x128x128.Slices ![l.val, t.val, 0, 0] S1x1x128x128) : slab4R W l.val t.val h = slab2 W l t := by
  funext i
  obtain ⟨a, b, rfl⟩ : ∃ (a : Fin 128) (b : Fin 128), i = ix2 a b := ⟨i 0, i 1, eq_ix2 i⟩
  unfold slab4R
  rw [shapeCast_apply _ _ (ix2 a b) (ix4 (0 : Fin 1) (0 : Fin 1) a b) (by
    rw [Shape.rowMajor_val_four, Shape.rowMajor_val_two]
    show ((0 * 1 + 0) * 128 + a.val) * 128 + b.val = a.val * 128 + b.val
    simp only [Nat.zero_mul, Nat.zero_add])]
  exact extractStridedSlice_apply _ _ _ _ (ix4 l t a b) fun ax => by
    match ax with
    | ⟨0, _⟩ => exact (Nat.add_zero _).symm
    | ⟨1, _⟩ => exact (Nat.add_zero _).symm
    | ⟨2, _⟩ => exact (Nat.zero_add _).symm
    | ⟨3, _⟩ => exact (Nat.zero_add _).symm

theorem row3R_eq (B : FVec Ideal S2x3x128 .f32) (l : Fin 2) (t : Fin 3)
    (h : S2x3x128.Slices ![l.val, t.val, 0] S1x1x128) : row3R B l.val t.val h = rowVec2 B l t := by
  funext i
  obtain ⟨q, rfl⟩ : ∃ q : Fin 128, i = ix1 q := ⟨i 0, eq_ix1 i⟩
  unfold row3R
  rw [shapeCast_apply _ _ (ix1 q) (ix3 (0 : Fin 1) (0 : Fin 1) q) (by
    rw [Shape.rowMajor_val_three, Shape.rowMajor_val_one]
    show (0 * 1 + 0) * 128 + q.val = q.val
    simp only [Nat.zero_mul, Nat.zero_add])]
  exact extractStridedSlice_apply _ _ _ _ (ix3 l t q) fun ax => by
    match ax with
    | ⟨0, _⟩ => exact (Nat.add_zero _).symm
    | ⟨1, _⟩ => exact (Nat.add_zero _).symm
    | ⟨2, _⟩ => exact (Nat.zero_add _).symm

end Cert.RefSide

end
-- ==== Proof.RefNet.lean ====
/-
  The reference's result IS the network function of the argument arrays.

  Each layer function of the reference's spelling is the corresponding layer of the network over the reference's
  own aggregation maps and divisor vectors (one rewriting pass per layer with the stage equalities: the slices of the
  stacked weights, the dense layer, the quotient by the degree, the convolution, the unit-length scaling, the mean of
  the three edge types, the clamp and the standardisation), and the result is layer 2 of layer 1 of layer 0.
-/
import proofs.«151081_j64338610094389_2_alg».proof.Proof.RefStages

noncomputable section

namespace Cert.RefSide

open Cert.ReferenceIdeal Cert.ReferenceIdeal.Gen Idealize.ShloMosaic Idealize.ShloMosaic.TcCoe Idealize.SL.Sem
open Cert.Sage Cert.Lib.MatProd Cert.Layers

/-! ## The slices at the literal positions the reference takes them at -/

theorem slab3R_0 (W : FVec Ideal S3x128x128 .f32) (h : S3x128x128.Slices ![0, 0, 0] S1x128x128) :
    slab3R W 0 h = slab W 0 := slab3R_eq W 0 h
theorem rowR3_0 (B : FVec Ideal S3x128 .f32) (h : S3x128.Slices ![0, 0] S1x128) :
    rowR (T := 3) B 0 h = rowVec B 0 := rowR_eq (T := 3) B 0 h
theorem slab3R_1 (W : FVec Ideal S3x128x128 .f32) (h : S3x128x128.Slices ![1, 0, 0] S1x128x128) :
    slab3R W 1 h = slab W 1 := slab3R_eq W 1 h
theorem rowR3_1 (B : FVec Ideal S3x128 .f32) (h : S3x128.Slices ![1, 0] S1x128) :
    rowR (T := 3) B 1 h = rowVec B 1 := rowR_eq (T := 3) B 1 h
theorem slab3R_2 (W : FVec Ideal S3x128x128 .f32) (h : S3x128x128.Slices ![2, 0, 0] S1x128x128) :
    slab3R W 2 h = slab W 2 := slab3R_eq W 2 h
theorem rowR3_2 (B : FVec Ideal S3x128 .f32) (h : S3x128.Slices ![2, 0] S1x128) :
    rowR (T := 3) B 2 h = rowVec B 2 := rowR_eq (T := 3) B 2 h
theorem rowR2_0 (B : FVec Ideal S2x128 .f32) (h : S2x128.Slices ![0, 0] S1x128) :
    rowR (T := 2) B 0 h = rowVec B 0 := rowR_eq (T := 2) B 0 h
theorem rowR2_1 (B : FVec Ideal S2x128 .f32) (h : S2x128.Slices ![1, 0] S1x128) :
    rowR (T := 2) B 1 h = rowVec B 1 := rowR_eq (T := 2) B 1 h
theorem slab4R_0_0 (W : FVec Ideal S2x3x128x128 .f32) (h : S2x3x128x128.Slices ![0, 0, 0, 0] S1x1x128x128) :
    slab4R W 0 0 h = slab2 W 0 0 := slab4R_eq W 0 0 h
theorem row3R_0_0 (B : FVec Ideal S2x3x128 .f32) (h : S2x3x128.Slices ![0, 0, 0] S1x1x128) :
    row3R B 0 0 h = rowVec2 B 0 0 := row3R_eq B 0 0 h
theorem slab4R_0_1 (W : FVec Ideal S2x3x128x128 .f32) (h : S2x3x128x128.Slices ![0, 1, 0, 0] S1x1x128x128) :
    slab4R W 0 1 h = slab2 W 0 1 := slab4R_eq W 0 1 h
theorem row3R_0_1 (B : FVec Ideal S2x3x128 .f32) (h : S2x3x128.Slices ![0, 1, 0] S1x1x128) :
    row3R B 0 1 h = rowVec2 B 0 1 := row3R_eq B 0 1 h
theorem slab4R_0_2 (W : FVec Ideal S2x3x128x128 .f32) (h : S2x3x128x128.Slices ![0, 2, 0, 0] S1x1x128x128) :
    slab4R W 0 2 h = slab2 W 0 2 := slab4R_eq W 0 2 h
theorem row3R_0_2 (B : FVec Ideal S2x3x128 .f32) (h : S2x3x128.Slices ![0, 2, 0] S1x1x128) :
    row3R B 0 2 h = rowVec2 B 0 2 := row3R_eq B 0 2 h
theorem slab4R_1_0 (W : FVec Ideal S2x3x128x128 .f32) (h : S2x3x128x128.Slices ![1, 0, 0, 0] S1x1x128x128) :
    slab4R W 1 0 h = slab2 W 1 0 := slab4R_eq W 1 0 h
theorem row3R_1_0 (B : FVec Ideal S2x3x128 .f32) (h : S2x3x128.Slices ![1, 0, 0] S1x1x128) :
    row3R B 1 0 h = rowVec2 B 1 0 := row3R_eq B 1 0 h
theorem slab4R_1_1 (W : FVec Ideal S2x3x128x128 .f32) (h : S2x3x128x128.Slices ![1, 1, 0, 0] S1x1x128x128) :
    slab4R W 1 1 h = slab2 W 1 1 := slab4R_eq W 1 1 h
theorem row3R_1_1 (B : FVec Ideal S2x3x128 .f32) (h : S2x3x128.Slices ![1, 1, 0] S1x1x128) :
    row3R B 1 1 h = rowVec2 B 1 1 := row3R_eq B 1 1 h
theorem slab4R_1_2 (W : FVec Ideal S2x3x128x128 .f32) (h : S2x3x128x128.Slices ![1, 2, 0, 0] S1x1x128x128) :
    slab4R W 1 2 h = slab2 W 1 2 := slab4R_eq W 1 2 h
theorem row3R_1_2 (B : FVec Ideal S2x3x128 .f32) (h : S2x3x128.Slices ![1, 2, 0] S1x1x128) :
    row3R B 1 2 h = rowVec2 B 1 2 := row3R_eq B 1 2 h

/-! ## The layers -/

theorem firstR_eq (ei : IVec S2x500000 32) (x : FVec Ideal S100000x128 .f32) (Wp : FVec Ideal S128x128 .f32)
    (bp : FVec Ideal S128 .f32) (Wl : FVec Ideal S128x128 .f32) (bl : FVec Ideal S128 .f32) (Wr : FVec Ideal S128x128 .f32) :
    firstR ei x Wp bp Wl bl Wr = first (aggOf (F := Ideal) ei) (degOf (F := Ideal) ei) wUnit x Wp bp Wl bl Wr := by
  unfold firstR first
  rw [denseR_eq, divRowsR_eq, convR_eq, unitR_eq]

theorem laterR_eq (ei : IVec S2x500000 32) (h : FVec Ideal S100000x128 .f32) (Wl : FVec Ideal S128x128 .f32)
    (bl : FVec Ideal S128 .f32) (Wr : FVec Ideal S128x128 .f32) :
    laterR ei h Wl bl Wr = later (aggOf (F := Ideal) ei) (degOf (F := Ideal) ei) h Wl bl Wr := by
  unfold laterR later
  rw [divRowsR_eq, convR_eq]

theorem refL0_eq (x : FVec Ideal S100000x128 .f32) (e : IVec S3x2x500000 32) (Wp : FVec Ideal S3x128x128 .f32)
    (bp : FVec Ideal S3x128 .f32) (Wl0 : FVec Ideal S3x128x128 .f32) (bl0 : FVec Ideal S3x128 .f32)
    (Wr0 : FVec Ideal S3x128x128 .f32) (g b : FVec Ideal S2x128 .f32) :
    refL0 x e Wp bp Wl0 bl0 Wr0 g b
      = hidden₁ (aggOf (F := Ideal) (edgesAt e 0)) (aggOf (F := Ideal) (edgesAt e 1)) (aggOf (F := Ideal) (edgesAt e 2))
          (degOf (F := Ideal) (edgesAt e 0)) (degOf (F := Ideal) (edgesAt e 1)) (degOf (F := Ideal) (edgesAt e 2)) wZero wCols wUnit wVar
          x Wp bp Wl0 bl0 Wr0 g b := by
  unfold refL0 hidden₁
  simp only [firstR_eq, thirdR_eq, reluR_eq, lnR_eq, slab3R_0, slab3R_1, slab3R_2, rowR3_0, rowR3_1, rowR3_2, rowR2_0]

theorem refL1_eq (h : FVec Ideal S100000x128 .f32) (e : IVec S3x2x500000 32) (Wl : FVec Ideal S2x3x128x128 .f32)
    (bl : FVec Ideal S2x3x128 .f32) (Wr : FVec Ideal S2x3x128x128 .f32) (g b : FVec Ideal S2x128 .f32) :
    refL1 h e Wl bl Wr g b
      = hidden₂ (aggOf (F := Ideal) (edgesAt e 0)) (aggOf (F := Ideal) (edgesAt e 1)) (aggOf (F := Ideal) (edgesAt e 2))
          (degOf (F := Ideal) (edgesAt e 0)) (degOf (F := Ideal) (edgesAt e 1)) (degOf (F := Ideal) (edgesAt e 2)) wZero wCols wVar h Wl bl Wr g b := by
  unfold refL1 refMix1 hidden₂ mixed
  simp only [laterR_eq, thirdR_eq, reluR_eq, lnR_eq, slab4R_0_0, slab4R_0_1, slab4R_0_2, row3R_0_0, row3R_0_1, row3R_0_2,
    rowR2_1]

theorem refL2_eq (h : FVec Ideal S100000x128 .f32) (e : IVec S3x2x500000 32) (Wl : FVec Ideal S2x3x128x128 .f32)
    (bl : FVec Ideal S2x3x128 .f32) (Wr : FVec Ideal S2x3x128x128 .f32) :
    refL2 h e Wl bl Wr
      = mixed (aggOf (F := Ideal) (edgesAt e 0)) (aggOf (F := Ideal) (edgesAt e 1)) (aggOf (F := Ideal) (edgesAt e 2))
          (degOf (F := Ideal) (edgesAt e 0)) (degOf (F := Ideal) (edgesAt e 1)) (degOf (F := Ideal) (edgesAt e 2)) wZero h Wl bl Wr 1 := by
  unfold refL2 mixed
  simp only [laterR_eq, thirdR_eq, slab4R_1_0, slab4R_1_1, slab4R_1_2, row3R_1_0, row3R_1_1, row3R_1_2]

/-! ## The whole network -/

/-- The reference's result, of the arguments in memory `m` on device `c`, is the network over the reference's
    aggregation maps and divisor vectors, at the four literal words and the eleven float argument arrays. -/
theorem ref_is_net (m : (ℓ : Loc nD τ sig) → Buf (Elt Ideal) ℓ) (c : Dev nD) :
    refOut (F := Ideal) m c
      = net (aggOf (F := Ideal) (edgesAt (m ((c.tc : Thread nD τ).loc main_arg1)) 0)) (aggOf (F := Ideal) (edgesAt (m ((c.tc : Thread nD τ).loc main_arg1)) 1))
          (aggOf (F := Ideal) (edgesAt (m ((c.tc : Thread nD τ).loc main_arg1)) 2)) (degOf (F := Ideal) (edgesAt (m ((c.tc : Thread nD τ).loc main_arg1)) 0))
          (degOf (F := Ideal) (edgesAt (m ((c.tc : Thread nD τ).loc main_arg1)) 1)) (degOf (F := Ideal) (edgesAt (m ((c.tc : Thread nD τ).loc main_arg1)) 2))
          wZero wCols wUnit wVar
          (m ((c.tc : Thread nD τ).loc main_arg0)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6))
          (m ((c.tc : Thread nD τ).loc main_arg7)) (m ((c.tc : Thread nD τ).loc main_arg8)) (m ((c.tc : Thread nD τ).loc main_arg9))
          (m ((c.tc : Thread nD τ).loc main_arg10)) (m ((c.tc : Thread nD τ).loc main_arg11)) := by
  unfold refOut refH2 refH1
  rw [refL0_eq, refL1_eq, refL2_eq]
  rfl

end Cert.RefSide

end
-- ==== Proof.SageEdges.lean ====
/-
  Two ways of cutting the index vector of edge type o, end k (0 the sources, 1 the destinations) out of a T×2×E edge
  array: in one step, as a 1×1×E slice re-shaped to a vector; or in two, first the 2×E block of type o, then row k of
  it. Both read the array at (o, k, i). Nothing here mentions a program.
-/
import Idealize.ShloMosaic.Lib.ValueIdx
import Idealize.ShloMosaic.Lib.ValueLayout
import Idealize.ShloMosaic.Lib.Pipeline.Value

noncomputable section

namespace Cert.Sage

open Idealize.ShloMosaic Idealize.ShloMosaic.ValueIdx

variable {α : Type} {T E : Nat}

/-- In one step. -/
theorem edge_direct (e : (⟨3, ![T, 2, E]⟩ : Shape).Idx → α) (o : Nat) (ho : o < T) (k : Nat) (hk : k < 2)
    (hs : (⟨3, ![T, 2, E]⟩ : Shape).Slices ![o, k, 0] ⟨3, ![1, 1, E]⟩)
    (hc : (⟨3, ![1, 1, E]⟩ : Shape).ShapeCasts ⟨1, ![E]⟩) :
    shapeCast ⟨1, ![E]⟩ (extractStridedSlice ⟨3, ![1, 1, E]⟩ ![o, k, 0] e hs) hc
      = fun i => e (ix3 ⟨o, ho⟩ ⟨k, hk⟩ (i 0)) := by
  funext i
  obtain ⟨q, rfl⟩ : ∃ q : Fin E, i = ix1 q := ⟨i 0, eq_ix1 i⟩
  rw [shapeCast_apply _ hc (ix1 q) (ix3 (0 : Fin 1) (0 : Fin 1) q) (by
    rw [Shape.rowMajor_val_one, Shape.rowMajor_val_three]
    show (0 * 1 + 0) * E + q.val = q.val
    omega)]
  refine extractStridedSlice_apply _ e hs (ix3 0 0 q) (ix3 ⟨o, ho⟩ ⟨k, hk⟩ q) fun ax => ?_
  match ax with
  | ⟨0, _⟩ => show o = o + 0; rfl
  | ⟨1, _⟩ => show k = k + 0; rfl
  | ⟨2, _⟩ => show q.val = 0 + q.val; omega

/-- In two steps. -/
theorem edge_twostep (e : (⟨3, ![T, 2, E]⟩ : Shape).Idx → α) (o : Nat) (ho : o < T) (k : Nat) (hk : k < 2)
    (hs₁ : (⟨3, ![T, 2, E]⟩ : Shape).Slices ![o, 0, 0] ⟨3, ![1, 2, E]⟩)
    (hc₁ : (⟨3, ![1, 2, E]⟩ : Shape).ShapeCasts ⟨2, ![2, E]⟩)
    (hs₂ : (⟨2, ![2, E]⟩ : Shape).Slices ![k, 0] ⟨2, ![1, E]⟩)
    (hc₂ : (⟨2, ![1, E]⟩ : Shape).ShapeCasts ⟨1, ![E]⟩) :
    shapeCast ⟨1, ![E]⟩ (extractStridedSlice ⟨2, ![1, E]⟩ ![k, 0]
        (shapeCast ⟨2, ![2, E]⟩ (extractStridedSlice ⟨3, ![1, 2, E]⟩ ![o, 0, 0] e hs₁) hc₁) hs₂) hc₂
      = fun i => e (ix3 ⟨o, ho⟩ ⟨k, hk⟩ (i 0)) := by
  funext i
  obtain ⟨q, rfl⟩ : ∃ q : Fin E, i = ix1 q := ⟨i 0, eq_ix1 i⟩
  rw [shapeCast_1a_a_apply, slice2_axis0_apply k _ hs₂ 0 q ⟨k, hk⟩ (by show k = k + 0; rfl), shapeCast_1ab_ab_apply]
  refine extractStridedSlice_apply _ e hs₁ (ix3 0 ⟨k, hk⟩ q) (ix3 ⟨o, ho⟩ ⟨k, hk⟩ q) fun ax => ?_
  match ax with
  | ⟨0, _⟩ => show o = o + 0; rfl
  | ⟨1, _⟩ => show k = 0 + k; omega
  | ⟨2, _⟩ => show q.val = 0 + q.val; omega

end Cert.Sage

end
-- ==== Proof.GraphEq.lean ====
/-
  The two programs' graph data are the same functions of the edge array.

  The kernel program cuts each index vector out of the edge array in one step, the reference in two (the edge type's
  2×E block first, then a row of it); both read the array at (type, end, i). The gather, the scatter-add and the degree
  count are then spelled alike, with each program's own copy of the same dimension records, and the kernel's widening of
  the gathered half-width rows is the identity on the extended reals. So the kernel side's aggregation maps and divisor
  vectors are the reference side's.
-/
import proofs.«151081_j64338610094389_2_alg».proof.Proof.KIChain
import proofs.«151081_j64338610094389_2_alg».proof.Proof.RefNet
import proofs.«151081_j64338610094389_2_alg».proof.Proof.SageEdges

set_option maxRecDepth 16384

noncomputable section

namespace Cert.Proof.GraphEq

open Idealize.ShloMosaic Idealize.ShloMosaic.ValueIdx Cert.Sage
open Cert.KernelIdeal.HandValue

variable (e : IVec Cert.KernelIdeal.S3x2x500000 32)

theorem src0 : srcK e 0 Cert.KernelIdeal.Facts₀.slices_S3x2x500000_S1x1x500000_0_0_0 = Cert.RefSide.edgeSrc (Cert.RefSide.edgesAt e 0) :=
  (edge_direct e 0 (by decide) 0 (by decide) _ _).trans (edge_twostep e 0 (by decide) 0 (by decide) Cert.ReferenceIdeal.Gen.slices_S3x2x500000_S1x2x500000_0_0_0 _ _ _).symm
theorem src1 : srcK e 1 Cert.KernelIdeal.Facts₀.slices_S3x2x500000_S1x1x500000_1_0_0 = Cert.RefSide.edgeSrc (Cert.RefSide.edgesAt e 1) :=
  (edge_direct e 1 (by decide) 0 (by decide) _ _).trans (edge_twostep e 1 (by decide) 0 (by decide) Cert.ReferenceIdeal.Gen.slices_S3x2x500000_S1x2x500000_1_0_0 _ _ _).symm
theorem src2 : srcK e 2 Cert.KernelIdeal.Facts₀.slices_S3x2x500000_S1x1x500000_2_0_0 = Cert.RefSide.edgeSrc (Cert.RefSide.edgesAt e 2) :=
  (edge_direct e 2 (by decide) 0 (by decide) _ _).trans (edge_twostep e 2 (by decide) 0 (by decide) Cert.ReferenceIdeal.Gen.slices_S3x2x500000_S1x2x500000_2_0_0 _ _ _).symm
theorem dst0 : dstK e 0 Cert.KernelIdeal.Facts₀.slices_S3x2x500000_S1x1x500000_0_1_0 = Cert.RefSide.edgeDst (Cert.RefSide.edgesAt e 0) :=
  (edge_direct e 0 (by decide) 1 (by decide) _ _).trans (edge_twostep e 0 (by decide) 1 (by decide) Cert.ReferenceIdeal.Gen.slices_S3x2x500000_S1x2x500000_0_0_0 _ _ _).symm
theorem dst1 : dstK e 1 Cert.KernelIdeal.Facts₀.slices_S3x2x500000_S1x1x500000_1_1_0 = Cert.RefSide.edgeDst (Cert.RefSide.edgesAt e 1) :=
  (edge_direct e 1 (by decide) 1 (by decide) _ _).trans (edge_twostep e 1 (by decide) 1 (by decide) Cert.ReferenceIdeal.Gen.slices_S3x2x500000_S1x2x500000_1_0_0 _ _ _).symm
theorem dst2 : dstK e 2 Cert.KernelIdeal.Facts₀.slices_S3x2x500000_S1x1x500000_2_1_0 = Cert.RefSide.edgeDst (Cert.RefSide.edgesAt e 2) :=
  (edge_direct e 2 (by decide) 1 (by decide) _ _).trans (edge_twostep e 2 (by decide) 1 (by decide) Cert.ReferenceIdeal.Gen.slices_S3x2x500000_S1x2x500000_2_0_0 _ _ _).symm

/-- The aggregation maps agree. -/
theorem agg_eq : ∀ t : Fin 3, aggAt e t = Cert.RefSide.aggOf (F := Ideal) (Cert.RefSide.edgesAt e t)
  | 0 => by funext f; show aggK _ _ f = _; rw [src0, dst0]; rfl
  | 1 => by funext f; show aggK _ _ f = _; rw [src1, dst1]; rfl
  | 2 => by funext f; show aggK _ _ f = _; rw [src2, dst2]; rfl

/-- The divisor vectors agree. -/
theorem deg_eq : ∀ t : Fin 3, degAt e t = Cert.RefSide.degOf (F := Ideal) (Cert.RefSide.edgesAt e t)
  | 0 => by show degK _ = _; rw [dst0]; rfl
  | 1 => by show degK _ = _; rw [dst1]; rfl
  | 2 => by show degK _ = _; rw [dst2]; rfl

end Cert.Proof.GraphEq

end
-- ==== Proof.lean ====
/-
  A three-layer heterogeneous graph convolution (mean aggregation over three edge types, a projection and unit-length
  rows in the first layer, row standardisation between layers) computed by four pipelined kernels with host
  gather/scatter between them, against the plain array program.

  Frames. Each kernel program's @main is eight segments — four stretches of host operations and four kernel regions —
  run one after the other; every region's body loads its windows' blocks, computes, and stores its output block whole,
  so each region terminates without a fault and leaves every array but its output as it found it, and no segment writes
  an argument. The reference is host operations only.

  Values, on the extended reals. Both programs compute ONE function of the argument arrays, `Cert.Sage.net`: the graph
  enters only through the per-edge-type aggregation maps and the degrees clamped below at one, which both programs
  compute by the same gather and scatter-add from index vectors they cut out of the edge array in two different but
  equal ways. The kernel multiplies by reciprocal degrees where the reference divides (equal, a degree being at least
  one), multiplies by a constant named one third where the reference divides by three (equal everywhere), and
  multiplies by a reciprocal square root of a variance plus ε where the reference divides by the square root (equal, the
  variance plus ε being positive); nothing else differs beyond tiling, and no step needs a finite input.
-/
import proofs.«151081_j64338610094389_2_alg».proof.Defs
import proofs.«151081_j64338610094389_2_alg».proof.Proof.Gen.Kernel
import proofs.«151081_j64338610094389_2_alg».proof.Proof.Gen.KernelIdeal
import proofs.«151081_j64338610094389_2_alg».proof.Proof.Gen.ReferenceIdeal
import proofs.«151081_j64338610094389_2_alg».proof.Proof.Gen.Pre_finite_inputs
import proofs.«151081_j64338610094389_2_alg».proof.Proof.KRun
import proofs.«151081_j64338610094389_2_alg».proof.Proof.RefFrame
import proofs.«151081_j64338610094389_2_alg».proof.Proof.GraphEq

set_option maxRecDepth 16384

noncomputable section

namespace Cert.Proof

open Idealize.ShloMosaic Idealize.ShloMosaic.TcCoe Idealize.SL.Sem

/-- The kernel program as printed runs to its end without a fault and leaves its arguments unchanged. -/
theorem frame_k : Cert.frame_Kernel := fun m ρ _ => Cert.Kernel.Hand.frame (F := Bits) m ρ

/-- So does its idealization. -/
theorem frame_ki : Cert.frame_KernelIdeal := fun m ρ _ => Cert.KernelIdeal.Hand.frame (F := Ideal) m ρ

/-- The three named thirds: the program's table gives the name "inv_3" the value 1/3, and the printed constant is that
    value on the extended reals. -/
theorem preserves : Cert.preserves_Kernel_KernelIdeal :=
  ⟨IdealRules.named_const.statement Cert.KernelIdeal.κ "inv_3" .f32 0x3EAAAAAB#32 ((1 / 3 : ℝ) : EReal) rfl,
   IdealRules.named_const.statement Cert.KernelIdeal.κ "inv_3" .f32 0x3EAAAAAB#32 ((1 / 3 : ℝ) : EReal) rfl,
   IdealRules.named_const.statement Cert.KernelIdeal.κ "inv_3" .f32 0x3EAAAAAB#32 ((1 / 3 : ℝ) : EReal) rfl⟩

open Cert.KernelIdeal.HandValue Cert.KernelIdeal.Hand in
/-- Both idealized programs end with the network function of the (agreeing) argument arrays in their result. -/
theorem algebraic : Cert.algebraic_KernelIdeal_ReferenceIdeal := by
  intro m ρ m' ρ' _ hagree
  refine ⟨fun c => Cert.Sage.net
      (aggAt (m ((c.tc : Thread Cert.KernelIdeal.nD Cert.KernelIdeal.τ).loc Cert.KernelIdeal.main_arg1)) 0)
      (aggAt (m ((c.tc : Thread Cert.KernelIdeal.nD Cert.KernelIdeal.τ).loc Cert.KernelIdeal.main_arg1)) 1)
      (aggAt (m ((c.tc : Thread Cert.KernelIdeal.nD Cert.KernelIdeal.τ).loc Cert.KernelIdeal.main_arg1)) 2)
      (degAt (m ((c.tc : Thread Cert.KernelIdeal.nD Cert.KernelIdeal.τ).loc Cert.KernelIdeal.main_arg1)) 0)
      (degAt (m ((c.tc : Thread Cert.KernelIdeal.nD Cert.KernelIdeal.τ).loc Cert.KernelIdeal.main_arg1)) 1)
      (degAt (m ((c.tc : Thread Cert.KernelIdeal.nD Cert.KernelIdeal.τ).loc Cert.KernelIdeal.main_arg1)) 2)
      (Ideal.ofBits .f32 0x00000000#32) (Ideal.ofBits .f32 0x43000000#32) (Ideal.ofBits .f32 0x2B8CBCCC#32)
      (Ideal.ofBits .f32 0x3727C5AC#32)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6))
          (m ((c.tc : Thread Cert.KernelIdeal.nD Cert.KernelIdeal.τ).loc Cert.KernelIdeal.main_arg7))
          (m ((c.tc : Thread Cert.KernelIdeal.nD Cert.KernelIdeal.τ).loc Cert.KernelIdeal.main_arg8))
          (m ((c.tc : Thread Cert.KernelIdeal.nD Cert.KernelIdeal.τ).loc Cert.KernelIdeal.main_arg9))
          (m ((c.tc : Thread Cert.KernelIdeal.nD Cert.KernelIdeal.τ).loc Cert.KernelIdeal.main_arg10))
          (m ((c.tc : Thread Cert.KernelIdeal.nD Cert.KernelIdeal.τ).loc Cert.KernelIdeal.main_arg11)), ?_, ?_⟩
  · refine (θ_run Cert.KernelIdeal.defs _ _).mono (fun r h c => ?_) (Cert.KernelIdeal.Hand.run_main (F := Ideal) m ρ)
    exact ⟨(h c _ (mem_uc Cert.KernelIdeal.main_v200 (by decide))).trans (W8_v200 m ρ c),
      (h c _ (mem_uc Cert.KernelIdeal.main_arg0 (by decide))).trans (W8_main_arg0 m ρ c),
      (h c _ (mem_uc Cert.KernelIdeal.main_arg1 (by decide))).trans (W8_main_arg1 m ρ c),
      (h c _ (mem_uc Cert.KernelIdeal.main_arg2 (by decide))).trans (W8_main_arg2 m ρ c),
      (h c _ (mem_uc Cert.KernelIdeal.main_arg3 (by decide))).trans (W8_main_arg3 m ρ c),
      (h c _ (mem_uc Cert.KernelIdeal.main_arg4 (by decide))).trans (W8_main_arg4 m ρ c),
      (h c _ (mem_uc Cert.KernelIdeal.main_arg5 (by decide))).trans (W8_main_arg5 m ρ c),
      (h c _ (mem_uc Cert.KernelIdeal.main_arg6 (by decide))).trans (W8_main_arg6 m ρ c),
      (h c _ (mem_uc Cert.KernelIdeal.main_arg7 (by decide))).trans (W8_main_arg7 m ρ c),
      (h c _ (mem_uc Cert.KernelIdeal.main_arg8 (by decide))).trans (W8_main_arg8 m ρ c),
      (h c _ (mem_uc Cert.KernelIdeal.main_arg9 (by decide))).trans (W8_main_arg9 m ρ c),
      (h c _ (mem_uc Cert.KernelIdeal.main_arg10 (by decide))).trans (W8_main_arg10 m ρ c),
      (h c _ (mem_uc Cert.KernelIdeal.main_arg11 (by decide))).trans (W8_main_arg11 m ρ c)⟩
  · refine (θ_run Cert.ReferenceIdeal.defs _ _).mono (fun r h c => ⟨(h c).1.trans ?_, (h c).2⟩)
      (Cert.RefSide.run' (F := Ideal) m' ρ')
    obtain ⟨a0, a1, a2, a3, a4, a5, a6, a7, a8, a9, a10, a11⟩ := hagree c
    rw [Cert.RefSide.ref_is_net m' c, a0, a1, a2, a3, a4, a5, a6, a7, a8, a9, a10, a11]
    dsimp only
    rw [Cert.Proof.GraphEq.agg_eq, Cert.Proof.GraphEq.agg_eq, Cert.Proof.GraphEq.agg_eq,
      Cert.Proof.GraphEq.deg_eq, Cert.Proof.GraphEq.deg_eq, Cert.Proof.GraphEq.deg_eq]

theorem claim : Cert.Claim :=
  ⟨Cert.Kernel.Gen.facts, Cert.KernelIdeal.Gen.facts, Cert.ReferenceIdeal.Gen.facts, Cert.Pre_finite_inputs.Gen.facts,
    frame_k, frame_ki, Cert.Proof.RefFrame.frame_ri, preserves, algebraic⟩

end Cert.Proof

end
